-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x64x64 : Shape := ⟨5, ![2, 32, 64, 64, 64]⟩
abbrev S_ : Shape := ⟨0, ![]⟩

class Facts : Prop where
  bcast_S_S2x32x64x64x64 : S_.BroadcastsInDim S2x32x64x64x64 (![] : Fin 0 → Fin S2x32x64x64x64.rank)
  reducesTo_S2x32x64x64x64_S_d0_1_2_3_4 : S2x32x64x64x64.ReducesTo [0, 1, 2, 3, 4] S_
  h_S_ : 0 < S_.numel

variable [Facts]

def fn {F : FTy → Type} [FloatOps F] (main_arg0 : FVec F S2x32x64x64x64 .f32) : IVec S_ 1 :=
  let main_v0 : FVec F S2x32x64x64x64 .f32 := Host.absf main_arg0
  let main_cst : FVec F S_ .f32 := constant S_ .f32 0x7F800000#32
  let main_v1 : FVec F S2x32x64x64x64 .f32 := broadcastInDim S2x32x64x64x64 ![] bcast_S_S2x32x64x64x64 main_cst
  let main_v2 : IVec S2x32x64x64x64 1 := cmpf .olt main_v0 main_v1
  let main_c : IVec S_ 1 := constantI S_ 1 1#1
  let main_v3 : IVec S_ 1 := (fun x v => Host.reduce IntOp.andi x v reducesTo_S2x32x64x64x64_S_d0_1_2_3_4 h_S_) main_v2 main_c
  main_v3
-- ==== Kernel.lean ====
abbrev S2x32x64x64x64 : Shape := ⟨5, ![2, 32, 64, 64, 64]⟩
abbrev S2x256x32x32x32 : Shape := ⟨5, ![2, 256, 32, 32, 32]⟩
abbrev S3x2x64x64 : Shape := ⟨4, ![3, 2, 64, 64]⟩
abbrev S2x8x32x32 : Shape := ⟨4, ![2, 8, 32, 32]⟩
abbrev S_ : Shape := ⟨0, ![]⟩
abbrev S16 : Shape := ⟨1, ![16]⟩
abbrev S1x2x64x64 : Shape := ⟨4, ![1, 2, 64, 64]⟩
abbrev S2x64x64 : Shape := ⟨3, ![2, 64, 64]⟩
abbrev S1x1x2x64x64 : Shape := ⟨5, ![1, 1, 2, 64, 64]⟩
abbrev S1x8x32x32 : Shape := ⟨4, ![1, 8, 32, 32]⟩
abbrev S8x32x32 : Shape := ⟨3, ![8, 32, 32]⟩
abbrev S1x8x1x32x32 : Shape := ⟨5, ![1, 8, 1, 32, 32]⟩
abbrev S1x1x1x16 : Shape := ⟨4, ![1, 1, 1, 16]⟩

abbrev nBuf : Table → Nat
  | .hbm => 2
  | .local .scVector .vmem => 2
  | _ => 0

abbrev bufTy : (tb : Table) → Fin (nBuf tb) → BufTy
  | .hbm, ⟨0, _⟩ => ⟨S2x32x64x64x64, .f32⟩
  | .hbm, ⟨1, _⟩ => ⟨S2x256x32x32x32, .f32⟩
  | .local .scVector .vmem, ⟨0, _⟩ => ⟨S3x2x64x64, .f32⟩
  | .local .scVector .vmem, ⟨1, _⟩ => ⟨S2x8x32x32, .f32⟩
  | _, _ => ⟨S2x32x64x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32 : BitVec 32 := 1024#32
  let c0_i32_2 : BitVec 32 := 0#32
  let v11 : BitVec 1 := Scalar.cmpi .sgt c1024_i32 c0_i32_2
  let v12 : BitVec 32 := Scalar.extui v11
  let c0_i32_3 : BitVec 32 := 0#32
  let v13 : BitVec 1 := Scalar.cmpi .slt c1024_i32 c0_i32_3
  let v14 : BitVec 32 := Scalar.extui v13
  let v15 : BitVec 32 := Scalar.subi v12 v14
  let v16 : BitVec 1 := Scalar.cmpi .ne v10 v15
  let v17 : BitVec 32 := Scalar.remsi v4 c1024_i32
  let c0_i32_4 : BitVec 32 := 0#32
  let v18 : BitVec 1 := Scalar.cmpi .ne v17 c0_i32_4
  let v19 : BitVec 1 := Scalar.andi v16 v18
  let v5 : BitVec 32 := Scalar.divsi v4 c1024_i32
  let c1_i32 : BitVec 32 := 1#32
  let v20 : BitVec 32 := Scalar.subi v5 c1_i32
  let v21 : BitVec 32 := Scalar.select v19 v20 v5
  let c1024_i32_5 : BitVec 32 := 1024#32
  let c0_i32_6 : BitVec 32 := 0#32
  let v22 : BitVec 1 := Scalar.cmpi .eq c1024_i32_5 c0_i32_6
  let c1_i32_7 : BitVec 32 := 1#32
  let v23 : BitVec 32 := Scalar.select v22 c1_i32_7 c1024_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c32_i32 : BitVec 32 := 32#32
  let c0_i32_13 : BitVec 32 := 0#32
  let v38 : BitVec 1 := Scalar.cmpi .sgt c32_i32 c0_i32_13
  let v39 : BitVec 32 := Scalar.extui v38
  let c0_i32_14 : BitVec 32 := 0#32
  let v40 : BitVec 1 := Scalar.cmpi .slt c32_i32 c0_i32_14
  let v41 : BitVec 32 := Scalar.extui v40
  let v42 : BitVec 32 := Scalar.subi v39 v41
  let v43 : BitVec 1 := Scalar.cmpi .ne v37 v42
  let v44 : BitVec 32 := Scalar.remsi v31 c32_i32
  let c0_i32_15 : BitVec 32 := 0#32
  let v45 : BitVec 1 := Scalar.cmpi .ne v44 c0_i32_15
  let v46 : BitVec 1 := Scalar.andi v43 v45
  let v32 : BitVec 32 := Scalar.divsi v31 c32_i32
  let c1_i32_16 : BitVec 32 := 1#32
  let v47 : BitVec 32 := Scalar.subi v32 c1_i32_16
  let v48 : BitVec 32 := Scalar.select v46 v47 v32
  let c2_i32_23 : BitVec 32 := 2#32
  let c32_i32_17 : BitVec 32 := 32#32
  let c0_i32_18 : BitVec 32 := 0#32
  let v49 : BitVec 1 := Scalar.cmpi .eq c32_i32_17 c0_i32_18
  let c1_i32_19 : BitVec 32 := 1#32
  let v50 : BitVec 32 := Scalar.select v49 c1_i32_19 c32_i32_17
  let v51 : BitVec 32 := Scalar.remsi v31 v50
  let c0_i32_21 : BitVec 32 := 0#32
  let v53 : BitVec 1 := Scalar.cmpi .slt v51 c0_i32_21
  let c0_i32_22 : BitVec 32 := 0#32
  let v54 : BitVec 1 := Scalar.cmpi .slt v50 c0_i32_22
  let v55 : BitVec 1 := Scalar.xori v53 v54
  let c0_i32_20 : BitVec 32 := 0#32
  let v52 : BitVec 1 := Scalar.cmpi .ne v51 c0_i32_20
  let v56 : BitVec 1 := Scalar.andi v55 v52
  let v57 : BitVec 32 := Scalar.addi v51 v50
  let v58 : BitVec 32 := Scalar.select v56 v57 v51
  let v59 : BitVec 32 := Scalar.muli c2_i32_23 v58
  let c0_i32_28 : BitVec 32 := 0#32
  let c0_i32_29 : BitVec 32 := 0#32
  ![v21.toNat, v48.toNat, v59.toNat, 0, 0]
def k0_off1_at (r : Fin 4) : BitVec 32 :=
  if r.val < 2 then
    if r.val < 1 then
      0#32
    else
      1#32
  else
    if r.val < 3 then
      2#32
    else
      63#32
@[reducible] def k0_t1_loop : Scf.Loop 32 :=
  let c0_i32_114 : BitVec 32 := 0#32
  let c10_i32 : BitVec 32 := 10#32
  let v196 : BitVec 32 := Scalar.addi c0_i32_114 c10_i32
  let c1_i32_115 : BitVec 32 := 1#32
  ⟨c0_i32_114, v196, c1_i32_115⟩
@[reducible] def k0_t2_loop : Scf.Loop 32 :=
  let c0_i32_501 : BitVec 32 := 0#32
  let c64_i32_502 : BitVec 32 := 64#32
  let v614 : BitVec 32 := Scalar.addi c0_i32_501 c64_i32_502
  let c1_i32_503 : BitVec 32 := 1#32
  ⟨c0_i32_501, v614, c1_i32_503⟩

def k0_chk1 (v1095 : IVec S16 32) (v1098 : IVec S16 32) (v1100 : IVec S16 32) : Prop :=
  (∀ a x, ((![v1095, v1098, v1100] : Fin 3 → IVec S16 32) a x).toNat < S2x64x64.size a)
instance k0_chk1.dec : ∀ (v1095 : IVec S16 32) (v1098 : IVec S16 32) (v1100 : IVec S16 32), Decidable (k0_chk1 v1095 v1098 v1100) := fun v1095 v1098 v1100 => decidable_of_iff' _ (Iff.of_eq (k0_chk1.eq_1 v1095 v1098 v1100))
theorem k0_idx1_inb : ∀ (v1095 : IVec S16 32) (v1098 : IVec S16 32) (v1100 : IVec S16 32) (k0_hw1 : k0_chk1 v1095 v1098 v1100), ∀ a x, ((![v1095, v1098, v1100] : Fin 3 → IVec S16 32) a x).toNat < S2x64x64.size a := fun v1095 v1098 v1100 k0_hw1 => k0_hw1
def k0_off2 (k0_t2 : Fin k0_t2_loop.trips) : Fin 4 → Nat :=
  let c0_i32_878 : BitVec 32 := 0#32
  let v1104 : Index := Scalar.indexCast c0_i32_878
  let c0_i32_879 : BitVec 32 := 0#32
  let v1105 : Index := Scalar.indexCast c0_i32_879
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![0, 0, v1106.toNat, v1107.toNat]

def k0_chk2 (v1109 : IVec S16 32) (v1112 : IVec S16 32) (v1114 : IVec S16 32) : Prop :=
  (∀ a x, ((![v1109, v1112, v1114] : Fin 3 → IVec S16 32) a x).toNat < S2x64x64.size a)
instance k0_chk2.dec : ∀ (v1109 : IVec S16 32) (v1112 : IVec S16 32) (v1114 : IVec S16 32), Decidable (k0_chk2 v1109 v1112 v1114) := fun v1109 v1112 v1114 => decidable_of_iff' _ (Iff.of_eq (k0_chk2.eq_1 v1109 v1112 v1114))
theorem k0_idx2_inb : ∀ (v1109 : IVec S16 32) (v1112 : IVec S16 32) (v1114 : IVec S16 32) (k0_hw2 : k0_chk2 v1109 v1112 v1114), ∀ a x, ((![v1109, v1112, v1114] : Fin 3 → IVec S16 32) a x).toNat < S2x64x64.size a := fun v1109 v1112 v1114 k0_hw2 => k0_hw2
def k0_off3 (k0_t2 : Fin k0_t2_loop.trips) : Fin 4 → Nat :=
  let c0_i32_887 : BitVec 32 := 0#32
  let v1118 : Index := Scalar.indexCast c0_i32_887
  let c1_i32_888 : BitVec 32 := 1#32
  let v1119 : Index := Scalar.indexCast c1_i32_888
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![0, 1, v1120.toNat, v1121.toNat]

def k0_chk3 (v1123 : IVec S16 32) (v1126 : IVec S16 32) (v1128 : IVec S16 32) : Prop :=
  (∀ a x, ((![v1123, v1126, v1128] : Fin 3 → IVec S16 32) a x).toNat < S2x64x64.size a)
instance k0_chk3.dec : ∀ (v1123 : IVec S16 32) (v1126 : IVec S16 32) (v1128 : IVec S16 32), Decidable (k0_chk3 v1123 v1126 v1128) := fun v1123 v1126 v1128 => decidable_of_iff' _ (Iff.of_eq (k0_chk3.eq_1 v1123 v1126 v1128))
theorem k0_idx3_inb : ∀ (v1123 : IVec S16 32) (v1126 : IVec S16 32) (v1128 : IVec S16 32) (k0_hw3 : k0_chk3 v1123 v1126 v1128), ∀ a x, ((![v1123, v1126, v1128] : Fin 3 → IVec S16 32) a x).toNat < S2x64x64.size a := fun v1123 v1126 v1128 k0_hw3 => k0_hw3
def k0_off4 (k0_t2 : Fin k0_t2_loop.trips) : Fin 4 → Nat :=
  let c0_i32_896 : BitVec 32 := 0#32
  let v1132 : Index := Scalar.indexCast c0_i32_896
  let c2_i32_897 : BitVec 32 := 2#32
  let v1133 : Index := Scalar.indexCast c2_i32_897
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![0, 2, v1134.toNat, v1135.toNat]

def k0_chk4 (v1137 : IVec S16 32) (v1140 : IVec S16 32) (v1142 : IVec S16 32) : Prop :=
  (∀ a x, ((![v1137, v1140, v1142] : Fin 3 → IVec S16 32) a x).toNat < S2x64x64.size a)
instance k0_chk4.dec : ∀ (v1137 : IVec S16 32) (v1140 : IVec S16 32) (v1142 : IVec S16 32), Decidable (k0_chk4 v1137 v1140 v1142) := fun v1137 v1140 v1142 => decidable_of_iff' _ (Iff.of_eq (k0_chk4.eq_1 v1137 v1140 v1142))
theorem k0_idx4_inb : ∀ (v1137 : IVec S16 32) (v1140 : IVec S16 32) (v1142 : IVec S16 32) (k0_hw4 : k0_chk4 v1137 v1140 v1142), ∀ a x, ((![v1137, v1140, v1142] : Fin 3 → IVec S16 32) a x).toNat < S2x64x64.size a := fun v1137 v1140 v1142 k0_hw4 => k0_hw4
def k0_off5 (k0_t2 : Fin k0_t2_loop.trips) : Fin 4 → Nat :=
  let c0_i32_905 : BitVec 32 := 0#32
  let v1146 : Index := Scalar.indexCast c0_i32_905
  let c3_i32_906 : BitVec 32 := 3#32
  let v1147 : Index := Scalar.indexCast c3_i32_906
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![0, 3, v1148.toNat, v1149.toNat]

def k0_chk5 (v1151 : IVec S16 32) (v1154 : IVec S16 32) (v1156 : IVec S16 32) : Prop :=
  (∀ a x, ((![v1151, v1154, v1156] : Fin 3 → IVec S16 32) a x).toNat < S2x64x64.size a)
instance k0_chk5.dec : ∀ (v1151 : IVec S16 32) (v1154 : IVec S16 32) (v1156 : IVec S16 32), Decidable (k0_chk5 v1151 v1154 v1156) := fun v1151 v1154 v1156 => decidable_of_iff' _ (Iff.of_eq (k0_chk5.eq_1 v1151 v1154 v1156))
theorem k0_idx5_inb : ∀ (v1151 : IVec S16 32) (v1154 : IVec S16 32) (v1156 : IVec S16 32) (k0_hw5 : k0_chk5 v1151 v1154 v1156), ∀ a x, ((![v1151, v1154, v1156] : Fin 3 → IVec S16 32) a x).toNat < S2x64x64.size a := fun v1151 v1154 v1156 k0_hw5 => k0_hw5
def k0_off6 (k0_t2 : Fin k0_t2_loop.trips) : Fin 4 → Nat :=
  let c0_i32_914 : BitVec 32 := 0#32
  let v1160 : Index := Scalar.indexCast c0_i32_914
  let c4_i32_915 : BitVec 32 := 4#32
  let v1161 : Index := Scalar.indexCast c4_i32_915
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![0, 4, v1162.toNat, v1163.toNat]

def k0_chk6 (v1165 : IVec S16 32) (v1168 : IVec S16 32) (v1170 : IVec S16 32) : Prop :=
  (∀ a x, ((![v1165, v1168, v1170] : Fin 3 → IVec S16 32) a x).toNat < S2x64x64.size a)
instance k0_chk6.dec : ∀ (v1165 : IVec S16 32) (v1168 : IVec S16 32) (v1170 : IVec S16 32), Decidable (k0_chk6 v1165 v1168 v1170) := fun v1165 v1168 v1170 => decidable_of_iff' _ (Iff.of_eq (k0_chk6.eq_1 v1165 v1168 v1170))
theorem k0_idx6_inb : ∀ (v1165 : IVec S16 32) (v1168 : IVec S16 32) (v1170 : IVec S16 32) (k0_hw6 : k0_chk6 v1165 v1168 v1170), ∀ a x, ((![v1165, v1168, v1170] : Fin 3 → IVec S16 32) a x).toNat < S2x64x64.size a := fun v1165 v1168 v1170 k0_hw6 => k0_hw6
def k0_off7 (k0_t2 : Fin k0_t2_loop.trips) : Fin 4 → Nat :=
  let c0_i32_923 : BitVec 32 := 0#32
  let v1174 : Index := Scalar.indexCast c0_i32_923
  let c5_i32_924 : BitVec 32 := 5#32
  let v1175 : Index := Scalar.indexCast c5_i32_924
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![0, 5, v1176.toNat, v1177.toNat]

def k0_chk7 (v1179 : IVec S16 32) (v1182 : IVec S16 32) (v1184 : IVec S16 32) : Prop :=
  (∀ a x, ((![v1179, v1182, v1184] : Fin 3 → IVec S16 32) a x).toNat < S2x64x64.size a)
instance k0_chk7.dec : ∀ (v1179 : IVec S16 32) (v1182 : IVec S16 32) (v1184 : IVec S16 32), Decidable (k0_chk7 v1179 v1182 v1184) := fun v1179 v1182 v1184 => decidable_of_iff' _ (Iff.of_eq (k0_chk7.eq_1 v1179 v1182 v1184))
theorem k0_idx7_inb : ∀ (v1179 : IVec S16 32) (v1182 : IVec S16 32) (v1184 : IVec S16 32) (k0_hw7 : k0_chk7 v1179 v1182 v1184), ∀ a x, ((![v1179, v1182, v1184] : Fin 3 → IVec S16 32) a x).toNat < S2x64x64.size a := fun v1179 v1182 v1184 k0_hw7 => k0_hw7
def k0_off8 (k0_t2 : Fin k0_t2_loop.trips) : Fin 4 → Nat :=
  let c0_i32_932 : BitVec 32 := 0#32
  let v1188 : Index := Scalar.indexCast c0_i32_932
  let c6_i32_933 : BitVec 32 := 6#32
  let v1189 : Index := Scalar.indexCast c6_i32_933
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![0, 6, v1190.toNat, v1191.toNat]

def k0_chk8 (v1193 : IVec S16 32) (v1196 : IVec S16 32) (v1198 : IVec S16 32) : Prop :=
  (∀ a x, ((![v1193, v1196, v1198] : Fin 3 → IVec S16 32) a x).toNat < S2x64x64.size a)
instance k0_chk8.dec : ∀ (v1193 : IVec S16 32) (v1196 : IVec S16 32) (v1198 : IVec S16 32), Decidable (k0_chk8 v1193 v1196 v1198) := fun v1193 v1196 v1198 => decidable_of_iff' _ (Iff.of_eq (k0_chk8.eq_1 v1193 v1196 v1198))
theorem k0_idx8_inb : ∀ (v1193 : IVec S16 32) (v1196 : IVec S16 32) (v1198 : IVec S16 32) (k0_hw8 : k0_chk8 v1193 v1196 v1198), ∀ a x, ((![v1193, v1196, v1198] : Fin 3 → IVec S16 32) a x).toNat < S2x64x64.size a := fun v1193 v1196 v1198 k0_hw8 => k0_hw8
def k0_off9 (k0_t2 : Fin k0_t2_loop.trips) : Fin 4 → Nat :=
  let c0_i32_941 : BitVec 32 := 0#32
  let v1202 : Index := Scalar.indexCast c0_i32_941
  let c7_i32 : BitVec 32 := 7#32
  let v1203 : Index := Scalar.indexCast c7_i32
  let c0_i32_501 : BitVec 32 := 0#32
  let c1_i32_503 : BitVec 32 := 1#32
  let arg12 : BitVec 32 := Scf.iv c0_i32_501 c1_i32_503 k0_t2
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![0, 7, v1204.toNat, v1205.toNat]
def k0_off10 (i : grid0.Coords) (k0_t1 : Fin k0_t1_loop.trips) (c0_i32_481 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32 : BitVec 32 := 6#32
  let c0_i32_114 : BitVec 32 := 0#32
  let c1_i32_115 : BitVec 32 := 1#32
  let arg11 : BitVec 32 := Scf.iv c0_i32_114 c1_i32_115 k0_t1
  let v601 : BitVec 32 := Scalar.muli c6_i32 arg11
  let v602 : BitVec 32 := Scalar.addi v601 c0_i32_481
  let v615 : BitVec 32 := Scalar.addi v3 v602
  let c0_i32_506 : BitVec 32 := 0#32
  let v617 : BitVec 1 := Scalar.cmpi .sgt v615 c0_i32_506
  let v618 : BitVec 32 := Scalar.extui v617
  let c0_i32_507 : BitVec 32 := 0#32
  let v619 : BitVec 1 := Scalar.cmpi .slt v615 c0_i32_507
  let v620 : BitVec 32 := Scalar.extui v619
  let v621 : BitVec 32 := Scalar.subi v618 v620
  let c1024_i32_505 : BitVec 32 := 1024#32
  let c0_i32_508 : BitVec 32 := 0#32
  let v622 : BitVec 1 := Scalar.cmpi .sgt c1024_i32_505 c0_i32_508
  let v623 : BitVec 32 := Scalar.extui v622
  let c0_i32_509 : BitVec 32 := 0#32
  let v624 : BitVec 1 := Scalar.cmpi .slt c1024_i32_505 c0_i32_509
  let v625 : BitVec 32 := Scalar.extui v624
  let v626 : BitVec 32 := Scalar.subi v623 v625
  let v627 : BitVec 1 := Scalar.cmpi .ne v621 v626
  let v628 : BitVec 32 := Scalar.remsi v615 c1024_i32_505
  let c0_i32_510 : BitVec 32 := 0#32
  let v629 : BitVec 1 := Scalar.cmpi .ne v628 c0_i32_510
  let v630 : BitVec 1 := Scalar.andi v627 v629
  let v616 : BitVec 32 := Scalar.divsi v615 c1024_i32_505
  let c1_i32_511 : BitVec 32 := 1#32
  let v631 : BitVec 32 := Scalar.subi v616 c1_i32_511
  let v632 : BitVec 32 := Scalar.select v630 v631 v616
  let c1024_i32_512 : BitVec 32 := 1024#32
  let c0_i32_513 : BitVec 32 := 0#32
  let v633 : BitVec 1 := Scalar.cmpi .eq c1024_i32_512 c0_i32_513
  let c1_i32_514 : BitVec 32 := 1#32
  let v634 : BitVec 32 := Scalar.select v633 c1_i32_514 c1024_i32_512
  let v635 : BitVec 32 := Scalar.remsi v615 v634
  let c0_i32_516 : BitVec 32 := 0#32
  let v637 : BitVec 1 := Scalar.cmpi .slt v635 c0_i32_516
  let c0_i32_517 : BitVec 32 := 0#32
  let v638 : BitVec 1 := Scalar.cmpi .slt v634 c0_i32_517
  let v639 : BitVec 1 := Scalar.xori v637 v638
  let c0_i32_515 : BitVec 32 := 0#32
  let v636 : BitVec 1 := Scalar.cmpi .ne v635 c0_i32_515
  let v640 : BitVec 1 := Scalar.andi v639 v636
  let v641 : BitVec 32 := Scalar.addi v635 v634
  let v642 : BitVec 32 := Scalar.select v640 v641 v635
  let c0_i32_519 : BitVec 32 := 0#32
  let v644 : BitVec 1 := Scalar.cmpi .sgt v642 c0_i32_519
  let v645 : BitVec 32 := Scalar.extui v644
  let c0_i32_520 : BitVec 32 := 0#32
  let v646 : BitVec 1 := Scalar.cmpi .slt v642 c0_i32_520
  let v647 : BitVec 32 := Scalar.extui v646
  let v648 : BitVec 32 := Scalar.subi v645 v647
  let c32_i32_518 : BitVec 32 := 32#32
  let c0_i32_521 : BitVec 32 := 0#32
  let v649 : BitVec 1 := Scalar.cmpi .sgt c32_i32_518 c0_i32_521
  let v650 : BitVec 32 := Scalar.extui v649
  let c0_i32_522 : BitVec 32 := 0#32
  let v651 : BitVec 1 := Scalar.cmpi .slt c32_i32_518 c0_i32_522
  let v652 : BitVec 32 := Scalar.extui v651
  let v653 : BitVec 32 := Scalar.subi v650 v652
  let v654 : BitVec 1 := Scalar.cmpi .ne v648 v653
  let v655 : BitVec 32 := Scalar.remsi v642 c32_i32_518
  let c0_i32_523 : BitVec 32 := 0#32
  let v656 : BitVec 1 := Scalar.cmpi .ne v655 c0_i32_523
  let v657 : BitVec 1 := Scalar.andi v654 v656
  let v643 : BitVec 32 := Scalar.divsi v642 c32_i32_518
  let c1_i32_524 : BitVec 32 := 1#32
  let v658 : BitVec 32 := Scalar.subi v643 c1_i32_524
  let v659 : BitVec 32 := Scalar.select v657 v658 v643
  let c8_i32_531 : BitVec 32 := 8#32
  let v670 : BitVec 32 := Scalar.muli v659 c8_i32_531
  let c32_i32_525 : BitVec 32 := 32#32
  let c0_i32_526 : BitVec 32 := 0#32
  let v660 : BitVec 1 := Scalar.cmpi .eq c32_i32_525 c0_i32_526
  let c1_i32_527 : BitVec 32 := 1#32
  let v661 : BitVec 32 := Scalar.select v660 c1_i32_527 c32_i32_525
  let v662 : BitVec 32 := Scalar.remsi v642 v661
  let c0_i32_529 : BitVec 32 := 0#32
  let v664 : BitVec 1 := Scalar.cmpi .slt v662 c0_i32_529
  let c0_i32_530 : BitVec 32 := 0#32
  let v665 : BitVec 1 := Scalar.cmpi .slt v661 c0_i32_530
  let v666 : BitVec 1 := Scalar.xori v664 v665
  let c0_i32_528 : BitVec 32 := 0#32
  let v663 : BitVec 1 := Scalar.cmpi .ne v662 c0_i32_528
  let v667 : BitVec 1 := Scalar.andi v666 v663
  let v668 : BitVec 32 := Scalar.addi v662 v661
  let v669 : BitVec 32 := Scalar.select v667 v668 v662
  let c0_i32_536 : BitVec 32 := 0#32
  let c0_i32_537 : BitVec 32 := 0#32
  ![v632.toNat, v670.toNat, v669.toNat, 0, 0]
def k0_cond2 (k0_t1 : Fin k0_t1_loop.trips) : BitVec 1 :=
  let c6_i32 : BitVec 32 := 6#32
  let c0_i32_114 : BitVec 32 := 0#32
  let c1_i32_115 : BitVec 32 := 1#32
  let arg11 : BitVec 32 := Scf.iv c0_i32_114 c1_i32_115 k0_t1
  let v601 : BitVec 32 := Scalar.muli c6_i32 arg11
  let c0_i32_481 : BitVec 32 := 0#32
  let v602 : BitVec 32 := Scalar.addi v601 c0_i32_481
  let c61_i32_543 : BitVec 32 := 61#32
  let v679 : BitVec 1 := Scalar.cmpi .slt v602 c61_i32_543
  let v680 : BitVec 32 := Scalar.extui v679
  let c0_i32_544 : BitVec 32 := 0#32
  let v681 : BitVec 1 := Scalar.cmpi .ne v680 c0_i32_544
  v681

def k0_off11 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32 : BitVec 32 := 6#32
  let c0_i32_114 : BitVec 32 := 0#32
  let c1_i32_115 : BitVec 32 := 1#32
  let arg11 : BitVec 32 := Scf.iv c0_i32_114 c1_i32_115 k0_t1
  let v601 : BitVec 32 := Scalar.muli c6_i32 arg11
  let c0_i32_481 : BitVec 32 := 0#32
  let v602 : BitVec 32 := Scalar.addi v601 c0_i32_481
  let c3_i32_867 : BitVec 32 := 3#32
  let v1087 : BitVec 32 := Scalar.addi v602 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t3_loop : Scf.Loop 32 :=
  let c0_i32_566 : BitVec 32 := 0#32
  let c64_i32_567 : BitVec 32 := 64#32
  let v695 : BitVec 32 := Scalar.addi c0_i32_566 c64_i32_567
  let c1_i32_568 : BitVec 32 := 1#32
  ⟨c0_i32_566, v695, c1_i32_568⟩

def k0_chk9 (v1095 : IVec S16 32) (v1098 : IVec S16 32) (v1100 : IVec S16 32) : Prop :=
  (∀ a x, ((![v1095, v1098, v1100] : Fin 3 → IVec S16 32) a x).toNat < S2x64x64.size a)
instance k0_chk9.dec : ∀ (v1095 : IVec S16 32) (v1098 : IVec S16 32) (v1100 : IVec S16 32), Decidable (k0_chk9 v1095 v1098 v1100) := fun v1095 v1098 v1100 => decidable_of_iff' _ (Iff.of_eq (k0_chk9.eq_1 v1095 v1098 v1100))
theorem k0_idx9_inb : ∀ (v1095 : IVec S16 32) (v1098 : IVec S16 32) (v1100 : IVec S16 32) (k0_hw9 : k0_chk9 v1095 v1098 v1100), ∀ a x, ((![v1095, v1098, v1100] : Fin 3 → IVec S16 32) a x).toNat < S2x64x64.size a := fun v1095 v1098 v1100 k0_hw9 => k0_hw9
def k0_off12 (k0_t3 : Fin k0_t3_loop.trips) : Fin 4 → Nat :=
  let c1_i32_878 : BitVec 32 := 1#32
  let v1104 : Index := Scalar.indexCast c1_i32_878
  let c0_i32_879 : BitVec 32 := 0#32
  let v1105 : Index := Scalar.indexCast c0_i32_879
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![1, 0, v1106.toNat, v1107.toNat]

def k0_chk10 (v1109 : IVec S16 32) (v1112 : IVec S16 32) (v1114 : IVec S16 32) : Prop :=
  (∀ a x, ((![v1109, v1112, v1114] : Fin 3 → IVec S16 32) a x).toNat < S2x64x64.size a)
instance k0_chk10.dec : ∀ (v1109 : IVec S16 32) (v1112 : IVec S16 32) (v1114 : IVec S16 32), Decidable (k0_chk10 v1109 v1112 v1114) := fun v1109 v1112 v1114 => decidable_of_iff' _ (Iff.of_eq (k0_chk10.eq_1 v1109 v1112 v1114))
theorem k0_idx10_inb : ∀ (v1109 : IVec S16 32) (v1112 : IVec S16 32) (v1114 : IVec S16 32) (k0_hw10 : k0_chk10 v1109 v1112 v1114), ∀ a x, ((![v1109, v1112, v1114] : Fin 3 → IVec S16 32) a x).toNat < S2x64x64.size a := fun v1109 v1112 v1114 k0_hw10 => k0_hw10
def k0_off13 (k0_t3 : Fin k0_t3_loop.trips) : Fin 4 → Nat :=
  let c1_i32_887 : BitVec 32 := 1#32
  let v1118 : Index := Scalar.indexCast c1_i32_887
  let c1_i32_888 : BitVec 32 := 1#32
  let v1119 : Index := Scalar.indexCast c1_i32_888
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![1, 1, v1120.toNat, v1121.toNat]

def k0_chk11 (v1123 : IVec S16 32) (v1126 : IVec S16 32) (v1128 : IVec S16 32) : Prop :=
  (∀ a x, ((![v1123, v1126, v1128] : Fin 3 → IVec S16 32) a x).toNat < S2x64x64.size a)
instance k0_chk11.dec : ∀ (v1123 : IVec S16 32) (v1126 : IVec S16 32) (v1128 : IVec S16 32), Decidable (k0_chk11 v1123 v1126 v1128) := fun v1123 v1126 v1128 => decidable_of_iff' _ (Iff.of_eq (k0_chk11.eq_1 v1123 v1126 v1128))
theorem k0_idx11_inb : ∀ (v1123 : IVec S16 32) (v1126 : IVec S16 32) (v1128 : IVec S16 32) (k0_hw11 : k0_chk11 v1123 v1126 v1128), ∀ a x, ((![v1123, v1126, v1128] : Fin 3 → IVec S16 32) a x).toNat < S2x64x64.size a := fun v1123 v1126 v1128 k0_hw11 => k0_hw11
def k0_off14 (k0_t3 : Fin k0_t3_loop.trips) : Fin 4 → Nat :=
  let c1_i32_896 : BitVec 32 := 1#32
  let v1132 : Index := Scalar.indexCast c1_i32_896
  let c2_i32_897 : BitVec 32 := 2#32
  let v1133 : Index := Scalar.indexCast c2_i32_897
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![1, 2, v1134.toNat, v1135.toNat]

def k0_chk12 (v1137 : IVec S16 32) (v1140 : IVec S16 32) (v1142 : IVec S16 32) : Prop :=
  (∀ a x, ((![v1137, v1140, v1142] : Fin 3 → IVec S16 32) a x).toNat < S2x64x64.size a)
instance k0_chk12.dec : ∀ (v1137 : IVec S16 32) (v1140 : IVec S16 32) (v1142 : IVec S16 32), Decidable (k0_chk12 v1137 v1140 v1142) := fun v1137 v1140 v1142 => decidable_of_iff' _ (Iff.of_eq (k0_chk12.eq_1 v1137 v1140 v1142))
theorem k0_idx12_inb : ∀ (v1137 : IVec S16 32) (v1140 : IVec S16 32) (v1142 : IVec S16 32) (k0_hw12 : k0_chk12 v1137 v1140 v1142), ∀ a x, ((![v1137, v1140, v1142] : Fin 3 → IVec S16 32) a x).toNat < S2x64x64.size a := fun v1137 v1140 v1142 k0_hw12 => k0_hw12
def k0_off15 (k0_t3 : Fin k0_t3_loop.trips) : Fin 4 → Nat :=
  let c1_i32_905 : BitVec 32 := 1#32
  let v1146 : Index := Scalar.indexCast c1_i32_905
  let c3_i32_906 : BitVec 32 := 3#32
  let v1147 : Index := Scalar.indexCast c3_i32_906
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![1, 3, v1148.toNat, v1149.toNat]

def k0_chk13 (v1151 : IVec S16 32) (v1154 : IVec S16 32) (v1156 : IVec S16 32) : Prop :=
  (∀ a x, ((![v1151, v1154, v1156] : Fin 3 → IVec S16 32) a x).toNat < S2x64x64.size a)
instance k0_chk13.dec : ∀ (v1151 : IVec S16 32) (v1154 : IVec S16 32) (v1156 : IVec S16 32), Decidable (k0_chk13 v1151 v1154 v1156) := fun v1151 v1154 v1156 => decidable_of_iff' _ (Iff.of_eq (k0_chk13.eq_1 v1151 v1154 v1156))
theorem k0_idx13_inb : ∀ (v1151 : IVec S16 32) (v1154 : IVec S16 32) (v1156 : IVec S16 32) (k0_hw13 : k0_chk13 v1151 v1154 v1156), ∀ a x, ((![v1151, v1154, v1156] : Fin 3 → IVec S16 32) a x).toNat < S2x64x64.size a := fun v1151 v1154 v1156 k0_hw13 => k0_hw13
def k0_off16 (k0_t3 : Fin k0_t3_loop.trips) : Fin 4 → Nat :=
  let c1_i32_914 : BitVec 32 := 1#32
  let v1160 : Index := Scalar.indexCast c1_i32_914
  let c4_i32_915 : BitVec 32 := 4#32
  let v1161 : Index := Scalar.indexCast c4_i32_915
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![1, 4, v1162.toNat, v1163.toNat]

def k0_chk14 (v1165 : IVec S16 32) (v1168 : IVec S16 32) (v1170 : IVec S16 32) : Prop :=
  (∀ a x, ((![v1165, v1168, v1170] : Fin 3 → IVec S16 32) a x).toNat < S2x64x64.size a)
instance k0_chk14.dec : ∀ (v1165 : IVec S16 32) (v1168 : IVec S16 32) (v1170 : IVec S16 32), Decidable (k0_chk14 v1165 v1168 v1170) := fun v1165 v1168 v1170 => decidable_of_iff' _ (Iff.of_eq (k0_chk14.eq_1 v1165 v1168 v1170))
theorem k0_idx14_inb : ∀ (v1165 : IVec S16 32) (v1168 : IVec S16 32) (v1170 : IVec S16 32) (k0_hw14 : k0_chk14 v1165 v1168 v1170), ∀ a x, ((![v1165, v1168, v1170] : Fin 3 → IVec S16 32) a x).toNat < S2x64x64.size a := fun v1165 v1168 v1170 k0_hw14 => k0_hw14
def k0_off17 (k0_t3 : Fin k0_t3_loop.trips) : Fin 4 → Nat :=
  let c1_i32_923 : BitVec 32 := 1#32
  let v1174 : Index := Scalar.indexCast c1_i32_923
  let c5_i32_924 : BitVec 32 := 5#32
  let v1175 : Index := Scalar.indexCast c5_i32_924
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![1, 5, v1176.toNat, v1177.toNat]

def k0_chk15 (v1179 : IVec S16 32) (v1182 : IVec S16 32) (v1184 : IVec S16 32) : Prop :=
  (∀ a x, ((![v1179, v1182, v1184] : Fin 3 → IVec S16 32) a x).toNat < S2x64x64.size a)
instance k0_chk15.dec : ∀ (v1179 : IVec S16 32) (v1182 : IVec S16 32) (v1184 : IVec S16 32), Decidable (k0_chk15 v1179 v1182 v1184) := fun v1179 v1182 v1184 => decidable_of_iff' _ (Iff.of_eq (k0_chk15.eq_1 v1179 v1182 v1184))
theorem k0_idx15_inb : ∀ (v1179 : IVec S16 32) (v1182 : IVec S16 32) (v1184 : IVec S16 32) (k0_hw15 : k0_chk15 v1179 v1182 v1184), ∀ a x, ((![v1179, v1182, v1184] : Fin 3 → IVec S16 32) a x).toNat < S2x64x64.size a := fun v1179 v1182 v1184 k0_hw15 => k0_hw15
def k0_off18 (k0_t3 : Fin k0_t3_loop.trips) : Fin 4 → Nat :=
  let c1_i32_932 : BitVec 32 := 1#32
  let v1188 : Index := Scalar.indexCast c1_i32_932
  let c6_i32_933 : BitVec 32 := 6#32
  let v1189 : Index := Scalar.indexCast c6_i32_933
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![1, 6, v1190.toNat, v1191.toNat]

def k0_chk16 (v1193 : IVec S16 32) (v1196 : IVec S16 32) (v1198 : IVec S16 32) : Prop :=
  (∀ a x, ((![v1193, v1196, v1198] : Fin 3 → IVec S16 32) a x).toNat < S2x64x64.size a)
instance k0_chk16.dec : ∀ (v1193 : IVec S16 32) (v1196 : IVec S16 32) (v1198 : IVec S16 32), Decidable (k0_chk16 v1193 v1196 v1198) := fun v1193 v1196 v1198 => decidable_of_iff' _ (Iff.of_eq (k0_chk16.eq_1 v1193 v1196 v1198))
theorem k0_idx16_inb : ∀ (v1193 : IVec S16 32) (v1196 : IVec S16 32) (v1198 : IVec S16 32) (k0_hw16 : k0_chk16 v1193 v1196 v1198), ∀ a x, ((![v1193, v1196, v1198] : Fin 3 → IVec S16 32) a x).toNat < S2x64x64.size a := fun v1193 v1196 v1198 k0_hw16 => k0_hw16
def k0_off19 (k0_t3 : Fin k0_t3_loop.trips) : Fin 4 → Nat :=
  let c1_i32_941 : BitVec 32 := 1#32
  let v1202 : Index := Scalar.indexCast c1_i32_941
  let c7_i32 : BitVec 32 := 7#32
  let v1203 : Index := Scalar.indexCast c7_i32
  let c0_i32_566 : BitVec 32 := 0#32
  let c1_i32_568 : BitVec 32 := 1#32
  let arg12 : BitVec 32 := Scf.iv c0_i32_566 c1_i32_568 k0_t3
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![1, 7, v1204.toNat, v1205.toNat]
def k0_cond4 (k0_t1 : Fin k0_t1_loop.trips) : BitVec 1 :=
  let c6_i32_545 : BitVec 32 := 6#32
  let c0_i32_114 : BitVec 32 := 0#32
  let c1_i32_115 : BitVec 32 := 1#32
  let arg11 : BitVec 32 := Scf.iv c0_i32_114 c1_i32_115 k0_t1
  let v682 : BitVec 32 := Scalar.muli c6_i32_545 arg11
  let c1_i32_546 : BitVec 32 := 1#32
  let v683 : BitVec 32 := Scalar.addi v682 c1_i32_546
  let c61_i32_608 : BitVec 32 := 61#32
  let v760 : BitVec 1 := Scalar.cmpi .slt v683 c61_i32_608
  let v761 : BitVec 32 := Scalar.extui v760
  let c0_i32_609 : BitVec 32 := 0#32
  let v762 : BitVec 1 := Scalar.cmpi .ne v761 c0_i32_609
  v762

def k0_off20 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32_545 : BitVec 32 := 6#32
  let c0_i32_114 : BitVec 32 := 0#32
  let c1_i32_115 : BitVec 32 := 1#32
  let arg11 : BitVec 32 := Scf.iv c0_i32_114 c1_i32_115 k0_t1
  let v682 : BitVec 32 := Scalar.muli c6_i32_545 arg11
  let c1_i32_546 : BitVec 32 := 1#32
  let v683 : BitVec 32 := Scalar.addi v682 c1_i32_546
  let c3_i32_867 : BitVec 32 := 3#32
  let v1087 : BitVec 32 := Scalar.addi v683 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t4_loop : Scf.Loop 32 :=
  let c0_i32_631 : BitVec 32 := 0#32
  let c64_i32_632 : BitVec 32 := 64#32
  let v776 : BitVec 32 := Scalar.addi c0_i32_631 c64_i32_632
  let c1_i32_633 : BitVec 32 := 1#32
  ⟨c0_i32_631, v776, c1_i32_633⟩

def k0_chk17 (v1095 : IVec S16 32) (v1098 : IVec S16 32) (v1100 : IVec S16 32) : Prop :=
  (∀ a x, ((![v1095, v1098, v1100] : Fin 3 → IVec S16 32) a x).toNat < S2x64x64.size a)
instance k0_chk17.dec : ∀ (v1095 : IVec S16 32) (v1098 : IVec S16 32) (v1100 : IVec S16 32), Decidable (k0_chk17 v1095 v1098 v1100) := fun v1095 v1098 v1100 => decidable_of_iff' _ (Iff.of_eq (k0_chk17.eq_1 v1095 v1098 v1100))
theorem k0_idx17_inb : ∀ (v1095 : IVec S16 32) (v1098 : IVec S16 32) (v1100 : IVec S16 32) (k0_hw17 : k0_chk17 v1095 v1098 v1100), ∀ a x, ((![v1095, v1098, v1100] : Fin 3 → IVec S16 32) a x).toNat < S2x64x64.size a := fun v1095 v1098 v1100 k0_hw17 => k0_hw17
def k0_off21 (k0_t4 : Fin k0_t4_loop.trips) : Fin 4 → Nat :=
  let c0_i32_878 : BitVec 32 := 0#32
  let v1104 : Index := Scalar.indexCast c0_i32_878
  let c0_i32_879 : BitVec 32 := 0#32
  let v1105 : Index := Scalar.indexCast c0_i32_879
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![0, 0, v1106.toNat, v1107.toNat]

def k0_chk18 (v1109 : IVec S16 32) (v1112 : IVec S16 32) (v1114 : IVec S16 32) : Prop :=
  (∀ a x, ((![v1109, v1112, v1114] : Fin 3 → IVec S16 32) a x).toNat < S2x64x64.size a)
instance k0_chk18.dec : ∀ (v1109 : IVec S16 32) (v1112 : IVec S16 32) (v1114 : IVec S16 32), Decidable (k0_chk18 v1109 v1112 v1114) := fun v1109 v1112 v1114 => decidable_of_iff' _ (Iff.of_eq (k0_chk18.eq_1 v1109 v1112 v1114))
theorem k0_idx18_inb : ∀ (v1109 : IVec S16 32) (v1112 : IVec S16 32) (v1114 : IVec S16 32) (k0_hw18 : k0_chk18 v1109 v1112 v1114), ∀ a x, ((![v1109, v1112, v1114] : Fin 3 → IVec S16 32) a x).toNat < S2x64x64.size a := fun v1109 v1112 v1114 k0_hw18 => k0_hw18
def k0_off22 (k0_t4 : Fin k0_t4_loop.trips) : Fin 4 → Nat :=
  let c0_i32_887 : BitVec 32 := 0#32
  let v1118 : Index := Scalar.indexCast c0_i32_887
  let c1_i32_888 : BitVec 32 := 1#32
  let v1119 : Index := Scalar.indexCast c1_i32_888
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![0, 1, v1120.toNat, v1121.toNat]

def k0_chk19 (v1123 : IVec S16 32) (v1126 : IVec S16 32) (v1128 : IVec S16 32) : Prop :=
  (∀ a x, ((![v1123, v1126, v1128] : Fin 3 → IVec S16 32) a x).toNat < S2x64x64.size a)
instance k0_chk19.dec : ∀ (v1123 : IVec S16 32) (v1126 : IVec S16 32) (v1128 : IVec S16 32), Decidable (k0_chk19 v1123 v1126 v1128) := fun v1123 v1126 v1128 => decidable_of_iff' _ (Iff.of_eq (k0_chk19.eq_1 v1123 v1126 v1128))
theorem k0_idx19_inb : ∀ (v1123 : IVec S16 32) (v1126 : IVec S16 32) (v1128 : IVec S16 32) (k0_hw19 : k0_chk19 v1123 v1126 v1128), ∀ a x, ((![v1123, v1126, v1128] : Fin 3 → IVec S16 32) a x).toNat < S2x64x64.size a := fun v1123 v1126 v1128 k0_hw19 => k0_hw19
def k0_off23 (k0_t4 : Fin k0_t4_loop.trips) : Fin 4 → Nat :=
  let c0_i32_896 : BitVec 32 := 0#32
  let v1132 : Index := Scalar.indexCast c0_i32_896
  let c2_i32_897 : BitVec 32 := 2#32
  let v1133 : Index := Scalar.indexCast c2_i32_897
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![0, 2, v1134.toNat, v1135.toNat]

def k0_chk20 (v1137 : IVec S16 32) (v1140 : IVec S16 32) (v1142 : IVec S16 32) : Prop :=
  (∀ a x, ((![v1137, v1140, v1142] : Fin 3 → IVec S16 32) a x).toNat < S2x64x64.size a)
instance k0_chk20.dec : ∀ (v1137 : IVec S16 32) (v1140 : IVec S16 32) (v1142 : IVec S16 32), Decidable (k0_chk20 v1137 v1140 v1142) := fun v1137 v1140 v1142 => decidable_of_iff' _ (Iff.of_eq (k0_chk20.eq_1 v1137 v1140 v1142))
theorem k0_idx20_inb : ∀ (v1137 : IVec S16 32) (v1140 : IVec S16 32) (v1142 : IVec S16 32) (k0_hw20 : k0_chk20 v1137 v1140 v1142), ∀ a x, ((![v1137, v1140, v1142] : Fin 3 → IVec S16 32) a x).toNat < S2x64x64.size a := fun v1137 v1140 v1142 k0_hw20 => k0_hw20
def k0_off24 (k0_t4 : Fin k0_t4_loop.trips) : Fin 4 → Nat :=
  let c0_i32_905 : BitVec 32 := 0#32
  let v1146 : Index := Scalar.indexCast c0_i32_905
  let c3_i32_906 : BitVec 32 := 3#32
  let v1147 : Index := Scalar.indexCast c3_i32_906
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![0, 3, v1148.toNat, v1149.toNat]

def k0_chk21 (v1151 : IVec S16 32) (v1154 : IVec S16 32) (v1156 : IVec S16 32) : Prop :=
  (∀ a x, ((![v1151, v1154, v1156] : Fin 3 → IVec S16 32) a x).toNat < S2x64x64.size a)
instance k0_chk21.dec : ∀ (v1151 : IVec S16 32) (v1154 : IVec S16 32) (v1156 : IVec S16 32), Decidable (k0_chk21 v1151 v1154 v1156) := fun v1151 v1154 v1156 => decidable_of_iff' _ (Iff.of_eq (k0_chk21.eq_1 v1151 v1154 v1156))
theorem k0_idx21_inb : ∀ (v1151 : IVec S16 32) (v1154 : IVec S16 32) (v1156 : IVec S16 32) (k0_hw21 : k0_chk21 v1151 v1154 v1156), ∀ a x, ((![v1151, v1154, v1156] : Fin 3 → IVec S16 32) a x).toNat < S2x64x64.size a := fun v1151 v1154 v1156 k0_hw21 => k0_hw21
def k0_off25 (k0_t4 : Fin k0_t4_loop.trips) : Fin 4 → Nat :=
  let c0_i32_914 : BitVec 32 := 0#32
  let v1160 : Index := Scalar.indexCast c0_i32_914
  let c4_i32_915 : BitVec 32 := 4#32
  let v1161 : Index := Scalar.indexCast c4_i32_915
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![0, 4, v1162.toNat, v1163.toNat]

def k0_chk22 (v1165 : IVec S16 32) (v1168 : IVec S16 32) (v1170 : IVec S16 32) : Prop :=
  (∀ a x, ((![v1165, v1168, v1170] : Fin 3 → IVec S16 32) a x).toNat < S2x64x64.size a)
instance k0_chk22.dec : ∀ (v1165 : IVec S16 32) (v1168 : IVec S16 32) (v1170 : IVec S16 32), Decidable (k0_chk22 v1165 v1168 v1170) := fun v1165 v1168 v1170 => decidable_of_iff' _ (Iff.of_eq (k0_chk22.eq_1 v1165 v1168 v1170))
theorem k0_idx22_inb : ∀ (v1165 : IVec S16 32) (v1168 : IVec S16 32) (v1170 : IVec S16 32) (k0_hw22 : k0_chk22 v1165 v1168 v1170), ∀ a x, ((![v1165, v1168, v1170] : Fin 3 → IVec S16 32) a x).toNat < S2x64x64.size a := fun v1165 v1168 v1170 k0_hw22 => k0_hw22
def k0_off26 (k0_t4 : Fin k0_t4_loop.trips) : Fin 4 → Nat :=
  let c0_i32_923 : BitVec 32 := 0#32
  let v1174 : Index := Scalar.indexCast c0_i32_923
  let c5_i32_924 : BitVec 32 := 5#32
  let v1175 : Index := Scalar.indexCast c5_i32_924
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![0, 5, v1176.toNat, v1177.toNat]

def k0_chk23 (v1179 : IVec S16 32) (v1182 : IVec S16 32) (v1184 : IVec S16 32) : Prop :=
  (∀ a x, ((![v1179, v1182, v1184] : Fin 3 → IVec S16 32) a x).toNat < S2x64x64.size a)
instance k0_chk23.dec : ∀ (v1179 : IVec S16 32) (v1182 : IVec S16 32) (v1184 : IVec S16 32), Decidable (k0_chk23 v1179 v1182 v1184) := fun v1179 v1182 v1184 => decidable_of_iff' _ (Iff.of_eq (k0_chk23.eq_1 v1179 v1182 v1184))
theorem k0_idx23_inb : ∀ (v1179 : IVec S16 32) (v1182 : IVec S16 32) (v1184 : IVec S16 32) (k0_hw23 : k0_chk23 v1179 v1182 v1184), ∀ a x, ((![v1179, v1182, v1184] : Fin 3 → IVec S16 32) a x).toNat < S2x64x64.size a := fun v1179 v1182 v1184 k0_hw23 => k0_hw23
def k0_off27 (k0_t4 : Fin k0_t4_loop.trips) : Fin 4 → Nat :=
  let c0_i32_932 : BitVec 32 := 0#32
  let v1188 : Index := Scalar.indexCast c0_i32_932
  let c6_i32_933 : BitVec 32 := 6#32
  let v1189 : Index := Scalar.indexCast c6_i32_933
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![0, 6, v1190.toNat, v1191.toNat]

def k0_chk24 (v1193 : IVec S16 32) (v1196 : IVec S16 32) (v1198 : IVec S16 32) : Prop :=
  (∀ a x, ((![v1193, v1196, v1198] : Fin 3 → IVec S16 32) a x).toNat < S2x64x64.size a)
instance k0_chk24.dec : ∀ (v1193 : IVec S16 32) (v1196 : IVec S16 32) (v1198 : IVec S16 32), Decidable (k0_chk24 v1193 v1196 v1198) := fun v1193 v1196 v1198 => decidable_of_iff' _ (Iff.of_eq (k0_chk24.eq_1 v1193 v1196 v1198))
theorem k0_idx24_inb : ∀ (v1193 : IVec S16 32) (v1196 : IVec S16 32) (v1198 : IVec S16 32) (k0_hw24 : k0_chk24 v1193 v1196 v1198), ∀ a x, ((![v1193, v1196, v1198] : Fin 3 → IVec S16 32) a x).toNat < S2x64x64.size a := fun v1193 v1196 v1198 k0_hw24 => k0_hw24
def k0_off28 (k0_t4 : Fin k0_t4_loop.trips) : Fin 4 → Nat :=
  let c0_i32_941 : BitVec 32 := 0#32
  let v1202 : Index := Scalar.indexCast c0_i32_941
  let c7_i32 : BitVec 32 := 7#32
  let v1203 : Index := Scalar.indexCast c7_i32
  let c0_i32_631 : BitVec 32 := 0#32
  let c1_i32_633 : BitVec 32 := 1#32
  let arg12 : BitVec 32 := Scf.iv c0_i32_631 c1_i32_633 k0_t4
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![0, 7, v1204.toNat, v1205.toNat]
def k0_cond6 (k0_t1 : Fin k0_t1_loop.trips) : BitVec 1 :=
  let c6_i32_610 : BitVec 32 := 6#32
  let c0_i32_114 : BitVec 32 := 0#32
  let c1_i32_115 : BitVec 32 := 1#32
  let arg11 : BitVec 32 := Scf.iv c0_i32_114 c1_i32_115 k0_t1
  let v763 : BitVec 32 := Scalar.muli c6_i32_610 arg11
  let c2_i32_611 : BitVec 32 := 2#32
  let v764 : BitVec 32 := Scalar.addi v763 c2_i32_611
  let c61_i32_673 : BitVec 32 := 61#32
  let v841 : BitVec 1 := Scalar.cmpi .slt v764 c61_i32_673
  let v842 : BitVec 32 := Scalar.extui v841
  let c0_i32_674 : BitVec 32 := 0#32
  let v843 : BitVec 1 := Scalar.cmpi .ne v842 c0_i32_674
  v843

def k0_off29 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32_610 : BitVec 32 := 6#32
  let c0_i32_114 : BitVec 32 := 0#32
  let c1_i32_115 : BitVec 32 := 1#32
  let arg11 : BitVec 32 := Scf.iv c0_i32_114 c1_i32_115 k0_t1
  let v763 : BitVec 32 := Scalar.muli c6_i32_610 arg11
  let c2_i32_611 : BitVec 32 := 2#32
  let v764 : BitVec 32 := Scalar.addi v763 c2_i32_611
  let c3_i32_867 : BitVec 32 := 3#32
  let v1087 : BitVec 32 := Scalar.addi v764 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t5_loop : Scf.Loop 32 :=
  let c0_i32_695 : BitVec 32 := 0#32
  let c64_i32_696 : BitVec 32 := 64#32
  let v857 : BitVec 32 := Scalar.addi c0_i32_695 c64_i32_696
  let c1_i32_697 : BitVec 32 := 1#32
  ⟨c0_i32_695, v857, c1_i32_697⟩

def k0_chk25 (v1095 : IVec S16 32) (v1098 : IVec S16 32) (v1100 : IVec S16 32) : Prop :=
  (∀ a x, ((![v1095, v1098, v1100] : Fin 3 → IVec S16 32) a x).toNat < S2x64x64.size a)
instance k0_chk25.dec : ∀ (v1095 : IVec S16 32) (v1098 : IVec S16 32) (v1100 : IVec S16 32), Decidable (k0_chk25 v1095 v1098 v1100) := fun v1095 v1098 v1100 => decidable_of_iff' _ (Iff.of_eq (k0_chk25.eq_1 v1095 v1098 v1100))
theorem k0_idx25_inb : ∀ (v1095 : IVec S16 32) (v1098 : IVec S16 32) (v1100 : IVec S16 32) (k0_hw25 : k0_chk25 v1095 v1098 v1100), ∀ a x, ((![v1095, v1098, v1100] : Fin 3 → IVec S16 32) a x).toNat < S2x64x64.size a := fun v1095 v1098 v1100 k0_hw25 => k0_hw25
def k0_off30 (k0_t5 : Fin k0_t5_loop.trips) : Fin 4 → Nat :=
  let c1_i32_878 : BitVec 32 := 1#32
  let v1104 : Index := Scalar.indexCast c1_i32_878
  let c0_i32_879 : BitVec 32 := 0#32
  let v1105 : Index := Scalar.indexCast c0_i32_879
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![1, 0, v1106.toNat, v1107.toNat]

def k0_chk26 (v1109 : IVec S16 32) (v1112 : IVec S16 32) (v1114 : IVec S16 32) : Prop :=
  (∀ a x, ((![v1109, v1112, v1114] : Fin 3 → IVec S16 32) a x).toNat < S2x64x64.size a)
instance k0_chk26.dec : ∀ (v1109 : IVec S16 32) (v1112 : IVec S16 32) (v1114 : IVec S16 32), Decidable (k0_chk26 v1109 v1112 v1114) := fun v1109 v1112 v1114 => decidable_of_iff' _ (Iff.of_eq (k0_chk26.eq_1 v1109 v1112 v1114))
theorem k0_idx26_inb : ∀ (v1109 : IVec S16 32) (v1112 : IVec S16 32) (v1114 : IVec S16 32) (k0_hw26 : k0_chk26 v1109 v1112 v1114), ∀ a x, ((![v1109, v1112, v1114] : Fin 3 → IVec S16 32) a x).toNat < S2x64x64.size a := fun v1109 v1112 v1114 k0_hw26 => k0_hw26
def k0_off31 (k0_t5 : Fin k0_t5_loop.trips) : Fin 4 → Nat :=
  let c1_i32_887 : BitVec 32 := 1#32
  let v1118 : Index := Scalar.indexCast c1_i32_887
  let c1_i32_888 : BitVec 32 := 1#32
  let v1119 : Index := Scalar.indexCast c1_i32_888
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![1, 1, v1120.toNat, v1121.toNat]

def k0_chk27 (v1123 : IVec S16 32) (v1126 : IVec S16 32) (v1128 : IVec S16 32) : Prop :=
  (∀ a x, ((![v1123, v1126, v1128] : Fin 3 → IVec S16 32) a x).toNat < S2x64x64.size a)
instance k0_chk27.dec : ∀ (v1123 : IVec S16 32) (v1126 : IVec S16 32) (v1128 : IVec S16 32), Decidable (k0_chk27 v1123 v1126 v1128) := fun v1123 v1126 v1128 => decidable_of_iff' _ (Iff.of_eq (k0_chk27.eq_1 v1123 v1126 v1128))
theorem k0_idx27_inb : ∀ (v1123 : IVec S16 32) (v1126 : IVec S16 32) (v1128 : IVec S16 32) (k0_hw27 : k0_chk27 v1123 v1126 v1128), ∀ a x, ((![v1123, v1126, v1128] : Fin 3 → IVec S16 32) a x).toNat < S2x64x64.size a := fun v1123 v1126 v1128 k0_hw27 => k0_hw27
def k0_off32 (k0_t5 : Fin k0_t5_loop.trips) : Fin 4 → Nat :=
  let c1_i32_896 : BitVec 32 := 1#32
  let v1132 : Index := Scalar.indexCast c1_i32_896
  let c2_i32_897 : BitVec 32 := 2#32
  let v1133 : Index := Scalar.indexCast c2_i32_897
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![1, 2, v1134.toNat, v1135.toNat]

def k0_chk28 (v1137 : IVec S16 32) (v1140 : IVec S16 32) (v1142 : IVec S16 32) : Prop :=
  (∀ a x, ((![v1137, v1140, v1142] : Fin 3 → IVec S16 32) a x).toNat < S2x64x64.size a)
instance k0_chk28.dec : ∀ (v1137 : IVec S16 32) (v1140 : IVec S16 32) (v1142 : IVec S16 32), Decidable (k0_chk28 v1137 v1140 v1142) := fun v1137 v1140 v1142 => decidable_of_iff' _ (Iff.of_eq (k0_chk28.eq_1 v1137 v1140 v1142))
theorem k0_idx28_inb : ∀ (v1137 : IVec S16 32) (v1140 : IVec S16 32) (v1142 : IVec S16 32) (k0_hw28 : k0_chk28 v1137 v1140 v1142), ∀ a x, ((![v1137, v1140, v1142] : Fin 3 → IVec S16 32) a x).toNat < S2x64x64.size a := fun v1137 v1140 v1142 k0_hw28 => k0_hw28
def k0_off33 (k0_t5 : Fin k0_t5_loop.trips) : Fin 4 → Nat :=
  let c1_i32_905 : BitVec 32 := 1#32
  let v1146 : Index := Scalar.indexCast c1_i32_905
  let c3_i32_906 : BitVec 32 := 3#32
  let v1147 : Index := Scalar.indexCast c3_i32_906
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![1, 3, v1148.toNat, v1149.toNat]

def k0_chk29 (v1151 : IVec S16 32) (v1154 : IVec S16 32) (v1156 : IVec S16 32) : Prop :=
  (∀ a x, ((![v1151, v1154, v1156] : Fin 3 → IVec S16 32) a x).toNat < S2x64x64.size a)
instance k0_chk29.dec : ∀ (v1151 : IVec S16 32) (v1154 : IVec S16 32) (v1156 : IVec S16 32), Decidable (k0_chk29 v1151 v1154 v1156) := fun v1151 v1154 v1156 => decidable_of_iff' _ (Iff.of_eq (k0_chk29.eq_1 v1151 v1154 v1156))
theorem k0_idx29_inb : ∀ (v1151 : IVec S16 32) (v1154 : IVec S16 32) (v1156 : IVec S16 32) (k0_hw29 : k0_chk29 v1151 v1154 v1156), ∀ a x, ((![v1151, v1154, v1156] : Fin 3 → IVec S16 32) a x).toNat < S2x64x64.size a := fun v1151 v1154 v1156 k0_hw29 => k0_hw29
def k0_off34 (k0_t5 : Fin k0_t5_loop.trips) : Fin 4 → Nat :=
  let c1_i32_914 : BitVec 32 := 1#32
  let v1160 : Index := Scalar.indexCast c1_i32_914
  let c4_i32_915 : BitVec 32 := 4#32
  let v1161 : Index := Scalar.indexCast c4_i32_915
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![1, 4, v1162.toNat, v1163.toNat]

def k0_chk30 (v1165 : IVec S16 32) (v1168 : IVec S16 32) (v1170 : IVec S16 32) : Prop :=
  (∀ a x, ((![v1165, v1168, v1170] : Fin 3 → IVec S16 32) a x).toNat < S2x64x64.size a)
instance k0_chk30.dec : ∀ (v1165 : IVec S16 32) (v1168 : IVec S16 32) (v1170 : IVec S16 32), Decidable (k0_chk30 v1165 v1168 v1170) := fun v1165 v1168 v1170 => decidable_of_iff' _ (Iff.of_eq (k0_chk30.eq_1 v1165 v1168 v1170))
theorem k0_idx30_inb : ∀ (v1165 : IVec S16 32) (v1168 : IVec S16 32) (v1170 : IVec S16 32) (k0_hw30 : k0_chk30 v1165 v1168 v1170), ∀ a x, ((![v1165, v1168, v1170] : Fin 3 → IVec S16 32) a x).toNat < S2x64x64.size a := fun v1165 v1168 v1170 k0_hw30 => k0_hw30
def k0_off35 (k0_t5 : Fin k0_t5_loop.trips) : Fin 4 → Nat :=
  let c1_i32_923 : BitVec 32 := 1#32
  let v1174 : Index := Scalar.indexCast c1_i32_923
  let c5_i32_924 : BitVec 32 := 5#32
  let v1175 : Index := Scalar.indexCast c5_i32_924
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![1, 5, v1176.toNat, v1177.toNat]

def k0_chk31 (v1179 : IVec S16 32) (v1182 : IVec S16 32) (v1184 : IVec S16 32) : Prop :=
  (∀ a x, ((![v1179, v1182, v1184] : Fin 3 → IVec S16 32) a x).toNat < S2x64x64.size a)
instance k0_chk31.dec : ∀ (v1179 : IVec S16 32) (v1182 : IVec S16 32) (v1184 : IVec S16 32), Decidable (k0_chk31 v1179 v1182 v1184) := fun v1179 v1182 v1184 => decidable_of_iff' _ (Iff.of_eq (k0_chk31.eq_1 v1179 v1182 v1184))
theorem k0_idx31_inb : ∀ (v1179 : IVec S16 32) (v1182 : IVec S16 32) (v1184 : IVec S16 32) (k0_hw31 : k0_chk31 v1179 v1182 v1184), ∀ a x, ((![v1179, v1182, v1184] : Fin 3 → IVec S16 32) a x).toNat < S2x64x64.size a := fun v1179 v1182 v1184 k0_hw31 => k0_hw31
def k0_off36 (k0_t5 : Fin k0_t5_loop.trips) : Fin 4 → Nat :=
  let c1_i32_932 : BitVec 32 := 1#32
  let v1188 : Index := Scalar.indexCast c1_i32_932
  let c6_i32_933 : BitVec 32 := 6#32
  let v1189 : Index := Scalar.indexCast c6_i32_933
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![1, 6, v1190.toNat, v1191.toNat]

def k0_chk32 (v1193 : IVec S16 32) (v1196 : IVec S16 32) (v1198 : IVec S16 32) : Prop :=
  (∀ a x, ((![v1193, v1196, v1198] : Fin 3 → IVec S16 32) a x).toNat < S2x64x64.size a)
instance k0_chk32.dec : ∀ (v1193 : IVec S16 32) (v1196 : IVec S16 32) (v1198 : IVec S16 32), Decidable (k0_chk32 v1193 v1196 v1198) := fun v1193 v1196 v1198 => decidable_of_iff' _ (Iff.of_eq (k0_chk32.eq_1 v1193 v1196 v1198))
theorem k0_idx32_inb : ∀ (v1193 : IVec S16 32) (v1196 : IVec S16 32) (v1198 : IVec S16 32) (k0_hw32 : k0_chk32 v1193 v1196 v1198), ∀ a x, ((![v1193, v1196, v1198] : Fin 3 → IVec S16 32) a x).toNat < S2x64x64.size a := fun v1193 v1196 v1198 k0_hw32 => k0_hw32
def k0_off37 (k0_t5 : Fin k0_t5_loop.trips) : Fin 4 → Nat :=
  let c1_i32_941 : BitVec 32 := 1#32
  let v1202 : Index := Scalar.indexCast c1_i32_941
  let c7_i32 : BitVec 32 := 7#32
  let v1203 : Index := Scalar.indexCast c7_i32
  let c0_i32_695 : BitVec 32 := 0#32
  let c1_i32_697 : BitVec 32 := 1#32
  let arg12 : BitVec 32 := Scf.iv c0_i32_695 c1_i32_697 k0_t5
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![1, 7, v1204.toNat, v1205.toNat]
def k0_cond8 (k0_t1 : Fin k0_t1_loop.trips) : BitVec 1 :=
  let c6_i32_675 : BitVec 32 := 6#32
  let c0_i32_114 : BitVec 32 := 0#32
  let c1_i32_115 : BitVec 32 := 1#32
  let arg11 : BitVec 32 := Scf.iv c0_i32_114 c1_i32_115 k0_t1
  let v844 : BitVec 32 := Scalar.muli c6_i32_675 arg11
  let c3_i32 : BitVec 32 := 3#32
  let v845 : BitVec 32 := Scalar.addi v844 c3_i32
  let c61_i32_737 : BitVec 32 := 61#32
  let v922 : BitVec 1 := Scalar.cmpi .slt v845 c61_i32_737
  let v923 : BitVec 32 := Scalar.extui v922
  let c0_i32_738 : BitVec 32 := 0#32
  let v924 : BitVec 1 := Scalar.cmpi .ne v923 c0_i32_738
  v924

def k0_off38 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32_675 : BitVec 32 := 6#32
  let c0_i32_114 : BitVec 32 := 0#32
  let c1_i32_115 : BitVec 32 := 1#32
  let arg11 : BitVec 32 := Scf.iv c0_i32_114 c1_i32_115 k0_t1
  let v844 : BitVec 32 := Scalar.muli c6_i32_675 arg11
  let c3_i32 : BitVec 32 := 3#32
  let v845 : BitVec 32 := Scalar.addi v844 c3_i32
  let c3_i32_867 : BitVec 32 := 3#32
  let v1087 : BitVec 32 := Scalar.addi v845 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t6_loop : Scf.Loop 32 :=
  let c0_i32_759 : BitVec 32 := 0#32
  let c64_i32_760 : BitVec 32 := 64#32
  let v938 : BitVec 32 := Scalar.addi c0_i32_759 c64_i32_760
  let c1_i32_761 : BitVec 32 := 1#32
  ⟨c0_i32_759, v938, c1_i32_761⟩

def k0_chk33 (v1095 : IVec S16 32) (v1098 : IVec S16 32) (v1100 : IVec S16 32) : Prop :=
  (∀ a x, ((![v1095, v1098, v1100] : Fin 3 → IVec S16 32) a x).toNat < S2x64x64.size a)
instance k0_chk33.dec : ∀ (v1095 : IVec S16 32) (v1098 : IVec S16 32) (v1100 : IVec S16 32), Decidable (k0_chk33 v1095 v1098 v1100) := fun v1095 v1098 v1100 => decidable_of_iff' _ (Iff.of_eq (k0_chk33.eq_1 v1095 v1098 v1100))
theorem k0_idx33_inb : ∀ (v1095 : IVec S16 32) (v1098 : IVec S16 32) (v1100 : IVec S16 32) (k0_hw33 : k0_chk33 v1095 v1098 v1100), ∀ a x, ((![v1095, v1098, v1100] : Fin 3 → IVec S16 32) a x).toNat < S2x64x64.size a := fun v1095 v1098 v1100 k0_hw33 => k0_hw33
def k0_off39 (k0_t6 : Fin k0_t6_loop.trips) : Fin 4 → Nat :=
  let c0_i32_878 : BitVec 32 := 0#32
  let v1104 : Index := Scalar.indexCast c0_i32_878
  let c0_i32_879 : BitVec 32 := 0#32
  let v1105 : Index := Scalar.indexCast c0_i32_879
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![0, 0, v1106.toNat, v1107.toNat]

def k0_chk34 (v1109 : IVec S16 32) (v1112 : IVec S16 32) (v1114 : IVec S16 32) : Prop :=
  (∀ a x, ((![v1109, v1112, v1114] : Fin 3 → IVec S16 32) a x).toNat < S2x64x64.size a)
instance k0_chk34.dec : ∀ (v1109 : IVec S16 32) (v1112 : IVec S16 32) (v1114 : IVec S16 32), Decidable (k0_chk34 v1109 v1112 v1114) := fun v1109 v1112 v1114 => decidable_of_iff' _ (Iff.of_eq (k0_chk34.eq_1 v1109 v1112 v1114))
theorem k0_idx34_inb : ∀ (v1109 : IVec S16 32) (v1112 : IVec S16 32) (v1114 : IVec S16 32) (k0_hw34 : k0_chk34 v1109 v1112 v1114), ∀ a x, ((![v1109, v1112, v1114] : Fin 3 → IVec S16 32) a x).toNat < S2x64x64.size a := fun v1109 v1112 v1114 k0_hw34 => k0_hw34
def k0_off40 (k0_t6 : Fin k0_t6_loop.trips) : Fin 4 → Nat :=
  let c0_i32_887 : BitVec 32 := 0#32
  let v1118 : Index := Scalar.indexCast c0_i32_887
  let c1_i32_888 : BitVec 32 := 1#32
  let v1119 : Index := Scalar.indexCast c1_i32_888
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![0, 1, v1120.toNat, v1121.toNat]

def k0_chk35 (v1123 : IVec S16 32) (v1126 : IVec S16 32) (v1128 : IVec S16 32) : Prop :=
  (∀ a x, ((![v1123, v1126, v1128] : Fin 3 → IVec S16 32) a x).toNat < S2x64x64.size a)
instance k0_chk35.dec : ∀ (v1123 : IVec S16 32) (v1126 : IVec S16 32) (v1128 : IVec S16 32), Decidable (k0_chk35 v1123 v1126 v1128) := fun v1123 v1126 v1128 => decidable_of_iff' _ (Iff.of_eq (k0_chk35.eq_1 v1123 v1126 v1128))
theorem k0_idx35_inb : ∀ (v1123 : IVec S16 32) (v1126 : IVec S16 32) (v1128 : IVec S16 32) (k0_hw35 : k0_chk35 v1123 v1126 v1128), ∀ a x, ((![v1123, v1126, v1128] : Fin 3 → IVec S16 32) a x).toNat < S2x64x64.size a := fun v1123 v1126 v1128 k0_hw35 => k0_hw35
def k0_off41 (k0_t6 : Fin k0_t6_loop.trips) : Fin 4 → Nat :=
  let c0_i32_896 : BitVec 32 := 0#32
  let v1132 : Index := Scalar.indexCast c0_i32_896
  let c2_i32_897 : BitVec 32 := 2#32
  let v1133 : Index := Scalar.indexCast c2_i32_897
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![0, 2, v1134.toNat, v1135.toNat]

def k0_chk36 (v1137 : IVec S16 32) (v1140 : IVec S16 32) (v1142 : IVec S16 32) : Prop :=
  (∀ a x, ((![v1137, v1140, v1142] : Fin 3 → IVec S16 32) a x).toNat < S2x64x64.size a)
instance k0_chk36.dec : ∀ (v1137 : IVec S16 32) (v1140 : IVec S16 32) (v1142 : IVec S16 32), Decidable (k0_chk36 v1137 v1140 v1142) := fun v1137 v1140 v1142 => decidable_of_iff' _ (Iff.of_eq (k0_chk36.eq_1 v1137 v1140 v1142))
theorem k0_idx36_inb : ∀ (v1137 : IVec S16 32) (v1140 : IVec S16 32) (v1142 : IVec S16 32) (k0_hw36 : k0_chk36 v1137 v1140 v1142), ∀ a x, ((![v1137, v1140, v1142] : Fin 3 → IVec S16 32) a x).toNat < S2x64x64.size a := fun v1137 v1140 v1142 k0_hw36 => k0_hw36
def k0_off42 (k0_t6 : Fin k0_t6_loop.trips) : Fin 4 → Nat :=
  let c0_i32_905 : BitVec 32 := 0#32
  let v1146 : Index := Scalar.indexCast c0_i32_905
  let c3_i32_906 : BitVec 32 := 3#32
  let v1147 : Index := Scalar.indexCast c3_i32_906
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![0, 3, v1148.toNat, v1149.toNat]

def k0_chk37 (v1151 : IVec S16 32) (v1154 : IVec S16 32) (v1156 : IVec S16 32) : Prop :=
  (∀ a x, ((![v1151, v1154, v1156] : Fin 3 → IVec S16 32) a x).toNat < S2x64x64.size a)
instance k0_chk37.dec : ∀ (v1151 : IVec S16 32) (v1154 : IVec S16 32) (v1156 : IVec S16 32), Decidable (k0_chk37 v1151 v1154 v1156) := fun v1151 v1154 v1156 => decidable_of_iff' _ (Iff.of_eq (k0_chk37.eq_1 v1151 v1154 v1156))
theorem k0_idx37_inb : ∀ (v1151 : IVec S16 32) (v1154 : IVec S16 32) (v1156 : IVec S16 32) (k0_hw37 : k0_chk37 v1151 v1154 v1156), ∀ a x, ((![v1151, v1154, v1156] : Fin 3 → IVec S16 32) a x).toNat < S2x64x64.size a := fun v1151 v1154 v1156 k0_hw37 => k0_hw37
def k0_off43 (k0_t6 : Fin k0_t6_loop.trips) : Fin 4 → Nat :=
  let c0_i32_914 : BitVec 32 := 0#32
  let v1160 : Index := Scalar.indexCast c0_i32_914
  let c4_i32_915 : BitVec 32 := 4#32
  let v1161 : Index := Scalar.indexCast c4_i32_915
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![0, 4, v1162.toNat, v1163.toNat]

def k0_chk38 (v1165 : IVec S16 32) (v1168 : IVec S16 32) (v1170 : IVec S16 32) : Prop :=
  (∀ a x, ((![v1165, v1168, v1170] : Fin 3 → IVec S16 32) a x).toNat < S2x64x64.size a)
instance k0_chk38.dec : ∀ (v1165 : IVec S16 32) (v1168 : IVec S16 32) (v1170 : IVec S16 32), Decidable (k0_chk38 v1165 v1168 v1170) := fun v1165 v1168 v1170 => decidable_of_iff' _ (Iff.of_eq (k0_chk38.eq_1 v1165 v1168 v1170))
theorem k0_idx38_inb : ∀ (v1165 : IVec S16 32) (v1168 : IVec S16 32) (v1170 : IVec S16 32) (k0_hw38 : k0_chk38 v1165 v1168 v1170), ∀ a x, ((![v1165, v1168, v1170] : Fin 3 → IVec S16 32) a x).toNat < S2x64x64.size a := fun v1165 v1168 v1170 k0_hw38 => k0_hw38
def k0_off44 (k0_t6 : Fin k0_t6_loop.trips) : Fin 4 → Nat :=
  let c0_i32_923 : BitVec 32 := 0#32
  let v1174 : Index := Scalar.indexCast c0_i32_923
  let c5_i32_924 : BitVec 32 := 5#32
  let v1175 : Index := Scalar.indexCast c5_i32_924
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![0, 5, v1176.toNat, v1177.toNat]

def k0_chk39 (v1179 : IVec S16 32) (v1182 : IVec S16 32) (v1184 : IVec S16 32) : Prop :=
  (∀ a x, ((![v1179, v1182, v1184] : Fin 3 → IVec S16 32) a x).toNat < S2x64x64.size a)
instance k0_chk39.dec : ∀ (v1179 : IVec S16 32) (v1182 : IVec S16 32) (v1184 : IVec S16 32), Decidable (k0_chk39 v1179 v1182 v1184) := fun v1179 v1182 v1184 => decidable_of_iff' _ (Iff.of_eq (k0_chk39.eq_1 v1179 v1182 v1184))
theorem k0_idx39_inb : ∀ (v1179 : IVec S16 32) (v1182 : IVec S16 32) (v1184 : IVec S16 32) (k0_hw39 : k0_chk39 v1179 v1182 v1184), ∀ a x, ((![v1179, v1182, v1184] : Fin 3 → IVec S16 32) a x).toNat < S2x64x64.size a := fun v1179 v1182 v1184 k0_hw39 => k0_hw39
def k0_off45 (k0_t6 : Fin k0_t6_loop.trips) : Fin 4 → Nat :=
  let c0_i32_932 : BitVec 32 := 0#32
  let v1188 : Index := Scalar.indexCast c0_i32_932
  let c6_i32_933 : BitVec 32 := 6#32
  let v1189 : Index := Scalar.indexCast c6_i32_933
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![0, 6, v1190.toNat, v1191.toNat]

def k0_chk40 (v1193 : IVec S16 32) (v1196 : IVec S16 32) (v1198 : IVec S16 32) : Prop :=
  (∀ a x, ((![v1193, v1196, v1198] : Fin 3 → IVec S16 32) a x).toNat < S2x64x64.size a)
instance k0_chk40.dec : ∀ (v1193 : IVec S16 32) (v1196 : IVec S16 32) (v1198 : IVec S16 32), Decidable (k0_chk40 v1193 v1196 v1198) := fun v1193 v1196 v1198 => decidable_of_iff' _ (Iff.of_eq (k0_chk40.eq_1 v1193 v1196 v1198))
theorem k0_idx40_inb : ∀ (v1193 : IVec S16 32) (v1196 : IVec S16 32) (v1198 : IVec S16 32) (k0_hw40 : k0_chk40 v1193 v1196 v1198), ∀ a x, ((![v1193, v1196, v1198] : Fin 3 → IVec S16 32) a x).toNat < S2x64x64.size a := fun v1193 v1196 v1198 k0_hw40 => k0_hw40
def k0_off46 (k0_t6 : Fin k0_t6_loop.trips) : Fin 4 → Nat :=
  let c0_i32_941 : BitVec 32 := 0#32
  let v1202 : Index := Scalar.indexCast c0_i32_941
  let c7_i32 : BitVec 32 := 7#32
  let v1203 : Index := Scalar.indexCast c7_i32
  let c0_i32_759 : BitVec 32 := 0#32
  let c1_i32_761 : BitVec 32 := 1#32
  let arg12 : BitVec 32 := Scf.iv c0_i32_759 c1_i32_761 k0_t6
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![0, 7, v1204.toNat, v1205.toNat]
def k0_cond10 (k0_t1 : Fin k0_t1_loop.trips) : BitVec 1 :=
  let c6_i32_739 : BitVec 32 := 6#32
  let c0_i32_114 : BitVec 32 := 0#32
  let c1_i32_115 : BitVec 32 := 1#32
  let arg11 : BitVec 32 := Scf.iv c0_i32_114 c1_i32_115 k0_t1
  let v925 : BitVec 32 := Scalar.muli c6_i32_739 arg11
  let c4_i32 : BitVec 32 := 4#32
  let v926 : BitVec 32 := Scalar.addi v925 c4_i32
  let c61_i32_801 : BitVec 32 := 61#32
  let v1003 : BitVec 1 := Scalar.cmpi .slt v926 c61_i32_801
  let v1004 : BitVec 32 := Scalar.extui v1003
  let c0_i32_802 : BitVec 32 := 0#32
  let v1005 : BitVec 1 := Scalar.cmpi .ne v1004 c0_i32_802
  v1005

def k0_off47 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32_739 : BitVec 32 := 6#32
  let c0_i32_114 : BitVec 32 := 0#32
  let c1_i32_115 : BitVec 32 := 1#32
  let arg11 : BitVec 32 := Scf.iv c0_i32_114 c1_i32_115 k0_t1
  let v925 : BitVec 32 := Scalar.muli c6_i32_739 arg11
  let c4_i32 : BitVec 32 := 4#32
  let v926 : BitVec 32 := Scalar.addi v925 c4_i32
  let c3_i32_867 : BitVec 32 := 3#32
  let v1087 : BitVec 32 := Scalar.addi v926 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t7_loop : Scf.Loop 32 :=
  let c0_i32_823 : BitVec 32 := 0#32
  let c64_i32_824 : BitVec 32 := 64#32
  let v1019 : BitVec 32 := Scalar.addi c0_i32_823 c64_i32_824
  let c1_i32_825 : BitVec 32 := 1#32
  ⟨c0_i32_823, v1019, c1_i32_825⟩

def k0_chk41 (v1095 : IVec S16 32) (v1098 : IVec S16 32) (v1100 : IVec S16 32) : Prop :=
  (∀ a x, ((![v1095, v1098, v1100] : Fin 3 → IVec S16 32) a x).toNat < S2x64x64.size a)
instance k0_chk41.dec : ∀ (v1095 : IVec S16 32) (v1098 : IVec S16 32) (v1100 : IVec S16 32), Decidable (k0_chk41 v1095 v1098 v1100) := fun v1095 v1098 v1100 => decidable_of_iff' _ (Iff.of_eq (k0_chk41.eq_1 v1095 v1098 v1100))
theorem k0_idx41_inb : ∀ (v1095 : IVec S16 32) (v1098 : IVec S16 32) (v1100 : IVec S16 32) (k0_hw41 : k0_chk41 v1095 v1098 v1100), ∀ a x, ((![v1095, v1098, v1100] : Fin 3 → IVec S16 32) a x).toNat < S2x64x64.size a := fun v1095 v1098 v1100 k0_hw41 => k0_hw41
def k0_off48 (k0_t7 : Fin k0_t7_loop.trips) : Fin 4 → Nat :=
  let c1_i32_878 : BitVec 32 := 1#32
  let v1104 : Index := Scalar.indexCast c1_i32_878
  let c0_i32_879 : BitVec 32 := 0#32
  let v1105 : Index := Scalar.indexCast c0_i32_879
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1106 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1107 : Index := Scalar.indexCast v1089
  ![1, 0, v1106.toNat, v1107.toNat]

def k0_chk42 (v1109 : IVec S16 32) (v1112 : IVec S16 32) (v1114 : IVec S16 32) : Prop :=
  (∀ a x, ((![v1109, v1112, v1114] : Fin 3 → IVec S16 32) a x).toNat < S2x64x64.size a)
instance k0_chk42.dec : ∀ (v1109 : IVec S16 32) (v1112 : IVec S16 32) (v1114 : IVec S16 32), Decidable (k0_chk42 v1109 v1112 v1114) := fun v1109 v1112 v1114 => decidable_of_iff' _ (Iff.of_eq (k0_chk42.eq_1 v1109 v1112 v1114))
theorem k0_idx42_inb : ∀ (v1109 : IVec S16 32) (v1112 : IVec S16 32) (v1114 : IVec S16 32) (k0_hw42 : k0_chk42 v1109 v1112 v1114), ∀ a x, ((![v1109, v1112, v1114] : Fin 3 → IVec S16 32) a x).toNat < S2x64x64.size a := fun v1109 v1112 v1114 k0_hw42 => k0_hw42
def k0_off49 (k0_t7 : Fin k0_t7_loop.trips) : Fin 4 → Nat :=
  let c1_i32_887 : BitVec 32 := 1#32
  let v1118 : Index := Scalar.indexCast c1_i32_887
  let c1_i32_888 : BitVec 32 := 1#32
  let v1119 : Index := Scalar.indexCast c1_i32_888
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1120 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1121 : Index := Scalar.indexCast v1089
  ![1, 1, v1120.toNat, v1121.toNat]

def k0_chk43 (v1123 : IVec S16 32) (v1126 : IVec S16 32) (v1128 : IVec S16 32) : Prop :=
  (∀ a x, ((![v1123, v1126, v1128] : Fin 3 → IVec S16 32) a x).toNat < S2x64x64.size a)
instance k0_chk43.dec : ∀ (v1123 : IVec S16 32) (v1126 : IVec S16 32) (v1128 : IVec S16 32), Decidable (k0_chk43 v1123 v1126 v1128) := fun v1123 v1126 v1128 => decidable_of_iff' _ (Iff.of_eq (k0_chk43.eq_1 v1123 v1126 v1128))
theorem k0_idx43_inb : ∀ (v1123 : IVec S16 32) (v1126 : IVec S16 32) (v1128 : IVec S16 32) (k0_hw43 : k0_chk43 v1123 v1126 v1128), ∀ a x, ((![v1123, v1126, v1128] : Fin 3 → IVec S16 32) a x).toNat < S2x64x64.size a := fun v1123 v1126 v1128 k0_hw43 => k0_hw43
def k0_off50 (k0_t7 : Fin k0_t7_loop.trips) : Fin 4 → Nat :=
  let c1_i32_896 : BitVec 32 := 1#32
  let v1132 : Index := Scalar.indexCast c1_i32_896
  let c2_i32_897 : BitVec 32 := 2#32
  let v1133 : Index := Scalar.indexCast c2_i32_897
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1134 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1135 : Index := Scalar.indexCast v1089
  ![1, 2, v1134.toNat, v1135.toNat]

def k0_chk44 (v1137 : IVec S16 32) (v1140 : IVec S16 32) (v1142 : IVec S16 32) : Prop :=
  (∀ a x, ((![v1137, v1140, v1142] : Fin 3 → IVec S16 32) a x).toNat < S2x64x64.size a)
instance k0_chk44.dec : ∀ (v1137 : IVec S16 32) (v1140 : IVec S16 32) (v1142 : IVec S16 32), Decidable (k0_chk44 v1137 v1140 v1142) := fun v1137 v1140 v1142 => decidable_of_iff' _ (Iff.of_eq (k0_chk44.eq_1 v1137 v1140 v1142))
theorem k0_idx44_inb : ∀ (v1137 : IVec S16 32) (v1140 : IVec S16 32) (v1142 : IVec S16 32) (k0_hw44 : k0_chk44 v1137 v1140 v1142), ∀ a x, ((![v1137, v1140, v1142] : Fin 3 → IVec S16 32) a x).toNat < S2x64x64.size a := fun v1137 v1140 v1142 k0_hw44 => k0_hw44
def k0_off51 (k0_t7 : Fin k0_t7_loop.trips) : Fin 4 → Nat :=
  let c1_i32_905 : BitVec 32 := 1#32
  let v1146 : Index := Scalar.indexCast c1_i32_905
  let c3_i32_906 : BitVec 32 := 3#32
  let v1147 : Index := Scalar.indexCast c3_i32_906
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1148 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1149 : Index := Scalar.indexCast v1089
  ![1, 3, v1148.toNat, v1149.toNat]

def k0_chk45 (v1151 : IVec S16 32) (v1154 : IVec S16 32) (v1156 : IVec S16 32) : Prop :=
  (∀ a x, ((![v1151, v1154, v1156] : Fin 3 → IVec S16 32) a x).toNat < S2x64x64.size a)
instance k0_chk45.dec : ∀ (v1151 : IVec S16 32) (v1154 : IVec S16 32) (v1156 : IVec S16 32), Decidable (k0_chk45 v1151 v1154 v1156) := fun v1151 v1154 v1156 => decidable_of_iff' _ (Iff.of_eq (k0_chk45.eq_1 v1151 v1154 v1156))
theorem k0_idx45_inb : ∀ (v1151 : IVec S16 32) (v1154 : IVec S16 32) (v1156 : IVec S16 32) (k0_hw45 : k0_chk45 v1151 v1154 v1156), ∀ a x, ((![v1151, v1154, v1156] : Fin 3 → IVec S16 32) a x).toNat < S2x64x64.size a := fun v1151 v1154 v1156 k0_hw45 => k0_hw45
def k0_off52 (k0_t7 : Fin k0_t7_loop.trips) : Fin 4 → Nat :=
  let c1_i32_914 : BitVec 32 := 1#32
  let v1160 : Index := Scalar.indexCast c1_i32_914
  let c4_i32_915 : BitVec 32 := 4#32
  let v1161 : Index := Scalar.indexCast c4_i32_915
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1162 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1163 : Index := Scalar.indexCast v1089
  ![1, 4, v1162.toNat, v1163.toNat]

def k0_chk46 (v1165 : IVec S16 32) (v1168 : IVec S16 32) (v1170 : IVec S16 32) : Prop :=
  (∀ a x, ((![v1165, v1168, v1170] : Fin 3 → IVec S16 32) a x).toNat < S2x64x64.size a)
instance k0_chk46.dec : ∀ (v1165 : IVec S16 32) (v1168 : IVec S16 32) (v1170 : IVec S16 32), Decidable (k0_chk46 v1165 v1168 v1170) := fun v1165 v1168 v1170 => decidable_of_iff' _ (Iff.of_eq (k0_chk46.eq_1 v1165 v1168 v1170))
theorem k0_idx46_inb : ∀ (v1165 : IVec S16 32) (v1168 : IVec S16 32) (v1170 : IVec S16 32) (k0_hw46 : k0_chk46 v1165 v1168 v1170), ∀ a x, ((![v1165, v1168, v1170] : Fin 3 → IVec S16 32) a x).toNat < S2x64x64.size a := fun v1165 v1168 v1170 k0_hw46 => k0_hw46
def k0_off53 (k0_t7 : Fin k0_t7_loop.trips) : Fin 4 → Nat :=
  let c1_i32_923 : BitVec 32 := 1#32
  let v1174 : Index := Scalar.indexCast c1_i32_923
  let c5_i32_924 : BitVec 32 := 5#32
  let v1175 : Index := Scalar.indexCast c5_i32_924
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1176 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1177 : Index := Scalar.indexCast v1089
  ![1, 5, v1176.toNat, v1177.toNat]

def k0_chk47 (v1179 : IVec S16 32) (v1182 : IVec S16 32) (v1184 : IVec S16 32) : Prop :=
  (∀ a x, ((![v1179, v1182, v1184] : Fin 3 → IVec S16 32) a x).toNat < S2x64x64.size a)
instance k0_chk47.dec : ∀ (v1179 : IVec S16 32) (v1182 : IVec S16 32) (v1184 : IVec S16 32), Decidable (k0_chk47 v1179 v1182 v1184) := fun v1179 v1182 v1184 => decidable_of_iff' _ (Iff.of_eq (k0_chk47.eq_1 v1179 v1182 v1184))
theorem k0_idx47_inb : ∀ (v1179 : IVec S16 32) (v1182 : IVec S16 32) (v1184 : IVec S16 32) (k0_hw47 : k0_chk47 v1179 v1182 v1184), ∀ a x, ((![v1179, v1182, v1184] : Fin 3 → IVec S16 32) a x).toNat < S2x64x64.size a := fun v1179 v1182 v1184 k0_hw47 => k0_hw47
def k0_off54 (k0_t7 : Fin k0_t7_loop.trips) : Fin 4 → Nat :=
  let c1_i32_932 : BitVec 32 := 1#32
  let v1188 : Index := Scalar.indexCast c1_i32_932
  let c6_i32_933 : BitVec 32 := 6#32
  let v1189 : Index := Scalar.indexCast c6_i32_933
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1190 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1191 : Index := Scalar.indexCast v1089
  ![1, 6, v1190.toNat, v1191.toNat]

def k0_chk48 (v1193 : IVec S16 32) (v1196 : IVec S16 32) (v1198 : IVec S16 32) : Prop :=
  (∀ a x, ((![v1193, v1196, v1198] : Fin 3 → IVec S16 32) a x).toNat < S2x64x64.size a)
instance k0_chk48.dec : ∀ (v1193 : IVec S16 32) (v1196 : IVec S16 32) (v1198 : IVec S16 32), Decidable (k0_chk48 v1193 v1196 v1198) := fun v1193 v1196 v1198 => decidable_of_iff' _ (Iff.of_eq (k0_chk48.eq_1 v1193 v1196 v1198))
theorem k0_idx48_inb : ∀ (v1193 : IVec S16 32) (v1196 : IVec S16 32) (v1198 : IVec S16 32) (k0_hw48 : k0_chk48 v1193 v1196 v1198), ∀ a x, ((![v1193, v1196, v1198] : Fin 3 → IVec S16 32) a x).toNat < S2x64x64.size a := fun v1193 v1196 v1198 k0_hw48 => k0_hw48
def k0_off55 (k0_t7 : Fin k0_t7_loop.trips) : Fin 4 → Nat :=
  let c1_i32_941 : BitVec 32 := 1#32
  let v1202 : Index := Scalar.indexCast c1_i32_941
  let c7_i32 : BitVec 32 := 7#32
  let v1203 : Index := Scalar.indexCast c7_i32
  let c0_i32_823 : BitVec 32 := 0#32
  let c1_i32_825 : BitVec 32 := 1#32
  let arg12 : BitVec 32 := Scf.iv c0_i32_823 c1_i32_825 k0_t7
  let c1_i32_867 : BitVec 32 := 1#32
  let v1087 : BitVec 32 := Scalar.shrsi arg12 c1_i32_867
  let v1204 : Index := Scalar.indexCast v1087
  let c1_i32_868 : BitVec 32 := 1#32
  let v1088 : BitVec 32 := Scalar.andi arg12 c1_i32_868
  let c16_i32 : BitVec 32 := 16#32
  let v1089 : BitVec 32 := Scalar.muli v1088 c16_i32
  let v1205 : Index := Scalar.indexCast v1089
  ![1, 7, v1204.toNat, v1205.toNat]
def k0_cond12 (k0_t1 : Fin k0_t1_loop.trips) : BitVec 1 :=
  let c6_i32_803 : BitVec 32 := 6#32
  let c0_i32_114 : BitVec 32 := 0#32
  let c1_i32_115 : BitVec 32 := 1#32
  let arg11 : BitVec 32 := Scf.iv c0_i32_114 c1_i32_115 k0_t1
  let v1006 : BitVec 32 := Scalar.muli c6_i32_803 arg11
  let c5_i32 : BitVec 32 := 5#32
  let v1007 : BitVec 32 := Scalar.addi v1006 c5_i32
  let c61_i32_865 : BitVec 32 := 61#32
  let v1084 : BitVec 1 := Scalar.cmpi .slt v1007 c61_i32_865
  let v1085 : BitVec 32 := Scalar.extui v1084
  let c0_i32_866 : BitVec 32 := 0#32
  let v1086 : BitVec 1 := Scalar.cmpi .ne v1085 c0_i32_866
  v1086

def k0_off56 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c6_i32_803 : BitVec 32 := 6#32
  let c0_i32_114 : BitVec 32 := 0#32
  let c1_i32_115 : BitVec 32 := 1#32
  let arg11 : BitVec 32 := Scf.iv c0_i32_114 c1_i32_115 k0_t1
  let v1006 : BitVec 32 := Scalar.muli c6_i32_803 arg11
  let c5_i32 : BitVec 32 := 5#32
  let v1007 : BitVec 32 := Scalar.addi v1006 c5_i32
  let c3_i32_867 : BitVec 32 := 3#32
  let v1087 : BitVec 32 := Scalar.addi v1007 c3_i32_867
  let v1088 : BitVec 32 := Scalar.addi v3 v1087
  let c0_i32_869 : BitVec 32 := 0#32
  let v1090 : BitVec 1 := Scalar.cmpi .sgt v1088 c0_i32_869
  let v1091 : BitVec 32 := Scalar.extui v1090
  let c0_i32_870 : BitVec 32 := 0#32
  let v1092 : BitVec 1 := Scalar.cmpi .slt v1088 c0_i32_870
  let v1093 : BitVec 32 := Scalar.extui v1092
  let v1094 : BitVec 32 := Scalar.subi v1091 v1093
  let c1024_i32_868 : BitVec 32 := 1024#32
  let c0_i32_871 : BitVec 32 := 0#32
  let v1095 : BitVec 1 := Scalar.cmpi .sgt c1024_i32_868 c0_i32_871
  let v1096 : BitVec 32 := Scalar.extui v1095
  let c0_i32_872 : BitVec 32 := 0#32
  let v1097 : BitVec 1 := Scalar.cmpi .slt c1024_i32_868 c0_i32_872
  let v1098 : BitVec 32 := Scalar.extui v1097
  let v1099 : BitVec 32 := Scalar.subi v1096 v1098
  let v1100 : BitVec 1 := Scalar.cmpi .ne v1094 v1099
  let v1101 : BitVec 32 := Scalar.remsi v1088 c1024_i32_868
  let c0_i32_873 : BitVec 32 := 0#32
  let v1102 : BitVec 1 := Scalar.cmpi .ne v1101 c0_i32_873
  let v1103 : BitVec 1 := Scalar.andi v1100 v1102
  let v1089 : BitVec 32 := Scalar.divsi v1088 c1024_i32_868
  let c1_i32_874 : BitVec 32 := 1#32
  let v1104 : BitVec 32 := Scalar.subi v1089 c1_i32_874
  let v1105 : BitVec 32 := Scalar.select v1103 v1104 v1089
  let c1024_i32_875 : BitVec 32 := 1024#32
  let c0_i32_876 : BitVec 32 := 0#32
  let v1106 : BitVec 1 := Scalar.cmpi .eq c1024_i32_875 c0_i32_876
  let c1_i32_877 : BitVec 32 := 1#32
  let v1107 : BitVec 32 := Scalar.select v1106 c1_i32_877 c1024_i32_875
  let v1108 : BitVec 32 := Scalar.remsi v1088 v1107
  let c0_i32_879 : BitVec 32 := 0#32
  let v1110 : BitVec 1 := Scalar.cmpi .slt v1108 c0_i32_879
  let c0_i32_880 : BitVec 32 := 0#32
  let v1111 : BitVec 1 := Scalar.cmpi .slt v1107 c0_i32_880
  let v1112 : BitVec 1 := Scalar.xori v1110 v1111
  let c0_i32_878 : BitVec 32 := 0#32
  let v1109 : BitVec 1 := Scalar.cmpi .ne v1108 c0_i32_878
  let v1113 : BitVec 1 := Scalar.andi v1112 v1109
  let v1114 : BitVec 32 := Scalar.addi v1108 v1107
  let v1115 : BitVec 32 := Scalar.select v1113 v1114 v1108
  let c0_i32_882 : BitVec 32 := 0#32
  let v1117 : BitVec 1 := Scalar.cmpi .sgt v1115 c0_i32_882
  let v1118 : BitVec 32 := Scalar.extui v1117
  let c0_i32_883 : BitVec 32 := 0#32
  let v1119 : BitVec 1 := Scalar.cmpi .slt v1115 c0_i32_883
  let v1120 : BitVec 32 := Scalar.extui v1119
  let v1121 : BitVec 32 := Scalar.subi v1118 v1120
  let c32_i32_881 : BitVec 32 := 32#32
  let c0_i32_884 : BitVec 32 := 0#32
  let v1122 : BitVec 1 := Scalar.cmpi .sgt c32_i32_881 c0_i32_884
  let v1123 : BitVec 32 := Scalar.extui v1122
  let c0_i32_885 : BitVec 32 := 0#32
  let v1124 : BitVec 1 := Scalar.cmpi .slt c32_i32_881 c0_i32_885
  let v1125 : BitVec 32 := Scalar.extui v1124
  let v1126 : BitVec 32 := Scalar.subi v1123 v1125
  let v1127 : BitVec 1 := Scalar.cmpi .ne v1121 v1126
  let v1128 : BitVec 32 := Scalar.remsi v1115 c32_i32_881
  let c0_i32_886 : BitVec 32 := 0#32
  let v1129 : BitVec 1 := Scalar.cmpi .ne v1128 c0_i32_886
  let v1130 : BitVec 1 := Scalar.andi v1127 v1129
  let v1116 : BitVec 32 := Scalar.divsi v1115 c32_i32_881
  let c1_i32_887 : BitVec 32 := 1#32
  let v1131 : BitVec 32 := Scalar.subi v1116 c1_i32_887
  let v1132 : BitVec 32 := Scalar.select v1130 v1131 v1116
  let c2_i32_894 : BitVec 32 := 2#32
  let c32_i32_888 : BitVec 32 := 32#32
  let c0_i32_889 : BitVec 32 := 0#32
  let v1133 : BitVec 1 := Scalar.cmpi .eq c32_i32_888 c0_i32_889
  let c1_i32_890 : BitVec 32 := 1#32
  let v1134 : BitVec 32 := Scalar.select v1133 c1_i32_890 c32_i32_888
  let v1135 : BitVec 32 := Scalar.remsi v1115 v1134
  let c0_i32_892 : BitVec 32 := 0#32
  let v1137 : BitVec 1 := Scalar.cmpi .slt v1135 c0_i32_892
  let c0_i32_893 : BitVec 32 := 0#32
  let v1138 : BitVec 1 := Scalar.cmpi .slt v1134 c0_i32_893
  let v1139 : BitVec 1 := Scalar.xori v1137 v1138
  let c0_i32_891 : BitVec 32 := 0#32
  let v1136 : BitVec 1 := Scalar.cmpi .ne v1135 c0_i32_891
  let v1140 : BitVec 1 := Scalar.andi v1139 v1136
  let v1141 : BitVec 32 := Scalar.addi v1135 v1134
  let v1142 : BitVec 32 := Scalar.select v1140 v1141 v1135
  let v1143 : BitVec 32 := Scalar.muli c2_i32_894 v1142
  let c0_i32_899 : BitVec 32 := 0#32
  let c0_i32_900 : BitVec 32 := 0#32
  ![v1105.toNat, v1132.toNat, v1143.toNat, 0, 0]
@[reducible] def k0_t8_loop : Scf.Loop 32 :=
  let c0_i32_149 : BitVec 32 := 0#32
  let c64_i32_150 : BitVec 32 := 64#32
  let v213 : BitVec 32 := Scalar.addi c0_i32_149 c64_i32_150
  let c1_i32_151 : BitVec 32 := 1#32
  ⟨c0_i32_149, v213, c1_i32_151⟩

def k0_chk49 (v609 : IVec S16 32) (v612 : IVec S16 32) (v614 : IVec S16 32) : Prop :=
  (∀ a x, ((![v609, v612, v614] : Fin 3 → IVec S16 32) a x).toNat < S2x64x64.size a)
instance k0_chk49.dec : ∀ (v609 : IVec S16 32) (v612 : IVec S16 32) (v614 : IVec S16 32), Decidable (k0_chk49 v609 v612 v614) := fun v609 v612 v614 => decidable_of_iff' _ (Iff.of_eq (k0_chk49.eq_1 v609 v612 v614))
theorem k0_idx49_inb : ∀ (v609 : IVec S16 32) (v612 : IVec S16 32) (v614 : IVec S16 32) (k0_hw49 : k0_chk49 v609 v612 v614), ∀ a x, ((![v609, v612, v614] : Fin 3 → IVec S16 32) a x).toNat < S2x64x64.size a := fun v609 v612 v614 k0_hw49 => k0_hw49
def k0_off57 (k0_t8 : Fin k0_t8_loop.trips) : Fin 4 → Nat :=
  let c0_i32_492 : BitVec 32 := 0#32
  let v618 : Index := Scalar.indexCast c0_i32_492
  let c0_i32_493 : BitVec 32 := 0#32
  let v619 : Index := Scalar.indexCast c0_i32_493
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v620 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v621 : Index := Scalar.indexCast v603
  ![0, 0, v620.toNat, v621.toNat]

def k0_chk50 (v623 : IVec S16 32) (v626 : IVec S16 32) (v628 : IVec S16 32) : Prop :=
  (∀ a x, ((![v623, v626, v628] : Fin 3 → IVec S16 32) a x).toNat < S2x64x64.size a)
instance k0_chk50.dec : ∀ (v623 : IVec S16 32) (v626 : IVec S16 32) (v628 : IVec S16 32), Decidable (k0_chk50 v623 v626 v628) := fun v623 v626 v628 => decidable_of_iff' _ (Iff.of_eq (k0_chk50.eq_1 v623 v626 v628))
theorem k0_idx50_inb : ∀ (v623 : IVec S16 32) (v626 : IVec S16 32) (v628 : IVec S16 32) (k0_hw50 : k0_chk50 v623 v626 v628), ∀ a x, ((![v623, v626, v628] : Fin 3 → IVec S16 32) a x).toNat < S2x64x64.size a := fun v623 v626 v628 k0_hw50 => k0_hw50
def k0_off58 (k0_t8 : Fin k0_t8_loop.trips) : Fin 4 → Nat :=
  let c0_i32_501 : BitVec 32 := 0#32
  let v632 : Index := Scalar.indexCast c0_i32_501
  let c1_i32_502 : BitVec 32 := 1#32
  let v633 : Index := Scalar.indexCast c1_i32_502
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v634 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v635 : Index := Scalar.indexCast v603
  ![0, 1, v634.toNat, v635.toNat]

def k0_chk51 (v637 : IVec S16 32) (v640 : IVec S16 32) (v642 : IVec S16 32) : Prop :=
  (∀ a x, ((![v637, v640, v642] : Fin 3 → IVec S16 32) a x).toNat < S2x64x64.size a)
instance k0_chk51.dec : ∀ (v637 : IVec S16 32) (v640 : IVec S16 32) (v642 : IVec S16 32), Decidable (k0_chk51 v637 v640 v642) := fun v637 v640 v642 => decidable_of_iff' _ (Iff.of_eq (k0_chk51.eq_1 v637 v640 v642))
theorem k0_idx51_inb : ∀ (v637 : IVec S16 32) (v640 : IVec S16 32) (v642 : IVec S16 32) (k0_hw51 : k0_chk51 v637 v640 v642), ∀ a x, ((![v637, v640, v642] : Fin 3 → IVec S16 32) a x).toNat < S2x64x64.size a := fun v637 v640 v642 k0_hw51 => k0_hw51
def k0_off59 (k0_t8 : Fin k0_t8_loop.trips) : Fin 4 → Nat :=
  let c0_i32_510 : BitVec 32 := 0#32
  let v646 : Index := Scalar.indexCast c0_i32_510
  let c2_i32_511 : BitVec 32 := 2#32
  let v647 : Index := Scalar.indexCast c2_i32_511
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v648 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v649 : Index := Scalar.indexCast v603
  ![0, 2, v648.toNat, v649.toNat]

def k0_chk52 (v651 : IVec S16 32) (v654 : IVec S16 32) (v656 : IVec S16 32) : Prop :=
  (∀ a x, ((![v651, v654, v656] : Fin 3 → IVec S16 32) a x).toNat < S2x64x64.size a)
instance k0_chk52.dec : ∀ (v651 : IVec S16 32) (v654 : IVec S16 32) (v656 : IVec S16 32), Decidable (k0_chk52 v651 v654 v656) := fun v651 v654 v656 => decidable_of_iff' _ (Iff.of_eq (k0_chk52.eq_1 v651 v654 v656))
theorem k0_idx52_inb : ∀ (v651 : IVec S16 32) (v654 : IVec S16 32) (v656 : IVec S16 32) (k0_hw52 : k0_chk52 v651 v654 v656), ∀ a x, ((![v651, v654, v656] : Fin 3 → IVec S16 32) a x).toNat < S2x64x64.size a := fun v651 v654 v656 k0_hw52 => k0_hw52
def k0_off60 (k0_t8 : Fin k0_t8_loop.trips) : Fin 4 → Nat :=
  let c0_i32_519 : BitVec 32 := 0#32
  let v660 : Index := Scalar.indexCast c0_i32_519
  let c3_i32 : BitVec 32 := 3#32
  let v661 : Index := Scalar.indexCast c3_i32
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v662 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v663 : Index := Scalar.indexCast v603
  ![0, 3, v662.toNat, v663.toNat]

def k0_chk53 (v665 : IVec S16 32) (v668 : IVec S16 32) (v670 : IVec S16 32) : Prop :=
  (∀ a x, ((![v665, v668, v670] : Fin 3 → IVec S16 32) a x).toNat < S2x64x64.size a)
instance k0_chk53.dec : ∀ (v665 : IVec S16 32) (v668 : IVec S16 32) (v670 : IVec S16 32), Decidable (k0_chk53 v665 v668 v670) := fun v665 v668 v670 => decidable_of_iff' _ (Iff.of_eq (k0_chk53.eq_1 v665 v668 v670))
theorem k0_idx53_inb : ∀ (v665 : IVec S16 32) (v668 : IVec S16 32) (v670 : IVec S16 32) (k0_hw53 : k0_chk53 v665 v668 v670), ∀ a x, ((![v665, v668, v670] : Fin 3 → IVec S16 32) a x).toNat < S2x64x64.size a := fun v665 v668 v670 k0_hw53 => k0_hw53
def k0_off61 (k0_t8 : Fin k0_t8_loop.trips) : Fin 4 → Nat :=
  let c0_i32_527 : BitVec 32 := 0#32
  let v674 : Index := Scalar.indexCast c0_i32_527
  let c4_i32 : BitVec 32 := 4#32
  let v675 : Index := Scalar.indexCast c4_i32
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v676 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v677 : Index := Scalar.indexCast v603
  ![0, 4, v676.toNat, v677.toNat]

def k0_chk54 (v679 : IVec S16 32) (v682 : IVec S16 32) (v684 : IVec S16 32) : Prop :=
  (∀ a x, ((![v679, v682, v684] : Fin 3 → IVec S16 32) a x).toNat < S2x64x64.size a)
instance k0_chk54.dec : ∀ (v679 : IVec S16 32) (v682 : IVec S16 32) (v684 : IVec S16 32), Decidable (k0_chk54 v679 v682 v684) := fun v679 v682 v684 => decidable_of_iff' _ (Iff.of_eq (k0_chk54.eq_1 v679 v682 v684))
theorem k0_idx54_inb : ∀ (v679 : IVec S16 32) (v682 : IVec S16 32) (v684 : IVec S16 32) (k0_hw54 : k0_chk54 v679 v682 v684), ∀ a x, ((![v679, v682, v684] : Fin 3 → IVec S16 32) a x).toNat < S2x64x64.size a := fun v679 v682 v684 k0_hw54 => k0_hw54
def k0_off62 (k0_t8 : Fin k0_t8_loop.trips) : Fin 4 → Nat :=
  let c0_i32_535 : BitVec 32 := 0#32
  let v688 : Index := Scalar.indexCast c0_i32_535
  let c5_i32 : BitVec 32 := 5#32
  let v689 : Index := Scalar.indexCast c5_i32
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v690 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v691 : Index := Scalar.indexCast v603
  ![0, 5, v690.toNat, v691.toNat]

def k0_chk55 (v693 : IVec S16 32) (v696 : IVec S16 32) (v698 : IVec S16 32) : Prop :=
  (∀ a x, ((![v693, v696, v698] : Fin 3 → IVec S16 32) a x).toNat < S2x64x64.size a)
instance k0_chk55.dec : ∀ (v693 : IVec S16 32) (v696 : IVec S16 32) (v698 : IVec S16 32), Decidable (k0_chk55 v693 v696 v698) := fun v693 v696 v698 => decidable_of_iff' _ (Iff.of_eq (k0_chk55.eq_1 v693 v696 v698))
theorem k0_idx55_inb : ∀ (v693 : IVec S16 32) (v696 : IVec S16 32) (v698 : IVec S16 32) (k0_hw55 : k0_chk55 v693 v696 v698), ∀ a x, ((![v693, v696, v698] : Fin 3 → IVec S16 32) a x).toNat < S2x64x64.size a := fun v693 v696 v698 k0_hw55 => k0_hw55
def k0_off63 (k0_t8 : Fin k0_t8_loop.trips) : Fin 4 → Nat :=
  let c0_i32_543 : BitVec 32 := 0#32
  let v702 : Index := Scalar.indexCast c0_i32_543
  let c6_i32 : BitVec 32 := 6#32
  let v703 : Index := Scalar.indexCast c6_i32
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v704 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v705 : Index := Scalar.indexCast v603
  ![0, 6, v704.toNat, v705.toNat]

def k0_chk56 (v707 : IVec S16 32) (v710 : IVec S16 32) (v712 : IVec S16 32) : Prop :=
  (∀ a x, ((![v707, v710, v712] : Fin 3 → IVec S16 32) a x).toNat < S2x64x64.size a)
instance k0_chk56.dec : ∀ (v707 : IVec S16 32) (v710 : IVec S16 32) (v712 : IVec S16 32), Decidable (k0_chk56 v707 v710 v712) := fun v707 v710 v712 => decidable_of_iff' _ (Iff.of_eq (k0_chk56.eq_1 v707 v710 v712))
theorem k0_idx56_inb : ∀ (v707 : IVec S16 32) (v710 : IVec S16 32) (v712 : IVec S16 32) (k0_hw56 : k0_chk56 v707 v710 v712), ∀ a x, ((![v707, v710, v712] : Fin 3 → IVec S16 32) a x).toNat < S2x64x64.size a := fun v707 v710 v712 k0_hw56 => k0_hw56
def k0_off64 (k0_t8 : Fin k0_t8_loop.trips) : Fin 4 → Nat :=
  let c0_i32_551 : BitVec 32 := 0#32
  let v716 : Index := Scalar.indexCast c0_i32_551
  let c7_i32 : BitVec 32 := 7#32
  let v717 : Index := Scalar.indexCast c7_i32
  let c0_i32_149 : BitVec 32 := 0#32
  let c1_i32_151 : BitVec 32 := 1#32
  let arg11 : BitVec 32 := Scf.iv c0_i32_149 c1_i32_151 k0_t8
  let c1_i32_481 : BitVec 32 := 1#32
  let v601 : BitVec 32 := Scalar.shrsi arg11 c1_i32_481
  let v718 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v719 : Index := Scalar.indexCast v603
  ![0, 7, v718.toNat, v719.toNat]
def k0_off65 (i : grid0.Coords) (c60_i32 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let v214 : BitVec 32 := Scalar.addi v3 c60_i32
  let c0_i32_154 : BitVec 32 := 0#32
  let v216 : BitVec 1 := Scalar.cmpi .sgt v214 c0_i32_154
  let v217 : BitVec 32 := Scalar.extui v216
  let c0_i32_155 : BitVec 32 := 0#32
  let v218 : BitVec 1 := Scalar.cmpi .slt v214 c0_i32_155
  let v219 : BitVec 32 := Scalar.extui v218
  let v220 : BitVec 32 := Scalar.subi v217 v219
  let c1024_i32_153 : BitVec 32 := 1024#32
  let c0_i32_156 : BitVec 32 := 0#32
  let v221 : BitVec 1 := Scalar.cmpi .sgt c1024_i32_153 c0_i32_156
  let v222 : BitVec 32 := Scalar.extui v221
  let c0_i32_157 : BitVec 32 := 0#32
  let v223 : BitVec 1 := Scalar.cmpi .slt c1024_i32_153 c0_i32_157
  let v224 : BitVec 32 := Scalar.extui v223
  let v225 : BitVec 32 := Scalar.subi v222 v224
  let v226 : BitVec 1 := Scalar.cmpi .ne v220 v225
  let v227 : BitVec 32 := Scalar.remsi v214 c1024_i32_153
  let c0_i32_158 : BitVec 32 := 0#32
  let v228 : BitVec 1 := Scalar.cmpi .ne v227 c0_i32_158
  let v229 : BitVec 1 := Scalar.andi v226 v228
  let v215 : BitVec 32 := Scalar.divsi v214 c1024_i32_153
  let c1_i32_159 : BitVec 32 := 1#32
  let v230 : BitVec 32 := Scalar.subi v215 c1_i32_159
  let v231 : BitVec 32 := Scalar.select v229 v230 v215
  let c1024_i32_160 : BitVec 32 := 1024#32
  let c0_i32_161 : BitVec 32 := 0#32
  let v232 : BitVec 1 := Scalar.cmpi .eq c1024_i32_160 c0_i32_161
  let c1_i32_162 : BitVec 32 := 1#32
  let v233 : BitVec 32 := Scalar.select v232 c1_i32_162 c1024_i32_160
  let v234 : BitVec 32 := Scalar.remsi v214 v233
  let c0_i32_164 : BitVec 32 := 0#32
  let v236 : BitVec 1 := Scalar.cmpi .slt v234 c0_i32_164
  let c0_i32_165 : BitVec 32 := 0#32
  let v237 : BitVec 1 := Scalar.cmpi .slt v233 c0_i32_165
  let v238 : BitVec 1 := Scalar.xori v236 v237
  let c0_i32_163 : BitVec 32 := 0#32
  let v235 : BitVec 1 := Scalar.cmpi .ne v234 c0_i32_163
  let v239 : BitVec 1 := Scalar.andi v238 v235
  let v240 : BitVec 32 := Scalar.addi v234 v233
  let v241 : BitVec 32 := Scalar.select v239 v240 v234
  let c0_i32_167 : BitVec 32 := 0#32
  let v243 : BitVec 1 := Scalar.cmpi .sgt v241 c0_i32_167
  let v244 : BitVec 32 := Scalar.extui v243
  let c0_i32_168 : BitVec 32 := 0#32
  let v245 : BitVec 1 := Scalar.cmpi .slt v241 c0_i32_168
  let v246 : BitVec 32 := Scalar.extui v245
  let v247 : BitVec 32 := Scalar.subi v244 v246
  let c32_i32_166 : BitVec 32 := 32#32
  let c0_i32_169 : BitVec 32 := 0#32
  let v248 : BitVec 1 := Scalar.cmpi .sgt c32_i32_166 c0_i32_169
  let v249 : BitVec 32 := Scalar.extui v248
  let c0_i32_170 : BitVec 32 := 0#32
  let v250 : BitVec 1 := Scalar.cmpi .slt c32_i32_166 c0_i32_170
  let v251 : BitVec 32 := Scalar.extui v250
  let v252 : BitVec 32 := Scalar.subi v249 v251
  let v253 : BitVec 1 := Scalar.cmpi .ne v247 v252
  let v254 : BitVec 32 := Scalar.remsi v241 c32_i32_166
  let c0_i32_171 : BitVec 32 := 0#32
  let v255 : BitVec 1 := Scalar.cmpi .ne v254 c0_i32_171
  let v256 : BitVec 1 := Scalar.andi v253 v255
  let v242 : BitVec 32 := Scalar.divsi v241 c32_i32_166
  let c1_i32_172 : BitVec 32 := 1#32
  let v257 : BitVec 32 := Scalar.subi v242 c1_i32_172
  let v258 : BitVec 32 := Scalar.select v256 v257 v242
  let c8_i32 : BitVec 32 := 8#32
  let v269 : BitVec 32 := Scalar.muli v258 c8_i32
  let c32_i32_173 : BitVec 32 := 32#32
  let c0_i32_174 : BitVec 32 := 0#32
  let v259 : BitVec 1 := Scalar.cmpi .eq c32_i32_173 c0_i32_174
  let c1_i32_175 : BitVec 32 := 1#32
  let v260 : BitVec 32 := Scalar.select v259 c1_i32_175 c32_i32_173
  let v261 : BitVec 32 := Scalar.remsi v241 v260
  let c0_i32_177 : BitVec 32 := 0#32
  let v263 : BitVec 1 := Scalar.cmpi .slt v261 c0_i32_177
  let c0_i32_178 : BitVec 32 := 0#32
  let v264 : BitVec 1 := Scalar.cmpi .slt v260 c0_i32_178
  let v265 : BitVec 1 := Scalar.xori v263 v264
  let c0_i32_176 : BitVec 32 := 0#32
  let v262 : BitVec 1 := Scalar.cmpi .ne v261 c0_i32_176
  let v266 : BitVec 1 := Scalar.andi v265 v262
  let v267 : BitVec 32 := Scalar.addi v261 v260
  let v268 : BitVec 32 := Scalar.select v266 v267 v261
  let c0_i32_183 : BitVec 32 := 0#32
  let c0_i32_184 : BitVec 32 := 0#32
  ![v231.toNat, v269.toNat, v268.toNat, 0, 0]
@[reducible] def k0_t9_loop : Scf.Loop 32 :=
  let c0_i32_260 : BitVec 32 := 0#32
  let c64_i32_261 : BitVec 32 := 64#32
  let v358 : BitVec 32 := Scalar.addi c0_i32_260 c64_i32_261
  let c1_i32_262 : BitVec 32 := 1#32
  ⟨c0_i32_260, v358, c1_i32_262⟩

def k0_chk57 (v609 : IVec S16 32) (v612 : IVec S16 32) (v614 : IVec S16 32) : Prop :=
  (∀ a x, ((![v609, v612, v614] : Fin 3 → IVec S16 32) a x).toNat < S2x64x64.size a)
instance k0_chk57.dec : ∀ (v609 : IVec S16 32) (v612 : IVec S16 32) (v614 : IVec S16 32), Decidable (k0_chk57 v609 v612 v614) := fun v609 v612 v614 => decidable_of_iff' _ (Iff.of_eq (k0_chk57.eq_1 v609 v612 v614))
theorem k0_idx57_inb : ∀ (v609 : IVec S16 32) (v612 : IVec S16 32) (v614 : IVec S16 32) (k0_hw57 : k0_chk57 v609 v612 v614), ∀ a x, ((![v609, v612, v614] : Fin 3 → IVec S16 32) a x).toNat < S2x64x64.size a := fun v609 v612 v614 k0_hw57 => k0_hw57
def k0_off66 (k0_t9 : Fin k0_t9_loop.trips) : Fin 4 → Nat :=
  let c1_i32_492 : BitVec 32 := 1#32
  let v618 : Index := Scalar.indexCast c1_i32_492
  let c0_i32_493 : BitVec 32 := 0#32
  let v619 : Index := Scalar.indexCast c0_i32_493
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v620 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v621 : Index := Scalar.indexCast v603
  ![1, 0, v620.toNat, v621.toNat]

def k0_chk58 (v623 : IVec S16 32) (v626 : IVec S16 32) (v628 : IVec S16 32) : Prop :=
  (∀ a x, ((![v623, v626, v628] : Fin 3 → IVec S16 32) a x).toNat < S2x64x64.size a)
instance k0_chk58.dec : ∀ (v623 : IVec S16 32) (v626 : IVec S16 32) (v628 : IVec S16 32), Decidable (k0_chk58 v623 v626 v628) := fun v623 v626 v628 => decidable_of_iff' _ (Iff.of_eq (k0_chk58.eq_1 v623 v626 v628))
theorem k0_idx58_inb : ∀ (v623 : IVec S16 32) (v626 : IVec S16 32) (v628 : IVec S16 32) (k0_hw58 : k0_chk58 v623 v626 v628), ∀ a x, ((![v623, v626, v628] : Fin 3 → IVec S16 32) a x).toNat < S2x64x64.size a := fun v623 v626 v628 k0_hw58 => k0_hw58
def k0_off67 (k0_t9 : Fin k0_t9_loop.trips) : Fin 4 → Nat :=
  let c1_i32_501 : BitVec 32 := 1#32
  let v632 : Index := Scalar.indexCast c1_i32_501
  let c1_i32_502 : BitVec 32 := 1#32
  let v633 : Index := Scalar.indexCast c1_i32_502
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v634 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v635 : Index := Scalar.indexCast v603
  ![1, 1, v634.toNat, v635.toNat]

def k0_chk59 (v637 : IVec S16 32) (v640 : IVec S16 32) (v642 : IVec S16 32) : Prop :=
  (∀ a x, ((![v637, v640, v642] : Fin 3 → IVec S16 32) a x).toNat < S2x64x64.size a)
instance k0_chk59.dec : ∀ (v637 : IVec S16 32) (v640 : IVec S16 32) (v642 : IVec S16 32), Decidable (k0_chk59 v637 v640 v642) := fun v637 v640 v642 => decidable_of_iff' _ (Iff.of_eq (k0_chk59.eq_1 v637 v640 v642))
theorem k0_idx59_inb : ∀ (v637 : IVec S16 32) (v640 : IVec S16 32) (v642 : IVec S16 32) (k0_hw59 : k0_chk59 v637 v640 v642), ∀ a x, ((![v637, v640, v642] : Fin 3 → IVec S16 32) a x).toNat < S2x64x64.size a := fun v637 v640 v642 k0_hw59 => k0_hw59
def k0_off68 (k0_t9 : Fin k0_t9_loop.trips) : Fin 4 → Nat :=
  let c1_i32_510 : BitVec 32 := 1#32
  let v646 : Index := Scalar.indexCast c1_i32_510
  let c2_i32_511 : BitVec 32 := 2#32
  let v647 : Index := Scalar.indexCast c2_i32_511
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v648 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v649 : Index := Scalar.indexCast v603
  ![1, 2, v648.toNat, v649.toNat]

def k0_chk60 (v651 : IVec S16 32) (v654 : IVec S16 32) (v656 : IVec S16 32) : Prop :=
  (∀ a x, ((![v651, v654, v656] : Fin 3 → IVec S16 32) a x).toNat < S2x64x64.size a)
instance k0_chk60.dec : ∀ (v651 : IVec S16 32) (v654 : IVec S16 32) (v656 : IVec S16 32), Decidable (k0_chk60 v651 v654 v656) := fun v651 v654 v656 => decidable_of_iff' _ (Iff.of_eq (k0_chk60.eq_1 v651 v654 v656))
theorem k0_idx60_inb : ∀ (v651 : IVec S16 32) (v654 : IVec S16 32) (v656 : IVec S16 32) (k0_hw60 : k0_chk60 v651 v654 v656), ∀ a x, ((![v651, v654, v656] : Fin 3 → IVec S16 32) a x).toNat < S2x64x64.size a := fun v651 v654 v656 k0_hw60 => k0_hw60
def k0_off69 (k0_t9 : Fin k0_t9_loop.trips) : Fin 4 → Nat :=
  let c1_i32_519 : BitVec 32 := 1#32
  let v660 : Index := Scalar.indexCast c1_i32_519
  let c3_i32 : BitVec 32 := 3#32
  let v661 : Index := Scalar.indexCast c3_i32
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v662 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v663 : Index := Scalar.indexCast v603
  ![1, 3, v662.toNat, v663.toNat]

def k0_chk61 (v665 : IVec S16 32) (v668 : IVec S16 32) (v670 : IVec S16 32) : Prop :=
  (∀ a x, ((![v665, v668, v670] : Fin 3 → IVec S16 32) a x).toNat < S2x64x64.size a)
instance k0_chk61.dec : ∀ (v665 : IVec S16 32) (v668 : IVec S16 32) (v670 : IVec S16 32), Decidable (k0_chk61 v665 v668 v670) := fun v665 v668 v670 => decidable_of_iff' _ (Iff.of_eq (k0_chk61.eq_1 v665 v668 v670))
theorem k0_idx61_inb : ∀ (v665 : IVec S16 32) (v668 : IVec S16 32) (v670 : IVec S16 32) (k0_hw61 : k0_chk61 v665 v668 v670), ∀ a x, ((![v665, v668, v670] : Fin 3 → IVec S16 32) a x).toNat < S2x64x64.size a := fun v665 v668 v670 k0_hw61 => k0_hw61
def k0_off70 (k0_t9 : Fin k0_t9_loop.trips) : Fin 4 → Nat :=
  let c1_i32_527 : BitVec 32 := 1#32
  let v674 : Index := Scalar.indexCast c1_i32_527
  let c4_i32 : BitVec 32 := 4#32
  let v675 : Index := Scalar.indexCast c4_i32
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v676 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v677 : Index := Scalar.indexCast v603
  ![1, 4, v676.toNat, v677.toNat]

def k0_chk62 (v679 : IVec S16 32) (v682 : IVec S16 32) (v684 : IVec S16 32) : Prop :=
  (∀ a x, ((![v679, v682, v684] : Fin 3 → IVec S16 32) a x).toNat < S2x64x64.size a)
instance k0_chk62.dec : ∀ (v679 : IVec S16 32) (v682 : IVec S16 32) (v684 : IVec S16 32), Decidable (k0_chk62 v679 v682 v684) := fun v679 v682 v684 => decidable_of_iff' _ (Iff.of_eq (k0_chk62.eq_1 v679 v682 v684))
theorem k0_idx62_inb : ∀ (v679 : IVec S16 32) (v682 : IVec S16 32) (v684 : IVec S16 32) (k0_hw62 : k0_chk62 v679 v682 v684), ∀ a x, ((![v679, v682, v684] : Fin 3 → IVec S16 32) a x).toNat < S2x64x64.size a := fun v679 v682 v684 k0_hw62 => k0_hw62
def k0_off71 (k0_t9 : Fin k0_t9_loop.trips) : Fin 4 → Nat :=
  let c1_i32_535 : BitVec 32 := 1#32
  let v688 : Index := Scalar.indexCast c1_i32_535
  let c5_i32 : BitVec 32 := 5#32
  let v689 : Index := Scalar.indexCast c5_i32
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v690 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v691 : Index := Scalar.indexCast v603
  ![1, 5, v690.toNat, v691.toNat]

def k0_chk63 (v693 : IVec S16 32) (v696 : IVec S16 32) (v698 : IVec S16 32) : Prop :=
  (∀ a x, ((![v693, v696, v698] : Fin 3 → IVec S16 32) a x).toNat < S2x64x64.size a)
instance k0_chk63.dec : ∀ (v693 : IVec S16 32) (v696 : IVec S16 32) (v698 : IVec S16 32), Decidable (k0_chk63 v693 v696 v698) := fun v693 v696 v698 => decidable_of_iff' _ (Iff.of_eq (k0_chk63.eq_1 v693 v696 v698))
theorem k0_idx63_inb : ∀ (v693 : IVec S16 32) (v696 : IVec S16 32) (v698 : IVec S16 32) (k0_hw63 : k0_chk63 v693 v696 v698), ∀ a x, ((![v693, v696, v698] : Fin 3 → IVec S16 32) a x).toNat < S2x64x64.size a := fun v693 v696 v698 k0_hw63 => k0_hw63
def k0_off72 (k0_t9 : Fin k0_t9_loop.trips) : Fin 4 → Nat :=
  let c1_i32_543 : BitVec 32 := 1#32
  let v702 : Index := Scalar.indexCast c1_i32_543
  let c6_i32 : BitVec 32 := 6#32
  let v703 : Index := Scalar.indexCast c6_i32
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v704 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v705 : Index := Scalar.indexCast v603
  ![1, 6, v704.toNat, v705.toNat]

def k0_chk64 (v707 : IVec S16 32) (v710 : IVec S16 32) (v712 : IVec S16 32) : Prop :=
  (∀ a x, ((![v707, v710, v712] : Fin 3 → IVec S16 32) a x).toNat < S2x64x64.size a)
instance k0_chk64.dec : ∀ (v707 : IVec S16 32) (v710 : IVec S16 32) (v712 : IVec S16 32), Decidable (k0_chk64 v707 v710 v712) := fun v707 v710 v712 => decidable_of_iff' _ (Iff.of_eq (k0_chk64.eq_1 v707 v710 v712))
theorem k0_idx64_inb : ∀ (v707 : IVec S16 32) (v710 : IVec S16 32) (v712 : IVec S16 32) (k0_hw64 : k0_chk64 v707 v710 v712), ∀ a x, ((![v707, v710, v712] : Fin 3 → IVec S16 32) a x).toNat < S2x64x64.size a := fun v707 v710 v712 k0_hw64 => k0_hw64
def k0_off73 (k0_t9 : Fin k0_t9_loop.trips) : Fin 4 → Nat :=
  let c1_i32_551 : BitVec 32 := 1#32
  let v716 : Index := Scalar.indexCast c1_i32_551
  let c7_i32 : BitVec 32 := 7#32
  let v717 : Index := Scalar.indexCast c7_i32
  let c0_i32_260 : BitVec 32 := 0#32
  let c1_i32_262 : BitVec 32 := 1#32
  let arg11 : BitVec 32 := Scf.iv c0_i32_260 c1_i32_262 k0_t9
  let c1_i32_481 : BitVec 32 := 1#32
  let v601 : BitVec 32 := Scalar.shrsi arg11 c1_i32_481
  let v718 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v719 : Index := Scalar.indexCast v603
  ![1, 7, v718.toNat, v719.toNat]
@[reducible] def k0_t10_loop : Scf.Loop 32 :=
  let c0_i32_334 : BitVec 32 := 0#32
  let c64_i32_335 : BitVec 32 := 64#32
  let v439 : BitVec 32 := Scalar.addi c0_i32_334 c64_i32_335
  let c1_i32_336 : BitVec 32 := 1#32
  ⟨c0_i32_334, v439, c1_i32_336⟩

def k0_chk65 (v609 : IVec S16 32) (v612 : IVec S16 32) (v614 : IVec S16 32) : Prop :=
  (∀ a x, ((![v609, v612, v614] : Fin 3 → IVec S16 32) a x).toNat < S2x64x64.size a)
instance k0_chk65.dec : ∀ (v609 : IVec S16 32) (v612 : IVec S16 32) (v614 : IVec S16 32), Decidable (k0_chk65 v609 v612 v614) := fun v609 v612 v614 => decidable_of_iff' _ (Iff.of_eq (k0_chk65.eq_1 v609 v612 v614))
theorem k0_idx65_inb : ∀ (v609 : IVec S16 32) (v612 : IVec S16 32) (v614 : IVec S16 32) (k0_hw65 : k0_chk65 v609 v612 v614), ∀ a x, ((![v609, v612, v614] : Fin 3 → IVec S16 32) a x).toNat < S2x64x64.size a := fun v609 v612 v614 k0_hw65 => k0_hw65
def k0_off74 (k0_t10 : Fin k0_t10_loop.trips) : Fin 4 → Nat :=
  let c0_i32_492 : BitVec 32 := 0#32
  let v618 : Index := Scalar.indexCast c0_i32_492
  let c0_i32_493 : BitVec 32 := 0#32
  let v619 : Index := Scalar.indexCast c0_i32_493
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v620 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v621 : Index := Scalar.indexCast v603
  ![0, 0, v620.toNat, v621.toNat]

def k0_chk66 (v623 : IVec S16 32) (v626 : IVec S16 32) (v628 : IVec S16 32) : Prop :=
  (∀ a x, ((![v623, v626, v628] : Fin 3 → IVec S16 32) a x).toNat < S2x64x64.size a)
instance k0_chk66.dec : ∀ (v623 : IVec S16 32) (v626 : IVec S16 32) (v628 : IVec S16 32), Decidable (k0_chk66 v623 v626 v628) := fun v623 v626 v628 => decidable_of_iff' _ (Iff.of_eq (k0_chk66.eq_1 v623 v626 v628))
theorem k0_idx66_inb : ∀ (v623 : IVec S16 32) (v626 : IVec S16 32) (v628 : IVec S16 32) (k0_hw66 : k0_chk66 v623 v626 v628), ∀ a x, ((![v623, v626, v628] : Fin 3 → IVec S16 32) a x).toNat < S2x64x64.size a := fun v623 v626 v628 k0_hw66 => k0_hw66
def k0_off75 (k0_t10 : Fin k0_t10_loop.trips) : Fin 4 → Nat :=
  let c0_i32_501 : BitVec 32 := 0#32
  let v632 : Index := Scalar.indexCast c0_i32_501
  let c1_i32_502 : BitVec 32 := 1#32
  let v633 : Index := Scalar.indexCast c1_i32_502
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v634 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v635 : Index := Scalar.indexCast v603
  ![0, 1, v634.toNat, v635.toNat]

def k0_chk67 (v637 : IVec S16 32) (v640 : IVec S16 32) (v642 : IVec S16 32) : Prop :=
  (∀ a x, ((![v637, v640, v642] : Fin 3 → IVec S16 32) a x).toNat < S2x64x64.size a)
instance k0_chk67.dec : ∀ (v637 : IVec S16 32) (v640 : IVec S16 32) (v642 : IVec S16 32), Decidable (k0_chk67 v637 v640 v642) := fun v637 v640 v642 => decidable_of_iff' _ (Iff.of_eq (k0_chk67.eq_1 v637 v640 v642))
theorem k0_idx67_inb : ∀ (v637 : IVec S16 32) (v640 : IVec S16 32) (v642 : IVec S16 32) (k0_hw67 : k0_chk67 v637 v640 v642), ∀ a x, ((![v637, v640, v642] : Fin 3 → IVec S16 32) a x).toNat < S2x64x64.size a := fun v637 v640 v642 k0_hw67 => k0_hw67
def k0_off76 (k0_t10 : Fin k0_t10_loop.trips) : Fin 4 → Nat :=
  let c0_i32_510 : BitVec 32 := 0#32
  let v646 : Index := Scalar.indexCast c0_i32_510
  let c2_i32_511 : BitVec 32 := 2#32
  let v647 : Index := Scalar.indexCast c2_i32_511
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v648 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v649 : Index := Scalar.indexCast v603
  ![0, 2, v648.toNat, v649.toNat]

def k0_chk68 (v651 : IVec S16 32) (v654 : IVec S16 32) (v656 : IVec S16 32) : Prop :=
  (∀ a x, ((![v651, v654, v656] : Fin 3 → IVec S16 32) a x).toNat < S2x64x64.size a)
instance k0_chk68.dec : ∀ (v651 : IVec S16 32) (v654 : IVec S16 32) (v656 : IVec S16 32), Decidable (k0_chk68 v651 v654 v656) := fun v651 v654 v656 => decidable_of_iff' _ (Iff.of_eq (k0_chk68.eq_1 v651 v654 v656))
theorem k0_idx68_inb : ∀ (v651 : IVec S16 32) (v654 : IVec S16 32) (v656 : IVec S16 32) (k0_hw68 : k0_chk68 v651 v654 v656), ∀ a x, ((![v651, v654, v656] : Fin 3 → IVec S16 32) a x).toNat < S2x64x64.size a := fun v651 v654 v656 k0_hw68 => k0_hw68
def k0_off77 (k0_t10 : Fin k0_t10_loop.trips) : Fin 4 → Nat :=
  let c0_i32_519 : BitVec 32 := 0#32
  let v660 : Index := Scalar.indexCast c0_i32_519
  let c3_i32 : BitVec 32 := 3#32
  let v661 : Index := Scalar.indexCast c3_i32
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v662 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v663 : Index := Scalar.indexCast v603
  ![0, 3, v662.toNat, v663.toNat]

def k0_chk69 (v665 : IVec S16 32) (v668 : IVec S16 32) (v670 : IVec S16 32) : Prop :=
  (∀ a x, ((![v665, v668, v670] : Fin 3 → IVec S16 32) a x).toNat < S2x64x64.size a)
instance k0_chk69.dec : ∀ (v665 : IVec S16 32) (v668 : IVec S16 32) (v670 : IVec S16 32), Decidable (k0_chk69 v665 v668 v670) := fun v665 v668 v670 => decidable_of_iff' _ (Iff.of_eq (k0_chk69.eq_1 v665 v668 v670))
theorem k0_idx69_inb : ∀ (v665 : IVec S16 32) (v668 : IVec S16 32) (v670 : IVec S16 32) (k0_hw69 : k0_chk69 v665 v668 v670), ∀ a x, ((![v665, v668, v670] : Fin 3 → IVec S16 32) a x).toNat < S2x64x64.size a := fun v665 v668 v670 k0_hw69 => k0_hw69
def k0_off78 (k0_t10 : Fin k0_t10_loop.trips) : Fin 4 → Nat :=
  let c0_i32_527 : BitVec 32 := 0#32
  let v674 : Index := Scalar.indexCast c0_i32_527
  let c4_i32 : BitVec 32 := 4#32
  let v675 : Index := Scalar.indexCast c4_i32
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v676 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v677 : Index := Scalar.indexCast v603
  ![0, 4, v676.toNat, v677.toNat]

def k0_chk70 (v679 : IVec S16 32) (v682 : IVec S16 32) (v684 : IVec S16 32) : Prop :=
  (∀ a x, ((![v679, v682, v684] : Fin 3 → IVec S16 32) a x).toNat < S2x64x64.size a)
instance k0_chk70.dec : ∀ (v679 : IVec S16 32) (v682 : IVec S16 32) (v684 : IVec S16 32), Decidable (k0_chk70 v679 v682 v684) := fun v679 v682 v684 => decidable_of_iff' _ (Iff.of_eq (k0_chk70.eq_1 v679 v682 v684))
theorem k0_idx70_inb : ∀ (v679 : IVec S16 32) (v682 : IVec S16 32) (v684 : IVec S16 32) (k0_hw70 : k0_chk70 v679 v682 v684), ∀ a x, ((![v679, v682, v684] : Fin 3 → IVec S16 32) a x).toNat < S2x64x64.size a := fun v679 v682 v684 k0_hw70 => k0_hw70
def k0_off79 (k0_t10 : Fin k0_t10_loop.trips) : Fin 4 → Nat :=
  let c0_i32_535 : BitVec 32 := 0#32
  let v688 : Index := Scalar.indexCast c0_i32_535
  let c5_i32 : BitVec 32 := 5#32
  let v689 : Index := Scalar.indexCast c5_i32
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v690 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v691 : Index := Scalar.indexCast v603
  ![0, 5, v690.toNat, v691.toNat]

def k0_chk71 (v693 : IVec S16 32) (v696 : IVec S16 32) (v698 : IVec S16 32) : Prop :=
  (∀ a x, ((![v693, v696, v698] : Fin 3 → IVec S16 32) a x).toNat < S2x64x64.size a)
instance k0_chk71.dec : ∀ (v693 : IVec S16 32) (v696 : IVec S16 32) (v698 : IVec S16 32), Decidable (k0_chk71 v693 v696 v698) := fun v693 v696 v698 => decidable_of_iff' _ (Iff.of_eq (k0_chk71.eq_1 v693 v696 v698))
theorem k0_idx71_inb : ∀ (v693 : IVec S16 32) (v696 : IVec S16 32) (v698 : IVec S16 32) (k0_hw71 : k0_chk71 v693 v696 v698), ∀ a x, ((![v693, v696, v698] : Fin 3 → IVec S16 32) a x).toNat < S2x64x64.size a := fun v693 v696 v698 k0_hw71 => k0_hw71
def k0_off80 (k0_t10 : Fin k0_t10_loop.trips) : Fin 4 → Nat :=
  let c0_i32_543 : BitVec 32 := 0#32
  let v702 : Index := Scalar.indexCast c0_i32_543
  let c6_i32 : BitVec 32 := 6#32
  let v703 : Index := Scalar.indexCast c6_i32
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v704 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v705 : Index := Scalar.indexCast v603
  ![0, 6, v704.toNat, v705.toNat]

def k0_chk72 (v707 : IVec S16 32) (v710 : IVec S16 32) (v712 : IVec S16 32) : Prop :=
  (∀ a x, ((![v707, v710, v712] : Fin 3 → IVec S16 32) a x).toNat < S2x64x64.size a)
instance k0_chk72.dec : ∀ (v707 : IVec S16 32) (v710 : IVec S16 32) (v712 : IVec S16 32), Decidable (k0_chk72 v707 v710 v712) := fun v707 v710 v712 => decidable_of_iff' _ (Iff.of_eq (k0_chk72.eq_1 v707 v710 v712))
theorem k0_idx72_inb : ∀ (v707 : IVec S16 32) (v710 : IVec S16 32) (v712 : IVec S16 32) (k0_hw72 : k0_chk72 v707 v710 v712), ∀ a x, ((![v707, v710, v712] : Fin 3 → IVec S16 32) a x).toNat < S2x64x64.size a := fun v707 v710 v712 k0_hw72 => k0_hw72
def k0_off81 (k0_t10 : Fin k0_t10_loop.trips) : Fin 4 → Nat :=
  let c0_i32_551 : BitVec 32 := 0#32
  let v716 : Index := Scalar.indexCast c0_i32_551
  let c7_i32 : BitVec 32 := 7#32
  let v717 : Index := Scalar.indexCast c7_i32
  let c0_i32_334 : BitVec 32 := 0#32
  let c1_i32_336 : BitVec 32 := 1#32
  let arg11 : BitVec 32 := Scf.iv c0_i32_334 c1_i32_336 k0_t10
  let c1_i32_481 : BitVec 32 := 1#32
  let v601 : BitVec 32 := Scalar.shrsi arg11 c1_i32_481
  let v718 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v719 : Index := Scalar.indexCast v603
  ![0, 7, v718.toNat, v719.toNat]
@[reducible] def k0_t11_loop : Scf.Loop 32 :=
  let c0_i32_408 : BitVec 32 := 0#32
  let c64_i32_409 : BitVec 32 := 64#32
  let v520 : BitVec 32 := Scalar.addi c0_i32_408 c64_i32_409
  let c1_i32_410 : BitVec 32 := 1#32
  ⟨c0_i32_408, v520, c1_i32_410⟩

def k0_chk73 (v609 : IVec S16 32) (v612 : IVec S16 32) (v614 : IVec S16 32) : Prop :=
  (∀ a x, ((![v609, v612, v614] : Fin 3 → IVec S16 32) a x).toNat < S2x64x64.size a)
instance k0_chk73.dec : ∀ (v609 : IVec S16 32) (v612 : IVec S16 32) (v614 : IVec S16 32), Decidable (k0_chk73 v609 v612 v614) := fun v609 v612 v614 => decidable_of_iff' _ (Iff.of_eq (k0_chk73.eq_1 v609 v612 v614))
theorem k0_idx73_inb : ∀ (v609 : IVec S16 32) (v612 : IVec S16 32) (v614 : IVec S16 32) (k0_hw73 : k0_chk73 v609 v612 v614), ∀ a x, ((![v609, v612, v614] : Fin 3 → IVec S16 32) a x).toNat < S2x64x64.size a := fun v609 v612 v614 k0_hw73 => k0_hw73
def k0_off82 (k0_t11 : Fin k0_t11_loop.trips) : Fin 4 → Nat :=
  let c1_i32_492 : BitVec 32 := 1#32
  let v618 : Index := Scalar.indexCast c1_i32_492
  let c0_i32_493 : BitVec 32 := 0#32
  let v619 : Index := Scalar.indexCast c0_i32_493
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v620 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v621 : Index := Scalar.indexCast v603
  ![1, 0, v620.toNat, v621.toNat]

def k0_chk74 (v623 : IVec S16 32) (v626 : IVec S16 32) (v628 : IVec S16 32) : Prop :=
  (∀ a x, ((![v623, v626, v628] : Fin 3 → IVec S16 32) a x).toNat < S2x64x64.size a)
instance k0_chk74.dec : ∀ (v623 : IVec S16 32) (v626 : IVec S16 32) (v628 : IVec S16 32), Decidable (k0_chk74 v623 v626 v628) := fun v623 v626 v628 => decidable_of_iff' _ (Iff.of_eq (k0_chk74.eq_1 v623 v626 v628))
theorem k0_idx74_inb : ∀ (v623 : IVec S16 32) (v626 : IVec S16 32) (v628 : IVec S16 32) (k0_hw74 : k0_chk74 v623 v626 v628), ∀ a x, ((![v623, v626, v628] : Fin 3 → IVec S16 32) a x).toNat < S2x64x64.size a := fun v623 v626 v628 k0_hw74 => k0_hw74
def k0_off83 (k0_t11 : Fin k0_t11_loop.trips) : Fin 4 → Nat :=
  let c1_i32_501 : BitVec 32 := 1#32
  let v632 : Index := Scalar.indexCast c1_i32_501
  let c1_i32_502 : BitVec 32 := 1#32
  let v633 : Index := Scalar.indexCast c1_i32_502
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v634 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v635 : Index := Scalar.indexCast v603
  ![1, 1, v634.toNat, v635.toNat]

def k0_chk75 (v637 : IVec S16 32) (v640 : IVec S16 32) (v642 : IVec S16 32) : Prop :=
  (∀ a x, ((![v637, v640, v642] : Fin 3 → IVec S16 32) a x).toNat < S2x64x64.size a)
instance k0_chk75.dec : ∀ (v637 : IVec S16 32) (v640 : IVec S16 32) (v642 : IVec S16 32), Decidable (k0_chk75 v637 v640 v642) := fun v637 v640 v642 => decidable_of_iff' _ (Iff.of_eq (k0_chk75.eq_1 v637 v640 v642))
theorem k0_idx75_inb : ∀ (v637 : IVec S16 32) (v640 : IVec S16 32) (v642 : IVec S16 32) (k0_hw75 : k0_chk75 v637 v640 v642), ∀ a x, ((![v637, v640, v642] : Fin 3 → IVec S16 32) a x).toNat < S2x64x64.size a := fun v637 v640 v642 k0_hw75 => k0_hw75
def k0_off84 (k0_t11 : Fin k0_t11_loop.trips) : Fin 4 → Nat :=
  let c1_i32_510 : BitVec 32 := 1#32
  let v646 : Index := Scalar.indexCast c1_i32_510
  let c2_i32_511 : BitVec 32 := 2#32
  let v647 : Index := Scalar.indexCast c2_i32_511
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v648 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v649 : Index := Scalar.indexCast v603
  ![1, 2, v648.toNat, v649.toNat]

def k0_chk76 (v651 : IVec S16 32) (v654 : IVec S16 32) (v656 : IVec S16 32) : Prop :=
  (∀ a x, ((![v651, v654, v656] : Fin 3 → IVec S16 32) a x).toNat < S2x64x64.size a)
instance k0_chk76.dec : ∀ (v651 : IVec S16 32) (v654 : IVec S16 32) (v656 : IVec S16 32), Decidable (k0_chk76 v651 v654 v656) := fun v651 v654 v656 => decidable_of_iff' _ (Iff.of_eq (k0_chk76.eq_1 v651 v654 v656))
theorem k0_idx76_inb : ∀ (v651 : IVec S16 32) (v654 : IVec S16 32) (v656 : IVec S16 32) (k0_hw76 : k0_chk76 v651 v654 v656), ∀ a x, ((![v651, v654, v656] : Fin 3 → IVec S16 32) a x).toNat < S2x64x64.size a := fun v651 v654 v656 k0_hw76 => k0_hw76
def k0_off85 (k0_t11 : Fin k0_t11_loop.trips) : Fin 4 → Nat :=
  let c1_i32_519 : BitVec 32 := 1#32
  let v660 : Index := Scalar.indexCast c1_i32_519
  let c3_i32 : BitVec 32 := 3#32
  let v661 : Index := Scalar.indexCast c3_i32
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v662 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v663 : Index := Scalar.indexCast v603
  ![1, 3, v662.toNat, v663.toNat]

def k0_chk77 (v665 : IVec S16 32) (v668 : IVec S16 32) (v670 : IVec S16 32) : Prop :=
  (∀ a x, ((![v665, v668, v670] : Fin 3 → IVec S16 32) a x).toNat < S2x64x64.size a)
instance k0_chk77.dec : ∀ (v665 : IVec S16 32) (v668 : IVec S16 32) (v670 : IVec S16 32), Decidable (k0_chk77 v665 v668 v670) := fun v665 v668 v670 => decidable_of_iff' _ (Iff.of_eq (k0_chk77.eq_1 v665 v668 v670))
theorem k0_idx77_inb : ∀ (v665 : IVec S16 32) (v668 : IVec S16 32) (v670 : IVec S16 32) (k0_hw77 : k0_chk77 v665 v668 v670), ∀ a x, ((![v665, v668, v670] : Fin 3 → IVec S16 32) a x).toNat < S2x64x64.size a := fun v665 v668 v670 k0_hw77 => k0_hw77
def k0_off86 (k0_t11 : Fin k0_t11_loop.trips) : Fin 4 → Nat :=
  let c1_i32_527 : BitVec 32 := 1#32
  let v674 : Index := Scalar.indexCast c1_i32_527
  let c4_i32 : BitVec 32 := 4#32
  let v675 : Index := Scalar.indexCast c4_i32
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v676 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v677 : Index := Scalar.indexCast v603
  ![1, 4, v676.toNat, v677.toNat]

def k0_chk78 (v679 : IVec S16 32) (v682 : IVec S16 32) (v684 : IVec S16 32) : Prop :=
  (∀ a x, ((![v679, v682, v684] : Fin 3 → IVec S16 32) a x).toNat < S2x64x64.size a)
instance k0_chk78.dec : ∀ (v679 : IVec S16 32) (v682 : IVec S16 32) (v684 : IVec S16 32), Decidable (k0_chk78 v679 v682 v684) := fun v679 v682 v684 => decidable_of_iff' _ (Iff.of_eq (k0_chk78.eq_1 v679 v682 v684))
theorem k0_idx78_inb : ∀ (v679 : IVec S16 32) (v682 : IVec S16 32) (v684 : IVec S16 32) (k0_hw78 : k0_chk78 v679 v682 v684), ∀ a x, ((![v679, v682, v684] : Fin 3 → IVec S16 32) a x).toNat < S2x64x64.size a := fun v679 v682 v684 k0_hw78 => k0_hw78
def k0_off87 (k0_t11 : Fin k0_t11_loop.trips) : Fin 4 → Nat :=
  let c1_i32_535 : BitVec 32 := 1#32
  let v688 : Index := Scalar.indexCast c1_i32_535
  let c5_i32 : BitVec 32 := 5#32
  let v689 : Index := Scalar.indexCast c5_i32
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v690 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v691 : Index := Scalar.indexCast v603
  ![1, 5, v690.toNat, v691.toNat]

def k0_chk79 (v693 : IVec S16 32) (v696 : IVec S16 32) (v698 : IVec S16 32) : Prop :=
  (∀ a x, ((![v693, v696, v698] : Fin 3 → IVec S16 32) a x).toNat < S2x64x64.size a)
instance k0_chk79.dec : ∀ (v693 : IVec S16 32) (v696 : IVec S16 32) (v698 : IVec S16 32), Decidable (k0_chk79 v693 v696 v698) := fun v693 v696 v698 => decidable_of_iff' _ (Iff.of_eq (k0_chk79.eq_1 v693 v696 v698))
theorem k0_idx79_inb : ∀ (v693 : IVec S16 32) (v696 : IVec S16 32) (v698 : IVec S16 32) (k0_hw79 : k0_chk79 v693 v696 v698), ∀ a x, ((![v693, v696, v698] : Fin 3 → IVec S16 32) a x).toNat < S2x64x64.size a := fun v693 v696 v698 k0_hw79 => k0_hw79
def k0_off88 (k0_t11 : Fin k0_t11_loop.trips) : Fin 4 → Nat :=
  let c1_i32_543 : BitVec 32 := 1#32
  let v702 : Index := Scalar.indexCast c1_i32_543
  let c6_i32 : BitVec 32 := 6#32
  let v703 : Index := Scalar.indexCast c6_i32
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v704 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v705 : Index := Scalar.indexCast v603
  ![1, 6, v704.toNat, v705.toNat]

def k0_chk80 (v707 : IVec S16 32) (v710 : IVec S16 32) (v712 : IVec S16 32) : Prop :=
  (∀ a x, ((![v707, v710, v712] : Fin 3 → IVec S16 32) a x).toNat < S2x64x64.size a)
instance k0_chk80.dec : ∀ (v707 : IVec S16 32) (v710 : IVec S16 32) (v712 : IVec S16 32), Decidable (k0_chk80 v707 v710 v712) := fun v707 v710 v712 => decidable_of_iff' _ (Iff.of_eq (k0_chk80.eq_1 v707 v710 v712))
theorem k0_idx80_inb : ∀ (v707 : IVec S16 32) (v710 : IVec S16 32) (v712 : IVec S16 32) (k0_hw80 : k0_chk80 v707 v710 v712), ∀ a x, ((![v707, v710, v712] : Fin 3 → IVec S16 32) a x).toNat < S2x64x64.size a := fun v707 v710 v712 k0_hw80 => k0_hw80
def k0_off89 (k0_t11 : Fin k0_t11_loop.trips) : Fin 4 → Nat :=
  let c1_i32_551 : BitVec 32 := 1#32
  let v716 : Index := Scalar.indexCast c1_i32_551
  let c7_i32 : BitVec 32 := 7#32
  let v717 : Index := Scalar.indexCast c7_i32
  let c0_i32_408 : BitVec 32 := 0#32
  let c1_i32_410 : BitVec 32 := 1#32
  let arg11 : BitVec 32 := Scf.iv c0_i32_408 c1_i32_410 k0_t11
  let c1_i32_481 : BitVec 32 := 1#32
  let v601 : BitVec 32 := Scalar.shrsi arg11 c1_i32_481
  let v718 : Index := Scalar.indexCast v601
  let c1_i32_482 : BitVec 32 := 1#32
  let v602 : BitVec 32 := Scalar.andi arg11 c1_i32_482
  let c16_i32 : BitVec 32 := 16#32
  let v603 : BitVec 32 := Scalar.muli v602 c16_i32
  let v719 : Index := Scalar.indexCast v603
  ![1, 7, v718.toNat, v719.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  inb_S3x2x64x64_S1x2x64x64_0_0_0_0 : ∀ a, (![0, 0, 0, 0] : Fin 4 → Nat) a + S1x2x64x64.size a ≤ S3x2x64x64.size a
  squeezes_S1x2x64x64_S2x64x64 : S1x2x64x64.Squeezes S2x64x64
  squeezes_S1x1x2x64x64_S2x64x64 : S1x1x2x64x64.Squeezes S2x64x64
  inb_S3x2x64x64_S1x2x64x64_1_0_0_0 : ∀ a, (![1, 0, 0, 0] : Fin 4 → Nat) a + S1x2x64x64.size a ≤ S3x2x64x64.size a
  inb_S3x2x64x64_S1x2x64x64_2_0_0_0 : ∀ a, (![2, 0, 0, 0] : Fin 4 → Nat) a + S1x2x64x64.size a ≤ S3x2x64x64.size a
  inb_S2x32x64x64x64_S1x1x2x64x64_0_0_0_0_0 : ∀ a, (![0, 0, 0, 0, 0] : Fin 5 → Nat) a + S1x1x2x64x64.size a ≤ S2x32x64x64x64.size a
  inb_S2x8x32x32_S1x8x32x32_0_0_0_0 : ∀ a, (![0, 0, 0, 0] : Fin 4 → Nat) a + S1x8x32x32.size a ≤ S2x8x32x32.size a
  squeezes_S1x8x32x32_S8x32x32 : S1x8x32x32.Squeezes S8x32x32
  inb_S2x256x32x32x32_S1x8x1x32x32_0_0_0_0_0 : ∀ a, (![0, 0, 0, 0, 0] : Fin 5 → Nat) a + S1x8x1x32x32.size a ≤ S2x256x32x32x32.size a
  squeezes_S1x8x1x32x32_S8x32x32 : S1x8x1x32x32.Squeezes S8x32x32
  h_S2x64x64 : 0 < S2x64x64.numel
  h_S1x1x1x16 : 0 < S1x1x1x16.numel
  shapeCasts_S1x1x1x16_S16 : S1x1x1x16.ShapeCasts S16
  shapeCasts_S16_S1x1x1x16 : S16.ShapeCasts S1x1x1x16
  inb_S2x8x32x32_S1x8x32x32_1_0_0_0 : ∀ a, (![1, 0, 0, 0] : Fin 4 → Nat) a + S1x8x32x32.size a ≤ S2x8x32x32.size a
  hcc0_scratch2 : 0 + S_.numel ≤ 5
  hcc0_scratch3 : 1 + S_.numel ≤ 5
  hcc0_scratch4 : 2 + S_.numel ≤ 5
  hcc0_scratch5 : 3 + S_.numel ≤ 5
  hcc0_scratch6 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (k0_off1_at r)) a + S1x1x2x64x64.size a ≤ S2x32x64x64x64.size a
  k0_t1_ok : k0_t1_loop.OK
  k0_t2_ok : k0_t2_loop.OK
  k0_off2_inb : ∀ k0_t2 : Fin k0_t2_loop.trips, ∀ a, (k0_off2 k0_t2) a + S1x1x1x16.size a ≤ S2x8x32x32.size a
  k0_off3_inb : ∀ k0_t2 : Fin k0_t2_loop.trips, ∀ a, (k0_off3 k0_t2) a + S1x1x1x16.size a ≤ S2x8x32x32.size a
  k0_off4_inb : ∀ k0_t2 : Fin k0_t2_loop.trips, ∀ a, (k0_off4 k0_t2) a + S1x1x1x16.size a ≤ S2x8x32x32.size a
  k0_off5_inb : ∀ k0_t2 : Fin k0_t2_loop.trips, ∀ a, (k0_off5 k0_t2) a + S1x1x1x16.size a ≤ S2x8x32x32.size a
  k0_off6_inb : ∀ k0_t2 : Fin k0_t2_loop.trips, ∀ a, (k0_off6 k0_t2) a + S1x1x1x16.size a ≤ S2x8x32x32.size a
  k0_off7_inb : ∀ k0_t2 : Fin k0_t2_loop.trips, ∀ a, (k0_off7 k0_t2) a + S1x1x1x16.size a ≤ S2x8x32x32.size a
  k0_off8_inb : ∀ k0_t2 : Fin k0_t2_loop.trips, ∀ a, (k0_off8 k0_t2) a + S1x1x1x16.size a ≤ S2x8x32x32.size a
  k0_off9_inb : ∀ k0_t2 : Fin k0_t2_loop.trips, ∀ a, (k0_off9 k0_t2) a + S1x1x1x16.size a ≤ S2x8x32x32.size a
  k0_off10_inb : ∀ (i : grid0.Coords) (k0_t1 : Fin k0_t1_loop.trips), ∀ (r : Fin 6), ∀ a, (k0_off10 i k0_t1 (BitVec.ofNat 32 r.val)) a + S1x8x1x32x32.size a ≤ S2x256x32x32x32.size a
  k0_off11_inb : ∀ (i : grid0.Coords) (k0_t1 : Fin k0_t1_loop.trips), ∀ (k0_h2 : k0_cond2 k0_t1 = 1#1), ∀ a, (k0_off11 i k0_t1) a + S1x1x2x64x64.size a ≤ S2x32x64x64x64.size a
  k0_t3_ok : k0_t3_loop.OK
  k0_off12_inb : ∀ k0_t3 : Fin k0_t3_loop.trips, ∀ a, (k0_off12 k0_t3) a + S1x1x1x16.size a ≤ S2x8x32x32.size a
  k0_off13_inb : ∀ k0_t3 : Fin k0_t3_loop.trips, ∀ a, (k0_off13 k0_t3) a + S1x1x1x16.size a ≤ S2x8x32x32.size a
  k0_off14_inb : ∀ k0_t3 : Fin k0_t3_loop.trips, ∀ a, (k0_off14 k0_t3) a + S1x1x1x16.size a ≤ S2x8x32x32.size a
  k0_off15_inb : ∀ k0_t3 : Fin k0_t3_loop.trips, ∀ a, (k0_off15 k0_t3) a + S1x1x1x16.size a ≤ S2x8x32x32.size a
  k0_off16_inb : ∀ k0_t3 : Fin k0_t3_loop.trips, ∀ a, (k0_off16 k0_t3) a + S1x1x1x16.size a ≤ S2x8x32x32.size a
  k0_off17_inb : ∀ k0_t3 : Fin k0_t3_loop.trips, ∀ a, (k0_off17 k0_t3) a + S1x1x1x16.size a ≤ S2x8x32x32.size a
  k0_off18_inb : ∀ k0_t3 : Fin k0_t3_loop.trips, ∀ a, (k0_off18 k0_t3) a + S1x1x1x16.size a ≤ S2x8x32x32.size a
  k0_off19_inb : ∀ k0_t3 : Fin k0_t3_loop.trips, ∀ a, (k0_off19 k0_t3) a + S1x1x1x16.size a ≤ S2x8x32x32.size a
  k0_off20_inb : ∀ (i : grid0.Coords) (k0_t1 : Fin k0_t1_loop.trips), ∀ (k0_h4 : k0_cond4 k0_t1 = 1#1), ∀ a, (k0_off20 i k0_t1) a + S1x1x2x64x64.size a ≤ S2x32x64x64x64.size a
  k0_t4_ok : k0_t4_loop.OK
  k0_off21_inb : ∀ k0_t4 : Fin k0_t4_loop.trips, ∀ a, (k0_off21 k0_t4) a + S1x1x1x16.size a ≤ S2x8x32x32.size a
  k0_off22_inb : ∀ k0_t4 : Fin k0_t4_loop.trips, ∀ a, (k0_off22 k0_t4) a + S1x1x1x16.size a ≤ S2x8x32x32.size a
  k0_off23_inb : ∀ k0_t4 : Fin k0_t4_loop.trips, ∀ a, (k0_off23 k0_t4) a + S1x1x1x16.size a ≤ S2x8x32x32.size a
  k0_off24_inb : ∀ k0_t4 : Fin k0_t4_loop.trips, ∀ a, (k0_off24 k0_t4) a + S1x1x1x16.size a ≤ S2x8x32x32.size a
  k0_off25_inb : ∀ k0_t4 : Fin k0_t4_loop.trips, ∀ a, (k0_off25 k0_t4) a + S1x1x1x16.size a ≤ S2x8x32x32.size a
  k0_off26_inb : ∀ k0_t4 : Fin k0_t4_loop.trips, ∀ a, (k0_off26 k0_t4) a + S1x1x1x16.size a ≤ S2x8x32x32.size a
  k0_off27_inb : ∀ k0_t4 : Fin k0_t4_loop.trips, ∀ a, (k0_off27 k0_t4) a + S1x1x1x16.size a ≤ S2x8x32x32.size a
  k0_off28_inb : ∀ k0_t4 : Fin k0_t4_loop.trips, ∀ a, (k0_off28 k0_t4) a + S1x1x1x16.size a ≤ S2x8x32x32.size a
  k0_off29_inb : ∀ (i : grid0.Coords) (k0_t1 : Fin k0_t1_loop.trips), ∀ (k0_h6 : k0_cond6 k0_t1 = 1#1), ∀ a, (k0_off29 i k0_t1) a + S1x1x2x64x64.size a ≤ S2x32x64x64x64.size a
  k0_t5_ok : k0_t5_loop.OK
  k0_off30_inb : ∀ k0_t5 : Fin k0_t5_loop.trips, ∀ a, (k0_off30 k0_t5) a + S1x1x1x16.size a ≤ S2x8x32x32.size a
  k0_off31_inb : ∀ k0_t5 : Fin k0_t5_loop.trips, ∀ a, (k0_off31 k0_t5) a + S1x1x1x16.size a ≤ S2x8x32x32.size a
  k0_off32_inb : ∀ k0_t5 : Fin k0_t5_loop.trips, ∀ a, (k0_off32 k0_t5) a + S1x1x1x16.size a ≤ S2x8x32x32.size a
  k0_off33_inb : ∀ k0_t5 : Fin k0_t5_loop.trips, ∀ a, (k0_off33 k0_t5) a + S1x1x1x16.size a ≤ S2x8x32x32.size a
  k0_off34_inb : ∀ k0_t5 : Fin k0_t5_loop.trips, ∀ a, (k0_off34 k0_t5) a + S1x1x1x16.size a ≤ S2x8x32x32.size a
  k0_off35_inb : ∀ k0_t5 : Fin k0_t5_loop.trips, ∀ a, (k0_off35 k0_t5) a + S1x1x1x16.size a ≤ S2x8x32x32.size a
  k0_off36_inb : ∀ k0_t5 : Fin k0_t5_loop.trips, ∀ a, (k0_off36 k0_t5) a + S1x1x1x16.size a ≤ S2x8x32x32.size a
  k0_off37_inb : ∀ k0_t5 : Fin k0_t5_loop.trips, ∀ a, (k0_off37 k0_t5) a + S1x1x1x16.size a ≤ S2x8x32x32.size a
  k0_off38_inb : ∀ (i : grid0.Coords) (k0_t1 : Fin k0_t1_loop.trips), ∀ (k0_h8 : k0_cond8 k0_t1 = 1#1), ∀ a, (k0_off38 i k0_t1) a + S1x1x2x64x64.size a ≤ S2x32x64x64x64.size a
  k0_t6_ok : k0_t6_loop.OK
  k0_off39_inb : ∀ k0_t6 : Fin k0_t6_loop.trips, ∀ a, (k0_off39 k0_t6) a + S1x1x1x16.size a ≤ S2x8x32x32.size a
  k0_off40_inb : ∀ k0_t6 : Fin k0_t6_loop.trips, ∀ a, (k0_off40 k0_t6) a + S1x1x1x16.size a ≤ S2x8x32x32.size a
  k0_off41_inb : ∀ k0_t6 : Fin k0_t6_loop.trips, ∀ a, (k0_off41 k0_t6) a + S1x1x1x16.size a ≤ S2x8x32x32.size a
  k0_off42_inb : ∀ k0_t6 : Fin k0_t6_loop.trips, ∀ a, (k0_off42 k0_t6) a + S1x1x1x16.size a ≤ S2x8x32x32.size a
  k0_off43_inb : ∀ k0_t6 : Fin k0_t6_loop.trips, ∀ a, (k0_off43 k0_t6) a + S1x1x1x16.size a ≤ S2x8x32x32.size a
  k0_off44_inb : ∀ k0_t6 : Fin k0_t6_loop.trips, ∀ a, (k0_off44 k0_t6) a + S1x1x1x16.size a ≤ S2x8x32x32.size a
  k0_off45_inb : ∀ k0_t6 : Fin k0_t6_loop.trips, ∀ a, (k0_off45 k0_t6) a + S1x1x1x16.size a ≤ S2x8x32x32.size a
  k0_off46_inb : ∀ k0_t6 : Fin k0_t6_loop.trips, ∀ a, (k0_off46 k0_t6) a + S1x1x1x16.size a ≤ S2x8x32x32.size a
  k0_off47_inb : ∀ (i : grid0.Coords) (k0_t1 : Fin k0_t1_loop.trips), ∀ (k0_h10 : k0_cond10 k0_t1 = 1#1), ∀ a, (k0_off47 i k0_t1) a + S1x1x2x64x64.size a ≤ S2x32x64x64x64.size a
  k0_t7_ok : k0_t7_loop.OK
  k0_off48_inb : ∀ k0_t7 : Fin k0_t7_loop.trips, ∀ a, (k0_off48 k0_t7) a + S1x1x1x16.size a ≤ S2x8x32x32.size a
  k0_off49_inb : ∀ k0_t7 : Fin k0_t7_loop.trips, ∀ a, (k0_off49 k0_t7) a + S1x1x1x16.size a ≤ S2x8x32x32.size a
  k0_off50_inb : ∀ k0_t7 : Fin k0_t7_loop.trips, ∀ a, (k0_off50 k0_t7) a + S1x1x1x16.size a ≤ S2x8x32x32.size a
  k0_off51_inb : ∀ k0_t7 : Fin k0_t7_loop.trips, ∀ a, (k0_off51 k0_t7) a + S1x1x1x16.size a ≤ S2x8x32x32.size a
  k0_off52_inb : ∀ k0_t7 : Fin k0_t7_loop.trips, ∀ a, (k0_off52 k0_t7) a + S1x1x1x16.size a ≤ S2x8x32x32.size a
  k0_off53_inb : ∀ k0_t7 : Fin k0_t7_loop.trips, ∀ a, (k0_off53 k0_t7) a + S1x1x1x16.size a ≤ S2x8x32x32.size a
  k0_off54_inb : ∀ k0_t7 : Fin k0_t7_loop.trips, ∀ a, (k0_off54 k0_t7) a + S1x1x1x16.size a ≤ S2x8x32x32.size a
  k0_off55_inb : ∀ k0_t7 : Fin k0_t7_loop.trips, ∀ a, (k0_off55 k0_t7) a + S1x1x1x16.size a ≤ S2x8x32x32.size a
  k0_off56_inb : ∀ (i : grid0.Coords) (k0_t1 : Fin k0_t1_loop.trips), ∀ (k0_h12 : k0_cond12 k0_t1 = 1#1), ∀ a, (k0_off56 i k0_t1) a + S1x1x2x64x64.size a ≤ S2x32x64x64x64.size a
  k0_t8_ok : k0_t8_loop.OK
  k0_off57_inb : ∀ k0_t8 : Fin k0_t8_loop.trips, ∀ a, (k0_off57 k0_t8) a + S1x1x1x16.size a ≤ S2x8x32x32.size a
  k0_off58_inb : ∀ k0_t8 : Fin k0_t8_loop.trips, ∀ a, (k0_off58 k0_t8) a + S1x1x1x16.size a ≤ S2x8x32x32.size a
  k0_off59_inb : ∀ k0_t8 : Fin k0_t8_loop.trips, ∀ a, (k0_off59 k0_t8) a + S1x1x1x16.size a ≤ S2x8x32x32.size a
  k0_off60_inb : ∀ k0_t8 : Fin k0_t8_loop.trips, ∀ a, (k0_off60 k0_t8) a + S1x1x1x16.size a ≤ S2x8x32x32.size a
  k0_off61_inb : ∀ k0_t8 : Fin k0_t8_loop.trips, ∀ a, (k0_off61 k0_t8) a + S1x1x1x16.size a ≤ S2x8x32x32.size a
  k0_off62_inb : ∀ k0_t8 : Fin k0_t8_loop.trips, ∀ a, (k0_off62 k0_t8) a + S1x1x1x16.size a ≤ S2x8x32x32.size a
  k0_off63_inb : ∀ k0_t8 : Fin k0_t8_loop.trips, ∀ a, (k0_off63 k0_t8) a + S1x1x1x16.size a ≤ S2x8x32x32.size a
  k0_off64_inb : ∀ k0_t8 : Fin k0_t8_loop.trips, ∀ a, (k0_off64 k0_t8) a + S1x1x1x16.size a ≤ S2x8x32x32.size a
  k0_off65_inb : ∀ i : grid0.Coords, ∀ (r : Fin 4), ∀ a, (k0_off65 i (BitVec.ofNat 32 (60 + r.val))) a + S1x8x1x32x32.size a ≤ S2x256x32x32x32.size a
  k0_t9_ok : k0_t9_loop.OK
  k0_off66_inb : ∀ k0_t9 : Fin k0_t9_loop.trips, ∀ a, (k0_off66 k0_t9) a + S1x1x1x16.size a ≤ S2x8x32x32.size a
  k0_off67_inb : ∀ k0_t9 : Fin k0_t9_loop.trips, ∀ a, (k0_off67 k0_t9) a + S1x1x1x16.size a ≤ S2x8x32x32.size a
  k0_off68_inb : ∀ k0_t9 : Fin k0_t9_loop.trips, ∀ a, (k0_off68 k0_t9) a + S1x1x1x16.size a ≤ S2x8x32x32.size a
  k0_off69_inb : ∀ k0_t9 : Fin k0_t9_loop.trips, ∀ a, (k0_off69 k0_t9) a + S1x1x1x16.size a ≤ S2x8x32x32.size a
  k0_off70_inb : ∀ k0_t9 : Fin k0_t9_loop.trips, ∀ a, (k0_off70 k0_t9) a + S1x1x1x16.size a ≤ S2x8x32x32.size a
  k0_off71_inb : ∀ k0_t9 : Fin k0_t9_loop.trips, ∀ a, (k0_off71 k0_t9) a + S1x1x1x16.size a ≤ S2x8x32x32.size a
  k0_off72_inb : ∀ k0_t9 : Fin k0_t9_loop.trips, ∀ a, (k0_off72 k0_t9) a + S1x1x1x16.size a ≤ S2x8x32x32.size a
  k0_off73_inb : ∀ k0_t9 : Fin k0_t9_loop.trips, ∀ a, (k0_off73 k0_t9) a + S1x1x1x16.size a ≤ S2x8x32x32.size a
  k0_t10_ok : k0_t10_loop.OK
  k0_off74_inb : ∀ k0_t10 : Fin k0_t10_loop.trips, ∀ a, (k0_off74 k0_t10) a + S1x1x1x16.size a ≤ S2x8x32x32.size a
  k0_off75_inb : ∀ k0_t10 : Fin k0_t10_loop.trips, ∀ a, (k0_off75 k0_t10) a + S1x1x1x16.size a ≤ S2x8x32x32.size a
  k0_off76_inb : ∀ k0_t10 : Fin k0_t10_loop.trips, ∀ a, (k0_off76 k0_t10) a + S1x1x1x16.size a ≤ S2x8x32x32.size a
  k0_off77_inb : ∀ k0_t10 : Fin k0_t10_loop.trips, ∀ a, (k0_off77 k0_t10) a + S1x1x1x16.size a ≤ S2x8x32x32.size a
  k0_off78_inb : ∀ k0_t10 : Fin k0_t10_loop.trips, ∀ a, (k0_off78 k0_t10) a + S1x1x1x16.size a ≤ S2x8x32x32.size a
  k0_off79_inb : ∀ k0_t10 : Fin k0_t10_loop.trips, ∀ a, (k0_off79 k0_t10) a + S1x1x1x16.size a ≤ S2x8x32x32.size a
  k0_off80_inb : ∀ k0_t10 : Fin k0_t10_loop.trips, ∀ a, (k0_off80 k0_t10) a + S1x1x1x16.size a ≤ S2x8x32x32.size a
  k0_off81_inb : ∀ k0_t10 : Fin k0_t10_loop.trips, ∀ a, (k0_off81 k0_t10) a + S1x1x1x16.size a ≤ S2x8x32x32.size a
  k0_t11_ok : k0_t11_loop.OK
  k0_off82_inb : ∀ k0_t11 : Fin k0_t11_loop.trips, ∀ a, (k0_off82 k0_t11) a + S1x1x1x16.size a ≤ S2x8x32x32.size a
  k0_off83_inb : ∀ k0_t11 : Fin k0_t11_loop.trips, ∀ a, (k0_off83 k0_t11) a + S1x1x1x16.size a ≤ S2x8x32x32.size a
  k0_off84_inb : ∀ k0_t11 : Fin k0_t11_loop.trips, ∀ a, (k0_off84 k0_t11) a + S1x1x1x16.size a ≤ S2x8x32x32.size a
  k0_off85_inb : ∀ k0_t11 : Fin k0_t11_loop.trips, ∀ a, (k0_off85 k0_t11) a + S1x1x1x16.size a ≤ S2x8x32x32.size a
  k0_off86_inb : ∀ k0_t11 : Fin k0_t11_loop.trips, ∀ a, (k0_off86 k0_t11) a + S1x1x1x16.size a ≤ S2x8x32x32.size a
  k0_off87_inb : ∀ k0_t11 : Fin k0_t11_loop.trips, ∀ a, (k0_off87 k0_t11) a + S1x1x1x16.size a ≤ S2x8x32x32.size a
  k0_off88_inb : ∀ k0_t11 : Fin k0_t11_loop.trips, ∀ a, (k0_off88 k0_t11) a + S1x1x1x16.size a ≤ S2x8x32x32.size a
  k0_off89_inb : ∀ k0_t11 : Fin k0_t11_loop.trips, ∀ a, (k0_off89 k0_t11) a + S1x1x1x16.size a ≤ S2x8x32x32.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6

class Facts : Prop extends Facts₀ where

variable [Facts]
-- ==== ReferenceIdeal.lean ====
abbrev S2x32x64x64x64 : Shape := ⟨5, ![2, 32, 64, 64, 64]⟩
abbrev S2x32x32x2x32x2x32x2 : Shape := ⟨8, ![2, 32, 32, 2, 32, 2, 32, 2]⟩
abbrev S2x32x2x2x2x32x32x32 : Shape := ⟨8, ![2, 32, 2, 2, 2, 32, 32, 32]⟩
abbrev S2x256x32x32x32 : Shape := ⟨5, ![2, 256, 32, 32, 32]⟩

abbrev nBuf : Space → Nat
  | .hbm => 4
  | .vmem => 0
  | .smem => 0
  | _ => 0

abbrev bufTy : (tb : Table) → Fin (tcTables nBuf tb) → BufTy
  | .hbm, ⟨0, _⟩ => ⟨S2x32x64x64x64, .f32⟩
  | .hbm, ⟨1, _⟩ => ⟨S2x32x32x2x32x2x32x2, .f32⟩
  | .hbm, ⟨2, _⟩ => ⟨S2x32x2x2x2x32x32x32, .f32⟩
  | .hbm, ⟨3, _⟩ => ⟨S2x256x32x32x32, .f32⟩
  | _, _ => ⟨S2x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S2x32x64x64x64_S2x32x32x2x32x2x32x2 : S2x32x64x64x64.ShapeCasts S2x32x32x2x32x2x32x2
  transposes_S2x32x32x2x32x2x32x2_S2x32x2x2x2x32x32x32_0_1_3_5_7_2_4_6 : S2x32x32x2x32x2x32x2.Transposes [0, 1, 3, 5, 7, 2, 4, 6] S2x32x2x2x2x32x32x32
  shapeCasts_S2x32x2x2x2x32x32x32_S2x256x32x32x32 : S2x32x2x2x2x32x32x32.ShapeCasts S2x256x32x32x32

variable [Facts₀]

class Facts : Prop extends Facts₀ where

variable [Facts]
-- ==== Proof.Spec.lean ====
/-
  The specification: a three-dimensional space-to-depth rearrangement with factor 2.

  The argument is an array over [2, 32, 64, 64, 64] (batch, channel, and three spatial axes); the result is an
  array over [2, 256, 32, 32, 32]. Each spatial axis is halved, and the 2 × 2 × 2 = 8 positions of a spatial
  cell become eight consecutive channels: result channel 8·c + 4·p + 2·q + r at the cell (h, w, z) is argument
  channel c at the position (2·h + p, 2·w + q, 2·z + r). Nothing is computed: every entry of the result is ONE
  entry of the argument, so the specification is an index map `src` and the function `G x = x ∘ src`, for
  entries of any type.
-/
import Idealize.ShloMosaic.Lib.ValueIdx
import Idealize.ShloMosaic.Lib.Pipeline.Value

namespace Cert.Proof.Spec

open Idealize.ShloMosaic Idealize.ShloMosaic.ValueIdx

/-- The argument's shape. -/
abbrev XS : Shape := ⟨5, ![2, 32, 64, 64, 64]⟩
/-- The result's shape. -/
abbrev YS : Shape := ⟨5, ![2, 256, 32, 32, 32]⟩

/-- The coordinates of the argument entry that the result holds at (b, ch, h, w, z): with ch = 8·c + 4·p + 2·q + r,
    the entry (b, c, 2·h + p, 2·w + q, 2·z + r). -/
def srcCoords (b : Fin 2) (ch : Fin 256) (h w z : Fin 32) : XS.Idx :=
  ix5 b (⟨ch.val / 8, by omega⟩ : Fin 32)
    (⟨2 * h.val + ch.val % 8 / 4, by omega⟩ : Fin 64)
    (⟨2 * w.val + ch.val % 4 / 2, by omega⟩ : Fin 64)
    (⟨2 * z.val + ch.val % 2, by omega⟩ : Fin 64)

/-- Where entry `i` of the result comes from. -/
def src (i : YS.Idx) : XS.Idx := srcCoords (i 0) (i 1) (i 2) (i 3) (i 4)

/-- The rearrangement: the result at `i` is the argument at `src i`. -/
def G {α : Type} (x : XS.Idx → α) : YS.Idx → α := fun i => x (src i)

theorem G_apply {α : Type} (x : XS.Idx → α) (i : YS.Idx) : G x i = x (src i) := rfl

theorem src_ix5 (b : Fin 2) (ch : Fin 256) (h w z : Fin 32) : src (ix5 b ch h w z) = srcCoords b ch h w z := rfl

end Cert.Proof.Spec
-- ==== Proof.Iface.lean ====
/-
  What every part of the proof about the kernel shares: the program as the launch theorem names it, the ghost
  algebra, and how the two arrays are dealt to the thirty-two vector subcores.

  The kernel's grid is 2 SparseCores × 16 vector subcores. Subcore `i` of SparseCore `c` is worker
  `w = 2·i + c` and moves the 64 UNITS `u = 64·w + t`, `t < 64`. A unit is one (batch, channel, output row):
  `u = 1024·b + 32·ch + h`. For it the worker reads the two argument rows `x[b, ch, 2h .. 2h+1, :, :]` and
  writes the eight result planes `y[b, 8·ch .. 8·ch+7, h, :, :]` — the WINDOW of the unit. The 2048 windows
  are the fibres of the map `unitOf` below, so they are pairwise disjoint and cover the result.
  The argument is only read: every subcore holds all of it at a share of its own. The result is written:
  a subcore holds exactly its 64 windows, each at the full share.
-/
import proofs.«209385_g40939628265708_retrytranche2_1889_20_alg».proof.Proof.Gen.KernelIdeal
import proofs.«209385_g40939628265708_retrytranche2_1889_20_alg».proof.Proof.Gen.KernelIdeal.Skeleton
import proofs.«209385_g40939628265708_retrytranche2_1889_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the two arrays, and their parts -/

variable (m : (ℓ : Loc nD τ sig) → Buf (Elt F) ℓ) (ρ : Dev nD → PrngReg)

/-- The argument `x` and the result `y` as locations of device `d`. -/
abbrev xLoc (d : Dev nD) : Loc nD τ sig := (SparseCore.T d).loc main_arg0
abbrev yLoc (d : Dev nD) : Loc nD τ sig := (SparseCore.T d).loc main_v0

/-- What the result holds at the end: the rearrangement of the launch contents of the argument. -/
def Gy (d : Dev nD) : Buf (Elt F) (yLoc d) := G (m (xLoc d))

/-- The share of the argument SparseCore `c` is handed, and the share its subcore `i` is handed of that. -/
abbrev qC (c : Fin 2) : PosShare TreeShare := Transfers.shareTok fullShare 2 c
abbrev qT (c : Fin 2) (i : Fin 16) : PosShare TreeShare := Transfers.shareTok (qC c) 16 i

/-- The unit a result entry belongs to: `1024·b + 32·(channel / 8) + h`. -/
def unitOf (j : YS.Idx) : Fin 2048 := ⟨1024 * (j 0).val + 32 * ((j 1).val / 8) + (j 2).val, by
  have h0 : (j 0).val < 2 := (j 0).isLt
  have h1 : (j 1).val < 256 := (j 1).isLt
  have h2 : (j 2).val < 32 := (j 2).isLt
  omega⟩
/-- The window of unit `u`: the result entries that belong to it. -/
def winSet (u : Fin 2048) : Finset YS.Idx := Finset.univ.filter fun j => unitOf j = u
/-- Unit number `t` of subcore `i` of SparseCore `c`. -/
def unitAt (c : Fin 2) (i : Fin 16) (t : Fin 64) : Fin 2048 := ⟨64 * (2 * i.val + c.val) + t.val, by
  have := c.isLt; have := i.isLt; have := t.isLt; omega⟩

variable [FloatOps F]

/-- A subcore's hold on the argument: all of it, at the launch contents, at the subcore's share. -/
abbrev xTile (d : Dev nD) (c : Fin 2) (i : Fin 16) : sProp 𝕄 := xLoc d ↦{qT c i} m (xLoc d)
/-- A subcore's hold on the result: its 64 windows at the full share, all at the contents `f`. -/
abbrev yTile (d : Dev nD) (c : Fin 2) (i : Fin 16) (f : Buf (Elt F) (yLoc d)) : sProp 𝕄 :=
  bigSep Finset.univ fun t : Fin 64 => yLoc d ↦[winSet (unitAt c i t)]{fullShare} f
/-- A SparseCore's hold on the argument, and on the result: its sixteen subcores' windows. -/
abbrev xCore (d : Dev nD) (c : Fin 2) : sProp 𝕄 := xLoc d ↦{qC c} m (xLoc d)
abbrev yCore (d : Dev nD) (c : Fin 2) (f : Buf (Elt F) (yLoc d)) : sProp 𝕄 :=
  bigSep Finset.univ fun i : Fin 16 => yTile d c i f

/-- What the handshakes carry: a SparseCore is started with its share of the argument and its subcores' windows of
    the result at the launch contents, and reports done with the windows at the rearrangement; a subcore likewise. -/
def P : (K (F := F)).Pay (nD := nD) (Val := Elt F) (Name := ℕ) (U := UU) where
  st := fun q d c => match q with | 0 => iprop(xCore m d (Fin.cast nCore_zero c) ∗ yCore d (Fin.cast nCore_zero c) (m (yLoc d)))
  dn := fun q d c => match q with | 0 => iprop(xCore m d (Fin.cast nCore_zero c) ∗ yCore d (Fin.cast nCore_zero c) (Gy m d))
  go := fun q d c i => match q with
    | 0 => iprop(xTile m d (Fin.cast nCore_zero c) (Fin.cast nSub_zero i) ∗ yTile d (Fin.cast nCore_zero c) (Fin.cast nSub_zero i) (m (yLoc d)))
  td := fun q d c i => match q with
    | 0 => iprop(xTile m d (Fin.cast nCore_zero c) (Fin.cast nSub_zero i) ∗ yTile d (Fin.cast nCore_zero c) (Fin.cast nSub_zero i) (Gy m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## A subcore's names -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The SparseCore and the subcore of a grid point, as numbers below 2 and 16. -/
abbrev cL (L : grid0.Coords) : Fin 2 := Fin.cast bound_zero (L 0)
abbrev iL (L : grid0.Coords) : Fin 16 := Fin.cast bound_one (L 1)

/-- The kernel's memrefs, as the body table passes them. -/
abbrev xV : Memref sig .scVector .hbm S2x32x64x64x64 .f32 := Memref.whole main_arg0_scv
abbrev yV : Memref sig .scVector .hbm S2x256x32x32x32 .f32 := Memref.whole main_v0_scv
abbrev sIn : Memref sig .scVector .vmem S3x2x64x64 .f32 := Memref.whole cc0_scratch0
abbrev sOut : Memref sig .scVector .vmem S2x8x32x32 .f32 := Memref.whole cc0_scratch1

end Cert.Proof.KI

end
-- ==== Proof.ComputeLib.lean ====
/-
  The arithmetic of one unit's rearrangement, inside a subcore's scratch memory.

  A unit's two argument rows arrive in one slot of the input ring, an array `A` over [2, 64, 64] (row p, column,
  depth). The unit's eight result planes are assembled in one slot of the output ring, an array over [8, 32, 32]
  inside the ring [2, 8, 32, 32]: plane `4·p + 2·q + r` at (w, z) is `A (p, 2·w + q, 2·z + r)` — the index map
  `gidx`. The body fills the slot sixteen entries at a time: trip `v < 64` of its loop writes, in each of the
  eight planes, the entries (w, z) with `2·w + z / 16 = v` — ROW `v` of the slot, `rowOf`. So after `k` trips
  the rows below `k` hold their final values (`Done`), whatever the rest holds, and one trip's eight stores take
  `Done k` to `Done (k + 1)`: the stores lie in row `k`, cover it, and each stored entry is `A ∘ gidx` there.
-/
import proofs.«209385_g40939628265708_retrytranche2_1889_20_alg».proof.Proof.Iface
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

/-- A subcore's thread, and the slots of its two rings as the body slices them: three input slots of two argument
    rows each, two output slots of eight result planes each. -/
abbrev thrV (d : Dev nD) (L : grid0.Coords) : Thread nD τ := V d (cV L) (jV L)
abbrev inSlot0 : Memref sig .scVector .vmem S2x64x64 .f32 := ((sIn : Memref sig .scVector .vmem S3x2x64x64 .f32).slice (Rect.unit (s := S3x2x64x64) ![0, 0, 0, 0] S1x2x64x64.size inb_S3x2x64x64_S1x2x64x64_0_0_0_0) (fun _ => rfl)).squeeze S2x64x64 squeezes_S1x2x64x64_S2x64x64
abbrev inSlot1 : Memref sig .scVector .vmem S2x64x64 .f32 := ((sIn : Memref sig .scVector .vmem S3x2x64x64 .f32).slice (Rect.unit (s := S3x2x64x64) ![1, 0, 0, 0] S1x2x64x64.size inb_S3x2x64x64_S1x2x64x64_1_0_0_0) (fun _ => rfl)).squeeze S2x64x64 squeezes_S1x2x64x64_S2x64x64
abbrev inSlot2 : Memref sig .scVector .vmem S2x64x64 .f32 := ((sIn : Memref sig .scVector .vmem S3x2x64x64 .f32).slice (Rect.unit (s := S3x2x64x64) ![2, 0, 0, 0] S1x2x64x64.size inb_S3x2x64x64_S1x2x64x64_2_0_0_0) (fun _ => rfl)).squeeze S2x64x64 squeezes_S1x2x64x64_S2x64x64
abbrev outSlot0 : Memref sig .scVector .vmem S8x32x32 .f32 := ((sOut : Memref sig .scVector .vmem S2x8x32x32 .f32).slice (Rect.unit (s := S2x8x32x32) ![0, 0, 0, 0] S1x8x32x32.size inb_S2x8x32x32_S1x8x32x32_0_0_0_0) (fun _ => rfl)).squeeze S8x32x32 squeezes_S1x8x32x32_S8x32x32
abbrev outSlot1 : Memref sig .scVector .vmem S8x32x32 .f32 := ((sOut : Memref sig .scVector .vmem S2x8x32x32 .f32).slice (Rect.unit (s := S2x8x32x32) ![1, 0, 0, 0] S1x8x32x32.size inb_S2x8x32x32_S1x8x32x32_1_0_0_0) (fun _ => rfl)).squeeze S8x32x32 squeezes_S1x8x32x32_S8x32x32

/-- Where entry `y = (slot, plane, w, z)` of the output ring comes from in the unit's input slot:
    (plane / 4, 2·w + plane / 2 % 2, 2·z + plane % 2). -/
def gidx (y : S2x8x32x32.Idx) : S2x64x64.Idx :=
  ix3 (⟨(y 1).val / 4, by have := (y 1).isLt; simp at this; omega⟩ : Fin 2)
    (⟨2 * (y 2).val + (y 1).val / 2 % 2, by have := (y 2).isLt; simp at this; omega⟩ : Fin 64)
    (⟨2 * (y 3).val + (y 1).val % 2, by have := (y 3).isLt; simp at this; omega⟩ : Fin 64)

/-- The loop trip that writes entry `y`: `2·w + z / 16`. -/
def rowOf (y : S2x8x32x32.Idx) : Nat := 2 * (y 2).val + (y 3).val / 16

/-- Rows below `k` of slot `jo` of the output ring hold the rearrangement of `A`. -/
def Done {α : Type} (jo k : Nat) (A : S2x64x64.Idx → α) (fo : S2x8x32x32.Idx → α) : Prop :=
  ∀ y : S2x8x32x32.Idx, (y 0).val = jo → rowOf y < k → fo y = A (gidx y)

theorem done_zero {α : Type} (jo : Nat) (A : S2x64x64.Idx → α) (fo : S2x8x32x32.Idx → α) : Done jo 0 A fo :=
  fun _ _ h => absurd h (Nat.not_lt_zero _)

/-- Stores that all lie in row `k` of slot `jo`, cover that row, and each hold `A ∘ gidx` where they land, take
    `Done k` to `Done (k + 1)`: an entry of row `k` reads the store that covers it, an entry of an earlier row is
    under no store and keeps what it held. -/
theorem done_step (jo k : Nat) (A : S2x64x64.Idx → Elt F .f32) (f : S2x8x32x32.Idx → Elt F .f32)
    (L : List (View.Piece (Elt F) S2x8x32x32 .f32))
    (hrow : ∀ p ∈ L, ∀ y ∈ p.1.set, (y 0).val = jo ∧ rowOf y = k)
    (hagree : ∀ p ∈ L, ∀ x : p.1.shape.Idx, p.2 x = A (gidx (p.1.emb x)))
    (hcover : ∀ y : S2x8x32x32.Idx, (y 0).val = jo → rowOf y = k → ∃ p ∈ L, y ∈ p.1.set)
    (hD : Done jo k A f) :
    Done jo (k + 1) A ((sOut : Memref sig .scVector .vmem S2x8x32x32 .f32).view.writes (Elt F) f L) := by
  intro y hy hr
  by_cases hk : rowOf y = k
  · exact View.read_writes_apply_of_pieces (sOut : Memref sig .scVector .vmem S2x8x32x32 .f32).view f (fun y => A (gidx y)) L hagree y (hcover y hy hk)
  · have hlt : rowOf y < k := by omega
    have hnot : ∀ p ∈ L, y ∉ p.1.set := fun p hp hm => hk (hrow p hp y hm).2
    exact (View.read_writes_apply_of_forall_not_mem (sOut : Memref sig .scVector .vmem S2x8x32x32 .f32).view f y L hnot).trans (hD y hy hlt)

/-- `done_step` for the eight stores of one trip, stated of the chain of writes as the stores leave it (the first
    store innermost). -/
theorem done_step8 (jo k : Nat) (A : S2x64x64.Idx → Elt F .f32) (f : S2x8x32x32.Idx → Elt F .f32)
    (R1 R2 R3 R4 R5 R6 R7 R8 : Rect S2x8x32x32)
    (w1 : R1.shape.Idx → Elt F .f32) (w2 : R2.shape.Idx → Elt F .f32) (w3 : R3.shape.Idx → Elt F .f32) (w4 : R4.shape.Idx → Elt F .f32)
    (w5 : R5.shape.Idx → Elt F .f32) (w6 : R6.shape.Idx → Elt F .f32) (w7 : R7.shape.Idx → Elt F .f32) (w8 : R8.shape.Idx → Elt F .f32)
    (r1 : ∀ y ∈ R1.set, (y 0).val = jo ∧ rowOf y = k) (r2 : ∀ y ∈ R2.set, (y 0).val = jo ∧ rowOf y = k)
    (r3 : ∀ y ∈ R3.set, (y 0).val = jo ∧ rowOf y = k) (r4 : ∀ y ∈ R4.set, (y 0).val = jo ∧ rowOf y = k)
    (r5 : ∀ y ∈ R5.set, (y 0).val = jo ∧ rowOf y = k) (r6 : ∀ y ∈ R6.set, (y 0).val = jo ∧ rowOf y = k)
    (r7 : ∀ y ∈ R7.set, (y 0).val = jo ∧ rowOf y = k) (r8 : ∀ y ∈ R8.set, (y 0).val = jo ∧ rowOf y = k)
    (a1 : ∀ x, w1 x = A (gidx (R1.emb x))) (a2 : ∀ x, w2 x = A (gidx (R2.emb x))) (a3 : ∀ x, w3 x = A (gidx (R3.emb x)))
    (a4 : ∀ x, w4 x = A (gidx (R4.emb x))) (a5 : ∀ x, w5 x = A (gidx (R5.emb x))) (a6 : ∀ x, w6 x = A (gidx (R6.emb x)))
    (a7 : ∀ x, w7 x = A (gidx (R7.emb x))) (a8 : ∀ x, w8 x = A (gidx (R8.emb x)))
    (hcover : ∀ y : S2x8x32x32.Idx, (y 0).val = jo → rowOf y = k →
      y ∈ R1.set ∨ y ∈ R2.set ∨ y ∈ R3.set ∨ y ∈ R4.set ∨ y ∈ R5.set ∨ y ∈ R6.set ∨ y ∈ R7.set ∨ y ∈ R8.set)
    (hD : Done jo k A f) :
    Done jo (k + 1) A
      (View.write (Elt F) ((sOut : Memref sig .scVector .vmem S2x8x32x32 .f32).access R8)
        (View.write (Elt F) ((sOut : Memref sig .scVector .vmem S2x8x32x32 .f32).access R7)
          (View.write (Elt F) ((sOut : Memref sig .scVector .vmem S2x8x32x32 .f32).access R6)
            (View.write (Elt F) ((sOut : Memref sig .scVector .vmem S2x8x32x32 .f32).access R5)
              (View.write (Elt F) ((sOut : Memref sig .scVector .vmem S2x8x32x32 .f32).access R4)
                (View.write (Elt F) ((sOut : Memref sig .scVector .vmem S2x8x32x32 .f32).access R3)
                  (View.write (Elt F) ((sOut : Memref sig .scVector .vmem S2x8x32x32 .f32).access R2)
                    (View.write (Elt F) ((sOut : Memref sig .scVector .vmem S2x8x32x32 .f32).access R1) f w1 Finset.univ)
                    w2 Finset.univ) w3 Finset.univ) w4 Finset.univ) w5 Finset.univ) w6 Finset.univ) w7 Finset.univ) w8 Finset.univ) := by
  refine done_step jo k A f [⟨R8, w8⟩, ⟨R7, w7⟩, ⟨R6, w6⟩, ⟨R5, w5⟩, ⟨R4, w4⟩, ⟨R3, w3⟩, ⟨R2, w2⟩, ⟨R1, w1⟩] ?_ ?_ ?_ hD
  · intro p hp
    simp only [List.mem_cons, List.mem_nil_iff, or_false] at hp
    rcases hp with rfl | rfl | rfl | rfl | rfl | rfl | rfl | rfl
    exacts [r8, r7, r6, r5, r4, r3, r2, r1]
  · intro p hp
    simp only [List.mem_cons, List.mem_nil_iff, or_false] at hp
    rcases hp with rfl | rfl | rfl | rfl | rfl | rfl | rfl | rfl
    exacts [a8, a7, a6, a5, a4, a3, a2, a1]
  · intro y h0 hr
    rcases hcover y h0 hr with h | h | h | h | h | h | h | h
    · exact ⟨⟨R1, w1⟩, by simp, h⟩
    · exact ⟨⟨R2, w2⟩, by simp, h⟩
    · exact ⟨⟨R3, w3⟩, by simp, h⟩
    · exact ⟨⟨R4, w4⟩, by simp, h⟩
    · exact ⟨⟨R5, w5⟩, by simp, h⟩
    · exact ⟨⟨R6, w6⟩, by simp, h⟩
    · exact ⟨⟨R7, w7⟩, by simp, h⟩
    · exact ⟨⟨R8, w8⟩, by simp, h⟩

/-- A store of sixteen entries at (slot `jo`, plane `kk`, `k / 2`, `16·(k % 2)`) lies in row `k` of plane `kk`. -/
theorem piece_row (jo kk k : Nat) (off : Fin 4 → Nat) (hoff : ∀ a, off a = (![jo, kk, k / 2, 16 * (k % 2)] : Fin 4 → Nat) a)
    (inb : ∀ a, off a + S1x1x1x16.size a ≤ S2x8x32x32.size a) (y : S2x8x32x32.Idx)
    (hy : y ∈ (Rect.unit (s := S2x8x32x32) off S1x1x1x16.size inb).set) : (y 0).val = jo ∧ (y 1).val = kk ∧ rowOf y = k := by
  rw [Rect.mem_set_unit] at hy
  have h0 := hy 0; have h1 := hy 1; have h2 := hy 2; have h3 := hy 3
  rw [hoff] at h0 h1 h2 h3
  simp at h0 h1 h2 h3
  unfold rowOf
  refine ⟨by omega, by omega, by omega⟩

/-- and every entry of row `k` of plane `kk` of slot `jo` lies in it. -/
theorem piece_cover (jo kk k : Nat) (off : Fin 4 → Nat) (hoff : ∀ a, off a = (![jo, kk, k / 2, 16 * (k % 2)] : Fin 4 → Nat) a)
    (inb : ∀ a, off a + S1x1x1x16.size a ≤ S2x8x32x32.size a) (y : S2x8x32x32.Idx)
    (h0 : (y 0).val = jo) (h1 : (y 1).val = kk) (hr : rowOf y = k) :
    y ∈ (Rect.unit (s := S2x8x32x32) off S1x1x1x16.size inb).set := by
  rw [Rect.mem_set_unit]
  unfold rowOf at hr
  have hy3 := (y 3).isLt; simp at hy3
  intro a
  rw [hoff]
  match a with
  | ⟨0, _⟩ => simp; omega
  | ⟨1, _⟩ => simp; omega
  | ⟨2, _⟩ => simp; omega
  | ⟨3, _⟩ => simp; omega

/-- The sixteen entries gathered at the index vectors (`kk / 4`, `2·(k / 2) + kk / 2 % 2`, `2·(16·(k % 2) + lane) + kk % 2`)
    and stored at (slot `jo`, plane `kk`, `k / 2`, `16·(k % 2) + lane`) are `A ∘ gidx` where they land. -/
theorem piece_agree (A : Vec F S2x64x64 .f32) (idxs : Fin 3 → IVec S16 32) (h : ∀ a x, (idxs a x).toNat < S2x64x64.size a)
    (hsc : S16.ShapeCasts S1x1x1x16) (jo kk k : Nat) (off : Fin 4 → Nat)
    (hoff : ∀ a, off a = (![jo, kk, k / 2, 16 * (k % 2)] : Fin 4 → Nat) a)
    (inb : ∀ a, off a + S1x1x1x16.size a ≤ S2x8x32x32.size a)
    (h0 : ∀ l : S16.Idx, (idxs 0 l).toNat = kk / 4)
    (h1 : ∀ l : S16.Idx, (idxs 1 l).toNat = 2 * (k / 2) + kk / 2 % 2)
    (h2 : ∀ l : S16.Idx, (idxs 2 l).toNat = 2 * (16 * (k % 2) + (l 0).val) + kk % 2)
    (x : (Rect.unit (s := S2x8x32x32) off S1x1x1x16.size inb).shape.Idx) :
    shapeCast S1x1x1x16 (loadIdx A idxs h) hsc x = A (gidx ((Rect.unit (s := S2x8x32x32) off S1x1x1x16.size inb).emb x)) := by
  have hx0 : (x 0).val = 0 := by have := (x 0).isLt; simp at this; omega
  have hx1 : (x 1).val = 0 := by have := (x 1).isLt; simp at this; omega
  have hx2 : (x 2).val = 0 := by have := (x 2).isLt; simp at this; omega
  have hx : shapeCast S1x1x1x16 (loadIdx A idxs h) hsc x = loadIdx A idxs h (ix1 (⟨(x 3).val, (x 3).isLt⟩ : Fin 16)) :=
    shapeCast_apply (loadIdx A idxs h) hsc x _ (by
      rw [Shape.rowMajor_val_one, Shape.rowMajor_val_four]
      show _ = (((x 0).val * 1 + (x 1).val) * 1 + (x 2).val) * 16 + (x 3).val
      rw [hx0, hx1, hx2]; simp)
  rw [hx]
  unfold loadIdx
  refine congrArg A (funext fun a => Fin.ext ?_)
  have e1 : (((Rect.unit (s := S2x8x32x32) off S1x1x1x16.size inb).emb x 1 : Fin _) : Nat) = kk + (x 1).val := by
    rw [Rect.emb_apply, Rect.off_unit, Rect.stride_unit, Nat.one_mul, hoff]; rfl
  have e2 : (((Rect.unit (s := S2x8x32x32) off S1x1x1x16.size inb).emb x 2 : Fin _) : Nat) = k / 2 + (x 2).val := by
    rw [Rect.emb_apply, Rect.off_unit, Rect.stride_unit, Nat.one_mul, hoff]; rfl
  have e3 : (((Rect.unit (s := S2x8x32x32) off S1x1x1x16.size inb).emb x 3 : Fin _) : Nat) = 16 * (k % 2) + (x 3).val := by
    rw [Rect.emb_apply, Rect.off_unit, Rect.stride_unit, Nat.one_mul, hoff]; rfl
  match a with
  | ⟨0, _⟩ =>
    show (idxs 0 _).toNat = (((Rect.unit (s := S2x8x32x32) off S1x1x1x16.size inb).emb x 1 : Fin _) : Nat) / 4
    rw [h0, e1, hx1]; simp
  | ⟨1, _⟩ =>
    show (idxs 1 _).toNat = 2 * (((Rect.unit (s := S2x8x32x32) off S1x1x1x16.size inb).emb x 2 : Fin _) : Nat) + (((Rect.unit (s := S2x8x32x32) off S1x1x1x16.size inb).emb x 1 : Fin _) : Nat) / 2 % 2
    rw [h1, e1, e2, hx1, hx2]; simp
  | ⟨2, _⟩ =>
    show (idxs 2 _).toNat = 2 * (((Rect.unit (s := S2x8x32x32) off S1x1x1x16.size inb).emb x 3 : Fin _) : Nat) + (((Rect.unit (s := S2x8x32x32) off S1x1x1x16.size inb).emb x 1 : Fin _) : Nat) % 2
    rw [h2, e1, e3, hx1]; simp [ix1]

end Cert.Proof.KI

end
-- ==== Proof.Offsets.lean ====
/-
  Closed forms of the kernel's integer chains.

  The kernel runs on 32 workers — grid point i = (core, subcore), worker w = 2·subcore + core — and cuts the
  work into 2048 units, 64 per worker: unit u = 64·w + t is the pair (batch, channel) = (u / 1024, u % 1024 / 32)
  together with the row pair 2·(u % 32), 2·(u % 32) + 1 of the first spatial axis. Its source window in the
  argument starts at [u / 1024, u % 1024 / 32, 2·(u % 32), 0, 0], and its destination window in the result (the
  eight channels 8·c … 8·c + 7 at row u % 32) at [u / 1024, 8·(u % 1024 / 32), u % 32, 0, 0]. The kernel computes
  these offsets in 32-bit words by floor-division chains (a signed quotient corrected by the signs, a signed
  remainder corrected by the signs); at every grid point, every trip of the main loop and every literal
  parameter the chains meet, no word overflows and the chain's value is the natural-number expression. Each
  equation below is checked by evaluating both sides at every point of its finite domain.

  The local unit number t is a literal outside the main loop (0, 1, 2 and 63 fetched; 60 … 63 written back), and
  6·k + j in trip k of the main loop (units 6·k … 6·k + 5 written back, units
  6·k + 3 … 6·k + 8 fetched ahead; the guard 6·k + j < 61 of each fetch holds at every one of the 10 trips).

  The inner loops (64 trips each) address the staging buffer of the result at [slot, m, v / 2, 16·(v % 2)] in
  trip v: slot ∈ {0, 1} the half of the double buffer, m ∈ {0, …, 7} the channel within the group of eight.
-/
import proofs.«209385_g40939628265708_retrytranche2_1889_20_alg».proof.Proof.Gen.KernelIdeal

set_option Elab.async false
set_option maxRecDepth 100000
set_option maxHeartbeats 4000000

namespace Cert.Proof.KI.Off

open Cert.KernelIdeal Cert.KernelIdeal.Gen Idealize.ShloMosaic

/-! ## Units and their windows -/

/-- Unit number t (0 ≤ t < 64) of the worker at grid point i = (core, subcore): 64·(2·subcore + core) + t. -/
abbrev unitOf (i : grid0.Coords) (t : Nat) : Nat := 64 * (2 * (i 1).val + (i 0).val) + t

/-- Where unit u's source window starts in the argument over [2, 32, 64, 64, 64]. -/
abbrev srcOff (u : Nat) : Fin 5 → Nat := ![u / 1024, u % 1024 / 32, 2 * (u % 32), 0, 0]

/-- Where unit u's destination window starts in the result over [2, 256, 32, 32, 32]. -/
abbrev dstOff (u : Nat) : Fin 5 → Nat := ![u / 1024, 8 * (u % 1024 / 32), u % 32, 0, 0]

/-- Where trip v of an inner loop addresses the staging buffer over [2, 8, 32, 32]: half `slot`, channel m,
    row v / 2, column 16·(v % 2). -/
abbrev stageOff (slot m v : Nat) : Fin 4 → Nat := ![slot, m, v / 2, 16 * (v % 2)]

/-- A worker's 64 units lie among the 2048. -/
theorem unitOf_lt (i : grid0.Coords) {t : Nat} (ht : t < 64) : unitOf i t < 2048 := by
  have h0 : (i 0).val < 2 := (i 0).isLt
  have h1 : (i 1).val < 16 := (i 1).isLt
  show 64 * (2 * (i 1).val + (i 0).val) + t < 2048
  omega

/-! ## Trip counts -/

/-- The main loop has 10 trips. -/
theorem t1_trips : k0_t1_loop.trips = 10 := by decide +kernel
/-- An inner loop has 64 trips. -/
theorem t2_trips : k0_t2_loop.trips = 64 := by decide +kernel
/-- An inner loop has 64 trips. -/
theorem t3_trips : k0_t3_loop.trips = 64 := by decide +kernel
/-- An inner loop has 64 trips. -/
theorem t4_trips : k0_t4_loop.trips = 64 := by decide +kernel
/-- An inner loop has 64 trips. -/
theorem t5_trips : k0_t5_loop.trips = 64 := by decide +kernel
/-- An inner loop has 64 trips. -/
theorem t6_trips : k0_t6_loop.trips = 64 := by decide +kernel
/-- An inner loop has 64 trips. -/
theorem t7_trips : k0_t7_loop.trips = 64 := by decide +kernel
/-- An inner loop has 64 trips. -/
theorem t8_trips : k0_t8_loop.trips = 64 := by decide +kernel
/-- An inner loop has 64 trips. -/
theorem t9_trips : k0_t9_loop.trips = 64 := by decide +kernel
/-- An inner loop has 64 trips. -/
theorem t10_trips : k0_t10_loop.trips = 64 := by decide +kernel
/-- An inner loop has 64 trips. -/
theorem t11_trips : k0_t11_loop.trips = 64 := by decide +kernel

/-! ## The guards of the fetches in the main loop -/

/-- The guard 6·k + 0 < 61 holds at every trip k < 10. -/
theorem cond2_eq : ∀ t : Fin k0_t1_loop.trips, k0_cond2 t = 1#1 := by decide +kernel
/-- The guard 6·k + 1 < 61 holds at every trip k < 10. -/
theorem cond4_eq : ∀ t : Fin k0_t1_loop.trips, k0_cond4 t = 1#1 := by decide +kernel
/-- The guard 6·k + 2 < 61 holds at every trip k < 10. -/
theorem cond6_eq : ∀ t : Fin k0_t1_loop.trips, k0_cond6 t = 1#1 := by decide +kernel
/-- The guard 6·k + 3 < 61 holds at every trip k < 10. -/
theorem cond8_eq : ∀ t : Fin k0_t1_loop.trips, k0_cond8 t = 1#1 := by decide +kernel
/-- The guard 6·k + 4 < 61 holds at every trip k < 10. -/
theorem cond10_eq : ∀ t : Fin k0_t1_loop.trips, k0_cond10 t = 1#1 := by decide +kernel
/-- The guard 6·k + 5 < 61 holds at every trip k < 10. -/
theorem cond12_eq : ∀ t : Fin k0_t1_loop.trips, k0_cond12 t = 1#1 := by decide +kernel

/-! ## Source windows -/

/-- The literal unit numbers of the fetches outside the main loop. -/
theorem off1_at_toNat : ∀ r : Fin 4, (k0_off1_at r).toNat = (![0, 1, 2, 63] : Fin 4 → Nat) r := by decide +kernel

/-- Prologue and tail fetches: unit t ∈ {0, 1, 2, 63} of the worker. -/
theorem off1_eq (i : grid0.Coords) (r : Fin 4) :
    k0_off1 i (k0_off1_at r) = srcOff (unitOf i ((![0, 1, 2, 63] : Fin 4 → Nat) r)) :=
  funext fun a => (by decide +kernel : ∀ (i : grid0.Coords) (r : Fin 4) (a : Fin 5),
    k0_off1 i (k0_off1_at r) a = srcOff (unitOf i ((![0, 1, 2, 63] : Fin 4 → Nat) r)) a) i r a

/-- The same at each literal parameter, as the program spells it. -/
theorem off1_eq_0 (i : grid0.Coords) : k0_off1 i 0#32 = srcOff (unitOf i 0) := off1_eq i 0
theorem off1_eq_1 (i : grid0.Coords) : k0_off1 i 1#32 = srcOff (unitOf i 1) := off1_eq i 1
theorem off1_eq_2 (i : grid0.Coords) : k0_off1 i 2#32 = srcOff (unitOf i 2) := off1_eq i 2
theorem off1_eq_63 (i : grid0.Coords) : k0_off1 i 63#32 = srcOff (unitOf i 63) := off1_eq i 3

/-- A fetch in trip k of the main loop: unit 6·k + 3 of the worker. -/
theorem off11_eq (i : grid0.Coords) (t : Fin k0_t1_loop.trips) : k0_off11 i t = srcOff (unitOf i (6 * t.val + 3)) :=
  funext fun a => (by decide +kernel : ∀ (i : grid0.Coords) (t : Fin k0_t1_loop.trips) (a : Fin 5),
    k0_off11 i t a = srcOff (unitOf i (6 * t.val + 3)) a) i t a

/-- A fetch in trip k of the main loop: unit 6·k + 4 of the worker. -/
theorem off20_eq (i : grid0.Coords) (t : Fin k0_t1_loop.trips) : k0_off20 i t = srcOff (unitOf i (6 * t.val + 4)) :=
  funext fun a => (by decide +kernel : ∀ (i : grid0.Coords) (t : Fin k0_t1_loop.trips) (a : Fin 5),
    k0_off20 i t a = srcOff (unitOf i (6 * t.val + 4)) a) i t a

/-- A fetch in trip k of the main loop: unit 6·k + 5 of the worker. -/
theorem off29_eq (i : grid0.Coords) (t : Fin k0_t1_loop.trips) : k0_off29 i t = srcOff (unitOf i (6 * t.val + 5)) :=
  funext fun a => (by decide +kernel : ∀ (i : grid0.Coords) (t : Fin k0_t1_loop.trips) (a : Fin 5),
    k0_off29 i t a = srcOff (unitOf i (6 * t.val + 5)) a) i t a

/-- A fetch in trip k of the main loop: unit 6·k + 6 of the worker. -/
theorem off38_eq (i : grid0.Coords) (t : Fin k0_t1_loop.trips) : k0_off38 i t = srcOff (unitOf i (6 * t.val + 6)) :=
  funext fun a => (by decide +kernel : ∀ (i : grid0.Coords) (t : Fin k0_t1_loop.trips) (a : Fin 5),
    k0_off38 i t a = srcOff (unitOf i (6 * t.val + 6)) a) i t a

/-- A fetch in trip k of the main loop: unit 6·k + 7 of the worker. -/
theorem off47_eq (i : grid0.Coords) (t : Fin k0_t1_loop.trips) : k0_off47 i t = srcOff (unitOf i (6 * t.val + 7)) :=
  funext fun a => (by decide +kernel : ∀ (i : grid0.Coords) (t : Fin k0_t1_loop.trips) (a : Fin 5),
    k0_off47 i t a = srcOff (unitOf i (6 * t.val + 7)) a) i t a

/-- A fetch in trip k of the main loop: unit 6·k + 8 of the worker. -/
theorem off56_eq (i : grid0.Coords) (t : Fin k0_t1_loop.trips) : k0_off56 i t = srcOff (unitOf i (6 * t.val + 8)) :=
  funext fun a => (by decide +kernel : ∀ (i : grid0.Coords) (t : Fin k0_t1_loop.trips) (a : Fin 5),
    k0_off56 i t a = srcOff (unitOf i (6 * t.val + 8)) a) i t a

/-! ## Destination windows -/

/-- A write-back in trip k of the main loop, at each literal parameter r < 6 as the program spells it: unit
    6·k + r of the worker. -/
theorem off10_eq_0 (i : grid0.Coords) (t : Fin k0_t1_loop.trips) : k0_off10 i t 0#32 = dstOff (unitOf i (6 * t.val + 0)) :=
  funext fun a => (by decide +kernel : ∀ (i : grid0.Coords) (t : Fin k0_t1_loop.trips) (a : Fin 5),
    k0_off10 i t 0#32 a = dstOff (unitOf i (6 * t.val + 0)) a) i t a
theorem off10_eq_1 (i : grid0.Coords) (t : Fin k0_t1_loop.trips) : k0_off10 i t 1#32 = dstOff (unitOf i (6 * t.val + 1)) :=
  funext fun a => (by decide +kernel : ∀ (i : grid0.Coords) (t : Fin k0_t1_loop.trips) (a : Fin 5),
    k0_off10 i t 1#32 a = dstOff (unitOf i (6 * t.val + 1)) a) i t a
theorem off10_eq_2 (i : grid0.Coords) (t : Fin k0_t1_loop.trips) : k0_off10 i t 2#32 = dstOff (unitOf i (6 * t.val + 2)) :=
  funext fun a => (by decide +kernel : ∀ (i : grid0.Coords) (t : Fin k0_t1_loop.trips) (a : Fin 5),
    k0_off10 i t 2#32 a = dstOff (unitOf i (6 * t.val + 2)) a) i t a
theorem off10_eq_3 (i : grid0.Coords) (t : Fin k0_t1_loop.trips) : k0_off10 i t 3#32 = dstOff (unitOf i (6 * t.val + 3)) :=
  funext fun a => (by decide +kernel : ∀ (i : grid0.Coords) (t : Fin k0_t1_loop.trips) (a : Fin 5),
    k0_off10 i t 3#32 a = dstOff (unitOf i (6 * t.val + 3)) a) i t a
theorem off10_eq_4 (i : grid0.Coords) (t : Fin k0_t1_loop.trips) : k0_off10 i t 4#32 = dstOff (unitOf i (6 * t.val + 4)) :=
  funext fun a => (by decide +kernel : ∀ (i : grid0.Coords) (t : Fin k0_t1_loop.trips) (a : Fin 5),
    k0_off10 i t 4#32 a = dstOff (unitOf i (6 * t.val + 4)) a) i t a
theorem off10_eq_5 (i : grid0.Coords) (t : Fin k0_t1_loop.trips) : k0_off10 i t 5#32 = dstOff (unitOf i (6 * t.val + 5)) :=
  funext fun a => (by decide +kernel : ∀ (i : grid0.Coords) (t : Fin k0_t1_loop.trips) (a : Fin 5),
    k0_off10 i t 5#32 a = dstOff (unitOf i (6 * t.val + 5)) a) i t a

/-- The same for a parameter r < 6 given as a number. -/
theorem off10_eq (i : grid0.Coords) (t : Fin k0_t1_loop.trips) (r : Fin 6) :
    k0_off10 i t (BitVec.ofNat 32 r.val) = dstOff (unitOf i (6 * t.val + r.val)) :=
  match r with
  | ⟨0, _⟩ => off10_eq_0 i t
  | ⟨1, _⟩ => off10_eq_1 i t
  | ⟨2, _⟩ => off10_eq_2 i t
  | ⟨3, _⟩ => off10_eq_3 i t
  | ⟨4, _⟩ => off10_eq_4 i t
  | ⟨5, _⟩ => off10_eq_5 i t

/-- A write-back in the tail: unit 60 + r of the worker, r < 4. -/
theorem off65_eq (i : grid0.Coords) (r : Fin 4) :
    k0_off65 i (BitVec.ofNat 32 (60 + r.val)) = dstOff (unitOf i (60 + r.val)) :=
  funext fun a => (by decide +kernel : ∀ (i : grid0.Coords) (r : Fin 4) (a : Fin 5),
    k0_off65 i (BitVec.ofNat 32 (60 + r.val)) a = dstOff (unitOf i (60 + r.val)) a) i r a

/-- The same at each literal parameter, as the program spells it. -/
theorem off65_eq_60 (i : grid0.Coords) : k0_off65 i 60#32 = dstOff (unitOf i 60) := off65_eq i 0
theorem off65_eq_61 (i : grid0.Coords) : k0_off65 i 61#32 = dstOff (unitOf i 61) := off65_eq i 1
theorem off65_eq_62 (i : grid0.Coords) : k0_off65 i 62#32 = dstOff (unitOf i 62) := off65_eq i 2
theorem off65_eq_63 (i : grid0.Coords) : k0_off65 i 63#32 = dstOff (unitOf i 63) := off65_eq i 3

/-! ## The staging buffer's addresses in the inner loops -/

/-- Inner loop 2, trip v: half 0, channel 0. -/
theorem off2_eq (v : Fin k0_t2_loop.trips) : k0_off2 v = stageOff 0 0 v.val :=
  funext fun a => (by decide +kernel : ∀ (v : Fin k0_t2_loop.trips) (a : Fin 4), k0_off2 v a = stageOff 0 0 v.val a) v a

/-- Inner loop 2, trip v: half 0, channel 1. -/
theorem off3_eq (v : Fin k0_t2_loop.trips) : k0_off3 v = stageOff 0 1 v.val :=
  funext fun a => (by decide +kernel : ∀ (v : Fin k0_t2_loop.trips) (a : Fin 4), k0_off3 v a = stageOff 0 1 v.val a) v a

/-- Inner loop 2, trip v: half 0, channel 2. -/
theorem off4_eq (v : Fin k0_t2_loop.trips) : k0_off4 v = stageOff 0 2 v.val :=
  funext fun a => (by decide +kernel : ∀ (v : Fin k0_t2_loop.trips) (a : Fin 4), k0_off4 v a = stageOff 0 2 v.val a) v a

/-- Inner loop 2, trip v: half 0, channel 3. -/
theorem off5_eq (v : Fin k0_t2_loop.trips) : k0_off5 v = stageOff 0 3 v.val :=
  funext fun a => (by decide +kernel : ∀ (v : Fin k0_t2_loop.trips) (a : Fin 4), k0_off5 v a = stageOff 0 3 v.val a) v a

/-- Inner loop 2, trip v: half 0, channel 4. -/
theorem off6_eq (v : Fin k0_t2_loop.trips) : k0_off6 v = stageOff 0 4 v.val :=
  funext fun a => (by decide +kernel : ∀ (v : Fin k0_t2_loop.trips) (a : Fin 4), k0_off6 v a = stageOff 0 4 v.val a) v a

/-- Inner loop 2, trip v: half 0, channel 5. -/
theorem off7_eq (v : Fin k0_t2_loop.trips) : k0_off7 v = stageOff 0 5 v.val :=
  funext fun a => (by decide +kernel : ∀ (v : Fin k0_t2_loop.trips) (a : Fin 4), k0_off7 v a = stageOff 0 5 v.val a) v a

/-- Inner loop 2, trip v: half 0, channel 6. -/
theorem off8_eq (v : Fin k0_t2_loop.trips) : k0_off8 v = stageOff 0 6 v.val :=
  funext fun a => (by decide +kernel : ∀ (v : Fin k0_t2_loop.trips) (a : Fin 4), k0_off8 v a = stageOff 0 6 v.val a) v a

/-- Inner loop 2, trip v: half 0, channel 7. -/
theorem off9_eq (v : Fin k0_t2_loop.trips) : k0_off9 v = stageOff 0 7 v.val :=
  funext fun a => (by decide +kernel : ∀ (v : Fin k0_t2_loop.trips) (a : Fin 4), k0_off9 v a = stageOff 0 7 v.val a) v a

/-- Inner loop 3, trip v: half 1, channel 0. -/
theorem off12_eq (v : Fin k0_t3_loop.trips) : k0_off12 v = stageOff 1 0 v.val :=
  funext fun a => (by decide +kernel : ∀ (v : Fin k0_t3_loop.trips) (a : Fin 4), k0_off12 v a = stageOff 1 0 v.val a) v a

/-- Inner loop 3, trip v: half 1, channel 1. -/
theorem off13_eq (v : Fin k0_t3_loop.trips) : k0_off13 v = stageOff 1 1 v.val :=
  funext fun a => (by decide +kernel : ∀ (v : Fin k0_t3_loop.trips) (a : Fin 4), k0_off13 v a = stageOff 1 1 v.val a) v a

/-- Inner loop 3, trip v: half 1, channel 2. -/
theorem off14_eq (v : Fin k0_t3_loop.trips) : k0_off14 v = stageOff 1 2 v.val :=
  funext fun a => (by decide +kernel : ∀ (v : Fin k0_t3_loop.trips) (a : Fin 4), k0_off14 v a = stageOff 1 2 v.val a) v a

/-- Inner loop 3, trip v: half 1, channel 3. -/
theorem off15_eq (v : Fin k0_t3_loop.trips) : k0_off15 v = stageOff 1 3 v.val :=
  funext fun a => (by decide +kernel : ∀ (v : Fin k0_t3_loop.trips) (a : Fin 4), k0_off15 v a = stageOff 1 3 v.val a) v a

/-- Inner loop 3, trip v: half 1, channel 4. -/
theorem off16_eq (v : Fin k0_t3_loop.trips) : k0_off16 v = stageOff 1 4 v.val :=
  funext fun a => (by decide +kernel : ∀ (v : Fin k0_t3_loop.trips) (a : Fin 4), k0_off16 v a = stageOff 1 4 v.val a) v a

/-- Inner loop 3, trip v: half 1, channel 5. -/
theorem off17_eq (v : Fin k0_t3_loop.trips) : k0_off17 v = stageOff 1 5 v.val :=
  funext fun a => (by decide +kernel : ∀ (v : Fin k0_t3_loop.trips) (a : Fin 4), k0_off17 v a = stageOff 1 5 v.val a) v a

/-- Inner loop 3, trip v: half 1, channel 6. -/
theorem off18_eq (v : Fin k0_t3_loop.trips) : k0_off18 v = stageOff 1 6 v.val :=
  funext fun a => (by decide +kernel : ∀ (v : Fin k0_t3_loop.trips) (a : Fin 4), k0_off18 v a = stageOff 1 6 v.val a) v a

/-- Inner loop 3, trip v: half 1, channel 7. -/
theorem off19_eq (v : Fin k0_t3_loop.trips) : k0_off19 v = stageOff 1 7 v.val :=
  funext fun a => (by decide +kernel : ∀ (v : Fin k0_t3_loop.trips) (a : Fin 4), k0_off19 v a = stageOff 1 7 v.val a) v a

/-- Inner loop 4, trip v: half 0, channel 0. -/
theorem off21_eq (v : Fin k0_t4_loop.trips) : k0_off21 v = stageOff 0 0 v.val :=
  funext fun a => (by decide +kernel : ∀ (v : Fin k0_t4_loop.trips) (a : Fin 4), k0_off21 v a = stageOff 0 0 v.val a) v a

/-- Inner loop 4, trip v: half 0, channel 1. -/
theorem off22_eq (v : Fin k0_t4_loop.trips) : k0_off22 v = stageOff 0 1 v.val :=
  funext fun a => (by decide +kernel : ∀ (v : Fin k0_t4_loop.trips) (a : Fin 4), k0_off22 v a = stageOff 0 1 v.val a) v a

/-- Inner loop 4, trip v: half 0, channel 2. -/
theorem off23_eq (v : Fin k0_t4_loop.trips) : k0_off23 v = stageOff 0 2 v.val :=
  funext fun a => (by decide +kernel : ∀ (v : Fin k0_t4_loop.trips) (a : Fin 4), k0_off23 v a = stageOff 0 2 v.val a) v a

/-- Inner loop 4, trip v: half 0, channel 3. -/
theorem off24_eq (v : Fin k0_t4_loop.trips) : k0_off24 v = stageOff 0 3 v.val :=
  funext fun a => (by decide +kernel : ∀ (v : Fin k0_t4_loop.trips) (a : Fin 4), k0_off24 v a = stageOff 0 3 v.val a) v a

/-- Inner loop 4, trip v: half 0, channel 4. -/
theorem off25_eq (v : Fin k0_t4_loop.trips) : k0_off25 v = stageOff 0 4 v.val :=
  funext fun a => (by decide +kernel : ∀ (v : Fin k0_t4_loop.trips) (a : Fin 4), k0_off25 v a = stageOff 0 4 v.val a) v a

/-- Inner loop 4, trip v: half 0, channel 5. -/
theorem off26_eq (v : Fin k0_t4_loop.trips) : k0_off26 v = stageOff 0 5 v.val :=
  funext fun a => (by decide +kernel : ∀ (v : Fin k0_t4_loop.trips) (a : Fin 4), k0_off26 v a = stageOff 0 5 v.val a) v a

/-- Inner loop 4, trip v: half 0, channel 6. -/
theorem off27_eq (v : Fin k0_t4_loop.trips) : k0_off27 v = stageOff 0 6 v.val :=
  funext fun a => (by decide +kernel : ∀ (v : Fin k0_t4_loop.trips) (a : Fin 4), k0_off27 v a = stageOff 0 6 v.val a) v a

/-- Inner loop 4, trip v: half 0, channel 7. -/
theorem off28_eq (v : Fin k0_t4_loop.trips) : k0_off28 v = stageOff 0 7 v.val :=
  funext fun a => (by decide +kernel : ∀ (v : Fin k0_t4_loop.trips) (a : Fin 4), k0_off28 v a = stageOff 0 7 v.val a) v a

/-- Inner loop 5, trip v: half 1, channel 0. -/
theorem off30_eq (v : Fin k0_t5_loop.trips) : k0_off30 v = stageOff 1 0 v.val :=
  funext fun a => (by decide +kernel : ∀ (v : Fin k0_t5_loop.trips) (a : Fin 4), k0_off30 v a = stageOff 1 0 v.val a) v a

/-- Inner loop 5, trip v: half 1, channel 1. -/
theorem off31_eq (v : Fin k0_t5_loop.trips) : k0_off31 v = stageOff 1 1 v.val :=
  funext fun a => (by decide +kernel : ∀ (v : Fin k0_t5_loop.trips) (a : Fin 4), k0_off31 v a = stageOff 1 1 v.val a) v a

/-- Inner loop 5, trip v: half 1, channel 2. -/
theorem off32_eq (v : Fin k0_t5_loop.trips) : k0_off32 v = stageOff 1 2 v.val :=
  funext fun a => (by decide +kernel : ∀ (v : Fin k0_t5_loop.trips) (a : Fin 4), k0_off32 v a = stageOff 1 2 v.val a) v a

/-- Inner loop 5, trip v: half 1, channel 3. -/
theorem off33_eq (v : Fin k0_t5_loop.trips) : k0_off33 v = stageOff 1 3 v.val :=
  funext fun a => (by decide +kernel : ∀ (v : Fin k0_t5_loop.trips) (a : Fin 4), k0_off33 v a = stageOff 1 3 v.val a) v a

/-- Inner loop 5, trip v: half 1, channel 4. -/
theorem off34_eq (v : Fin k0_t5_loop.trips) : k0_off34 v = stageOff 1 4 v.val :=
  funext fun a => (by decide +kernel : ∀ (v : Fin k0_t5_loop.trips) (a : Fin 4), k0_off34 v a = stageOff 1 4 v.val a) v a

/-- Inner loop 5, trip v: half 1, channel 5. -/
theorem off35_eq (v : Fin k0_t5_loop.trips) : k0_off35 v = stageOff 1 5 v.val :=
  funext fun a => (by decide +kernel : ∀ (v : Fin k0_t5_loop.trips) (a : Fin 4), k0_off35 v a = stageOff 1 5 v.val a) v a

/-- Inner loop 5, trip v: half 1, channel 6. -/
theorem off36_eq (v : Fin k0_t5_loop.trips) : k0_off36 v = stageOff 1 6 v.val :=
  funext fun a => (by decide +kernel : ∀ (v : Fin k0_t5_loop.trips) (a : Fin 4), k0_off36 v a = stageOff 1 6 v.val a) v a

/-- Inner loop 5, trip v: half 1, channel 7. -/
theorem off37_eq (v : Fin k0_t5_loop.trips) : k0_off37 v = stageOff 1 7 v.val :=
  funext fun a => (by decide +kernel : ∀ (v : Fin k0_t5_loop.trips) (a : Fin 4), k0_off37 v a = stageOff 1 7 v.val a) v a

/-- Inner loop 6, trip v: half 0, channel 0. -/
theorem off39_eq (v : Fin k0_t6_loop.trips) : k0_off39 v = stageOff 0 0 v.val :=
  funext fun a => (by decide +kernel : ∀ (v : Fin k0_t6_loop.trips) (a : Fin 4), k0_off39 v a = stageOff 0 0 v.val a) v a

/-- Inner loop 6, trip v: half 0, channel 1. -/
theorem off40_eq (v : Fin k0_t6_loop.trips) : k0_off40 v = stageOff 0 1 v.val :=
  funext fun a => (by decide +kernel : ∀ (v : Fin k0_t6_loop.trips) (a : Fin 4), k0_off40 v a = stageOff 0 1 v.val a) v a

/-- Inner loop 6, trip v: half 0, channel 2. -/
theorem off41_eq (v : Fin k0_t6_loop.trips) : k0_off41 v = stageOff 0 2 v.val :=
  funext fun a => (by decide +kernel : ∀ (v : Fin k0_t6_loop.trips) (a : Fin 4), k0_off41 v a = stageOff 0 2 v.val a) v a

/-- Inner loop 6, trip v: half 0, channel 3. -/
theorem off42_eq (v : Fin k0_t6_loop.trips) : k0_off42 v = stageOff 0 3 v.val :=
  funext fun a => (by decide +kernel : ∀ (v : Fin k0_t6_loop.trips) (a : Fin 4), k0_off42 v a = stageOff 0 3 v.val a) v a

/-- Inner loop 6, trip v: half 0, channel 4. -/
theorem off43_eq (v : Fin k0_t6_loop.trips) : k0_off43 v = stageOff 0 4 v.val :=
  funext fun a => (by decide +kernel : ∀ (v : Fin k0_t6_loop.trips) (a : Fin 4), k0_off43 v a = stageOff 0 4 v.val a) v a

/-- Inner loop 6, trip v: half 0, channel 5. -/
theorem off44_eq (v : Fin k0_t6_loop.trips) : k0_off44 v = stageOff 0 5 v.val :=
  funext fun a => (by decide +kernel : ∀ (v : Fin k0_t6_loop.trips) (a : Fin 4), k0_off44 v a = stageOff 0 5 v.val a) v a

/-- Inner loop 6, trip v: half 0, channel 6. -/
theorem off45_eq (v : Fin k0_t6_loop.trips) : k0_off45 v = stageOff 0 6 v.val :=
  funext fun a => (by decide +kernel : ∀ (v : Fin k0_t6_loop.trips) (a : Fin 4), k0_off45 v a = stageOff 0 6 v.val a) v a

/-- Inner loop 6, trip v: half 0, channel 7. -/
theorem off46_eq (v : Fin k0_t6_loop.trips) : k0_off46 v = stageOff 0 7 v.val :=
  funext fun a => (by decide +kernel : ∀ (v : Fin k0_t6_loop.trips) (a : Fin 4), k0_off46 v a = stageOff 0 7 v.val a) v a

/-- Inner loop 7, trip v: half 1, channel 0. -/
theorem off48_eq (v : Fin k0_t7_loop.trips) : k0_off48 v = stageOff 1 0 v.val :=
  funext fun a => (by decide +kernel : ∀ (v : Fin k0_t7_loop.trips) (a : Fin 4), k0_off48 v a = stageOff 1 0 v.val a) v a

/-- Inner loop 7, trip v: half 1, channel 1. -/
theorem off49_eq (v : Fin k0_t7_loop.trips) : k0_off49 v = stageOff 1 1 v.val :=
  funext fun a => (by decide +kernel : ∀ (v : Fin k0_t7_loop.trips) (a : Fin 4), k0_off49 v a = stageOff 1 1 v.val a) v a

/-- Inner loop 7, trip v: half 1, channel 2. -/
theorem off50_eq (v : Fin k0_t7_loop.trips) : k0_off50 v = stageOff 1 2 v.val :=
  funext fun a => (by decide +kernel : ∀ (v : Fin k0_t7_loop.trips) (a : Fin 4), k0_off50 v a = stageOff 1 2 v.val a) v a

/-- Inner loop 7, trip v: half 1, channel 3. -/
theorem off51_eq (v : Fin k0_t7_loop.trips) : k0_off51 v = stageOff 1 3 v.val :=
  funext fun a => (by decide +kernel : ∀ (v : Fin k0_t7_loop.trips) (a : Fin 4), k0_off51 v a = stageOff 1 3 v.val a) v a

/-- Inner loop 7, trip v: half 1, channel 4. -/
theorem off52_eq (v : Fin k0_t7_loop.trips) : k0_off52 v = stageOff 1 4 v.val :=
  funext fun a => (by decide +kernel : ∀ (v : Fin k0_t7_loop.trips) (a : Fin 4), k0_off52 v a = stageOff 1 4 v.val a) v a

/-- Inner loop 7, trip v: half 1, channel 5. -/
theorem off53_eq (v : Fin k0_t7_loop.trips) : k0_off53 v = stageOff 1 5 v.val :=
  funext fun a => (by decide +kernel : ∀ (v : Fin k0_t7_loop.trips) (a : Fin 4), k0_off53 v a = stageOff 1 5 v.val a) v a

/-- Inner loop 7, trip v: half 1, channel 6. -/
theorem off54_eq (v : Fin k0_t7_loop.trips) : k0_off54 v = stageOff 1 6 v.val :=
  funext fun a => (by decide +kernel : ∀ (v : Fin k0_t7_loop.trips) (a : Fin 4), k0_off54 v a = stageOff 1 6 v.val a) v a

/-- Inner loop 7, trip v: half 1, channel 7. -/
theorem off55_eq (v : Fin k0_t7_loop.trips) : k0_off55 v = stageOff 1 7 v.val :=
  funext fun a => (by decide +kernel : ∀ (v : Fin k0_t7_loop.trips) (a : Fin 4), k0_off55 v a = stageOff 1 7 v.val a) v a

/-- Inner loop 8, trip v: half 0, channel 0. -/
theorem off57_eq (v : Fin k0_t8_loop.trips) : k0_off57 v = stageOff 0 0 v.val :=
  funext fun a => (by decide +kernel : ∀ (v : Fin k0_t8_loop.trips) (a : Fin 4), k0_off57 v a = stageOff 0 0 v.val a) v a

/-- Inner loop 8, trip v: half 0, channel 1. -/
theorem off58_eq (v : Fin k0_t8_loop.trips) : k0_off58 v = stageOff 0 1 v.val :=
  funext fun a => (by decide +kernel : ∀ (v : Fin k0_t8_loop.trips) (a : Fin 4), k0_off58 v a = stageOff 0 1 v.val a) v a

/-- Inner loop 8, trip v: half 0, channel 2. -/
theorem off59_eq (v : Fin k0_t8_loop.trips) : k0_off59 v = stageOff 0 2 v.val :=
  funext fun a => (by decide +kernel : ∀ (v : Fin k0_t8_loop.trips) (a : Fin 4), k0_off59 v a = stageOff 0 2 v.val a) v a

/-- Inner loop 8, trip v: half 0, channel 3. -/
theorem off60_eq (v : Fin k0_t8_loop.trips) : k0_off60 v = stageOff 0 3 v.val :=
  funext fun a => (by decide +kernel : ∀ (v : Fin k0_t8_loop.trips) (a : Fin 4), k0_off60 v a = stageOff 0 3 v.val a) v a

/-- Inner loop 8, trip v: half 0, channel 4. -/
theorem off61_eq (v : Fin k0_t8_loop.trips) : k0_off61 v = stageOff 0 4 v.val :=
  funext fun a => (by decide +kernel : ∀ (v : Fin k0_t8_loop.trips) (a : Fin 4), k0_off61 v a = stageOff 0 4 v.val a) v a

/-- Inner loop 8, trip v: half 0, channel 5. -/
theorem off62_eq (v : Fin k0_t8_loop.trips) : k0_off62 v = stageOff 0 5 v.val :=
  funext fun a => (by decide +kernel : ∀ (v : Fin k0_t8_loop.trips) (a : Fin 4), k0_off62 v a = stageOff 0 5 v.val a) v a

/-- Inner loop 8, trip v: half 0, channel 6. -/
theorem off63_eq (v : Fin k0_t8_loop.trips) : k0_off63 v = stageOff 0 6 v.val :=
  funext fun a => (by decide +kernel : ∀ (v : Fin k0_t8_loop.trips) (a : Fin 4), k0_off63 v a = stageOff 0 6 v.val a) v a

/-- Inner loop 8, trip v: half 0, channel 7. -/
theorem off64_eq (v : Fin k0_t8_loop.trips) : k0_off64 v = stageOff 0 7 v.val :=
  funext fun a => (by decide +kernel : ∀ (v : Fin k0_t8_loop.trips) (a : Fin 4), k0_off64 v a = stageOff 0 7 v.val a) v a

/-- Inner loop 9, trip v: half 1, channel 0. -/
theorem off66_eq (v : Fin k0_t9_loop.trips) : k0_off66 v = stageOff 1 0 v.val :=
  funext fun a => (by decide +kernel : ∀ (v : Fin k0_t9_loop.trips) (a : Fin 4), k0_off66 v a = stageOff 1 0 v.val a) v a

/-- Inner loop 9, trip v: half 1, channel 1. -/
theorem off67_eq (v : Fin k0_t9_loop.trips) : k0_off67 v = stageOff 1 1 v.val :=
  funext fun a => (by decide +kernel : ∀ (v : Fin k0_t9_loop.trips) (a : Fin 4), k0_off67 v a = stageOff 1 1 v.val a) v a

/-- Inner loop 9, trip v: half 1, channel 2. -/
theorem off68_eq (v : Fin k0_t9_loop.trips) : k0_off68 v = stageOff 1 2 v.val :=
  funext fun a => (by decide +kernel : ∀ (v : Fin k0_t9_loop.trips) (a : Fin 4), k0_off68 v a = stageOff 1 2 v.val a) v a

/-- Inner loop 9, trip v: half 1, channel 3. -/
theorem off69_eq (v : Fin k0_t9_loop.trips) : k0_off69 v = stageOff 1 3 v.val :=
  funext fun a => (by decide +kernel : ∀ (v : Fin k0_t9_loop.trips) (a : Fin 4), k0_off69 v a = stageOff 1 3 v.val a) v a

/-- Inner loop 9, trip v: half 1, channel 4. -/
theorem off70_eq (v : Fin k0_t9_loop.trips) : k0_off70 v = stageOff 1 4 v.val :=
  funext fun a => (by decide +kernel : ∀ (v : Fin k0_t9_loop.trips) (a : Fin 4), k0_off70 v a = stageOff 1 4 v.val a) v a

/-- Inner loop 9, trip v: half 1, channel 5. -/
theorem off71_eq (v : Fin k0_t9_loop.trips) : k0_off71 v = stageOff 1 5 v.val :=
  funext fun a => (by decide +kernel : ∀ (v : Fin k0_t9_loop.trips) (a : Fin 4), k0_off71 v a = stageOff 1 5 v.val a) v a

/-- Inner loop 9, trip v: half 1, channel 6. -/
theorem off72_eq (v : Fin k0_t9_loop.trips) : k0_off72 v = stageOff 1 6 v.val :=
  funext fun a => (by decide +kernel : ∀ (v : Fin k0_t9_loop.trips) (a : Fin 4), k0_off72 v a = stageOff 1 6 v.val a) v a

/-- Inner loop 9, trip v: half 1, channel 7. -/
theorem off73_eq (v : Fin k0_t9_loop.trips) : k0_off73 v = stageOff 1 7 v.val :=
  funext fun a => (by decide +kernel : ∀ (v : Fin k0_t9_loop.trips) (a : Fin 4), k0_off73 v a = stageOff 1 7 v.val a) v a

/-- Inner loop 10, trip v: half 0, channel 0. -/
theorem off74_eq (v : Fin k0_t10_loop.trips) : k0_off74 v = stageOff 0 0 v.val :=
  funext fun a => (by decide +kernel : ∀ (v : Fin k0_t10_loop.trips) (a : Fin 4), k0_off74 v a = stageOff 0 0 v.val a) v a

/-- Inner loop 10, trip v: half 0, channel 1. -/
theorem off75_eq (v : Fin k0_t10_loop.trips) : k0_off75 v = stageOff 0 1 v.val :=
  funext fun a => (by decide +kernel : ∀ (v : Fin k0_t10_loop.trips) (a : Fin 4), k0_off75 v a = stageOff 0 1 v.val a) v a

/-- Inner loop 10, trip v: half 0, channel 2. -/
theorem off76_eq (v : Fin k0_t10_loop.trips) : k0_off76 v = stageOff 0 2 v.val :=
  funext fun a => (by decide +kernel : ∀ (v : Fin k0_t10_loop.trips) (a : Fin 4), k0_off76 v a = stageOff 0 2 v.val a) v a

/-- Inner loop 10, trip v: half 0, channel 3. -/
theorem off77_eq (v : Fin k0_t10_loop.trips) : k0_off77 v = stageOff 0 3 v.val :=
  funext fun a => (by decide +kernel : ∀ (v : Fin k0_t10_loop.trips) (a : Fin 4), k0_off77 v a = stageOff 0 3 v.val a) v a

/-- Inner loop 10, trip v: half 0, channel 4. -/
theorem off78_eq (v : Fin k0_t10_loop.trips) : k0_off78 v = stageOff 0 4 v.val :=
  funext fun a => (by decide +kernel : ∀ (v : Fin k0_t10_loop.trips) (a : Fin 4), k0_off78 v a = stageOff 0 4 v.val a) v a

/-- Inner loop 10, trip v: half 0, channel 5. -/
theorem off79_eq (v : Fin k0_t10_loop.trips) : k0_off79 v = stageOff 0 5 v.val :=
  funext fun a => (by decide +kernel : ∀ (v : Fin k0_t10_loop.trips) (a : Fin 4), k0_off79 v a = stageOff 0 5 v.val a) v a

/-- Inner loop 10, trip v: half 0, channel 6. -/
theorem off80_eq (v : Fin k0_t10_loop.trips) : k0_off80 v = stageOff 0 6 v.val :=
  funext fun a => (by decide +kernel : ∀ (v : Fin k0_t10_loop.trips) (a : Fin 4), k0_off80 v a = stageOff 0 6 v.val a) v a

/-- Inner loop 10, trip v: half 0, channel 7. -/
theorem off81_eq (v : Fin k0_t10_loop.trips) : k0_off81 v = stageOff 0 7 v.val :=
  funext fun a => (by decide +kernel : ∀ (v : Fin k0_t10_loop.trips) (a : Fin 4), k0_off81 v a = stageOff 0 7 v.val a) v a

/-- Inner loop 11, trip v: half 1, channel 0. -/
theorem off82_eq (v : Fin k0_t11_loop.trips) : k0_off82 v = stageOff 1 0 v.val :=
  funext fun a => (by decide +kernel : ∀ (v : Fin k0_t11_loop.trips) (a : Fin 4), k0_off82 v a = stageOff 1 0 v.val a) v a

/-- Inner loop 11, trip v: half 1, channel 1. -/
theorem off83_eq (v : Fin k0_t11_loop.trips) : k0_off83 v = stageOff 1 1 v.val :=
  funext fun a => (by decide +kernel : ∀ (v : Fin k0_t11_loop.trips) (a : Fin 4), k0_off83 v a = stageOff 1 1 v.val a) v a

/-- Inner loop 11, trip v: half 1, channel 2. -/
theorem off84_eq (v : Fin k0_t11_loop.trips) : k0_off84 v = stageOff 1 2 v.val :=
  funext fun a => (by decide +kernel : ∀ (v : Fin k0_t11_loop.trips) (a : Fin 4), k0_off84 v a = stageOff 1 2 v.val a) v a

/-- Inner loop 11, trip v: half 1, channel 3. -/
theorem off85_eq (v : Fin k0_t11_loop.trips) : k0_off85 v = stageOff 1 3 v.val :=
  funext fun a => (by decide +kernel : ∀ (v : Fin k0_t11_loop.trips) (a : Fin 4), k0_off85 v a = stageOff 1 3 v.val a) v a

/-- Inner loop 11, trip v: half 1, channel 4. -/
theorem off86_eq (v : Fin k0_t11_loop.trips) : k0_off86 v = stageOff 1 4 v.val :=
  funext fun a => (by decide +kernel : ∀ (v : Fin k0_t11_loop.trips) (a : Fin 4), k0_off86 v a = stageOff 1 4 v.val a) v a

/-- Inner loop 11, trip v: half 1, channel 5. -/
theorem off87_eq (v : Fin k0_t11_loop.trips) : k0_off87 v = stageOff 1 5 v.val :=
  funext fun a => (by decide +kernel : ∀ (v : Fin k0_t11_loop.trips) (a : Fin 4), k0_off87 v a = stageOff 1 5 v.val a) v a

/-- Inner loop 11, trip v: half 1, channel 6. -/
theorem off88_eq (v : Fin k0_t11_loop.trips) : k0_off88 v = stageOff 1 6 v.val :=
  funext fun a => (by decide +kernel : ∀ (v : Fin k0_t11_loop.trips) (a : Fin 4), k0_off88 v a = stageOff 1 6 v.val a) v a

/-- Inner loop 11, trip v: half 1, channel 7. -/
theorem off89_eq (v : Fin k0_t11_loop.trips) : k0_off89 v = stageOff 1 7 v.val :=
  funext fun a => (by decide +kernel : ∀ (v : Fin k0_t11_loop.trips) (a : Fin 4), k0_off89 v a = stageOff 1 7 v.val a) v a

end Cert.Proof.KI.Off
-- ==== Proof.Windows.lean ====
/-
  How one unit of work moves through its windows: index work only.

  A unit u < 2048 is a triple (b, ch, h) = (u / 1024, u % 1024 / 32, u % 32), u = 1024·b + 32·ch + h. Its source
  window is the slice of the argument x over [2, 32, 64, 64, 64] of sizes [1, 1, 2, 64, 64] at the offsets
  [b, ch, 2·h, 0, 0], with the two unit axes dropped: an array over [2, 64, 64] whose entry (p, w, z) is
  x (b, ch, 2·h + p, w, z). Its destination window is the slice of the result y over [2, 256, 32, 32, 32] of sizes
  [1, 8, 1, 32, 32] at the offsets [b, 8·ch, h, 0, 0], with the two unit axes dropped: an array over [8, 32, 32]
  whose entry (kk, w, z) sits at y (b, 8·ch + kk, h, w, z). The entries of y under the destination window are
  exactly those the map unitOf sends to u.

  Dropping unit axes keeps the row-major position of an entry, so the dropped-axes index of (p, w, z) is
  (0, 0, p, w, z) (and likewise for the other three shapes met here); a slice adds its offsets coordinate by
  coordinate. With these two facts every window is read at an index.

  The unit's value: the two argument rows A = (entry (p, w, z) ↦ x (b, ch, 2·h + p, w, z)) land in a slot of the
  input ring; the body leaves, in slot jo of the output ring, at (jo, kk, w, z) the entry
  A (kk / 4, 2·w + kk / 2 % 2, 2·z + kk % 2); the slot is then copied to the destination window. So y at
  (b, 8·ch + kk, h, w, z) ends as x (b, ch, 2·h + kk / 4, 2·w + kk / 2 % 2, 2·z + kk % 2), which is the
  specification's entry there: (8·ch + kk) / 8 = ch, (8·ch + kk) % 8 / 4 = kk / 4, (8·ch + kk) % 4 / 2 = kk / 2 % 2,
  (8·ch + kk) % 2 = kk % 2.
-/
import proofs.«209385_g40939628265708_retrytranche2_1889_20_alg».proof.Proof.ComputeLib
import proofs.«209385_g40939628265708_retrytranche2_1889_20_alg».proof.Proof.Offsets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

/-! ## Dropping unit axes -/

/-- [1, 1, 2, 64, 64] with its two unit axes dropped: (p, w, z) is (0, 0, p, w, z). -/
theorem sq_src (p : Fin 2) (w z : Fin 64) :
    Shape.reshapeEquiv (s := S1x1x2x64x64) (s' := S2x64x64) squeezes_S1x1x2x64x64_S2x64x64.numel_eq (ix3 p w z)
      = ix5 (0 : Fin 1) (0 : Fin 1) p w z :=
  Shape.reshapeEquiv_eq_of_rowMajor _ (by
    rw [Shape.rowMajor_val_five, Shape.rowMajor_val_three]
    show (((0 * 1 + 0) * 2 + p.val) * 64 + w.val) * 64 + z.val = (p.val * 64 + w.val) * 64 + z.val
    omega)

/-- [1, 8, 1, 32, 32] with its two unit axes dropped: (kk, w, z) is (0, kk, 0, w, z). -/
theorem sq_dst (kk : Fin 8) (w z : Fin 32) :
    Shape.reshapeEquiv (s := S1x8x1x32x32) (s' := S8x32x32) squeezes_S1x8x1x32x32_S8x32x32.numel_eq (ix3 kk w z)
      = ix5 (0 : Fin 1) kk (0 : Fin 1) w z :=
  Shape.reshapeEquiv_eq_of_rowMajor _ (by
    rw [Shape.rowMajor_val_five, Shape.rowMajor_val_three]
    show (((0 * 8 + kk.val) * 1 + 0) * 32 + w.val) * 32 + z.val = (kk.val * 32 + w.val) * 32 + z.val
    omega)

/-- [1, 2, 64, 64] with its unit axis dropped: (p, w, z) is (0, p, w, z). -/
theorem sq_in (p : Fin 2) (w z : Fin 64) :
    Shape.reshapeEquiv (s := S1x2x64x64) (s' := S2x64x64) squeezes_S1x2x64x64_S2x64x64.numel_eq (ix3 p w z)
      = ix4 (0 : Fin 1) p w z :=
  Shape.reshapeEquiv_eq_of_rowMajor _ (by
    rw [Shape.rowMajor_val_four, Shape.rowMajor_val_three]
    show ((0 * 2 + p.val) * 64 + w.val) * 64 + z.val = (p.val * 64 + w.val) * 64 + z.val
    omega)

/-- [1, 8, 32, 32] with its unit axis dropped: (kk, w, z) is (0, kk, w, z). -/
theorem sq_out (kk : Fin 8) (w z : Fin 32) :
    Shape.reshapeEquiv (s := S1x8x32x32) (s' := S8x32x32) squeezes_S1x8x32x32_S8x32x32.numel_eq (ix3 kk w z)
      = ix4 (0 : Fin 1) kk w z :=
  Shape.reshapeEquiv_eq_of_rowMajor _ (by
    rw [Shape.rowMajor_val_four, Shape.rowMajor_val_three]
    show ((0 * 8 + kk.val) * 32 + w.val) * 32 + z.val = (kk.val * 32 + w.val) * 32 + z.val
    omega)

/-! ## The two windows of a unit -/

/-- The source window at the offsets `off`: two rows of one (batch, channel) of the argument. -/
abbrev xWin (off : Fin 5 → Nat) (inb : ∀ a, off a + S1x1x2x64x64.size a ≤ S2x32x64x64x64.size a) :
    Memref sig .scVector .hbm S2x64x64 .f32 :=
  ((xV : Memref sig .scVector .hbm S2x32x64x64x64 .f32).slice (Rect.unit (s := S2x32x64x64x64) off S1x1x2x64x64.size inb) (fun _ => rfl)).squeeze S2x64x64 squeezes_S1x1x2x64x64_S2x64x64

/-- The destination window at the offsets `off`: one row of eight consecutive channels of one batch of the result. -/
abbrev yWin (off : Fin 5 → Nat) (inb : ∀ a, off a + S1x8x1x32x32.size a ≤ S2x256x32x32x32.size a) :
    Memref sig .scVector .hbm S8x32x32 .f32 :=
  ((yV : Memref sig .scVector .hbm S2x256x32x32x32 .f32).slice (Rect.unit (s := S2x256x32x32x32) off S1x8x1x32x32.size inb) (fun _ => rfl)).squeeze S8x32x32 squeezes_S1x8x1x32x32_S8x32x32

/-- Entry (p, w, z) of unit u's two argument rows, as an index of the argument. -/
abbrev xIdx (u : Nat) (hu : u < 2048) (p : Fin 2) (w z : Fin 64) : S2x32x64x64x64.Idx :=
  ix5 (⟨u / 1024, by omega⟩ : Fin 2) (⟨u % 1024 / 32, by omega⟩ : Fin 32) (⟨2 * (u % 32) + p.val, by omega⟩ : Fin 64) w z

/-- Entry (kk, w, z) of unit u's eight result planes, as an index of the result. -/
abbrev yIdx (u : Nat) (hu : u < 2048) (kk : Fin 8) (w z : Fin 32) : S2x256x32x32x32.Idx :=
  ix5 (⟨u / 1024, by omega⟩ : Fin 2) (⟨8 * (u % 1024 / 32) + kk.val, by omega⟩ : Fin 256) (⟨u % 32, by omega⟩ : Fin 32) w z

/-- The source window places its entry (p, w, z) at (b, ch, 2·h + p, w, z). -/
theorem xWin_emb (u : Nat) (hu : u < 2048) (off : Fin 5 → Nat) (hoff : off = Off.srcOff u)
    (inb : ∀ a, off a + S1x1x2x64x64.size a ≤ S2x32x64x64x64.size a) (p : Fin 2) (w z : Fin 64) :
    (xWin off inb).view.emb (ix3 p w z) = xIdx u hu p w z := by
  subst hoff
  funext a
  apply Fin.ext
  show Off.srcOff u a + 1 * ((Shape.reshapeEquiv squeezes_S1x1x2x64x64_S2x64x64.numel_eq (ix3 p w z)) a).val = _
  rw [sq_src]
  match a with
  | ⟨0, _⟩ => show u / 1024 + 1 * 0 = u / 1024; omega
  | ⟨1, _⟩ => show u % 1024 / 32 + 1 * 0 = u % 1024 / 32; omega
  | ⟨2, _⟩ => show 2 * (u % 32) + 1 * p.val = 2 * (u % 32) + p.val; omega
  | ⟨3, _⟩ => show 0 + 1 * w.val = w.val; omega
  | ⟨4, _⟩ => show 0 + 1 * z.val = z.val; omega

/-- The destination window places its entry (kk, w, z) at (b, 8·ch + kk, h, w, z). -/
theorem yWin_emb (u : Nat) (hu : u < 2048) (off : Fin 5 → Nat) (hoff : off = Off.dstOff u)
    (inb : ∀ a, off a + S1x8x1x32x32.size a ≤ S2x256x32x32x32.size a) (kk : Fin 8) (w z : Fin 32) :
    (yWin off inb).view.emb (ix3 kk w z) = yIdx u hu kk w z := by
  subst hoff
  funext a
  apply Fin.ext
  show Off.dstOff u a + 1 * ((Shape.reshapeEquiv squeezes_S1x8x1x32x32_S8x32x32.numel_eq (ix3 kk w z)) a).val = _
  rw [sq_dst]
  match a with
  | ⟨0, _⟩ => show u / 1024 + 1 * 0 = u / 1024; omega
  | ⟨1, _⟩ => show 8 * (u % 1024 / 32) + 1 * kk.val = 8 * (u % 1024 / 32) + kk.val; omega
  | ⟨2, _⟩ => show u % 32 + 1 * 0 = u % 32; omega
  | ⟨3, _⟩ => show 0 + 1 * w.val = w.val; omega
  | ⟨4, _⟩ => show 0 + 1 * z.val = z.val; omega

/-! ## (W1) The destination window's entries are the unit's fibre -/

/-- The entries of the result under unit u's destination window are those of unit u. -/
theorem yWin_set (u : Nat) (hu : u < 2048) (off : Fin 5 → Nat) (hoff : off = Off.dstOff u)
    (inb : ∀ a, off a + S1x8x1x32x32.size a ≤ S2x256x32x32x32.size a) :
    (yWin off inb).view.set = winSet ⟨u, hu⟩ := by
  subst hoff
  show (((yV : Memref sig .scVector .hbm S2x256x32x32x32 .f32).view.slice
      (Rect.unit (s := S2x256x32x32x32) (Off.dstOff u) S1x8x1x32x32.size inb)).reshape S8x32x32
        squeezes_S1x8x1x32x32_S8x32x32.numel_eq).set = winSet ⟨u, hu⟩
  rw [View.set_reshape]
  show ((View.whole main_v0_scv : View sig .scVector _ _ _).slice
      (Rect.unit (s := S2x256x32x32x32) (Off.dstOff u) S1x8x1x32x32.size inb)).set = winSet ⟨u, hu⟩
  rw [View.set_slice_whole]
  ext j
  rw [Rect.mem_set_unit]
  unfold winSet unitOf
  rw [Finset.mem_filter]
  have h0 : (j 0).val < 2 := (j 0).isLt
  have h1 : (j 1).val < 256 := (j 1).isLt
  have h2 : (j 2).val < 32 := (j 2).isLt
  have h3 : (j 3).val < 32 := (j 3).isLt
  have h4 : (j 4).val < 32 := (j 4).isLt
  constructor
  · intro h
    have e0 := h 0; have e1 := h 1; have e2 := h 2
    refine ⟨Finset.mem_univ _, Fin.ext ?_⟩
    change u / 1024 ≤ (j 0).val ∧ (j 0).val < u / 1024 + 1 at e0
    change 8 * (u % 1024 / 32) ≤ (j 1).val ∧ (j 1).val < 8 * (u % 1024 / 32) + 8 at e1
    change u % 32 ≤ (j 2).val ∧ (j 2).val < u % 32 + 1 at e2
    show 1024 * (j 0).val + 32 * ((j 1).val / 8) + (j 2).val = u
    omega
  · rintro ⟨-, h⟩
    have e : 1024 * (j 0).val + 32 * ((j 1).val / 8) + (j 2).val = u := congrArg Fin.val h
    intro a
    match a with
    | ⟨0, _⟩ => show u / 1024 ≤ (j 0).val ∧ (j 0).val < u / 1024 + 1; omega
    | ⟨1, _⟩ => show 8 * (u % 1024 / 32) ≤ (j 1).val ∧ (j 1).val < 8 * (u % 1024 / 32) + 8; omega
    | ⟨2, _⟩ => show u % 32 ≤ (j 2).val ∧ (j 2).val < u % 32 + 1; omega
    | ⟨3, _⟩ => show 0 ≤ (j 3).val ∧ (j 3).val < 0 + 32; omega
    | ⟨4, _⟩ => show 0 ≤ (j 4).val ∧ (j 4).val < 0 + 32; omega

/-! ## (W2) Reads through the windows and the ring slots, at an index -/

/-- The source window reads the argument's contents g at (b, ch, 2·h + p, w, z). -/
theorem xWin_read (u : Nat) (hu : u < 2048) (off : Fin 5 → Nat) (hoff : off = Off.srcOff u)
    (inb : ∀ a, off a + S1x1x2x64x64.size a ≤ S2x32x64x64x64.size a)
    (g : S2x32x64x64x64.Idx → Elt F .f32) (p : Fin 2) (w z : Fin 64) :
    (xWin off inb).view.read (Elt F) g (ix3 p w z) = g (xIdx u hu p w z) := by
  rw [← xWin_emb u hu off hoff inb p w z]
  exact (View.read_apply _ _).trans (cast_eq _ _)

/-- Slot 0 of the output ring reads the ring's contents fo at (0, kk, w, z). -/
theorem outSlot0_read (fo : S2x8x32x32.Idx → Elt F .f32) (kk : Fin 8) (w z : Fin 32) :
    (outSlot0).view.read (Elt F) fo (ix3 kk w z) = fo (ix4 (0 : Fin 2) kk w z) := by
  refine ((View.read_apply _ _).trans (cast_eq _ _)).trans (congrArg fo (funext fun a => Fin.ext ?_))
  show (![0, 0, 0, 0] : Fin 4 → Nat) a + 1 * ((Shape.reshapeEquiv squeezes_S1x8x32x32_S8x32x32.numel_eq (ix3 kk w z)) a).val = _
  rw [sq_out]
  match a with
  | ⟨0, _⟩ => show 0 + 1 * 0 = 0; omega
  | ⟨1, _⟩ => show 0 + 1 * kk.val = kk.val; omega
  | ⟨2, _⟩ => show 0 + 1 * w.val = w.val; omega
  | ⟨3, _⟩ => show 0 + 1 * z.val = z.val; omega

/-- Slot 1 of the output ring reads the ring's contents fo at (1, kk, w, z). -/
theorem outSlot1_read (fo : S2x8x32x32.Idx → Elt F .f32) (kk : Fin 8) (w z : Fin 32) :
    (outSlot1).view.read (Elt F) fo (ix3 kk w z) = fo (ix4 (1 : Fin 2) kk w z) := by
  refine ((View.read_apply _ _).trans (cast_eq _ _)).trans (congrArg fo (funext fun a => Fin.ext ?_))
  show (![1, 0, 0, 0] : Fin 4 → Nat) a + 1 * ((Shape.reshapeEquiv squeezes_S1x8x32x32_S8x32x32.numel_eq (ix3 kk w z)) a).val = _
  rw [sq_out]
  match a with
  | ⟨0, _⟩ => show 1 + 1 * 0 = 1; omega
  | ⟨1, _⟩ => show 0 + 1 * kk.val = kk.val; omega
  | ⟨2, _⟩ => show 0 + 1 * w.val = w.val; omega
  | ⟨3, _⟩ => show 0 + 1 * z.val = z.val; omega

/-- A load of a whole array over [2, 64, 64] through a view reads what the view reads. -/
theorem readAt_whole_eq_read (v : View sig .scVector .vmem S2x64x64 .f32) (f : v.ty.Contents (Elt F)) :
    View.readAt (Elt F) v (LoadRect.whole S2x64x64) f = v.read (Elt F) f := by
  funext x
  rw [View.readAt_apply]
  have hx : (LoadRect.whole S2x64x64).idx x = x := Rect.emb_whole_apply S2x64x64 x
  rw [hx]

/-- A load of a whole input slot right after a transfer filled it reads what the transfer wrote. -/
theorem inSlot_readAt_write (v : View sig .scVector .vmem S2x64x64 .f32) (f : v.ty.Contents (Elt F))
    (A : S2x64x64.Idx → Elt F .f32) :
    View.readAt (Elt F) v (LoadRect.whole S2x64x64) (v.write (Elt F) f A Finset.univ) = A := by
  funext x
  rw [View.readAt_apply]
  have hx : (LoadRect.whole S2x64x64).idx x = x := Rect.emb_whole_apply S2x64x64 x
  rw [hx, View.read_write_univ]

/-- A load of a whole input slot after a transfer left its payload A as the slot's one whole piece reads A. -/
theorem readAt_whole_writes (v : View sig .scVector .vmem S2x64x64 .f32) (f : v.ty.Contents (Elt F))
    (A : S2x64x64.Idx → Elt F .f32) :
    View.readAt (Elt F) v (LoadRect.whole S2x64x64) (v.writes (Elt F) f [⟨Rect.whole S2x64x64, A⟩]) = A := by
  rw [readAt_whole_eq_read, View.read_writes_whole]

/-! ## (W3) The unit's value -/

/-- The specification at entry (kk, w, z) of unit u's destination window: the argument at
    (b, ch, 2·h + kk / 4, 2·w + kk / 2 % 2, 2·z + kk % 2). -/
theorem src_yIdx (u : Nat) (hu : u < 2048) (kk : Fin 8) (w z : Fin 32) :
    src (yIdx u hu kk w z)
      = xIdx u hu (⟨kk.val / 4, by omega⟩ : Fin 2) (⟨2 * w.val + kk.val / 2 % 2, by omega⟩ : Fin 64)
          (⟨2 * z.val + kk.val % 2, by omega⟩ : Fin 64) := by
  funext a
  apply Fin.ext
  match a with
  | ⟨0, _⟩ => rfl
  | ⟨1, _⟩ => show (8 * (u % 1024 / 32) + kk.val) / 8 = u % 1024 / 32; omega
  | ⟨2, _⟩ => show 2 * (u % 32) + (8 * (u % 1024 / 32) + kk.val) % 8 / 4 = 2 * (u % 32) + kk.val / 4; omega
  | ⟨3, _⟩ => show 2 * w.val + (8 * (u % 1024 / 32) + kk.val) % 4 / 2 = 2 * w.val + kk.val / 2 % 2; omega
  | ⟨4, _⟩ => show 2 * z.val + (8 * (u % 1024 / 32) + kk.val) % 2 = 2 * z.val + kk.val % 2; omega

/-- Where the body's index map sends entry (jo, kk, w, z) of the output ring. -/
theorem gidx_ix4 (jo : Fin 2) (kk : Fin 8) (w z : Fin 32) :
    gidx (ix4 jo kk w z)
      = ix3 (⟨kk.val / 4, by omega⟩ : Fin 2) (⟨2 * w.val + kk.val / 2 % 2, by omega⟩ : Fin 64)
          (⟨2 * z.val + kk.val % 2, by omega⟩ : Fin 64) := rfl

/-- The unit's value, for a slot of the output ring given by what it reads: if the slot reads the ring's contents
    fo at (jo, kk, w, z), and every row of slot jo of fo holds the rearrangement of the unit's two argument rows,
    then copying the slot to the unit's destination window leaves the specification's entries there. -/
theorem unit_value (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (jo : Fin 2) (slot : S8x32x32.Idx → Elt F .f32) (fo : S2x8x32x32.Idx → Elt F .f32)
    (hslot : ∀ (kk : Fin 8) (w z : Fin 32), slot (ix3 kk w z) = fo (ix4 jo kk w z))
    (hD : Done jo.val 64 ((xWin off inb).view.read (Elt F) (m (xLoc d))) fo)
    (fd : Buf (Elt F) (yLoc d)) (j : YS.Idx) (hj : j ∈ (yWin off' inb').view.set) :
    (yWin off' inb').view.write (Elt F) fd slot Finset.univ j = Gy m d j := by
  obtain ⟨y', rfl⟩ := View.exists_emb_of_mem_set (yWin off' inb').view hj
  obtain ⟨kk, w, z, rfl⟩ : ∃ kk w z, y' = ix3 kk w z := ⟨_, _, _, eq_ix3 y'⟩
  rw [View.write_emb_of_mem _ _ (Finset.mem_univ _)]
  refine (cast_eq _ _).trans ?_
  rw [hslot kk w z, hD (ix4 jo kk w z) rfl (by
    show 2 * w.val + z.val / 16 < 64
    have := w.isLt; have := z.isLt; omega)]
  rw [gidx_ix4, xWin_read u hu off hoff inb, yWin_emb u hu off' hoff' inb' kk w z]
  show m (xLoc d) _ = m (xLoc d) (src (yIdx u hu kk w z))
  rw [src_yIdx]

/-- The unit's value through slot 0 of the output ring. -/
theorem unit_value0 (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (fo : S2x8x32x32.Idx → Elt F .f32)
    (hD : Done 0 64 ((xWin off inb).view.read (Elt F) (m (xLoc d))) fo)
    (fd : Buf (Elt F) (yLoc d)) (j : YS.Idx) (hj : j ∈ (yWin off' inb').view.set) :
    (yWin off' inb').view.write (Elt F) fd ((outSlot0).view.read (Elt F) fo) Finset.univ j = Gy m d j :=
  unit_value m d u hu off hoff inb off' hoff' inb' 0 _ fo (outSlot0_read fo) hD fd j hj

/-- The unit's value through slot 1 of the output ring. -/
theorem unit_value1 (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (fo : S2x8x32x32.Idx → Elt F .f32)
    (hD : Done 1 64 ((xWin off inb).view.read (Elt F) (m (xLoc d))) fo)
    (fd : Buf (Elt F) (yLoc d)) (j : YS.Idx) (hj : j ∈ (yWin off' inb').view.set) :
    (yWin off' inb').view.write (Elt F) fd ((outSlot1).view.read (Elt F) fo) Finset.univ j = Gy m d j :=
  unit_value m d u hu off hoff inb off' hoff' inb' 1 _ fo (outSlot1_read fo) hD fd j hj

end Cert.Proof.KI

end
-- ==== Proof.Values.lean ====
/-
  The values that move: what a unit's input copy leaves for the body to read, and what its output copy leaves in
  the unit's window of the result.

  Unit t of the subcore at grid point L is unit u = 64·(2·subcore + core) + t of the kernel. Its input copy
  lands the two argument rows `Arows` — entry (p, w, z) ↦ x (b, ch, 2·h + p, w, z) — in a slot of the input ring,
  where a load of the whole slot reads them back. Once every row of a slot of the output ring holds the
  rearrangement of `Arows`, the output copy of that slot to the unit's window leaves there the specification's
  entries: the window's elements are the unit's fibre of the result, and on them the copied contents agree with
  the rearrangement of the whole argument.
-/
import proofs.«209385_g40939628265708_retrytranche2_1889_20_alg».proof.Proof.Windows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

local notation "𝕄" => MT nD τ sig (HIx 1) (Elt F) ℕ UU ℕ

/-! ## A subcore's units and their windows' offsets -/

/-- The offsets of unit u's source window are in range. -/
theorem srcInb (u : ℕ) (hu : u < 2048) : ∀ a, Off.srcOff u a + S1x1x2x64x64.size a ≤ S2x32x64x64x64.size a := by
  intro a
  match a with
  | ⟨0, _⟩ => show u / 1024 + 1 ≤ 2; omega
  | ⟨1, _⟩ => show u % 1024 / 32 + 1 ≤ 32; omega
  | ⟨2, _⟩ => show 2 * (u % 32) + 2 ≤ 64; omega
  | ⟨3, _⟩ => show 0 + 64 ≤ 64; omega
  | ⟨4, _⟩ => show 0 + 64 ≤ 64; omega

/-- The offsets of unit u's destination window are in range. -/
theorem dstInb (u : ℕ) (hu : u < 2048) : ∀ a, Off.dstOff u a + S1x8x1x32x32.size a ≤ S2x256x32x32x32.size a := by
  intro a
  match a with
  | ⟨0, _⟩ => show u / 1024 + 1 ≤ 2; omega
  | ⟨1, _⟩ => show 8 * (u % 1024 / 32) + 8 ≤ 256; omega
  | ⟨2, _⟩ => show u % 32 + 1 ≤ 32; omega
  | ⟨3, _⟩ => show 0 + 32 ≤ 32; omega
  | ⟨4, _⟩ => show 0 + 32 ≤ 32; omega

/-- Unit t of the subcore at grid point L, as a unit of the kernel. -/
abbrev uOf (L : grid0.Coords) (t : Fin 64) : ℕ := Off.unitOf L t.val
theorem uOf_lt (L : grid0.Coords) (t : Fin 64) : uOf L t < 2048 := Off.unitOf_lt L t.isLt

/-- It is the unit the subcore's share of the result names. -/
theorem winSet_uOf (L : grid0.Coords) (t : Fin 64) :
    winSet ⟨uOf L t, uOf_lt L t⟩ = winSet (unitAt (cL L) (iL L) t) := congrArg winSet (Fin.ext rfl)

/-- The two argument rows of the subcore's unit t: entry (p, w, z) is the argument at (b, ch, 2·h + p, w, z). -/
def Arows (m : (ℓ : Loc nD τ sig) → Buf (Elt F) ℓ) (d : Dev nD) (L : grid0.Coords) (t : Fin 64) : S2x64x64.Idx → Elt F .f32 :=
  (xWin (Off.srcOff (uOf L t)) (srcInb _ (uOf_lt L t))).view.read (Elt F) (m (xLoc d))

theorem Arows_apply (m : (ℓ : Loc nD τ sig) → Buf (Elt F) ℓ) (d : Dev nD) (L : grid0.Coords) (t : Fin 64) (p : Fin 2) (w z : Fin 64) :
    Arows m d L t (ix3 p w z) = m (xLoc d) (xIdx (uOf L t) (uOf_lt L t) p w z) :=
  xWin_read (uOf L t) (uOf_lt L t) _ rfl _ (m (xLoc d)) p w z

/-! ## What the input copy leaves for the body -/

/-- A load of a whole input slot, after the unit's source window was copied into it, reads the unit's two rows. -/
theorem in_value (m : (ℓ : Loc nD τ sig) → Buf (Elt F) ℓ) (d : Dev nD) (L : grid0.Coords) (t : Fin 64)
    (off : Fin 5 → Nat) (inb : ∀ a, off a + S1x1x2x64x64.size a ≤ S2x32x64x64x64.size a) (hoff : off = Off.srcOff (uOf L t))
    (v : View sig .scVector .vmem S2x64x64 .f32) (fi : v.ty.Contents (Elt F)) :
    View.readAt (Elt F) v (LoadRect.whole S2x64x64)
        (v.writes (Elt F) fi [⟨Rect.whole S2x64x64, ReadAs.same.apply ((xWin off inb).view.read (Elt F) (m (xLoc d)))⟩])
      = Arows m d L t := by
  subst hoff
  exact (readAt_whole_writes v fi _).trans rfl

/-! ## The unit's window of the result -/

/-- The unit's destination window, held by its own elements, is the result held on the unit's fibre. -/
theorem yWin_pts (d : Dev nD) (L : grid0.Coords) (t : Fin 64) (off' : Fin 5 → Nat)
    (inb' : ∀ a, off' a + S1x8x1x32x32.size a ≤ S2x256x32x32x32.size a) (hoff' : off' = Off.dstOff (uOf L t))
    (f : Buf (Elt F) (yLoc d)) :
    ((yWin off' inb').view.loc (thrV d L) ↦[(yWin off' inb').view.set]{fullShare} f : sProp 𝕄)
      = (yLoc d ↦[winSet (unitAt (cL L) (iL L) t)]{fullShare} f) := by
  rw [yWin_set (uOf L t) (uOf_lt L t) off' hoff' inb', winSet_uOf]

/-- After slot 0 of the output ring, every row of it rearranged, is copied to the unit's window, the window holds
    the specification's entries. -/
theorem win_value0 (m : (ℓ : Loc nD τ sig) → Buf (Elt F) ℓ) (d : Dev nD) (L : grid0.Coords) (t : Fin 64) (off' : Fin 5 → Nat)
    (inb' : ∀ a, off' a + S1x8x1x32x32.size a ≤ S2x256x32x32x32.size a) (hoff' : off' = Off.dstOff (uOf L t))
    (fo : S2x8x32x32.Idx → Elt F .f32) (hD : Done 0 64 (Arows m d L t) fo) (fd : Buf (Elt F) (yLoc d)) :
    ((yWin off' inb').view.loc (thrV d L) ↦[(yWin off' inb').view.set]{fullShare}
        ((yWin off' inb').view.writes (Elt F) fd [⟨Rect.whole S8x32x32, ReadAs.same.apply (outSlot0.view.read (Elt F) fo)⟩]) : sProp 𝕄)
      = (yLoc d ↦[winSet (unitAt (cL L) (iL L) t)]{fullShare} Gy m d) := by
  rw [yWin_pts d L t off' inb' hoff']
  refine pointsTo_congr fun j hj => ?_
  have hj' : j ∈ (yWin off' inb').view.set := by
    rw [yWin_set (uOf L t) (uOf_lt L t) off' hoff' inb', winSet_uOf]; exact hj
  refine (congrFun (View.write_univ_eq_writes_whole (yWin off' inb').view fd [] (outSlot0.view.read (Elt F) fo)).symm j).trans ?_
  exact unit_value0 m d (uOf L t) (uOf_lt L t) _ rfl (srcInb _ (uOf_lt L t)) off' hoff' inb' fo hD fd j hj'

/-- The same for slot 1 of the output ring. -/
theorem win_value1 (m : (ℓ : Loc nD τ sig) → Buf (Elt F) ℓ) (d : Dev nD) (L : grid0.Coords) (t : Fin 64) (off' : Fin 5 → Nat)
    (inb' : ∀ a, off' a + S1x8x1x32x32.size a ≤ S2x256x32x32x32.size a) (hoff' : off' = Off.dstOff (uOf L t))
    (fo : S2x8x32x32.Idx → Elt F .f32) (hD : Done 1 64 (Arows m d L t) fo) (fd : Buf (Elt F) (yLoc d)) :
    ((yWin off' inb').view.loc (thrV d L) ↦[(yWin off' inb').view.set]{fullShare}
        ((yWin off' inb').view.writes (Elt F) fd [⟨Rect.whole S8x32x32, ReadAs.same.apply (outSlot1.view.read (Elt F) fo)⟩]) : sProp 𝕄)
      = (yLoc d ↦[winSet (unitAt (cL L) (iL L) t)]{fullShare} Gy m d) := by
  rw [yWin_pts d L t off' inb' hoff']
  refine pointsTo_congr fun j hj => ?_
  have hj' : j ∈ (yWin off' inb').view.set := by
    rw [yWin_set (uOf L t) (uOf_lt L t) off' hoff' inb', winSet_uOf]; exact hj
  refine (congrFun (View.write_univ_eq_writes_whole (yWin off' inb').view fd [] (outSlot1.view.read (Elt F) fo)).symm j).trans ?_
  exact unit_value1 m d (uOf L t) (uOf_lt L t) _ rfl (srcInb _ (uOf_lt L t)) off' hoff' inb' fo hD fd j hj'

end Cert.Proof.KI

end
-- ==== Proof.Slots.lean ====
/-
  The two scratch buffers as their ring slots.

  The input ring is an array over [3, 2, 64, 64]: three slots of two argument rows each. The output ring is an array
  over [2, 8, 32, 32]: two slots of eight result planes each. A slot is the part of its ring with a fixed first
  coordinate — the ring cut into 3 (resp. 2) equal parts along axis 0 — with that unit axis dropped. Dropping a unit
  axis keeps the set of elements, the parts of a cut are pairwise disjoint and cover the ring, so holding the whole
  ring at some contents is holding each slot's elements at those contents, and slots held at different contents join
  into the whole ring held at some contents.
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ

/-- A slot held by its own elements. -/
abbrev slotPts {s : Shape} (d : Dev nD) (L : grid0.Coords) (M : Memref sig .scVector .vmem s .f32)
    (f : Buf (Elt F) (M.view.loc (thrV d L))) : sProp 𝕄 :=
  M.view.loc (thrV d L) ↦[M.view.set]{fullShare} f

/-! ## The slots' element sets are the parts of the rings along axis 0 -/

theorem hdivIn : 3 ∣ S3x2x64x64.size 0 := ⟨1, rfl⟩
theorem hdivOut : 2 ∣ S2x8x32x32.size 0 := ⟨1, rfl⟩

/-- The elements of slot j of the input ring: first coordinate j. -/
abbrev inSet (j : Fin 3) : Finset S3x2x64x64.Idx := (Rect.part (s := S3x2x64x64) (a₀ := 0) hdivIn j).set
/-- The elements of slot j of the output ring: first coordinate j. -/
abbrev outSet (j : Fin 2) : Finset S2x8x32x32.Idx := (Rect.part (s := S2x8x32x32) (a₀ := 0) hdivOut j).set

/-- Unit-stride rectangles at equal offsets and sizes have the same elements. -/
theorem unit_set_congr {s : Shape} {off off' size size' : Fin s.rank → Nat} (ho : off = off') (hs : size = size')
    (inb : ∀ a, off a + size a ≤ s.size a) (inb' : ∀ a, off' a + size' a ≤ s.size a) :
    (Rect.unit off size inb).set = (Rect.unit off' size' inb').set := by
  subst ho; subst hs; rfl

theorem inSlot0_set : (inSlot0).view.set = inSet 0 := by
  show (((View.whole cc0_scratch0 : View sig .scVector _ _ _).slice (Rect.unit (s := S3x2x64x64) ![0, 0, 0, 0] S1x2x64x64.size inb_S3x2x64x64_S1x2x64x64_0_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSlot1_set : (inSlot1).view.set = inSet 1 := by
  show (((View.whole cc0_scratch0 : View sig .scVector _ _ _).slice (Rect.unit (s := S3x2x64x64) ![1, 0, 0, 0] S1x2x64x64.size inb_S3x2x64x64_S1x2x64x64_1_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSlot2_set : (inSlot2).view.set = inSet 2 := by
  show (((View.whole cc0_scratch0 : View sig .scVector _ _ _).slice (Rect.unit (s := S3x2x64x64) ![2, 0, 0, 0] S1x2x64x64.size inb_S3x2x64x64_S1x2x64x64_2_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem outSlot0_set : (outSlot0).view.set = outSet 0 := by
  show (((View.whole cc0_scratch1 : View sig .scVector _ _ _).slice (Rect.unit (s := S2x8x32x32) ![0, 0, 0, 0] S1x8x32x32.size inb_S2x8x32x32_S1x8x32x32_0_0_0_0)).reshape S8x32x32 squeezes_S1x8x32x32_S8x32x32.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem outSlot1_set : (outSlot1).view.set = outSet 1 := by
  show (((View.whole cc0_scratch1 : View sig .scVector _ _ _).slice (Rect.unit (s := S2x8x32x32) ![1, 0, 0, 0] S1x8x32x32.size inb_S2x8x32x32_S1x8x32x32_1_0_0_0)).reshape S8x32x32 squeezes_S1x8x32x32_S8x32x32.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSet_disjoint : ∀ i ∈ (Finset.univ : Finset (Fin 3)), ∀ j ∈ (Finset.univ : Finset (Fin 3)), i ≠ j → Disjoint (inSet i) (inSet j) :=
  fun _ _ _ _ h => Rect.part_disjoint hdivIn h
theorem inSet_cover : (Finset.univ : Finset (Fin 3)).biUnion inSet = Finset.univ := Rect.biUnion_part hdivIn
theorem outSet_disjoint : ∀ i ∈ (Finset.univ : Finset (Fin 2)), ∀ j ∈ (Finset.univ : Finset (Fin 2)), i ≠ j → Disjoint (outSet i) (outSet j) :=
  fun _ _ _ _ h => Rect.part_disjoint hdivOut h
theorem outSet_cover : (Finset.univ : Finset (Fin 2)).biUnion outSet = Finset.univ := Rect.biUnion_part hdivOut

/-! ## Splitting a ring into its slots -/

/-- A slot's hold is the ring's location held on the slot's elements. -/
theorem slotPts_in0 (d : Dev nD) (L : grid0.Coords) (f : Buf (Elt F) ((thrV d L).loc cc0_scratch0)) :
    (slotPts d L inSlot0 f : sProp 𝕄) = (thrV d L).loc cc0_scratch0 ↦[inSet 0]{fullShare} f :=
  congrArg (fun I => ((thrV d L).loc cc0_scratch0 ↦[I]{fullShare} f : sProp 𝕄)) inSlot0_set
theorem slotPts_in1 (d : Dev nD) (L : grid0.Coords) (f : Buf (Elt F) ((thrV d L).loc cc0_scratch0)) :
    (slotPts d L inSlot1 f : sProp 𝕄) = (thrV d L).loc cc0_scratch0 ↦[inSet 1]{fullShare} f :=
  congrArg (fun I => ((thrV d L).loc cc0_scratch0 ↦[I]{fullShare} f : sProp 𝕄)) inSlot1_set
theorem slotPts_in2 (d : Dev nD) (L : grid0.Coords) (f : Buf (Elt F) ((thrV d L).loc cc0_scratch0)) :
    (slotPts d L inSlot2 f : sProp 𝕄) = (thrV d L).loc cc0_scratch0 ↦[inSet 2]{fullShare} f :=
  congrArg (fun I => ((thrV d L).loc cc0_scratch0 ↦[I]{fullShare} f : sProp 𝕄)) inSlot2_set
theorem slotPts_out0 (d : Dev nD) (L : grid0.Coords) (f : Buf (Elt F) ((thrV d L).loc cc0_scratch1)) :
    (slotPts d L outSlot0 f : sProp 𝕄) = (thrV d L).loc cc0_scratch1 ↦[outSet 0]{fullShare} f :=
  congrArg (fun I => ((thrV d L).loc cc0_scratch1 ↦[I]{fullShare} f : sProp 𝕄)) outSlot0_set
theorem slotPts_out1 (d : Dev nD) (L : grid0.Coords) (f : Buf (Elt F) ((thrV d L).loc cc0_scratch1)) :
    (slotPts d L outSlot1 f : sProp 𝕄) = (thrV d L).loc cc0_scratch1 ↦[outSet 1]{fullShare} f :=
  congrArg (fun I => ((thrV d L).loc cc0_scratch1 ↦[I]{fullShare} f : sProp 𝕄)) outSlot1_set

/-- The input ring held whole at f is its three slots held at f. -/
theorem sIn_slots (d : Dev nD) (L : grid0.Coords) (f : Buf (Elt F) ((thrV d L).loc cc0_scratch0)) :
    ((thrV d L).loc cc0_scratch0 ↦{fullShare} f : sProp 𝕄)
      = iprop(slotPts d L inSlot0 f ∗ slotPts d L inSlot1 f ∗ slotPts d L inSlot2 f) := by
  have h := pointsTo_biUnion (Ix := HIx 1) (Val := Elt F) (Name := ℕ) (U := UU) (Lvl := ℕ) (Finset.univ : Finset (Fin 3))
    (ℓ := (thrV d L).loc cc0_scratch0) (q := fullShare) (f := f) inSet inSet_disjoint
  rw [inSet_cover, show (Finset.univ : Finset (Fin 3)) = {0, 1, 2} by decide, SparseCore.bigSep_insert' (by decide),
    SparseCore.bigSep_insert' (by decide), bigSep_singleton] at h
  rw [slotPts_in0, slotPts_in1, slotPts_in2]
  exact h

/-- The output ring held whole at f is its two slots held at f. -/
theorem sOut_slots (d : Dev nD) (L : grid0.Coords) (f : Buf (Elt F) ((thrV d L).loc cc0_scratch1)) :
    ((thrV d L).loc cc0_scratch1 ↦{fullShare} f : sProp 𝕄) = iprop(slotPts d L outSlot0 f ∗ slotPts d L outSlot1 f) := by
  have h := pointsTo_biUnion (Ix := HIx 1) (Val := Elt F) (Name := ℕ) (U := UU) (Lvl := ℕ) (Finset.univ : Finset (Fin 2))
    (ℓ := (thrV d L).loc cc0_scratch1) (q := fullShare) (f := f) outSet outSet_disjoint
  rw [outSet_cover, show (Finset.univ : Finset (Fin 2)) = {0, 1} by decide, SparseCore.bigSep_insert' (by decide),
    bigSep_singleton] at h
  rw [slotPts_out0, slotPts_out1]
  exact h

/-! ## Joining slots held at different contents -/

/-- Three slots of the input ring, each held at some contents, are the ring held at some contents. -/
theorem sIn_slots_join (d : Dev nD) (L : grid0.Coords) :
    iprop((∃ f0, slotPts d L inSlot0 f0) ∗ (∃ f1, slotPts d L inSlot1 f1) ∗ (∃ f2, slotPts d L inSlot2 f2))
      ⊢ (iprop(∃ f, (thrV d L).loc cc0_scratch0 ↦{fullShare} f) : sProp 𝕄) := by
  have d01 : Disjoint (inSet 0) (inSet 1) := Rect.part_disjoint hdivIn (by decide)
  have d012 : Disjoint (inSet 0 ∪ inSet 1) (inSet 2) :=
    Finset.disjoint_union_left.mpr ⟨Rect.part_disjoint hdivIn (by decide), Rect.part_disjoint hdivIn (by decide)⟩
  have hcov : inSet 0 ∪ inSet 1 ∪ inSet 2 = Finset.univ := by
    rw [← inSet_cover, show (Finset.univ : Finset (Fin 3)) = {0, 1, 2} by decide]
    simp only [Finset.biUnion_insert, Finset.singleton_biUnion, Finset.union_assoc]
  rw [← hcov]
  iintro ⟨⟨%f0, H0⟩, ⟨%f1, H1⟩, ⟨%f2, H2⟩⟩
  ihave K0 := (Entails.of_eq (slotPts_in0 d L f0)) $$ H0
  ihave K1 := (Entails.of_eq (slotPts_in1 d L f1)) $$ H1
  ihave K2 := (Entails.of_eq (slotPts_in2 d L f2)) $$ H2
  iexists (inSet 2).piecewise f2 ((inSet 1).piecewise f1 f0)
  iapply (pointsTo_join d012)
  isplitl [K0 K1]
  · iapply (pointsTo_join d01)
    isplitl [K0]; · iexact K0
    iexact K1
  · iexact K2

/-- Two slots of the output ring, each held at some contents, are the ring held at some contents. -/
theorem sOut_slots_join (d : Dev nD) (L : grid0.Coords) :
    iprop((∃ f0, slotPts d L outSlot0 f0) ∗ (∃ f1, slotPts d L outSlot1 f1))
      ⊢ (iprop(∃ f, (thrV d L).loc cc0_scratch1 ↦{fullShare} f) : sProp 𝕄) := by
  have d01 : Disjoint (outSet 0) (outSet 1) := Rect.part_disjoint hdivOut (by decide)
  have hcov : outSet 0 ∪ outSet 1 = Finset.univ := by
    rw [← outSet_cover, show (Finset.univ : Finset (Fin 2)) = {0, 1} by decide]
    simp only [Finset.biUnion_insert, Finset.singleton_biUnion]
  rw [← hcov]
  iintro ⟨⟨%f0, H0⟩, ⟨%f1, H1⟩⟩
  ihave K0 := (Entails.of_eq (slotPts_out0 d L f0)) $$ H0
  ihave K1 := (Entails.of_eq (slotPts_out1 d L f1)) $$ H1
  iexists (outSet 1).piecewise f1 f0
  iapply (pointsTo_join d01)
  isplitl [K0]; · iexact K0
  iexact K1

end Cert.Proof.KI

end
-- ==== Proof.Compute2.lean ====
/-
  The compute loop of the units that read input slot 0 and fill output slot 0 (loop 2 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C2

theorem trips : k0_t2_loop.trips = 64 := by decide
theorem off2_eq : ∀ (k : Fin k0_t2_loop.trips) (a : Fin 4), k0_off2 k a = (![0, 0, k.val / 2, 16 * (k.val % 2)] : Fin 4 → Nat) a := by decide +kernel
instance (k : Fin k0_t2_loop.trips) : ClosedOff (k0_off2 k) := ⟨![0, 0, k.val / 2, 16 * (k.val % 2)], funext (off2_eq k)⟩
theorem off3_eq : ∀ (k : Fin k0_t2_loop.trips) (a : Fin 4), k0_off3 k a = (![0, 1, k.val / 2, 16 * (k.val % 2)] : Fin 4 → Nat) a := by decide +kernel
instance (k : Fin k0_t2_loop.trips) : ClosedOff (k0_off3 k) := ⟨![0, 1, k.val / 2, 16 * (k.val % 2)], funext (off3_eq k)⟩
theorem off4_eq : ∀ (k : Fin k0_t2_loop.trips) (a : Fin 4), k0_off4 k a = (![0, 2, k.val / 2, 16 * (k.val % 2)] : Fin 4 → Nat) a := by decide +kernel
instance (k : Fin k0_t2_loop.trips) : ClosedOff (k0_off4 k) := ⟨![0, 2, k.val / 2, 16 * (k.val % 2)], funext (off4_eq k)⟩
theorem off5_eq : ∀ (k : Fin k0_t2_loop.trips) (a : Fin 4), k0_off5 k a = (![0, 3, k.val / 2, 16 * (k.val % 2)] : Fin 4 → Nat) a := by decide +kernel
instance (k : Fin k0_t2_loop.trips) : ClosedOff (k0_off5 k) := ⟨![0, 3, k.val / 2, 16 * (k.val % 2)], funext (off5_eq k)⟩
theorem off6_eq : ∀ (k : Fin k0_t2_loop.trips) (a : Fin 4), k0_off6 k a = (![0, 4, k.val / 2, 16 * (k.val % 2)] : Fin 4 → Nat) a := by decide +kernel
instance (k : Fin k0_t2_loop.trips) : ClosedOff (k0_off6 k) := ⟨![0, 4, k.val / 2, 16 * (k.val % 2)], funext (off6_eq k)⟩
theorem off7_eq : ∀ (k : Fin k0_t2_loop.trips) (a : Fin 4), k0_off7 k a = (![0, 5, k.val / 2, 16 * (k.val % 2)] : Fin 4 → Nat) a := by decide +kernel
instance (k : Fin k0_t2_loop.trips) : ClosedOff (k0_off7 k) := ⟨![0, 5, k.val / 2, 16 * (k.val % 2)], funext (off7_eq k)⟩
theorem off8_eq : ∀ (k : Fin k0_t2_loop.trips) (a : Fin 4), k0_off8 k a = (![0, 6, k.val / 2, 16 * (k.val % 2)] : Fin 4 → Nat) a := by decide +kernel
instance (k : Fin k0_t2_loop.trips) : ClosedOff (k0_off8 k) := ⟨![0, 6, k.val / 2, 16 * (k.val % 2)], funext (off8_eq k)⟩
theorem off9_eq : ∀ (k : Fin k0_t2_loop.trips) (a : Fin 4), k0_off9 k a = (![0, 7, k.val / 2, 16 * (k.val % 2)] : Fin 4 → Nat) a := by decide +kernel
instance (k : Fin k0_t2_loop.trips) : ClosedOff (k0_off9 k) := ⟨![0, 7, k.val / 2, 16 * (k.val % 2)], funext (off9_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot0).view.loc (thrV d L)),
        ⌜Done 0 k (View.readAt (Elt F) (inSlot0).view (LoadRect.whole S2x64x64) fi) fo⌝
        ∗ ((outSlot0).view.loc (thrV d L) ↦[(outSlot0).view.set]{fullShare} fo))

/-- One trip of the loop. -/
theorem step (d : Dev nD) (L : grid0.Coords) (v3 c0 c1 : BitVec 32) (k0_t1 : Fin k0_t1_loop.trips)
    (fi : Buf (Elt F) ((inSlot0).view.loc (thrV d L))) (k : Fin k0_t2_loop.trips) (acc : Unit) :
    cInv (F := F) d L fi k.val acc
      ⊢ wp frame (wpE (defs₀ (F := F)) 𝒱₀ (thrV d L) none) Set.univ
          (k0_t2_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 c0 c1 k0_t1 k acc)
          (cInv (F := F) d L fi (k.val + 1)) := by
  unfold cInv
  iintro ⟨Hi, ⟨%f, %hD, Ho⟩⟩
  have hk : k.val < 64 := trips ▸ k.isLt
  unfold k0_t2_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off2_eq k) _ y hy).1, (piece_row 0 0 k.val _ (off2_eq k) _ y hy).2.2⟩
    case r2 => exact fun y hy => ⟨(piece_row 0 1 k.val _ (off3_eq k) _ y hy).1, (piece_row 0 1 k.val _ (off3_eq k) _ y hy).2.2⟩
    case r3 => exact fun y hy => ⟨(piece_row 0 2 k.val _ (off4_eq k) _ y hy).1, (piece_row 0 2 k.val _ (off4_eq k) _ y hy).2.2⟩
    case r4 => exact fun y hy => ⟨(piece_row 0 3 k.val _ (off5_eq k) _ y hy).1, (piece_row 0 3 k.val _ (off5_eq k) _ y hy).2.2⟩
    case r5 => exact fun y hy => ⟨(piece_row 0 4 k.val _ (off6_eq k) _ y hy).1, (piece_row 0 4 k.val _ (off6_eq k) _ y hy).2.2⟩
    case r6 => exact fun y hy => ⟨(piece_row 0 5 k.val _ (off7_eq k) _ y hy).1, (piece_row 0 5 k.val _ (off7_eq k) _ y hy).2.2⟩
    case r7 => exact fun y hy => ⟨(piece_row 0 6 k.val _ (off8_eq k) _ y hy).1, (piece_row 0 6 k.val _ (off8_eq k) _ y hy).2.2⟩
    case r8 => exact fun y hy => ⟨(piece_row 0 7 k.val _ (off9_eq k) _ y hy).1, (piece_row 0 7 k.val _ (off9_eq k) _ y hy).2.2⟩
    case a1 => exact piece_agree _ _ _ _ 0 0 k.val _ (off2_eq k) _ (by (clear * - k; decide +kernel +revert)) (by (clear * - k; decide +kernel +revert)) (by (clear * - k; decide +kernel +revert))
    case a2 => exact piece_agree _ _ _ _ 0 1 k.val _ (off3_eq k) _ (by (clear * - k; decide +kernel +revert)) (by (clear * - k; decide +kernel +revert)) (by (clear * - k; decide +kernel +revert))
    case a3 => exact piece_agree _ _ _ _ 0 2 k.val _ (off4_eq k) _ (by (clear * - k; decide +kernel +revert)) (by (clear * - k; decide +kernel +revert)) (by (clear * - k; decide +kernel +revert))
    case a4 => exact piece_agree _ _ _ _ 0 3 k.val _ (off5_eq k) _ (by (clear * - k; decide +kernel +revert)) (by (clear * - k; decide +kernel +revert)) (by (clear * - k; decide +kernel +revert))
    case a5 => exact piece_agree _ _ _ _ 0 4 k.val _ (off6_eq k) _ (by (clear * - k; decide +kernel +revert)) (by (clear * - k; decide +kernel +revert)) (by (clear * - k; decide +kernel +revert))
    case a6 => exact piece_agree _ _ _ _ 0 5 k.val _ (off7_eq k) _ (by (clear * - k; decide +kernel +revert)) (by (clear * - k; decide +kernel +revert)) (by (clear * - k; decide +kernel +revert))
    case a7 => exact piece_agree _ _ _ _ 0 6 k.val _ (off8_eq k) _ (by (clear * - k; decide +kernel +revert)) (by (clear * - k; decide +kernel +revert)) (by (clear * - k; decide +kernel +revert))
    case a8 => exact piece_agree _ _ _ _ 0 7 k.val _ (off9_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off2_eq k) _ y h0 h1 hr)
      · exact Or.inr (Or.inl (piece_cover 0 1 k.val _ (off3_eq k) _ y h0 h1 hr))
      · exact Or.inr (Or.inr (Or.inl (piece_cover 0 2 k.val _ (off4_eq k) _ y h0 h1 hr)))
      · exact Or.inr (Or.inr (Or.inr (Or.inl (piece_cover 0 3 k.val _ (off5_eq k) _ y h0 h1 hr))))
      · exact Or.inr (Or.inr (Or.inr (Or.inr (Or.inl (piece_cover 0 4 k.val _ (off6_eq k) _ y h0 h1 hr)))))
      · exact Or.inr (Or.inr (Or.inr (Or.inr (Or.inr (Or.inl (piece_cover 0 5 k.val _ (off7_eq k) _ y h0 h1 hr))))))
      · exact Or.inr (Or.inr (Or.inr (Or.inr (Or.inr (Or.inr (Or.inl (piece_cover 0 6 k.val _ (off8_eq k) _ y h0 h1 hr)))))))
      · exact Or.inr (Or.inr (Or.inr (Or.inr (Or.inr (Or.inr (Or.inr (piece_cover 0 7 k.val _ (off9_eq k) _ y h0 h1 hr)))))))
  · iexact Ho

end C2

end Cert.Proof.KI

end
-- ==== Proof.Compute3.lean ====
/-
  The compute loop of the units that read input slot 1 and fill output slot 1 (loop 3 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C3

theorem trips : k0_t3_loop.trips = 64 := by decide
theorem off12_eq : ∀ (k : Fin k0_t3_loop.trips) (a : Fin 4), k0_off12 k a = (![1, 0, k.val / 2, 16 * (k.val % 2)] : Fin 4 → Nat) a := by decide +kernel
instance (k : Fin k0_t3_loop.trips) : ClosedOff (k0_off12 k) := ⟨![1, 0, k.val / 2, 16 * (k.val % 2)], funext (off12_eq k)⟩
theorem off13_eq : ∀ (k : Fin k0_t3_loop.trips) (a : Fin 4), k0_off13 k a = (![1, 1, k.val / 2, 16 * (k.val % 2)] : Fin 4 → Nat) a := by decide +kernel
instance (k : Fin k0_t3_loop.trips) : ClosedOff (k0_off13 k) := ⟨![1, 1, k.val / 2, 16 * (k.val % 2)], funext (off13_eq k)⟩
theorem off14_eq : ∀ (k : Fin k0_t3_loop.trips) (a : Fin 4), k0_off14 k a = (![1, 2, k.val / 2, 16 * (k.val % 2)] : Fin 4 → Nat) a := by decide +kernel
instance (k : Fin k0_t3_loop.trips) : ClosedOff (k0_off14 k) := ⟨![1, 2, k.val / 2, 16 * (k.val % 2)], funext (off14_eq k)⟩
theorem off15_eq : ∀ (k : Fin k0_t3_loop.trips) (a : Fin 4), k0_off15 k a = (![1, 3, k.val / 2, 16 * (k.val % 2)] : Fin 4 → Nat) a := by decide +kernel
instance (k : Fin k0_t3_loop.trips) : ClosedOff (k0_off15 k) := ⟨![1, 3, k.val / 2, 16 * (k.val % 2)], funext (off15_eq k)⟩
theorem off16_eq : ∀ (k : Fin k0_t3_loop.trips) (a : Fin 4), k0_off16 k a = (![1, 4, k.val / 2, 16 * (k.val % 2)] : Fin 4 → Nat) a := by decide +kernel
instance (k : Fin k0_t3_loop.trips) : ClosedOff (k0_off16 k) := ⟨![1, 4, k.val / 2, 16 * (k.val % 2)], funext (off16_eq k)⟩
theorem off17_eq : ∀ (k : Fin k0_t3_loop.trips) (a : Fin 4), k0_off17 k a = (![1, 5, k.val / 2, 16 * (k.val % 2)] : Fin 4 → Nat) a := by decide +kernel
instance (k : Fin k0_t3_loop.trips) : ClosedOff (k0_off17 k) := ⟨![1, 5, k.val / 2, 16 * (k.val % 2)], funext (off17_eq k)⟩
theorem off18_eq : ∀ (k : Fin k0_t3_loop.trips) (a : Fin 4), k0_off18 k a = (![1, 6, k.val / 2, 16 * (k.val % 2)] : Fin 4 → Nat) a := by decide +kernel
instance (k : Fin k0_t3_loop.trips) : ClosedOff (k0_off18 k) := ⟨![1, 6, k.val / 2, 16 * (k.val % 2)], funext (off18_eq k)⟩
theorem off19_eq : ∀ (k : Fin k0_t3_loop.trips) (a : Fin 4), k0_off19 k a = (![1, 7, k.val / 2, 16 * (k.val % 2)] : Fin 4 → Nat) a := by decide +kernel
instance (k : Fin k0_t3_loop.trips) : ClosedOff (k0_off19 k) := ⟨![1, 7, k.val / 2, 16 * (k.val % 2)], funext (off19_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot1).view.loc (thrV d L)),
        ⌜Done 1 k (View.readAt (Elt F) (inSlot1).view (LoadRect.whole S2x64x64) fi) fo⌝
        ∗ ((outSlot1).view.loc (thrV d L) ↦[(outSlot1).view.set]{fullShare} fo))

/-- One trip of the loop. -/
theorem step (d : Dev nD) (L : grid0.Coords) (v3 v683 : BitVec 32)
    (fi : Buf (Elt F) ((inSlot1).view.loc (thrV d L))) (k : Fin k0_t3_loop.trips) (acc : Unit) :
    cInv (F := F) d L fi k.val acc
      ⊢ wp frame (wpE (defs₀ (F := F)) 𝒱₀ (thrV d L) none) Set.univ
          (k0_t3_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v683 k acc)
          (cInv (F := F) d L fi (k.val + 1)) := by
  unfold cInv
  iintro ⟨Hi, ⟨%f, %hD, Ho⟩⟩
  have hk : k.val < 64 := trips ▸ k.isLt
  unfold k0_t3_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off12_eq k) _ y hy).1, (piece_row 1 0 k.val _ (off12_eq k) _ y hy).2.2⟩
    case r2 => exact fun y hy => ⟨(piece_row 1 1 k.val _ (off13_eq k) _ y hy).1, (piece_row 1 1 k.val _ (off13_eq k) _ y hy).2.2⟩
    case r3 => exact fun y hy => ⟨(piece_row 1 2 k.val _ (off14_eq k) _ y hy).1, (piece_row 1 2 k.val _ (off14_eq k) _ y hy).2.2⟩
    case r4 => exact fun y hy => ⟨(piece_row 1 3 k.val _ (off15_eq k) _ y hy).1, (piece_row 1 3 k.val _ (off15_eq k) _ y hy).2.2⟩
    case r5 => exact fun y hy => ⟨(piece_row 1 4 k.val _ (off16_eq k) _ y hy).1, (piece_row 1 4 k.val _ (off16_eq k) _ y hy).2.2⟩
    case r6 => exact fun y hy => ⟨(piece_row 1 5 k.val _ (off17_eq k) _ y hy).1, (piece_row 1 5 k.val _ (off17_eq k) _ y hy).2.2⟩
    case r7 => exact fun y hy => ⟨(piece_row 1 6 k.val _ (off18_eq k) _ y hy).1, (piece_row 1 6 k.val _ (off18_eq k) _ y hy).2.2⟩
    case r8 => exact fun y hy => ⟨(piece_row 1 7 k.val _ (off19_eq k) _ y hy).1, (piece_row 1 7 k.val _ (off19_eq k) _ y hy).2.2⟩
    case a1 => exact piece_agree _ _ _ _ 1 0 k.val _ (off12_eq k) _ (by (clear * - k; decide +kernel +revert)) (by (clear * - k; decide +kernel +revert)) (by (clear * - k; decide +kernel +revert))
    case a2 => exact piece_agree _ _ _ _ 1 1 k.val _ (off13_eq k) _ (by (clear * - k; decide +kernel +revert)) (by (clear * - k; decide +kernel +revert)) (by (clear * - k; decide +kernel +revert))
    case a3 => exact piece_agree _ _ _ _ 1 2 k.val _ (off14_eq k) _ (by (clear * - k; decide +kernel +revert)) (by (clear * - k; decide +kernel +revert)) (by (clear * - k; decide +kernel +revert))
    case a4 => exact piece_agree _ _ _ _ 1 3 k.val _ (off15_eq k) _ (by (clear * - k; decide +kernel +revert)) (by (clear * - k; decide +kernel +revert)) (by (clear * - k; decide +kernel +revert))
    case a5 => exact piece_agree _ _ _ _ 1 4 k.val _ (off16_eq k) _ (by (clear * - k; decide +kernel +revert)) (by (clear * - k; decide +kernel +revert)) (by (clear * - k; decide +kernel +revert))
    case a6 => exact piece_agree _ _ _ _ 1 5 k.val _ (off17_eq k) _ (by (clear * - k; decide +kernel +revert)) (by (clear * - k; decide +kernel +revert)) (by (clear * - k; decide +kernel +revert))
    case a7 => exact piece_agree _ _ _ _ 1 6 k.val _ (off18_eq k) _ (by (clear * - k; decide +kernel +revert)) (by (clear * - k; decide +kernel +revert)) (by (clear * - k; decide +kernel +revert))
    case a8 => exact piece_agree _ _ _ _ 1 7 k.val _ (off19_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off12_eq k) _ y h0 h1 hr)
      · exact Or.inr (Or.inl (piece_cover 1 1 k.val _ (off13_eq k) _ y h0 h1 hr))
      · exact Or.inr (Or.inr (Or.inl (piece_cover 1 2 k.val _ (off14_eq k) _ y h0 h1 hr)))
      · exact Or.inr (Or.inr (Or.inr (Or.inl (piece_cover 1 3 k.val _ (off15_eq k) _ y h0 h1 hr))))
      · exact Or.inr (Or.inr (Or.inr (Or.inr (Or.inl (piece_cover 1 4 k.val _ (off16_eq k) _ y h0 h1 hr)))))
      · exact Or.inr (Or.inr (Or.inr (Or.inr (Or.inr (Or.inl (piece_cover 1 5 k.val _ (off17_eq k) _ y h0 h1 hr))))))
      · exact Or.inr (Or.inr (Or.inr (Or.inr (Or.inr (Or.inr (Or.inl (piece_cover 1 6 k.val _ (off18_eq k) _ y h0 h1 hr)))))))
      · exact Or.inr (Or.inr (Or.inr (Or.inr (Or.inr (Or.inr (Or.inr (piece_cover 1 7 k.val _ (off19_eq k) _ y h0 h1 hr)))))))
  · iexact Ho

end C3

end Cert.Proof.KI

end
-- ==== Proof.Compute4.lean ====
/-
  The compute loop of the units that read input slot 2 and fill output slot 0 (loop 4 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C4

theorem trips : k0_t4_loop.trips = 64 := by decide
theorem off21_eq : ∀ (k : Fin k0_t4_loop.trips) (a : Fin 4), k0_off21 k a = (![0, 0, k.val / 2, 16 * (k.val % 2)] : Fin 4 → Nat) a := by decide +kernel
instance (k : Fin k0_t4_loop.trips) : ClosedOff (k0_off21 k) := ⟨![0, 0, k.val / 2, 16 * (k.val % 2)], funext (off21_eq k)⟩
theorem off22_eq : ∀ (k : Fin k0_t4_loop.trips) (a : Fin 4), k0_off22 k a = (![0, 1, k.val / 2, 16 * (k.val % 2)] : Fin 4 → Nat) a := by decide +kernel
instance (k : Fin k0_t4_loop.trips) : ClosedOff (k0_off22 k) := ⟨![0, 1, k.val / 2, 16 * (k.val % 2)], funext (off22_eq k)⟩
theorem off23_eq : ∀ (k : Fin k0_t4_loop.trips) (a : Fin 4), k0_off23 k a = (![0, 2, k.val / 2, 16 * (k.val % 2)] : Fin 4 → Nat) a := by decide +kernel
instance (k : Fin k0_t4_loop.trips) : ClosedOff (k0_off23 k) := ⟨![0, 2, k.val / 2, 16 * (k.val % 2)], funext (off23_eq k)⟩
theorem off24_eq : ∀ (k : Fin k0_t4_loop.trips) (a : Fin 4), k0_off24 k a = (![0, 3, k.val / 2, 16 * (k.val % 2)] : Fin 4 → Nat) a := by decide +kernel
instance (k : Fin k0_t4_loop.trips) : ClosedOff (k0_off24 k) := ⟨![0, 3, k.val / 2, 16 * (k.val % 2)], funext (off24_eq k)⟩
theorem off25_eq : ∀ (k : Fin k0_t4_loop.trips) (a : Fin 4), k0_off25 k a = (![0, 4, k.val / 2, 16 * (k.val % 2)] : Fin 4 → Nat) a := by decide +kernel
instance (k : Fin k0_t4_loop.trips) : ClosedOff (k0_off25 k) := ⟨![0, 4, k.val / 2, 16 * (k.val % 2)], funext (off25_eq k)⟩
theorem off26_eq : ∀ (k : Fin k0_t4_loop.trips) (a : Fin 4), k0_off26 k a = (![0, 5, k.val / 2, 16 * (k.val % 2)] : Fin 4 → Nat) a := by decide +kernel
instance (k : Fin k0_t4_loop.trips) : ClosedOff (k0_off26 k) := ⟨![0, 5, k.val / 2, 16 * (k.val % 2)], funext (off26_eq k)⟩
theorem off27_eq : ∀ (k : Fin k0_t4_loop.trips) (a : Fin 4), k0_off27 k a = (![0, 6, k.val / 2, 16 * (k.val % 2)] : Fin 4 → Nat) a := by decide +kernel
instance (k : Fin k0_t4_loop.trips) : ClosedOff (k0_off27 k) := ⟨![0, 6, k.val / 2, 16 * (k.val % 2)], funext (off27_eq k)⟩
theorem off28_eq : ∀ (k : Fin k0_t4_loop.trips) (a : Fin 4), k0_off28 k a = (![0, 7, k.val / 2, 16 * (k.val % 2)] : Fin 4 → Nat) a := by decide +kernel
instance (k : Fin k0_t4_loop.trips) : ClosedOff (k0_off28 k) := ⟨![0, 7, k.val / 2, 16 * (k.val % 2)], funext (off28_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot0).view.loc (thrV d L)),
        ⌜Done 0 k (View.readAt (Elt F) (inSlot2).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32) (k0_t1 : Fin k0_t1_loop.trips) (arg11 v683 v761 : BitVec 32)
    (fi : Buf (Elt F) ((inSlot2).view.loc (thrV d L))) (k : Fin k0_t4_loop.trips) (acc : Unit) :
    cInv (F := F) d L fi k.val acc
      ⊢ wp frame (wpE (defs₀ (F := F)) 𝒱₀ (thrV d L) none) Set.univ
          (k0_t4_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k0_t1 arg11 v683 v761 k acc)
          (cInv (F := F) d L fi (k.val + 1)) := by
  unfold cInv
  iintro ⟨Hi, ⟨%f, %hD, Ho⟩⟩
  have hk : k.val < 64 := trips ▸ k.isLt
  unfold k0_t4_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off21_eq k) _ y hy).1, (piece_row 0 0 k.val _ (off21_eq k) _ y hy).2.2⟩
    case r2 => exact fun y hy => ⟨(piece_row 0 1 k.val _ (off22_eq k) _ y hy).1, (piece_row 0 1 k.val _ (off22_eq k) _ y hy).2.2⟩
    case r3 => exact fun y hy => ⟨(piece_row 0 2 k.val _ (off23_eq k) _ y hy).1, (piece_row 0 2 k.val _ (off23_eq k) _ y hy).2.2⟩
    case r4 => exact fun y hy => ⟨(piece_row 0 3 k.val _ (off24_eq k) _ y hy).1, (piece_row 0 3 k.val _ (off24_eq k) _ y hy).2.2⟩
    case r5 => exact fun y hy => ⟨(piece_row 0 4 k.val _ (off25_eq k) _ y hy).1, (piece_row 0 4 k.val _ (off25_eq k) _ y hy).2.2⟩
    case r6 => exact fun y hy => ⟨(piece_row 0 5 k.val _ (off26_eq k) _ y hy).1, (piece_row 0 5 k.val _ (off26_eq k) _ y hy).2.2⟩
    case r7 => exact fun y hy => ⟨(piece_row 0 6 k.val _ (off27_eq k) _ y hy).1, (piece_row 0 6 k.val _ (off27_eq k) _ y hy).2.2⟩
    case r8 => exact fun y hy => ⟨(piece_row 0 7 k.val _ (off28_eq k) _ y hy).1, (piece_row 0 7 k.val _ (off28_eq k) _ y hy).2.2⟩
    case a1 => exact piece_agree _ _ _ _ 0 0 k.val _ (off21_eq k) _ (by (clear * - k; decide +kernel +revert)) (by (clear * - k; decide +kernel +revert)) (by (clear * - k; decide +kernel +revert))
    case a2 => exact piece_agree _ _ _ _ 0 1 k.val _ (off22_eq k) _ (by (clear * - k; decide +kernel +revert)) (by (clear * - k; decide +kernel +revert)) (by (clear * - k; decide +kernel +revert))
    case a3 => exact piece_agree _ _ _ _ 0 2 k.val _ (off23_eq k) _ (by (clear * - k; decide +kernel +revert)) (by (clear * - k; decide +kernel +revert)) (by (clear * - k; decide +kernel +revert))
    case a4 => exact piece_agree _ _ _ _ 0 3 k.val _ (off24_eq k) _ (by (clear * - k; decide +kernel +revert)) (by (clear * - k; decide +kernel +revert)) (by (clear * - k; decide +kernel +revert))
    case a5 => exact piece_agree _ _ _ _ 0 4 k.val _ (off25_eq k) _ (by (clear * - k; decide +kernel +revert)) (by (clear * - k; decide +kernel +revert)) (by (clear * - k; decide +kernel +revert))
    case a6 => exact piece_agree _ _ _ _ 0 5 k.val _ (off26_eq k) _ (by (clear * - k; decide +kernel +revert)) (by (clear * - k; decide +kernel +revert)) (by (clear * - k; decide +kernel +revert))
    case a7 => exact piece_agree _ _ _ _ 0 6 k.val _ (off27_eq k) _ (by (clear * - k; decide +kernel +revert)) (by (clear * - k; decide +kernel +revert)) (by (clear * - k; decide +kernel +revert))
    case a8 => exact piece_agree _ _ _ _ 0 7 k.val _ (off28_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off21_eq k) _ y h0 h1 hr)
      · exact Or.inr (Or.inl (piece_cover 0 1 k.val _ (off22_eq k) _ y h0 h1 hr))
      · exact Or.inr (Or.inr (Or.inl (piece_cover 0 2 k.val _ (off23_eq k) _ y h0 h1 hr)))
      · exact Or.inr (Or.inr (Or.inr (Or.inl (piece_cover 0 3 k.val _ (off24_eq k) _ y h0 h1 hr))))
      · exact Or.inr (Or.inr (Or.inr (Or.inr (Or.inl (piece_cover 0 4 k.val _ (off25_eq k) _ y h0 h1 hr)))))
      · exact Or.inr (Or.inr (Or.inr (Or.inr (Or.inr (Or.inl (piece_cover 0 5 k.val _ (off26_eq k) _ y h0 h1 hr))))))
      · exact Or.inr (Or.inr (Or.inr (Or.inr (Or.inr (Or.inr (Or.inl (piece_cover 0 6 k.val _ (off27_eq k) _ y h0 h1 hr)))))))
      · exact Or.inr (Or.inr (Or.inr (Or.inr (Or.inr (Or.inr (Or.inr (piece_cover 0 7 k.val _ (off28_eq k) _ y h0 h1 hr)))))))
  · iexact Ho

end C4

end Cert.Proof.KI

end
-- ==== Proof.Compute5.lean ====
/-
  The compute loop of the units that read input slot 0 and fill output slot 1 (loop 5 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C5

theorem trips : k0_t5_loop.trips = 64 := by decide
theorem off30_eq : ∀ (k : Fin k0_t5_loop.trips) (a : Fin 4), k0_off30 k a = (![1, 0, k.val / 2, 16 * (k.val % 2)] : Fin 4 → Nat) a := by decide +kernel
instance (k : Fin k0_t5_loop.trips) : ClosedOff (k0_off30 k) := ⟨![1, 0, k.val / 2, 16 * (k.val % 2)], funext (off30_eq k)⟩
theorem off31_eq : ∀ (k : Fin k0_t5_loop.trips) (a : Fin 4), k0_off31 k a = (![1, 1, k.val / 2, 16 * (k.val % 2)] : Fin 4 → Nat) a := by decide +kernel
instance (k : Fin k0_t5_loop.trips) : ClosedOff (k0_off31 k) := ⟨![1, 1, k.val / 2, 16 * (k.val % 2)], funext (off31_eq k)⟩
theorem off32_eq : ∀ (k : Fin k0_t5_loop.trips) (a : Fin 4), k0_off32 k a = (![1, 2, k.val / 2, 16 * (k.val % 2)] : Fin 4 → Nat) a := by decide +kernel
instance (k : Fin k0_t5_loop.trips) : ClosedOff (k0_off32 k) := ⟨![1, 2, k.val / 2, 16 * (k.val % 2)], funext (off32_eq k)⟩
theorem off33_eq : ∀ (k : Fin k0_t5_loop.trips) (a : Fin 4), k0_off33 k a = (![1, 3, k.val / 2, 16 * (k.val % 2)] : Fin 4 → Nat) a := by decide +kernel
instance (k : Fin k0_t5_loop.trips) : ClosedOff (k0_off33 k) := ⟨![1, 3, k.val / 2, 16 * (k.val % 2)], funext (off33_eq k)⟩
theorem off34_eq : ∀ (k : Fin k0_t5_loop.trips) (a : Fin 4), k0_off34 k a = (![1, 4, k.val / 2, 16 * (k.val % 2)] : Fin 4 → Nat) a := by decide +kernel
instance (k : Fin k0_t5_loop.trips) : ClosedOff (k0_off34 k) := ⟨![1, 4, k.val / 2, 16 * (k.val % 2)], funext (off34_eq k)⟩
theorem off35_eq : ∀ (k : Fin k0_t5_loop.trips) (a : Fin 4), k0_off35 k a = (![1, 5, k.val / 2, 16 * (k.val % 2)] : Fin 4 → Nat) a := by decide +kernel
instance (k : Fin k0_t5_loop.trips) : ClosedOff (k0_off35 k) := ⟨![1, 5, k.val / 2, 16 * (k.val % 2)], funext (off35_eq k)⟩
theorem off36_eq : ∀ (k : Fin k0_t5_loop.trips) (a : Fin 4), k0_off36 k a = (![1, 6, k.val / 2, 16 * (k.val % 2)] : Fin 4 → Nat) a := by decide +kernel
instance (k : Fin k0_t5_loop.trips) : ClosedOff (k0_off36 k) := ⟨![1, 6, k.val / 2, 16 * (k.val % 2)], funext (off36_eq k)⟩
theorem off37_eq : ∀ (k : Fin k0_t5_loop.trips) (a : Fin 4), k0_off37 k a = (![1, 7, k.val / 2, 16 * (k.val % 2)] : Fin 4 → Nat) a := by decide +kernel
instance (k : Fin k0_t5_loop.trips) : ClosedOff (k0_off37 k) := ⟨![1, 7, k.val / 2, 16 * (k.val % 2)], funext (off37_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot1).view.loc (thrV d L)),
        ⌜Done 1 k (View.readAt (Elt F) (inSlot0).view (LoadRect.whole S2x64x64) fi) fo⌝
        ∗ ((outSlot1).view.loc (thrV d L) ↦[(outSlot1).view.set]{fullShare} fo))

/-- One trip of the loop. -/
theorem step (d : Dev nD) (L : grid0.Coords) (v3 v845 : BitVec 32)
    (fi : Buf (Elt F) ((inSlot0).view.loc (thrV d L))) (k : Fin k0_t5_loop.trips) (acc : Unit) :
    cInv (F := F) d L fi k.val acc
      ⊢ wp frame (wpE (defs₀ (F := F)) 𝒱₀ (thrV d L) none) Set.univ
          (k0_t5_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v845 k acc)
          (cInv (F := F) d L fi (k.val + 1)) := by
  unfold cInv
  iintro ⟨Hi, ⟨%f, %hD, Ho⟩⟩
  have hk : k.val < 64 := trips ▸ k.isLt
  unfold k0_t5_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off30_eq k) _ y hy).1, (piece_row 1 0 k.val _ (off30_eq k) _ y hy).2.2⟩
    case r2 => exact fun y hy => ⟨(piece_row 1 1 k.val _ (off31_eq k) _ y hy).1, (piece_row 1 1 k.val _ (off31_eq k) _ y hy).2.2⟩
    case r3 => exact fun y hy => ⟨(piece_row 1 2 k.val _ (off32_eq k) _ y hy).1, (piece_row 1 2 k.val _ (off32_eq k) _ y hy).2.2⟩
    case r4 => exact fun y hy => ⟨(piece_row 1 3 k.val _ (off33_eq k) _ y hy).1, (piece_row 1 3 k.val _ (off33_eq k) _ y hy).2.2⟩
    case r5 => exact fun y hy => ⟨(piece_row 1 4 k.val _ (off34_eq k) _ y hy).1, (piece_row 1 4 k.val _ (off34_eq k) _ y hy).2.2⟩
    case r6 => exact fun y hy => ⟨(piece_row 1 5 k.val _ (off35_eq k) _ y hy).1, (piece_row 1 5 k.val _ (off35_eq k) _ y hy).2.2⟩
    case r7 => exact fun y hy => ⟨(piece_row 1 6 k.val _ (off36_eq k) _ y hy).1, (piece_row 1 6 k.val _ (off36_eq k) _ y hy).2.2⟩
    case r8 => exact fun y hy => ⟨(piece_row 1 7 k.val _ (off37_eq k) _ y hy).1, (piece_row 1 7 k.val _ (off37_eq k) _ y hy).2.2⟩
    case a1 => exact piece_agree _ _ _ _ 1 0 k.val _ (off30_eq k) _ (by (clear * - k; decide +kernel +revert)) (by (clear * - k; decide +kernel +revert)) (by (clear * - k; decide +kernel +revert))
    case a2 => exact piece_agree _ _ _ _ 1 1 k.val _ (off31_eq k) _ (by (clear * - k; decide +kernel +revert)) (by (clear * - k; decide +kernel +revert)) (by (clear * - k; decide +kernel +revert))
    case a3 => exact piece_agree _ _ _ _ 1 2 k.val _ (off32_eq k) _ (by (clear * - k; decide +kernel +revert)) (by (clear * - k; decide +kernel +revert)) (by (clear * - k; decide +kernel +revert))
    case a4 => exact piece_agree _ _ _ _ 1 3 k.val _ (off33_eq k) _ (by (clear * - k; decide +kernel +revert)) (by (clear * - k; decide +kernel +revert)) (by (clear * - k; decide +kernel +revert))
    case a5 => exact piece_agree _ _ _ _ 1 4 k.val _ (off34_eq k) _ (by (clear * - k; decide +kernel +revert)) (by (clear * - k; decide +kernel +revert)) (by (clear * - k; decide +kernel +revert))
    case a6 => exact piece_agree _ _ _ _ 1 5 k.val _ (off35_eq k) _ (by (clear * - k; decide +kernel +revert)) (by (clear * - k; decide +kernel +revert)) (by (clear * - k; decide +kernel +revert))
    case a7 => exact piece_agree _ _ _ _ 1 6 k.val _ (off36_eq k) _ (by (clear * - k; decide +kernel +revert)) (by (clear * - k; decide +kernel +revert)) (by (clear * - k; decide +kernel +revert))
    case a8 => exact piece_agree _ _ _ _ 1 7 k.val _ (off37_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off30_eq k) _ y h0 h1 hr)
      · exact Or.inr (Or.inl (piece_cover 1 1 k.val _ (off31_eq k) _ y h0 h1 hr))
      · exact Or.inr (Or.inr (Or.inl (piece_cover 1 2 k.val _ (off32_eq k) _ y h0 h1 hr)))
      · exact Or.inr (Or.inr (Or.inr (Or.inl (piece_cover 1 3 k.val _ (off33_eq k) _ y h0 h1 hr))))
      · exact Or.inr (Or.inr (Or.inr (Or.inr (Or.inl (piece_cover 1 4 k.val _ (off34_eq k) _ y h0 h1 hr)))))
      · exact Or.inr (Or.inr (Or.inr (Or.inr (Or.inr (Or.inl (piece_cover 1 5 k.val _ (off35_eq k) _ y h0 h1 hr))))))
      · exact Or.inr (Or.inr (Or.inr (Or.inr (Or.inr (Or.inr (Or.inl (piece_cover 1 6 k.val _ (off36_eq k) _ y h0 h1 hr)))))))
      · exact Or.inr (Or.inr (Or.inr (Or.inr (Or.inr (Or.inr (Or.inr (piece_cover 1 7 k.val _ (off37_eq k) _ y h0 h1 hr)))))))
  · iexact Ho

end C5

end Cert.Proof.KI

end
-- ==== Proof.Compute6.lean ====
/-
  The compute loop of the units that read input slot 1 and fill output slot 0 (loop 6 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C6

theorem trips : k0_t6_loop.trips = 64 := by decide
theorem off39_eq : ∀ (k : Fin k0_t6_loop.trips) (a : Fin 4), k0_off39 k a = (![0, 0, k.val / 2, 16 * (k.val % 2)] : Fin 4 → Nat) a := by decide +kernel
instance (k : Fin k0_t6_loop.trips) : ClosedOff (k0_off39 k) := ⟨![0, 0, k.val / 2, 16 * (k.val % 2)], funext (off39_eq k)⟩
theorem off40_eq : ∀ (k : Fin k0_t6_loop.trips) (a : Fin 4), k0_off40 k a = (![0, 1, k.val / 2, 16 * (k.val % 2)] : Fin 4 → Nat) a := by decide +kernel
instance (k : Fin k0_t6_loop.trips) : ClosedOff (k0_off40 k) := ⟨![0, 1, k.val / 2, 16 * (k.val % 2)], funext (off40_eq k)⟩
theorem off41_eq : ∀ (k : Fin k0_t6_loop.trips) (a : Fin 4), k0_off41 k a = (![0, 2, k.val / 2, 16 * (k.val % 2)] : Fin 4 → Nat) a := by decide +kernel
instance (k : Fin k0_t6_loop.trips) : ClosedOff (k0_off41 k) := ⟨![0, 2, k.val / 2, 16 * (k.val % 2)], funext (off41_eq k)⟩
theorem off42_eq : ∀ (k : Fin k0_t6_loop.trips) (a : Fin 4), k0_off42 k a = (![0, 3, k.val / 2, 16 * (k.val % 2)] : Fin 4 → Nat) a := by decide +kernel
instance (k : Fin k0_t6_loop.trips) : ClosedOff (k0_off42 k) := ⟨![0, 3, k.val / 2, 16 * (k.val % 2)], funext (off42_eq k)⟩
theorem off43_eq : ∀ (k : Fin k0_t6_loop.trips) (a : Fin 4), k0_off43 k a = (![0, 4, k.val / 2, 16 * (k.val % 2)] : Fin 4 → Nat) a := by decide +kernel
instance (k : Fin k0_t6_loop.trips) : ClosedOff (k0_off43 k) := ⟨![0, 4, k.val / 2, 16 * (k.val % 2)], funext (off43_eq k)⟩
theorem off44_eq : ∀ (k : Fin k0_t6_loop.trips) (a : Fin 4), k0_off44 k a = (![0, 5, k.val / 2, 16 * (k.val % 2)] : Fin 4 → Nat) a := by decide +kernel
instance (k : Fin k0_t6_loop.trips) : ClosedOff (k0_off44 k) := ⟨![0, 5, k.val / 2, 16 * (k.val % 2)], funext (off44_eq k)⟩
theorem off45_eq : ∀ (k : Fin k0_t6_loop.trips) (a : Fin 4), k0_off45 k a = (![0, 6, k.val / 2, 16 * (k.val % 2)] : Fin 4 → Nat) a := by decide +kernel
instance (k : Fin k0_t6_loop.trips) : ClosedOff (k0_off45 k) := ⟨![0, 6, k.val / 2, 16 * (k.val % 2)], funext (off45_eq k)⟩
theorem off46_eq : ∀ (k : Fin k0_t6_loop.trips) (a : Fin 4), k0_off46 k a = (![0, 7, k.val / 2, 16 * (k.val % 2)] : Fin 4 → Nat) a := by decide +kernel
instance (k : Fin k0_t6_loop.trips) : ClosedOff (k0_off46 k) := ⟨![0, 7, k.val / 2, 16 * (k.val % 2)], funext (off46_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot0).view.loc (thrV d L)),
        ⌜Done 0 k (View.readAt (Elt F) (inSlot1).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32) (k0_t1 : Fin k0_t1_loop.trips) (arg11 v845 c61 : BitVec 32)
    (fi : Buf (Elt F) ((inSlot1).view.loc (thrV d L))) (k : Fin k0_t6_loop.trips) (acc : Unit) :
    cInv (F := F) d L fi k.val acc
      ⊢ wp frame (wpE (defs₀ (F := F)) 𝒱₀ (thrV d L) none) Set.univ
          (k0_t6_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k0_t1 arg11 v845 c61 k acc)
          (cInv (F := F) d L fi (k.val + 1)) := by
  unfold cInv
  iintro ⟨Hi, ⟨%f, %hD, Ho⟩⟩
  have hk : k.val < 64 := trips ▸ k.isLt
  unfold k0_t6_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off39_eq k) _ y hy).1, (piece_row 0 0 k.val _ (off39_eq k) _ y hy).2.2⟩
    case r2 => exact fun y hy => ⟨(piece_row 0 1 k.val _ (off40_eq k) _ y hy).1, (piece_row 0 1 k.val _ (off40_eq k) _ y hy).2.2⟩
    case r3 => exact fun y hy => ⟨(piece_row 0 2 k.val _ (off41_eq k) _ y hy).1, (piece_row 0 2 k.val _ (off41_eq k) _ y hy).2.2⟩
    case r4 => exact fun y hy => ⟨(piece_row 0 3 k.val _ (off42_eq k) _ y hy).1, (piece_row 0 3 k.val _ (off42_eq k) _ y hy).2.2⟩
    case r5 => exact fun y hy => ⟨(piece_row 0 4 k.val _ (off43_eq k) _ y hy).1, (piece_row 0 4 k.val _ (off43_eq k) _ y hy).2.2⟩
    case r6 => exact fun y hy => ⟨(piece_row 0 5 k.val _ (off44_eq k) _ y hy).1, (piece_row 0 5 k.val _ (off44_eq k) _ y hy).2.2⟩
    case r7 => exact fun y hy => ⟨(piece_row 0 6 k.val _ (off45_eq k) _ y hy).1, (piece_row 0 6 k.val _ (off45_eq k) _ y hy).2.2⟩
    case r8 => exact fun y hy => ⟨(piece_row 0 7 k.val _ (off46_eq k) _ y hy).1, (piece_row 0 7 k.val _ (off46_eq k) _ y hy).2.2⟩
    case a1 => exact piece_agree _ _ _ _ 0 0 k.val _ (off39_eq k) _ (by (clear * - k; decide +kernel +revert)) (by (clear * - k; decide +kernel +revert)) (by (clear * - k; decide +kernel +revert))
    case a2 => exact piece_agree _ _ _ _ 0 1 k.val _ (off40_eq k) _ (by (clear * - k; decide +kernel +revert)) (by (clear * - k; decide +kernel +revert)) (by (clear * - k; decide +kernel +revert))
    case a3 => exact piece_agree _ _ _ _ 0 2 k.val _ (off41_eq k) _ (by (clear * - k; decide +kernel +revert)) (by (clear * - k; decide +kernel +revert)) (by (clear * - k; decide +kernel +revert))
    case a4 => exact piece_agree _ _ _ _ 0 3 k.val _ (off42_eq k) _ (by (clear * - k; decide +kernel +revert)) (by (clear * - k; decide +kernel +revert)) (by (clear * - k; decide +kernel +revert))
    case a5 => exact piece_agree _ _ _ _ 0 4 k.val _ (off43_eq k) _ (by (clear * - k; decide +kernel +revert)) (by (clear * - k; decide +kernel +revert)) (by (clear * - k; decide +kernel +revert))
    case a6 => exact piece_agree _ _ _ _ 0 5 k.val _ (off44_eq k) _ (by (clear * - k; decide +kernel +revert)) (by (clear * - k; decide +kernel +revert)) (by (clear * - k; decide +kernel +revert))
    case a7 => exact piece_agree _ _ _ _ 0 6 k.val _ (off45_eq k) _ (by (clear * - k; decide +kernel +revert)) (by (clear * - k; decide +kernel +revert)) (by (clear * - k; decide +kernel +revert))
    case a8 => exact piece_agree _ _ _ _ 0 7 k.val _ (off46_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off39_eq k) _ y h0 h1 hr)
      · exact Or.inr (Or.inl (piece_cover 0 1 k.val _ (off40_eq k) _ y h0 h1 hr))
      · exact Or.inr (Or.inr (Or.inl (piece_cover 0 2 k.val _ (off41_eq k) _ y h0 h1 hr)))
      · exact Or.inr (Or.inr (Or.inr (Or.inl (piece_cover 0 3 k.val _ (off42_eq k) _ y h0 h1 hr))))
      · exact Or.inr (Or.inr (Or.inr (Or.inr (Or.inl (piece_cover 0 4 k.val _ (off43_eq k) _ y h0 h1 hr)))))
      · exact Or.inr (Or.inr (Or.inr (Or.inr (Or.inr (Or.inl (piece_cover 0 5 k.val _ (off44_eq k) _ y h0 h1 hr))))))
      · exact Or.inr (Or.inr (Or.inr (Or.inr (Or.inr (Or.inr (Or.inl (piece_cover 0 6 k.val _ (off45_eq k) _ y h0 h1 hr)))))))
      · exact Or.inr (Or.inr (Or.inr (Or.inr (Or.inr (Or.inr (Or.inr (piece_cover 0 7 k.val _ (off46_eq k) _ y h0 h1 hr)))))))
  · iexact Ho

end C6

end Cert.Proof.KI

end
-- ==== Proof.Compute7.lean ====
/-
  The compute loop of the units that read input slot 2 and fill output slot 1 (loop 7 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C7

theorem trips : k0_t7_loop.trips = 64 := by decide
theorem off48_eq : ∀ (k : Fin k0_t7_loop.trips) (a : Fin 4), k0_off48 k a = (![1, 0, k.val / 2, 16 * (k.val % 2)] : Fin 4 → Nat) a := by decide +kernel
instance (k : Fin k0_t7_loop.trips) : ClosedOff (k0_off48 k) := ⟨![1, 0, k.val / 2, 16 * (k.val % 2)], funext (off48_eq k)⟩
theorem off49_eq : ∀ (k : Fin k0_t7_loop.trips) (a : Fin 4), k0_off49 k a = (![1, 1, k.val / 2, 16 * (k.val % 2)] : Fin 4 → Nat) a := by decide +kernel
instance (k : Fin k0_t7_loop.trips) : ClosedOff (k0_off49 k) := ⟨![1, 1, k.val / 2, 16 * (k.val % 2)], funext (off49_eq k)⟩
theorem off50_eq : ∀ (k : Fin k0_t7_loop.trips) (a : Fin 4), k0_off50 k a = (![1, 2, k.val / 2, 16 * (k.val % 2)] : Fin 4 → Nat) a := by decide +kernel
instance (k : Fin k0_t7_loop.trips) : ClosedOff (k0_off50 k) := ⟨![1, 2, k.val / 2, 16 * (k.val % 2)], funext (off50_eq k)⟩
theorem off51_eq : ∀ (k : Fin k0_t7_loop.trips) (a : Fin 4), k0_off51 k a = (![1, 3, k.val / 2, 16 * (k.val % 2)] : Fin 4 → Nat) a := by decide +kernel
instance (k : Fin k0_t7_loop.trips) : ClosedOff (k0_off51 k) := ⟨![1, 3, k.val / 2, 16 * (k.val % 2)], funext (off51_eq k)⟩
theorem off52_eq : ∀ (k : Fin k0_t7_loop.trips) (a : Fin 4), k0_off52 k a = (![1, 4, k.val / 2, 16 * (k.val % 2)] : Fin 4 → Nat) a := by decide +kernel
instance (k : Fin k0_t7_loop.trips) : ClosedOff (k0_off52 k) := ⟨![1, 4, k.val / 2, 16 * (k.val % 2)], funext (off52_eq k)⟩
theorem off53_eq : ∀ (k : Fin k0_t7_loop.trips) (a : Fin 4), k0_off53 k a = (![1, 5, k.val / 2, 16 * (k.val % 2)] : Fin 4 → Nat) a := by decide +kernel
instance (k : Fin k0_t7_loop.trips) : ClosedOff (k0_off53 k) := ⟨![1, 5, k.val / 2, 16 * (k.val % 2)], funext (off53_eq k)⟩
theorem off54_eq : ∀ (k : Fin k0_t7_loop.trips) (a : Fin 4), k0_off54 k a = (![1, 6, k.val / 2, 16 * (k.val % 2)] : Fin 4 → Nat) a := by decide +kernel
instance (k : Fin k0_t7_loop.trips) : ClosedOff (k0_off54 k) := ⟨![1, 6, k.val / 2, 16 * (k.val % 2)], funext (off54_eq k)⟩
theorem off55_eq : ∀ (k : Fin k0_t7_loop.trips) (a : Fin 4), k0_off55 k a = (![1, 7, k.val / 2, 16 * (k.val % 2)] : Fin 4 → Nat) a := by decide +kernel
instance (k : Fin k0_t7_loop.trips) : ClosedOff (k0_off55 k) := ⟨![1, 7, k.val / 2, 16 * (k.val % 2)], funext (off55_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot1).view.loc (thrV d L)),
        ⌜Done 1 k (View.readAt (Elt F) (inSlot2).view (LoadRect.whole S2x64x64) fi) fo⌝
        ∗ ((outSlot1).view.loc (thrV d L) ↦[(outSlot1).view.set]{fullShare} fo))

/-- One trip of the loop. -/
theorem step (d : Dev nD) (L : grid0.Coords) (v3 v1007 : BitVec 32)
    (fi : Buf (Elt F) ((inSlot2).view.loc (thrV d L))) (k : Fin k0_t7_loop.trips) (acc : Unit) :
    cInv (F := F) d L fi k.val acc
      ⊢ wp frame (wpE (defs₀ (F := F)) 𝒱₀ (thrV d L) none) Set.univ
          (k0_t7_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v1007 k acc)
          (cInv (F := F) d L fi (k.val + 1)) := by
  unfold cInv
  iintro ⟨Hi, ⟨%f, %hD, Ho⟩⟩
  have hk : k.val < 64 := trips ▸ k.isLt
  unfold k0_t7_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off48_eq k) _ y hy).1, (piece_row 1 0 k.val _ (off48_eq k) _ y hy).2.2⟩
    case r2 => exact fun y hy => ⟨(piece_row 1 1 k.val _ (off49_eq k) _ y hy).1, (piece_row 1 1 k.val _ (off49_eq k) _ y hy).2.2⟩
    case r3 => exact fun y hy => ⟨(piece_row 1 2 k.val _ (off50_eq k) _ y hy).1, (piece_row 1 2 k.val _ (off50_eq k) _ y hy).2.2⟩
    case r4 => exact fun y hy => ⟨(piece_row 1 3 k.val _ (off51_eq k) _ y hy).1, (piece_row 1 3 k.val _ (off51_eq k) _ y hy).2.2⟩
    case r5 => exact fun y hy => ⟨(piece_row 1 4 k.val _ (off52_eq k) _ y hy).1, (piece_row 1 4 k.val _ (off52_eq k) _ y hy).2.2⟩
    case r6 => exact fun y hy => ⟨(piece_row 1 5 k.val _ (off53_eq k) _ y hy).1, (piece_row 1 5 k.val _ (off53_eq k) _ y hy).2.2⟩
    case r7 => exact fun y hy => ⟨(piece_row 1 6 k.val _ (off54_eq k) _ y hy).1, (piece_row 1 6 k.val _ (off54_eq k) _ y hy).2.2⟩
    case r8 => exact fun y hy => ⟨(piece_row 1 7 k.val _ (off55_eq k) _ y hy).1, (piece_row 1 7 k.val _ (off55_eq k) _ y hy).2.2⟩
    case a1 => exact piece_agree _ _ _ _ 1 0 k.val _ (off48_eq k) _ (by (clear * - k; decide +kernel +revert)) (by (clear * - k; decide +kernel +revert)) (by (clear * - k; decide +kernel +revert))
    case a2 => exact piece_agree _ _ _ _ 1 1 k.val _ (off49_eq k) _ (by (clear * - k; decide +kernel +revert)) (by (clear * - k; decide +kernel +revert)) (by (clear * - k; decide +kernel +revert))
    case a3 => exact piece_agree _ _ _ _ 1 2 k.val _ (off50_eq k) _ (by (clear * - k; decide +kernel +revert)) (by (clear * - k; decide +kernel +revert)) (by (clear * - k; decide +kernel +revert))
    case a4 => exact piece_agree _ _ _ _ 1 3 k.val _ (off51_eq k) _ (by (clear * - k; decide +kernel +revert)) (by (clear * - k; decide +kernel +revert)) (by (clear * - k; decide +kernel +revert))
    case a5 => exact piece_agree _ _ _ _ 1 4 k.val _ (off52_eq k) _ (by (clear * - k; decide +kernel +revert)) (by (clear * - k; decide +kernel +revert)) (by (clear * - k; decide +kernel +revert))
    case a6 => exact piece_agree _ _ _ _ 1 5 k.val _ (off53_eq k) _ (by (clear * - k; decide +kernel +revert)) (by (clear * - k; decide +kernel +revert)) (by (clear * - k; decide +kernel +revert))
    case a7 => exact piece_agree _ _ _ _ 1 6 k.val _ (off54_eq k) _ (by (clear * - k; decide +kernel +revert)) (by (clear * - k; decide +kernel +revert)) (by (clear * - k; decide +kernel +revert))
    case a8 => exact piece_agree _ _ _ _ 1 7 k.val _ (off55_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off48_eq k) _ y h0 h1 hr)
      · exact Or.inr (Or.inl (piece_cover 1 1 k.val _ (off49_eq k) _ y h0 h1 hr))
      · exact Or.inr (Or.inr (Or.inl (piece_cover 1 2 k.val _ (off50_eq k) _ y h0 h1 hr)))
      · exact Or.inr (Or.inr (Or.inr (Or.inl (piece_cover 1 3 k.val _ (off51_eq k) _ y h0 h1 hr))))
      · exact Or.inr (Or.inr (Or.inr (Or.inr (Or.inl (piece_cover 1 4 k.val _ (off52_eq k) _ y h0 h1 hr)))))
      · exact Or.inr (Or.inr (Or.inr (Or.inr (Or.inr (Or.inl (piece_cover 1 5 k.val _ (off53_eq k) _ y h0 h1 hr))))))
      · exact Or.inr (Or.inr (Or.inr (Or.inr (Or.inr (Or.inr (Or.inl (piece_cover 1 6 k.val _ (off54_eq k) _ y h0 h1 hr)))))))
      · exact Or.inr (Or.inr (Or.inr (Or.inr (Or.inr (Or.inr (Or.inr (piece_cover 1 7 k.val _ (off55_eq k) _ y h0 h1 hr)))))))
  · iexact Ho

end C7

end Cert.Proof.KI

end
-- ==== Proof.Compute8.lean ====
/-
  The compute loop of the units that read input slot 0 and fill output slot 0 (loop 8 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C8

theorem trips : k0_t8_loop.trips = 64 := by decide
theorem off57_eq : ∀ (k : Fin k0_t8_loop.trips) (a : Fin 4), k0_off57 k a = (![0, 0, k.val / 2, 16 * (k.val % 2)] : Fin 4 → Nat) a := by decide +kernel
instance (k : Fin k0_t8_loop.trips) : ClosedOff (k0_off57 k) := ⟨![0, 0, k.val / 2, 16 * (k.val % 2)], funext (off57_eq k)⟩
theorem off58_eq : ∀ (k : Fin k0_t8_loop.trips) (a : Fin 4), k0_off58 k a = (![0, 1, k.val / 2, 16 * (k.val % 2)] : Fin 4 → Nat) a := by decide +kernel
instance (k : Fin k0_t8_loop.trips) : ClosedOff (k0_off58 k) := ⟨![0, 1, k.val / 2, 16 * (k.val % 2)], funext (off58_eq k)⟩
theorem off59_eq : ∀ (k : Fin k0_t8_loop.trips) (a : Fin 4), k0_off59 k a = (![0, 2, k.val / 2, 16 * (k.val % 2)] : Fin 4 → Nat) a := by decide +kernel
instance (k : Fin k0_t8_loop.trips) : ClosedOff (k0_off59 k) := ⟨![0, 2, k.val / 2, 16 * (k.val % 2)], funext (off59_eq k)⟩
theorem off60_eq : ∀ (k : Fin k0_t8_loop.trips) (a : Fin 4), k0_off60 k a = (![0, 3, k.val / 2, 16 * (k.val % 2)] : Fin 4 → Nat) a := by decide +kernel
instance (k : Fin k0_t8_loop.trips) : ClosedOff (k0_off60 k) := ⟨![0, 3, k.val / 2, 16 * (k.val % 2)], funext (off60_eq k)⟩
theorem off61_eq : ∀ (k : Fin k0_t8_loop.trips) (a : Fin 4), k0_off61 k a = (![0, 4, k.val / 2, 16 * (k.val % 2)] : Fin 4 → Nat) a := by decide +kernel
instance (k : Fin k0_t8_loop.trips) : ClosedOff (k0_off61 k) := ⟨![0, 4, k.val / 2, 16 * (k.val % 2)], funext (off61_eq k)⟩
theorem off62_eq : ∀ (k : Fin k0_t8_loop.trips) (a : Fin 4), k0_off62 k a = (![0, 5, k.val / 2, 16 * (k.val % 2)] : Fin 4 → Nat) a := by decide +kernel
instance (k : Fin k0_t8_loop.trips) : ClosedOff (k0_off62 k) := ⟨![0, 5, k.val / 2, 16 * (k.val % 2)], funext (off62_eq k)⟩
theorem off63_eq : ∀ (k : Fin k0_t8_loop.trips) (a : Fin 4), k0_off63 k a = (![0, 6, k.val / 2, 16 * (k.val % 2)] : Fin 4 → Nat) a := by decide +kernel
instance (k : Fin k0_t8_loop.trips) : ClosedOff (k0_off63 k) := ⟨![0, 6, k.val / 2, 16 * (k.val % 2)], funext (off63_eq k)⟩
theorem off64_eq : ∀ (k : Fin k0_t8_loop.trips) (a : Fin 4), k0_off64 k a = (![0, 7, k.val / 2, 16 * (k.val % 2)] : Fin 4 → Nat) a := by decide +kernel
instance (k : Fin k0_t8_loop.trips) : ClosedOff (k0_off64 k) := ⟨![0, 7, k.val / 2, 16 * (k.val % 2)], funext (off64_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot0).view.loc (thrV d L)),
        ⌜Done 0 k (View.readAt (Elt F) (inSlot0).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32)
    (fi : Buf (Elt F) ((inSlot0).view.loc (thrV d L))) (k : Fin k0_t8_loop.trips) (acc : Unit) :
    cInv (F := F) d L fi k.val acc
      ⊢ wp frame (wpE (defs₀ (F := F)) 𝒱₀ (thrV d L) none) Set.univ
          (k0_t8_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t8_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off57_eq k) _ y hy).1, (piece_row 0 0 k.val _ (off57_eq k) _ y hy).2.2⟩
    case r2 => exact fun y hy => ⟨(piece_row 0 1 k.val _ (off58_eq k) _ y hy).1, (piece_row 0 1 k.val _ (off58_eq k) _ y hy).2.2⟩
    case r3 => exact fun y hy => ⟨(piece_row 0 2 k.val _ (off59_eq k) _ y hy).1, (piece_row 0 2 k.val _ (off59_eq k) _ y hy).2.2⟩
    case r4 => exact fun y hy => ⟨(piece_row 0 3 k.val _ (off60_eq k) _ y hy).1, (piece_row 0 3 k.val _ (off60_eq k) _ y hy).2.2⟩
    case r5 => exact fun y hy => ⟨(piece_row 0 4 k.val _ (off61_eq k) _ y hy).1, (piece_row 0 4 k.val _ (off61_eq k) _ y hy).2.2⟩
    case r6 => exact fun y hy => ⟨(piece_row 0 5 k.val _ (off62_eq k) _ y hy).1, (piece_row 0 5 k.val _ (off62_eq k) _ y hy).2.2⟩
    case r7 => exact fun y hy => ⟨(piece_row 0 6 k.val _ (off63_eq k) _ y hy).1, (piece_row 0 6 k.val _ (off63_eq k) _ y hy).2.2⟩
    case r8 => exact fun y hy => ⟨(piece_row 0 7 k.val _ (off64_eq k) _ y hy).1, (piece_row 0 7 k.val _ (off64_eq k) _ y hy).2.2⟩
    case a1 => exact piece_agree _ _ _ _ 0 0 k.val _ (off57_eq k) _ (by (clear * - k; decide +kernel +revert)) (by (clear * - k; decide +kernel +revert)) (by (clear * - k; decide +kernel +revert))
    case a2 => exact piece_agree _ _ _ _ 0 1 k.val _ (off58_eq k) _ (by (clear * - k; decide +kernel +revert)) (by (clear * - k; decide +kernel +revert)) (by (clear * - k; decide +kernel +revert))
    case a3 => exact piece_agree _ _ _ _ 0 2 k.val _ (off59_eq k) _ (by (clear * - k; decide +kernel +revert)) (by (clear * - k; decide +kernel +revert)) (by (clear * - k; decide +kernel +revert))
    case a4 => exact piece_agree _ _ _ _ 0 3 k.val _ (off60_eq k) _ (by (clear * - k; decide +kernel +revert)) (by (clear * - k; decide +kernel +revert)) (by (clear * - k; decide +kernel +revert))
    case a5 => exact piece_agree _ _ _ _ 0 4 k.val _ (off61_eq k) _ (by (clear * - k; decide +kernel +revert)) (by (clear * - k; decide +kernel +revert)) (by (clear * - k; decide +kernel +revert))
    case a6 => exact piece_agree _ _ _ _ 0 5 k.val _ (off62_eq k) _ (by (clear * - k; decide +kernel +revert)) (by (clear * - k; decide +kernel +revert)) (by (clear * - k; decide +kernel +revert))
    case a7 => exact piece_agree _ _ _ _ 0 6 k.val _ (off63_eq k) _ (by (clear * - k; decide +kernel +revert)) (by (clear * - k; decide +kernel +revert)) (by (clear * - k; decide +kernel +revert))
    case a8 => exact piece_agree _ _ _ _ 0 7 k.val _ (off64_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off57_eq k) _ y h0 h1 hr)
      · exact Or.inr (Or.inl (piece_cover 0 1 k.val _ (off58_eq k) _ y h0 h1 hr))
      · exact Or.inr (Or.inr (Or.inl (piece_cover 0 2 k.val _ (off59_eq k) _ y h0 h1 hr)))
      · exact Or.inr (Or.inr (Or.inr (Or.inl (piece_cover 0 3 k.val _ (off60_eq k) _ y h0 h1 hr))))
      · exact Or.inr (Or.inr (Or.inr (Or.inr (Or.inl (piece_cover 0 4 k.val _ (off61_eq k) _ y h0 h1 hr)))))
      · exact Or.inr (Or.inr (Or.inr (Or.inr (Or.inr (Or.inl (piece_cover 0 5 k.val _ (off62_eq k) _ y h0 h1 hr))))))
      · exact Or.inr (Or.inr (Or.inr (Or.inr (Or.inr (Or.inr (Or.inl (piece_cover 0 6 k.val _ (off63_eq k) _ y h0 h1 hr)))))))
      · exact Or.inr (Or.inr (Or.inr (Or.inr (Or.inr (Or.inr (Or.inr (piece_cover 0 7 k.val _ (off64_eq k) _ y h0 h1 hr)))))))
  · iexact Ho

end C8

end Cert.Proof.KI

end
-- ==== Proof.Compute9.lean ====
/-
  The compute loop of the units that read input slot 1 and fill output slot 1 (loop 9 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C9

theorem trips : k0_t9_loop.trips = 64 := by decide
theorem off66_eq : ∀ (k : Fin k0_t9_loop.trips) (a : Fin 4), k0_off66 k a = (![1, 0, k.val / 2, 16 * (k.val % 2)] : Fin 4 → Nat) a := by decide +kernel
instance (k : Fin k0_t9_loop.trips) : ClosedOff (k0_off66 k) := ⟨![1, 0, k.val / 2, 16 * (k.val % 2)], funext (off66_eq k)⟩
theorem off67_eq : ∀ (k : Fin k0_t9_loop.trips) (a : Fin 4), k0_off67 k a = (![1, 1, k.val / 2, 16 * (k.val % 2)] : Fin 4 → Nat) a := by decide +kernel
instance (k : Fin k0_t9_loop.trips) : ClosedOff (k0_off67 k) := ⟨![1, 1, k.val / 2, 16 * (k.val % 2)], funext (off67_eq k)⟩
theorem off68_eq : ∀ (k : Fin k0_t9_loop.trips) (a : Fin 4), k0_off68 k a = (![1, 2, k.val / 2, 16 * (k.val % 2)] : Fin 4 → Nat) a := by decide +kernel
instance (k : Fin k0_t9_loop.trips) : ClosedOff (k0_off68 k) := ⟨![1, 2, k.val / 2, 16 * (k.val % 2)], funext (off68_eq k)⟩
theorem off69_eq : ∀ (k : Fin k0_t9_loop.trips) (a : Fin 4), k0_off69 k a = (![1, 3, k.val / 2, 16 * (k.val % 2)] : Fin 4 → Nat) a := by decide +kernel
instance (k : Fin k0_t9_loop.trips) : ClosedOff (k0_off69 k) := ⟨![1, 3, k.val / 2, 16 * (k.val % 2)], funext (off69_eq k)⟩
theorem off70_eq : ∀ (k : Fin k0_t9_loop.trips) (a : Fin 4), k0_off70 k a = (![1, 4, k.val / 2, 16 * (k.val % 2)] : Fin 4 → Nat) a := by decide +kernel
instance (k : Fin k0_t9_loop.trips) : ClosedOff (k0_off70 k) := ⟨![1, 4, k.val / 2, 16 * (k.val % 2)], funext (off70_eq k)⟩
theorem off71_eq : ∀ (k : Fin k0_t9_loop.trips) (a : Fin 4), k0_off71 k a = (![1, 5, k.val / 2, 16 * (k.val % 2)] : Fin 4 → Nat) a := by decide +kernel
instance (k : Fin k0_t9_loop.trips) : ClosedOff (k0_off71 k) := ⟨![1, 5, k.val / 2, 16 * (k.val % 2)], funext (off71_eq k)⟩
theorem off72_eq : ∀ (k : Fin k0_t9_loop.trips) (a : Fin 4), k0_off72 k a = (![1, 6, k.val / 2, 16 * (k.val % 2)] : Fin 4 → Nat) a := by decide +kernel
instance (k : Fin k0_t9_loop.trips) : ClosedOff (k0_off72 k) := ⟨![1, 6, k.val / 2, 16 * (k.val % 2)], funext (off72_eq k)⟩
theorem off73_eq : ∀ (k : Fin k0_t9_loop.trips) (a : Fin 4), k0_off73 k a = (![1, 7, k.val / 2, 16 * (k.val % 2)] : Fin 4 → Nat) a := by decide +kernel
instance (k : Fin k0_t9_loop.trips) : ClosedOff (k0_off73 k) := ⟨![1, 7, k.val / 2, 16 * (k.val % 2)], funext (off73_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot1).view.loc (thrV d L)),
        ⌜Done 1 k (View.readAt (Elt F) (inSlot1).view (LoadRect.whole S2x64x64) fi) fo⌝
        ∗ ((outSlot1).view.loc (thrV d L) ↦[(outSlot1).view.set]{fullShare} fo))

/-- One trip of the loop. -/
theorem step (d : Dev nD) (L : grid0.Coords) (v3 : BitVec 32)
    (fi : Buf (Elt F) ((inSlot1).view.loc (thrV d L))) (k : Fin k0_t9_loop.trips) (acc : Unit) :
    cInv (F := F) d L fi k.val acc
      ⊢ wp frame (wpE (defs₀ (F := F)) 𝒱₀ (thrV d L) none) Set.univ
          (k0_t9_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t9_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off66_eq k) _ y hy).1, (piece_row 1 0 k.val _ (off66_eq k) _ y hy).2.2⟩
    case r2 => exact fun y hy => ⟨(piece_row 1 1 k.val _ (off67_eq k) _ y hy).1, (piece_row 1 1 k.val _ (off67_eq k) _ y hy).2.2⟩
    case r3 => exact fun y hy => ⟨(piece_row 1 2 k.val _ (off68_eq k) _ y hy).1, (piece_row 1 2 k.val _ (off68_eq k) _ y hy).2.2⟩
    case r4 => exact fun y hy => ⟨(piece_row 1 3 k.val _ (off69_eq k) _ y hy).1, (piece_row 1 3 k.val _ (off69_eq k) _ y hy).2.2⟩
    case r5 => exact fun y hy => ⟨(piece_row 1 4 k.val _ (off70_eq k) _ y hy).1, (piece_row 1 4 k.val _ (off70_eq k) _ y hy).2.2⟩
    case r6 => exact fun y hy => ⟨(piece_row 1 5 k.val _ (off71_eq k) _ y hy).1, (piece_row 1 5 k.val _ (off71_eq k) _ y hy).2.2⟩
    case r7 => exact fun y hy => ⟨(piece_row 1 6 k.val _ (off72_eq k) _ y hy).1, (piece_row 1 6 k.val _ (off72_eq k) _ y hy).2.2⟩
    case r8 => exact fun y hy => ⟨(piece_row 1 7 k.val _ (off73_eq k) _ y hy).1, (piece_row 1 7 k.val _ (off73_eq k) _ y hy).2.2⟩
    case a1 => exact piece_agree _ _ _ _ 1 0 k.val _ (off66_eq k) _ (by (clear * - k; decide +kernel +revert)) (by (clear * - k; decide +kernel +revert)) (by (clear * - k; decide +kernel +revert))
    case a2 => exact piece_agree _ _ _ _ 1 1 k.val _ (off67_eq k) _ (by (clear * - k; decide +kernel +revert)) (by (clear * - k; decide +kernel +revert)) (by (clear * - k; decide +kernel +revert))
    case a3 => exact piece_agree _ _ _ _ 1 2 k.val _ (off68_eq k) _ (by (clear * - k; decide +kernel +revert)) (by (clear * - k; decide +kernel +revert)) (by (clear * - k; decide +kernel +revert))
    case a4 => exact piece_agree _ _ _ _ 1 3 k.val _ (off69_eq k) _ (by (clear * - k; decide +kernel +revert)) (by (clear * - k; decide +kernel +revert)) (by (clear * - k; decide +kernel +revert))
    case a5 => exact piece_agree _ _ _ _ 1 4 k.val _ (off70_eq k) _ (by (clear * - k; decide +kernel +revert)) (by (clear * - k; decide +kernel +revert)) (by (clear * - k; decide +kernel +revert))
    case a6 => exact piece_agree _ _ _ _ 1 5 k.val _ (off71_eq k) _ (by (clear * - k; decide +kernel +revert)) (by (clear * - k; decide +kernel +revert)) (by (clear * - k; decide +kernel +revert))
    case a7 => exact piece_agree _ _ _ _ 1 6 k.val _ (off72_eq k) _ (by (clear * - k; decide +kernel +revert)) (by (clear * - k; decide +kernel +revert)) (by (clear * - k; decide +kernel +revert))
    case a8 => exact piece_agree _ _ _ _ 1 7 k.val _ (off73_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off66_eq k) _ y h0 h1 hr)
      · exact Or.inr (Or.inl (piece_cover 1 1 k.val _ (off67_eq k) _ y h0 h1 hr))
      · exact Or.inr (Or.inr (Or.inl (piece_cover 1 2 k.val _ (off68_eq k) _ y h0 h1 hr)))
      · exact Or.inr (Or.inr (Or.inr (Or.inl (piece_cover 1 3 k.val _ (off69_eq k) _ y h0 h1 hr))))
      · exact Or.inr (Or.inr (Or.inr (Or.inr (Or.inl (piece_cover 1 4 k.val _ (off70_eq k) _ y h0 h1 hr)))))
      · exact Or.inr (Or.inr (Or.inr (Or.inr (Or.inr (Or.inl (piece_cover 1 5 k.val _ (off71_eq k) _ y h0 h1 hr))))))
      · exact Or.inr (Or.inr (Or.inr (Or.inr (Or.inr (Or.inr (Or.inl (piece_cover 1 6 k.val _ (off72_eq k) _ y h0 h1 hr)))))))
      · exact Or.inr (Or.inr (Or.inr (Or.inr (Or.inr (Or.inr (Or.inr (piece_cover 1 7 k.val _ (off73_eq k) _ y h0 h1 hr)))))))
  · iexact Ho

end C9

end Cert.Proof.KI

end
-- ==== Proof.Compute10.lean ====
/-
  The compute loop of the units that read input slot 2 and fill output slot 0 (loop 10 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C10

theorem trips : k0_t10_loop.trips = 64 := by decide
theorem off74_eq : ∀ (k : Fin k0_t10_loop.trips) (a : Fin 4), k0_off74 k a = (![0, 0, k.val / 2, 16 * (k.val % 2)] : Fin 4 → Nat) a := by decide +kernel
instance (k : Fin k0_t10_loop.trips) : ClosedOff (k0_off74 k) := ⟨![0, 0, k.val / 2, 16 * (k.val % 2)], funext (off74_eq k)⟩
theorem off75_eq : ∀ (k : Fin k0_t10_loop.trips) (a : Fin 4), k0_off75 k a = (![0, 1, k.val / 2, 16 * (k.val % 2)] : Fin 4 → Nat) a := by decide +kernel
instance (k : Fin k0_t10_loop.trips) : ClosedOff (k0_off75 k) := ⟨![0, 1, k.val / 2, 16 * (k.val % 2)], funext (off75_eq k)⟩
theorem off76_eq : ∀ (k : Fin k0_t10_loop.trips) (a : Fin 4), k0_off76 k a = (![0, 2, k.val / 2, 16 * (k.val % 2)] : Fin 4 → Nat) a := by decide +kernel
instance (k : Fin k0_t10_loop.trips) : ClosedOff (k0_off76 k) := ⟨![0, 2, k.val / 2, 16 * (k.val % 2)], funext (off76_eq k)⟩
theorem off77_eq : ∀ (k : Fin k0_t10_loop.trips) (a : Fin 4), k0_off77 k a = (![0, 3, k.val / 2, 16 * (k.val % 2)] : Fin 4 → Nat) a := by decide +kernel
instance (k : Fin k0_t10_loop.trips) : ClosedOff (k0_off77 k) := ⟨![0, 3, k.val / 2, 16 * (k.val % 2)], funext (off77_eq k)⟩
theorem off78_eq : ∀ (k : Fin k0_t10_loop.trips) (a : Fin 4), k0_off78 k a = (![0, 4, k.val / 2, 16 * (k.val % 2)] : Fin 4 → Nat) a := by decide +kernel
instance (k : Fin k0_t10_loop.trips) : ClosedOff (k0_off78 k) := ⟨![0, 4, k.val / 2, 16 * (k.val % 2)], funext (off78_eq k)⟩
theorem off79_eq : ∀ (k : Fin k0_t10_loop.trips) (a : Fin 4), k0_off79 k a = (![0, 5, k.val / 2, 16 * (k.val % 2)] : Fin 4 → Nat) a := by decide +kernel
instance (k : Fin k0_t10_loop.trips) : ClosedOff (k0_off79 k) := ⟨![0, 5, k.val / 2, 16 * (k.val % 2)], funext (off79_eq k)⟩
theorem off80_eq : ∀ (k : Fin k0_t10_loop.trips) (a : Fin 4), k0_off80 k a = (![0, 6, k.val / 2, 16 * (k.val % 2)] : Fin 4 → Nat) a := by decide +kernel
instance (k : Fin k0_t10_loop.trips) : ClosedOff (k0_off80 k) := ⟨![0, 6, k.val / 2, 16 * (k.val % 2)], funext (off80_eq k)⟩
theorem off81_eq : ∀ (k : Fin k0_t10_loop.trips) (a : Fin 4), k0_off81 k a = (![0, 7, k.val / 2, 16 * (k.val % 2)] : Fin 4 → Nat) a := by decide +kernel
instance (k : Fin k0_t10_loop.trips) : ClosedOff (k0_off81 k) := ⟨![0, 7, k.val / 2, 16 * (k.val % 2)], funext (off81_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot0).view.loc (thrV d L)),
        ⌜Done 0 k (View.readAt (Elt F) (inSlot2).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32)
    (fi : Buf (Elt F) ((inSlot2).view.loc (thrV d L))) (k : Fin k0_t10_loop.trips) (acc : Unit) :
    cInv (F := F) d L fi k.val acc
      ⊢ wp frame (wpE (defs₀ (F := F)) 𝒱₀ (thrV d L) none) Set.univ
          (k0_t10_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t10_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off74_eq k) _ y hy).1, (piece_row 0 0 k.val _ (off74_eq k) _ y hy).2.2⟩
    case r2 => exact fun y hy => ⟨(piece_row 0 1 k.val _ (off75_eq k) _ y hy).1, (piece_row 0 1 k.val _ (off75_eq k) _ y hy).2.2⟩
    case r3 => exact fun y hy => ⟨(piece_row 0 2 k.val _ (off76_eq k) _ y hy).1, (piece_row 0 2 k.val _ (off76_eq k) _ y hy).2.2⟩
    case r4 => exact fun y hy => ⟨(piece_row 0 3 k.val _ (off77_eq k) _ y hy).1, (piece_row 0 3 k.val _ (off77_eq k) _ y hy).2.2⟩
    case r5 => exact fun y hy => ⟨(piece_row 0 4 k.val _ (off78_eq k) _ y hy).1, (piece_row 0 4 k.val _ (off78_eq k) _ y hy).2.2⟩
    case r6 => exact fun y hy => ⟨(piece_row 0 5 k.val _ (off79_eq k) _ y hy).1, (piece_row 0 5 k.val _ (off79_eq k) _ y hy).2.2⟩
    case r7 => exact fun y hy => ⟨(piece_row 0 6 k.val _ (off80_eq k) _ y hy).1, (piece_row 0 6 k.val _ (off80_eq k) _ y hy).2.2⟩
    case r8 => exact fun y hy => ⟨(piece_row 0 7 k.val _ (off81_eq k) _ y hy).1, (piece_row 0 7 k.val _ (off81_eq k) _ y hy).2.2⟩
    case a1 => exact piece_agree _ _ _ _ 0 0 k.val _ (off74_eq k) _ (by (clear * - k; decide +kernel +revert)) (by (clear * - k; decide +kernel +revert)) (by (clear * - k; decide +kernel +revert))
    case a2 => exact piece_agree _ _ _ _ 0 1 k.val _ (off75_eq k) _ (by (clear * - k; decide +kernel +revert)) (by (clear * - k; decide +kernel +revert)) (by (clear * - k; decide +kernel +revert))
    case a3 => exact piece_agree _ _ _ _ 0 2 k.val _ (off76_eq k) _ (by (clear * - k; decide +kernel +revert)) (by (clear * - k; decide +kernel +revert)) (by (clear * - k; decide +kernel +revert))
    case a4 => exact piece_agree _ _ _ _ 0 3 k.val _ (off77_eq k) _ (by (clear * - k; decide +kernel +revert)) (by (clear * - k; decide +kernel +revert)) (by (clear * - k; decide +kernel +revert))
    case a5 => exact piece_agree _ _ _ _ 0 4 k.val _ (off78_eq k) _ (by (clear * - k; decide +kernel +revert)) (by (clear * - k; decide +kernel +revert)) (by (clear * - k; decide +kernel +revert))
    case a6 => exact piece_agree _ _ _ _ 0 5 k.val _ (off79_eq k) _ (by (clear * - k; decide +kernel +revert)) (by (clear * - k; decide +kernel +revert)) (by (clear * - k; decide +kernel +revert))
    case a7 => exact piece_agree _ _ _ _ 0 6 k.val _ (off80_eq k) _ (by (clear * - k; decide +kernel +revert)) (by (clear * - k; decide +kernel +revert)) (by (clear * - k; decide +kernel +revert))
    case a8 => exact piece_agree _ _ _ _ 0 7 k.val _ (off81_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off74_eq k) _ y h0 h1 hr)
      · exact Or.inr (Or.inl (piece_cover 0 1 k.val _ (off75_eq k) _ y h0 h1 hr))
      · exact Or.inr (Or.inr (Or.inl (piece_cover 0 2 k.val _ (off76_eq k) _ y h0 h1 hr)))
      · exact Or.inr (Or.inr (Or.inr (Or.inl (piece_cover 0 3 k.val _ (off77_eq k) _ y h0 h1 hr))))
      · exact Or.inr (Or.inr (Or.inr (Or.inr (Or.inl (piece_cover 0 4 k.val _ (off78_eq k) _ y h0 h1 hr)))))
      · exact Or.inr (Or.inr (Or.inr (Or.inr (Or.inr (Or.inl (piece_cover 0 5 k.val _ (off79_eq k) _ y h0 h1 hr))))))
      · exact Or.inr (Or.inr (Or.inr (Or.inr (Or.inr (Or.inr (Or.inl (piece_cover 0 6 k.val _ (off80_eq k) _ y h0 h1 hr)))))))
      · exact Or.inr (Or.inr (Or.inr (Or.inr (Or.inr (Or.inr (Or.inr (piece_cover 0 7 k.val _ (off81_eq k) _ y h0 h1 hr)))))))
  · iexact Ho

end C10

end Cert.Proof.KI

end
-- ==== Proof.Compute11.lean ====
/-
  The compute loop of the units that read input slot 0 and fill output slot 1 (loop 11 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C11

theorem trips : k0_t11_loop.trips = 64 := by decide
theorem off82_eq : ∀ (k : Fin k0_t11_loop.trips) (a : Fin 4), k0_off82 k a = (![1, 0, k.val / 2, 16 * (k.val % 2)] : Fin 4 → Nat) a := by decide +kernel
instance (k : Fin k0_t11_loop.trips) : ClosedOff (k0_off82 k) := ⟨![1, 0, k.val / 2, 16 * (k.val % 2)], funext (off82_eq k)⟩
theorem off83_eq : ∀ (k : Fin k0_t11_loop.trips) (a : Fin 4), k0_off83 k a = (![1, 1, k.val / 2, 16 * (k.val % 2)] : Fin 4 → Nat) a := by decide +kernel
instance (k : Fin k0_t11_loop.trips) : ClosedOff (k0_off83 k) := ⟨![1, 1, k.val / 2, 16 * (k.val % 2)], funext (off83_eq k)⟩
theorem off84_eq : ∀ (k : Fin k0_t11_loop.trips) (a : Fin 4), k0_off84 k a = (![1, 2, k.val / 2, 16 * (k.val % 2)] : Fin 4 → Nat) a := by decide +kernel
instance (k : Fin k0_t11_loop.trips) : ClosedOff (k0_off84 k) := ⟨![1, 2, k.val / 2, 16 * (k.val % 2)], funext (off84_eq k)⟩
theorem off85_eq : ∀ (k : Fin k0_t11_loop.trips) (a : Fin 4), k0_off85 k a = (![1, 3, k.val / 2, 16 * (k.val % 2)] : Fin 4 → Nat) a := by decide +kernel
instance (k : Fin k0_t11_loop.trips) : ClosedOff (k0_off85 k) := ⟨![1, 3, k.val / 2, 16 * (k.val % 2)], funext (off85_eq k)⟩
theorem off86_eq : ∀ (k : Fin k0_t11_loop.trips) (a : Fin 4), k0_off86 k a = (![1, 4, k.val / 2, 16 * (k.val % 2)] : Fin 4 → Nat) a := by decide +kernel
instance (k : Fin k0_t11_loop.trips) : ClosedOff (k0_off86 k) := ⟨![1, 4, k.val / 2, 16 * (k.val % 2)], funext (off86_eq k)⟩
theorem off87_eq : ∀ (k : Fin k0_t11_loop.trips) (a : Fin 4), k0_off87 k a = (![1, 5, k.val / 2, 16 * (k.val % 2)] : Fin 4 → Nat) a := by decide +kernel
instance (k : Fin k0_t11_loop.trips) : ClosedOff (k0_off87 k) := ⟨![1, 5, k.val / 2, 16 * (k.val % 2)], funext (off87_eq k)⟩
theorem off88_eq : ∀ (k : Fin k0_t11_loop.trips) (a : Fin 4), k0_off88 k a = (![1, 6, k.val / 2, 16 * (k.val % 2)] : Fin 4 → Nat) a := by decide +kernel
instance (k : Fin k0_t11_loop.trips) : ClosedOff (k0_off88 k) := ⟨![1, 6, k.val / 2, 16 * (k.val % 2)], funext (off88_eq k)⟩
theorem off89_eq : ∀ (k : Fin k0_t11_loop.trips) (a : Fin 4), k0_off89 k a = (![1, 7, k.val / 2, 16 * (k.val % 2)] : Fin 4 → Nat) a := by decide +kernel
instance (k : Fin k0_t11_loop.trips) : ClosedOff (k0_off89 k) := ⟨![1, 7, k.val / 2, 16 * (k.val % 2)], funext (off89_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot1).view.loc (thrV d L)),
        ⌜Done 1 k (View.readAt (Elt F) (inSlot0).view (LoadRect.whole S2x64x64) fi) fo⌝
        ∗ ((outSlot1).view.loc (thrV d L) ↦[(outSlot1).view.set]{fullShare} fo))

/-- One trip of the loop. -/
theorem step (d : Dev nD) (L : grid0.Coords) (v3 : BitVec 32)
    (fi : Buf (Elt F) ((inSlot0).view.loc (thrV d L))) (k : Fin k0_t11_loop.trips) (acc : Unit) :
    cInv (F := F) d L fi k.val acc
      ⊢ wp frame (wpE (defs₀ (F := F)) 𝒱₀ (thrV d L) none) Set.univ
          (k0_t11_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t11_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off82_eq k) _ y hy).1, (piece_row 1 0 k.val _ (off82_eq k) _ y hy).2.2⟩
    case r2 => exact fun y hy => ⟨(piece_row 1 1 k.val _ (off83_eq k) _ y hy).1, (piece_row 1 1 k.val _ (off83_eq k) _ y hy).2.2⟩
    case r3 => exact fun y hy => ⟨(piece_row 1 2 k.val _ (off84_eq k) _ y hy).1, (piece_row 1 2 k.val _ (off84_eq k) _ y hy).2.2⟩
    case r4 => exact fun y hy => ⟨(piece_row 1 3 k.val _ (off85_eq k) _ y hy).1, (piece_row 1 3 k.val _ (off85_eq k) _ y hy).2.2⟩
    case r5 => exact fun y hy => ⟨(piece_row 1 4 k.val _ (off86_eq k) _ y hy).1, (piece_row 1 4 k.val _ (off86_eq k) _ y hy).2.2⟩
    case r6 => exact fun y hy => ⟨(piece_row 1 5 k.val _ (off87_eq k) _ y hy).1, (piece_row 1 5 k.val _ (off87_eq k) _ y hy).2.2⟩
    case r7 => exact fun y hy => ⟨(piece_row 1 6 k.val _ (off88_eq k) _ y hy).1, (piece_row 1 6 k.val _ (off88_eq k) _ y hy).2.2⟩
    case r8 => exact fun y hy => ⟨(piece_row 1 7 k.val _ (off89_eq k) _ y hy).1, (piece_row 1 7 k.val _ (off89_eq k) _ y hy).2.2⟩
    case a1 => exact piece_agree _ _ _ _ 1 0 k.val _ (off82_eq k) _ (by (clear * - k; decide +kernel +revert)) (by (clear * - k; decide +kernel +revert)) (by (clear * - k; decide +kernel +revert))
    case a2 => exact piece_agree _ _ _ _ 1 1 k.val _ (off83_eq k) _ (by (clear * - k; decide +kernel +revert)) (by (clear * - k; decide +kernel +revert)) (by (clear * - k; decide +kernel +revert))
    case a3 => exact piece_agree _ _ _ _ 1 2 k.val _ (off84_eq k) _ (by (clear * - k; decide +kernel +revert)) (by (clear * - k; decide +kernel +revert)) (by (clear * - k; decide +kernel +revert))
    case a4 => exact piece_agree _ _ _ _ 1 3 k.val _ (off85_eq k) _ (by (clear * - k; decide +kernel +revert)) (by (clear * - k; decide +kernel +revert)) (by (clear * - k; decide +kernel +revert))
    case a5 => exact piece_agree _ _ _ _ 1 4 k.val _ (off86_eq k) _ (by (clear * - k; decide +kernel +revert)) (by (clear * - k; decide +kernel +revert)) (by (clear * - k; decide +kernel +revert))
    case a6 => exact piece_agree _ _ _ _ 1 5 k.val _ (off87_eq k) _ (by (clear * - k; decide +kernel +revert)) (by (clear * - k; decide +kernel +revert)) (by (clear * - k; decide +kernel +revert))
    case a7 => exact piece_agree _ _ _ _ 1 6 k.val _ (off88_eq k) _ (by (clear * - k; decide +kernel +revert)) (by (clear * - k; decide +kernel +revert)) (by (clear * - k; decide +kernel +revert))
    case a8 => exact piece_agree _ _ _ _ 1 7 k.val _ (off89_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off82_eq k) _ y h0 h1 hr)
      · exact Or.inr (Or.inl (piece_cover 1 1 k.val _ (off83_eq k) _ y h0 h1 hr))
      · exact Or.inr (Or.inr (Or.inl (piece_cover 1 2 k.val _ (off84_eq k) _ y h0 h1 hr)))
      · exact Or.inr (Or.inr (Or.inr (Or.inl (piece_cover 1 3 k.val _ (off85_eq k) _ y h0 h1 hr))))
      · exact Or.inr (Or.inr (Or.inr (Or.inr (Or.inl (piece_cover 1 4 k.val _ (off86_eq k) _ y h0 h1 hr)))))
      · exact Or.inr (Or.inr (Or.inr (Or.inr (Or.inr (Or.inl (piece_cover 1 5 k.val _ (off87_eq k) _ y h0 h1 hr))))))
      · exact Or.inr (Or.inr (Or.inr (Or.inr (Or.inr (Or.inr (Or.inl (piece_cover 1 6 k.val _ (off88_eq k) _ y h0 h1 hr)))))))
      · exact Or.inr (Or.inr (Or.inr (Or.inr (Or.inr (Or.inr (Or.inr (piece_cover 1 7 k.val _ (off89_eq k) _ y h0 h1 hr)))))))
  · iexact Ho

end C11

end Cert.Proof.KI

end
-- ==== Proof.BodyOuter.lean ====
/-
  One vector subcore's task outside its compute loops: the two rings of transfers, and what every window of the
  result holds at the end.

  The subcore moves its 64 units in order. Unit t's two argument rows are copied into slot t mod 3 of the input ring,
  three units ahead of their use; the unit's eight result planes are assembled in slot t mod 2 of the output ring by
  the unit's compute loop and copied from there into the unit's window of the result, and that copy is waited for
  two units later, before the slot is written again. Every transfer has a semaphore of its own slot, and a slot is
  neither read nor written between the issue of a transfer that touches it and the wait for it.

  The argument is read by up to three transfers at once: the subcore's share of it is cut into a remainder and one
  read token per input semaphore; a transfer borrows the entries of its two rows under its semaphore's token and the
  wait gives them back. The result is held window by window: a window is taken off the windows still at the launch
  contents when its unit's copy out is issued, travels with the copy, and joins the windows at the rearrangement
  when the copy has been waited for.

  What is known of the contents: a copy in flight into an input slot will leave there the two argument rows of its
  unit (`Arows`); after the unit's compute loop every row of the output slot holds the rearrangement of those rows
  (`Done … 64`), so the copy out leaves in the unit's window exactly the specification's entries (`win_value0`,
  `win_value1`). The units are grouped by six (the least common multiple of the two ring lengths): the invariant
  `invG k` before group k says that the copies in of units 6k, 6k+1, 6k+2 and the copies out into windows 6k−2,
  6k−1 are pending, the windows below 6k−2 hold the rearrangement and those from 6k on the launch contents. Group 0
  has no copy out pending and is proved apart. The last four units and the two last waits follow the groups.
-/
import Idealize.ShloMosaic.Lib.Ring
import proofs.«209385_g40939628265708_retrytranche2_1889_20_alg».proof.Proof.Values
import proofs.«209385_g40939628265708_retrytranche2_1889_20_alg».proof.Proof.Slots
import proofs.«209385_g40939628265708_retrytranche2_1889_20_alg».proof.Proof.Compute2
import proofs.«209385_g40939628265708_retrytranche2_1889_20_alg».proof.Proof.Compute3
import proofs.«209385_g40939628265708_retrytranche2_1889_20_alg».proof.Proof.Compute4
import proofs.«209385_g40939628265708_retrytranche2_1889_20_alg».proof.Proof.Compute5
import proofs.«209385_g40939628265708_retrytranche2_1889_20_alg».proof.Proof.Compute6
import proofs.«209385_g40939628265708_retrytranche2_1889_20_alg».proof.Proof.Compute7
import proofs.«209385_g40939628265708_retrytranche2_1889_20_alg».proof.Proof.Compute8
import proofs.«209385_g40939628265708_retrytranche2_1889_20_alg».proof.Proof.Compute9
import proofs.«209385_g40939628265708_retrytranche2_1889_20_alg».proof.Proof.Compute10
import proofs.«209385_g40939628265708_retrytranche2_1889_20_alg».proof.Proof.Compute11

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable (m : (ℓ : Loc nD τ sig) → Buf (Elt F) ℓ) [FloatOps F]

/-! ## The subcore's five cells and two scratch buffers -/

abbrev semC (d : Dev nD) (L : grid0.Coords) (a : DmaSems sig S_) : GSem nD τ sig := (thrV d L, .dma a.sem)

theorem semC_ne (d : Dev nD) (L : grid0.Coords) {a b : DmaSems sig S_} (h : a.sem ≠ b.sem) : semC d L a ≠ semC d L b :=
  fun e => h (SemLoc.dma.inj (Prod.mk.inj e).2)

theorem semC_mem (d : Dev nD) (L : grid0.Coords) (a : DmaSems sig S_) (h : (SemLoc.dma a.sem : SemLoc sig).isScoped .scVector = true) :
    semC d L a ∈ ownCells (thrV d L) := (mem_ownCells (g := semC d L a)).mpr ⟨rfl, h⟩

theorem ownSems0_V (d : Dev nD) (L : grid0.Coords) :
    (ownSems0 (thrV d L) : sProp 𝕄)
      = iprop(semVal (semC d L cc0_scratch2) 0 ∗ semVal (semC d L cc0_scratch3) 0 ∗ semVal (semC d L cc0_scratch4) 0
          ∗ semVal (semC d L cc0_scratch5) 0 ∗ semVal (semC d L cc0_scratch6) 0
          ∗ bigSep ((((((ownCells (thrV d L)).erase (semC d L cc0_scratch2)).erase (semC d L cc0_scratch3)).erase (semC d L cc0_scratch4)).erase
              (semC d L cc0_scratch5)).erase (semC d L cc0_scratch6)) fun g => semVal g 0) := by
  unfold SparseCore.Cfg.ownSems0
  rw [SparseCore.bigSep_erase' (semC_mem d L cc0_scratch2 (by decide)),
    SparseCore.bigSep_erase' (Finset.mem_erase.mpr ⟨semC_ne d L (by decide), semC_mem d L cc0_scratch3 (by decide)⟩),
    SparseCore.bigSep_erase' (Finset.mem_erase.mpr ⟨semC_ne d L (by decide), Finset.mem_erase.mpr ⟨semC_ne d L (by decide), semC_mem d L cc0_scratch4 (by decide)⟩⟩),
    SparseCore.bigSep_erase' (Finset.mem_erase.mpr ⟨semC_ne d L (by decide), Finset.mem_erase.mpr ⟨semC_ne d L (by decide),
      Finset.mem_erase.mpr ⟨semC_ne d L (by decide), semC_mem d L cc0_scratch5 (by decide)⟩⟩⟩),
    SparseCore.bigSep_erase' (Finset.mem_erase.mpr ⟨semC_ne d L (by decide), Finset.mem_erase.mpr ⟨semC_ne d L (by decide),
      Finset.mem_erase.mpr ⟨semC_ne d L (by decide), Finset.mem_erase.mpr ⟨semC_ne d L (by decide), semC_mem d L cc0_scratch6 (by decide)⟩⟩⟩⟩)]

/-- The two scratch buffers are among the subcore's own: they are them, at some contents, and the rest. -/
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## Flights and windows, in a uniform spelling -/

abbrev xq (L : grid0.Coords) : PosShare TreeShare := qT (cL L) (iL L)

/-- The argument under the read token of in-cell `j`, on the entries `S`. -/
abbrev tokX (d : Dev nD) (L : grid0.Coords) (j : Fin 3)
    (S : Finset (Idx ((xV : Memref sig .scVector .hbm S2x32x64x64x64 .f32).view.loc (thrV d L)))) : sProp 𝕄 :=
  (xV : Memref sig .scVector .hbm S2x32x64x64x64 .f32).view.loc (thrV d L) ↦[S]{Transfers.shareTok (xq L) 3 j} m (xLoc d)

/-- The copy of unit `t`'s two argument rows into the in-slot `M`, pending on the cell `a`: when it lands the slot reads those rows. -/
def inFl (d : Dev nD) (L : grid0.Coords) (a : DmaSems sig S_) (j : Fin 3) (M : Memref sig .scVector .vmem S2x64x64 .f32) (t : Fin 64) : sProp 𝕄 :=
  iprop(∃ S f, ⌜View.readAt (Elt F) M.view (LoadRect.whole S2x64x64) f = Arows m d L t⌝
    ∗ Transfers.Flight (countersEmb : UEmb Counters 𝕄) (thrV d L) (SemLoc.dma a.sem) (default : HIx 1) 262144 iprop(slotPts d L M f ∗ tokX m d L j S)
    ∗ tokX m d L j (Finset.univ \ S))

/-- Window `t` of the subcore, at the contents `f`. -/
abbrev winPts (d : Dev nD) (L : grid0.Coords) (t : Fin 64) (f : Buf (Elt F) (yLoc d)) : sProp 𝕄 :=
  yLoc d ↦[winSet (unitAt (cL L) (iL L) t)]{fullShare} f

/-- The copy of the out-slot `M` into window `t`, pending on the cell `a`: when it lands the window holds the rearrangement. -/
def outFl (d : Dev nD) (L : grid0.Coords) (a : DmaSems sig S_) (M : Memref sig .scVector .vmem S8x32x32 .f32) (t : Fin 64) : sProp 𝕄 :=
  iprop(∃ f, Transfers.Flight (countersEmb : UEmb Counters 𝕄) (thrV d L) (SemLoc.dma a.sem) (default : HIx 1) 262144
      iprop(winPts d L t (Gy m d) ∗ slotPts d L M f))

/-- The windows below `u` hold the rearrangement; those from `u` on still hold the launch contents. -/
def Ydone (d : Dev nD) (L : grid0.Coords) (u : ℕ) : sProp 𝕄 := bigSep (Ring.rangeSet 64 0 u) fun t => winPts d L t (Gy m d)
def Ytodo (d : Dev nD) (L : grid0.Coords) (u : ℕ) : sProp 𝕄 := bigSep (Ring.rangeSet 64 u 64) fun t => winPts d L t (m (yLoc d))

def outSt (d : Dev nD) (L : grid0.Coords) (k : ℕ) : sProp 𝕄 :=
  if k = 0 then iprop(semVal (semC d L cc0_scratch5) 0 ∗ semVal (semC d L cc0_scratch6) 0 ∗ (∃ f, slotPts d L outSlot0 f) ∗ ∃ f, slotPts d L outSlot1 f)
  else iprop(∃ t0 t1 : Fin 64, ⌜t0.val + 2 = 6 * k ∧ t1.val + 1 = 6 * k⌝ ∗ outFl m d L cc0_scratch5 outSlot0 t0 ∗ outFl m d L cc0_scratch6 outSlot1 t1)

/-- Before group `k`: the copies of units 6k, 6k+1, 6k+2 into the three in-slots are pending; the copies out of the two
    out-slots into windows 6k−2, 6k−1 are pending (none before group 0); the windows below 6k−2 are done. -/
def invG (d : Dev nD) (L : grid0.Coords) (O : CellTallies nD τ sig (HIx 1)) (W : Waits sig (HIx 1)) (k : ℕ) (_ : Unit) : sProp 𝕄 :=
  iprop(Transfers.MayWaits (thrV d L) (none : HIx 1) O
    ∗ (∃ s0 s1 s2 : Fin 64, ⌜s0.val = 6 * k ∧ s1.val = 6 * k + 1 ∧ s2.val = 6 * k + 2⌝
        ∗ inFl m d L cc0_scratch2 0 inSlot0 s0 ∗ inFl m d L cc0_scratch3 1 inSlot1 s1 ∗ inFl m d L cc0_scratch4 2 inSlot2 s2)
    ∗ outSt m d L k ∗ Ydone m d L (6 * k - 2) ∗ Ytodo m d L (6 * k)
    ∗ ∃ W', ⌜∀ p ∈ W', p ∈ W ∨ p.2 = none⌝ ∗ owes (thrV d L) O W')

/-! ## The windows one at a time -/

theorem trips1 : k0_t1_loop.trips = 10 := by decide
theorem unit_lt (k : Fin k0_t1_loop.trips) (j : ℕ) (hj : j < 9) : 6 * k.val + j < 64 := by
  have := k.isLt; have := trips1; omega
abbrev unitT (k : Fin k0_t1_loop.trips) (j : ℕ) (hj : j < 9) : Fin 64 := ⟨6 * k.val + j, unit_lt k j hj⟩

theorem Ytodo_take (d : Dev nD) (L : grid0.Coords) (u u' : ℕ) (t : Fin 64) (ht : t.val = u) (h : u' = u + 1) :
    Ytodo m d L u ⊢ iprop(winPts d L t (m (yLoc d)) ∗ Ytodo m d L u') := by
  subst h; unfold Ytodo
  have hu : u < 64 := ht ▸ t.isLt
  rw [Ring.bigSep_rangeSet_head (by omega) hu, show (⟨u, hu⟩ : Fin 64) = t from Fin.ext ht.symm]

theorem Ydone_put (d : Dev nD) (L : grid0.Coords) (u u' : ℕ) (t : Fin 64) (ht : t.val = u) (h : u' = u + 1) :
    iprop(Ydone m d L u ∗ winPts d L t (Gy m d)) ⊢ Ydone m d L u' := by
  subst h; unfold Ydone
  have hu : u < 64 := ht ▸ t.isLt
  rw [Ring.bigSep_rangeSet_last (lo := 0) (hi := u + 1) (by omega) (by omega), show (⟨u + 1 - 1, by omega⟩ : Fin 64) = t from Fin.ext (by simp [ht])]
  iintro ⟨Hd, Hw⟩
  isplitl [Hw]; · iexact Hw
  iexact Hd

theorem Ydone_cast (d : Dev nD) (L : grid0.Coords) (u u' : ℕ) (h : u = u') : Ydone m d L u ⊢ Ydone m d L u' := h ▸ BI.Entails.refl _
theorem Ytodo_cast (d : Dev nD) (L : grid0.Coords) (u u' : ℕ) (h : u = u') : Ytodo m d L u ⊢ Ytodo m d L u' := h ▸ BI.Entails.refl _

theorem okW_insert {W W' : Waits sig (HIx 1)} (a : SemLoc sig × HIx 1) (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

abbrev uT0 (k : Fin k0_t1_loop.trips) : Fin 64 := unitT k 0 (by decide)
abbrev uT1 (k : Fin k0_t1_loop.trips) : Fin 64 := unitT k 1 (by decide)
abbrev uT2 (k : Fin k0_t1_loop.trips) : Fin 64 := unitT k 2 (by decide)
abbrev uT3 (k : Fin k0_t1_loop.trips) : Fin 64 := unitT k 3 (by decide)
abbrev uT4 (k : Fin k0_t1_loop.trips) : Fin 64 := unitT k 4 (by decide)
abbrev uT5 (k : Fin k0_t1_loop.trips) : Fin 64 := unitT k 5 (by decide)
abbrev uT6 (k : Fin k0_t1_loop.trips) : Fin 64 := unitT k 6 (by decide)
abbrev uT7 (k : Fin k0_t1_loop.trips) : Fin 64 := unitT k 7 (by decide)
abbrev uT8 (k : Fin k0_t1_loop.trips) : Fin 64 := unitT k 8 (by decide)

/-- `win_value0` / `win_value1` with the transfer's payload a variable, equal to the out-slot's read. -/
theorem win_value0' (d : Dev nD) (L : grid0.Coords) (t : Fin 64) (off' : Fin 5 → Nat) (inb' : ∀ a, off' a + S1x8x1x32x32.size a ≤ S2x256x32x32x32.size a)
    (hoff' : off' = Off.dstOff (uOf L t)) (fo : S2x8x32x32.Idx → Elt F .f32) (hD : Done 0 64 (Arows m d L t) fo) (fd : Buf (Elt F) (yLoc d))
    (P : S8x32x32.Idx → Elt F .f32) (hP : P = ReadAs.same.apply (outSlot0.view.read (Elt F) fo)) :
    ((yWin off' inb').view.loc (thrV d L) ↦[(yWin off' inb').view.set]{fullShare} ((yWin off' inb').view.writes (Elt F) fd [⟨Rect.whole S8x32x32, P⟩]) : sProp 𝕄)
      = winPts d L t (Gy m d) := by
  subst hP; exact win_value0 m d L t off' inb' hoff' fo hD fd
theorem win_value1' (d : Dev nD) (L : grid0.Coords) (t : Fin 64) (off' : Fin 5 → Nat) (inb' : ∀ a, off' a + S1x8x1x32x32.size a ≤ S2x256x32x32x32.size a)
    (hoff' : off' = Off.dstOff (uOf L t)) (fo : S2x8x32x32.Idx → Elt F .f32) (hD : Done 1 64 (Arows m d L t) fo) (fd : Buf (Elt F) (yLoc d))
    (P : S8x32x32.Idx → Elt F .f32) (hP : P = ReadAs.same.apply (outSlot1.view.read (Elt F) fo)) :
    ((yWin off' inb').view.loc (thrV d L) ↦[(yWin off' inb').view.set]{fullShare} ((yWin off' inb').view.writes (Elt F) fd [⟨Rect.whole S8x32x32, P⟩]) : sProp 𝕄)
      = winPts d L t (Gy m d) := by
  subst hP; exact win_value1 m d L t off' inb' hoff' fo hD fd

set_option maxHeartbeats 4000000 in
/-- One group of six units, the first: no copy out of an out-slot is pending yet. -/
theorem region_zero (d : Dev nD) (L : grid0.Coords) (O : CellTallies nD τ sig (HIx 1)) (W : Waits sig (HIx 1)) (v3 : BitVec 32)
    (k : Fin k0_t1_loop.trips) (hk : k.val = 0) :
    invG m d L O W k.val ⟨⟩
      ⊢ wp frame (wpE (defs₀ (F := F)) 𝒱₀ (V d (cV L) (jV L)) none) Set.univ
          (k0_t1_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k ⟨⟩)
          fun _ => invG m d L O W (k.val + 1) ⟨⟩ := by
  have hk10 : k.val < 10 := by have := k.isLt; have := trips1; omega
  unfold invG inFl outSt k0_t1_body
  rw [if_pos hk, if_neg (Nat.succ_ne_zero k.val)]
  unfold outFl
  iintro ⟨#Hmw, ⟨%s0, %s1, %s2, %hs, ⟨%S0, %f0, %hA0, Hf0, Hx0⟩, ⟨%S1, %f1, %hA1, Hf1, Hx1⟩, ⟨%S2, %f2, %hA2, Hf2, Hx2⟩⟩, ⟨Hg0, Hg1, ⟨%fq0, Hg0_src⟩, ⟨%fq1, Hg1_src⟩⟩, Hyd, Hyt, %W', %hW', HO⟩
  obtain rfl : s0 = unitT k 0 (by decide) := Fin.ext (by show _ = 6 * k.val + 0; omega)
  obtain rfl : s1 = unitT k 1 (by decide) := Fin.ext (by show _ = 6 * k.val + 1; omega)
  obtain rfl : s2 = unitT k 2 (by decide) := Fin.ext (by show _ = 6 * k.val + 2; omega)
  ihave Hyd := (Ydone_cast m d L _ 0 (by omega)) $$ Hyd
  ihave Hyt := (Ytodo_cast m d L _ 0 (by omega)) $$ Hyt
  sl_exec (disch := (clear * - k hk; decide +kernel +revert))
  -- unit 0: in-slot 0, out-slot 0
  sl_for (C2.cInv (F := F) d L f0) $$ [Hf0_dst Hg0_src]
  case region => intro kk acc; refine C2.step d L ?_ ?_ ?_ ?_ f0 kk acc <;> first | exact 0#32 | exact k
  · unfold C2.cInv
    isplitl [Hf0_dst]; · iexact Hf0_dst
    iexists _; isplitr; swap
    · iexact Hg0_src
    · ipureintro; exact done_zero _ _ _
  iintro %_ HI
  unfold C2.cInv
  icases HI with ⟨Hf0_dst, %fo0, %hD0r, Hg0_src⟩
  have hD0 : Done 0 64 (Arows m d L (uT0 k)) fo0 := by rw [← hA0, ← C2.trips]; exact hD0r
  ihave Hyt' := (Ytodo_take m d L (0) (1) (uT0 k) (by show 6 * k.val + 0 = _; omega) (by omega)) $$ Hyt
  icases Hyt' with ⟨Hw, Hyt⟩
  ihave Hw := (Entails.of_eq (yWin_pts d L (uT0 k) (k0_off10 L k 0#32) (k0_off10_inb L k 0) (Off.off10_eq_0 L k) _).symm) $$ Hw
  sl_exec (disch := (clear * - k hk; decide +kernel +revert))
  -- unit 1: in-slot 1, out-slot 1
  sl_for (C3.cInv (F := F) d L f1) $$ [Hf1_dst Hg1_src]
  case region => intro kk acc; refine C3.step d L ?_ ?_ f1 kk acc <;> first | exact 0#32 | exact k
  · unfold C3.cInv
    isplitl [Hf1_dst]; · iexact Hf1_dst
    iexists _; isplitr; swap
    · iexact Hg1_src
    · ipureintro; exact done_zero _ _ _
  iintro %_ HI
  unfold C3.cInv
  icases HI with ⟨Hf1_dst, %fo1, %hD1r, Hg1_src⟩
  have hD1 : Done 1 64 (Arows m d L (uT1 k)) fo1 := by rw [← hA1, ← C3.trips]; exact hD1r
  ihave Hyt' := (Ytodo_take m d L (1) (2) (uT1 k) (by show 6 * k.val + 1 = _; omega) (by omega)) $$ Hyt
  icases Hyt' with ⟨Hw, Hyt⟩
  ihave Hw := (Entails.of_eq (yWin_pts d L (uT1 k) (k0_off10 L k 1#32) (k0_off10_inb L k 1) (Off.off10_eq_1 L k) _).symm) $$ Hw
  sl_exec (disch := (clear * - k hk; decide +kernel +revert))
  -- unit 2: in-slot 2, out-slot 0
  sl_for (C4.cInv (F := F) d L f2) $$ [Hf2_dst Hg0_src]
  case region => intro kk acc; refine C4.step d L ?_ ?_ ?_ ?_ ?_ f2 kk acc <;> first | exact 0#32 | exact k
  · unfold C4.cInv
    isplitl [Hf2_dst]; · iexact Hf2_dst
    iexists _; isplitr; swap
    · iexact Hg0_src
    · ipureintro; exact done_zero _ _ _
  iintro %_ HI
  unfold C4.cInv
  icases HI with ⟨Hf2_dst, %fo2, %hD2r, Hg0_src⟩
  have hD2 : Done 0 64 (Arows m d L (uT2 k)) fo2 := by rw [← hA2, ← C4.trips]; exact hD2r
  ihave Hrel := (Entails.of_eq (win_value0' m d L (uT0 k) (k0_off10 L k 0#32) (k0_off10_inb L k 0) (Off.off10_eq_0 L k) fo0 hD0 _ _ ?hP0)) $$ Hw
  case hP0 => rfl
  ihave Hyd := (Ydone_put m d L (0) (1) (uT0 k) (by show 6 * k.val + 0 = _; omega) (by omega)) $$ [Hyd Hrel]
  · isplitl [Hyd]; · iexact Hyd
    iexact Hrel
  ihave Hyt' := (Ytodo_take m d L (2) (3) (uT2 k) (by show 6 * k.val + 2 = _; omega) (by omega)) $$ Hyt
  icases Hyt' with ⟨Hw, Hyt⟩
  ihave Hw := (Entails.of_eq (yWin_pts d L (uT2 k) (k0_off10 L k 2#32) (k0_off10_inb L k 2) (Off.off10_eq_2 L k) _).symm) $$ Hw
  sl_exec (disch := (clear * - k hk; decide +kernel +revert))
  -- unit 3: in-slot 0, out-slot 1
  ihave Hgen : iprop(∃ g, ⌜View.readAt (Elt F) inSlot0.view (LoadRect.whole S2x64x64) g = Arows m d L (uT3 k)⌝ ∗ slotPts d L inSlot0 g) $$ [Hf0_dst]
  · iexists _; isplitr; swap
    · iexact Hf0_dst
    · ipureintro; exact in_value m d L (uT3 k) _ _ (Off.off11_eq L k) _ _
  icases Hgen with ⟨%g3, %hA3, Hf0_dst⟩
  sl_for (C5.cInv (F := F) d L g3) $$ [Hf0_dst Hg1_src]
  case region => intro kk acc; refine C5.step d L ?_ ?_ g3 kk acc <;> first | exact 0#32 | exact k
  · unfold C5.cInv
    isplitl [Hf0_dst]; · iexact Hf0_dst
    iexists _; isplitr; swap
    · iexact Hg1_src
    · ipureintro; exact done_zero _ _ _
  iintro %_ HI
  unfold C5.cInv
  icases HI with ⟨Hf0_dst, %fo3, %hD3r, Hg1_src⟩
  have hD3 : Done 1 64 (Arows m d L (uT3 k)) fo3 := by rw [← hA3, ← C5.trips]; exact hD3r
  ihave Hrel := (Entails.of_eq (win_value1' m d L (uT1 k) (k0_off10 L k 1#32) (k0_off10_inb L k 1) (Off.off10_eq_1 L k) fo1 hD1 _ _ ?hP1)) $$ Hw
  case hP1 => rfl
  ihave Hyd := (Ydone_put m d L (1) (2) (uT1 k) (by show 6 * k.val + 1 = _; omega) (by omega)) $$ [Hyd Hrel]
  · isplitl [Hyd]; · iexact Hyd
    iexact Hrel
  ihave Hyt' := (Ytodo_take m d L (3) (4) (uT3 k) (by show 6 * k.val + 3 = _; omega) (by omega)) $$ Hyt
  icases Hyt' with ⟨Hw, Hyt⟩
  ihave Hw := (Entails.of_eq (yWin_pts d L (uT3 k) (k0_off10 L k 3#32) (k0_off10_inb L k 3) (Off.off10_eq_3 L k) _).symm) $$ Hw
  sl_exec (disch := (clear * - k hk; decide +kernel +revert))
  -- unit 4: in-slot 1, out-slot 0
  ihave Hgen : iprop(∃ g, ⌜View.readAt (Elt F) inSlot1.view (LoadRect.whole S2x64x64) g = Arows m d L (uT4 k)⌝ ∗ slotPts d L inSlot1 g) $$ [Hf1_dst]
  · iexists _; isplitr; swap
    · iexact Hf1_dst
    · ipureintro; exact in_value m d L (uT4 k) _ _ (Off.off20_eq L k) _ _
  icases Hgen with ⟨%g4, %hA4, Hf1_dst⟩
  sl_for (C6.cInv (F := F) d L g4) $$ [Hf1_dst Hg0_src]
  case region => intro kk acc; refine C6.step d L ?_ ?_ ?_ ?_ ?_ g4 kk acc <;> first | exact 0#32 | exact k
  · unfold C6.cInv
    isplitl [Hf1_dst]; · iexact Hf1_dst
    iexists _; isplitr; swap
    · iexact Hg0_src
    · ipureintro; exact done_zero _ _ _
  iintro %_ HI
  unfold C6.cInv
  icases HI with ⟨Hf1_dst, %fo4, %hD4r, Hg0_src⟩
  have hD4 : Done 0 64 (Arows m d L (uT4 k)) fo4 := by rw [← hA4, ← C6.trips]; exact hD4r
  ihave Hrel := (Entails.of_eq (win_value0' m d L (uT2 k) (k0_off10 L k 2#32) (k0_off10_inb L k 2) (Off.off10_eq_2 L k) fo2 hD2 _ _ ?hP2)) $$ Hw
  case hP2 => rfl
  ihave Hyd := (Ydone_put m d L (2) (3) (uT2 k) (by show 6 * k.val + 2 = _; omega) (by omega)) $$ [Hyd Hrel]
  · isplitl [Hyd]; · iexact Hyd
    iexact Hrel
  ihave Hyt' := (Ytodo_take m d L (4) (5) (uT4 k) (by show 6 * k.val + 4 = _; omega) (by omega)) $$ Hyt
  icases Hyt' with ⟨Hw, Hyt⟩
  ihave Hw := (Entails.of_eq (yWin_pts d L (uT4 k) (k0_off10 L k 4#32) (k0_off10_inb L k 4) (Off.off10_eq_4 L k) _).symm) $$ Hw
  sl_exec (disch := (clear * - k hk; decide +kernel +revert))
  -- unit 5: in-slot 2, out-slot 1
  ihave Hgen : iprop(∃ g, ⌜View.readAt (Elt F) inSlot2.view (LoadRect.whole S2x64x64) g = Arows m d L (uT5 k)⌝ ∗ slotPts d L inSlot2 g) $$ [Hf2_dst]
  · iexists _; isplitr; swap
    · iexact Hf2_dst
    · ipureintro; exact in_value m d L (uT5 k) _ _ (Off.off29_eq L k) _ _
  icases Hgen with ⟨%g5, %hA5, Hf2_dst⟩
  sl_for (C7.cInv (F := F) d L g5) $$ [Hf2_dst Hg1_src]
  case region => intro kk acc; refine C7.step d L ?_ ?_ g5 kk acc <;> first | exact 0#32 | exact k
  · unfold C7.cInv
    isplitl [Hf2_dst]; · iexact Hf2_dst
    iexists _; isplitr; swap
    · iexact Hg1_src
    · ipureintro; exact done_zero _ _ _
  iintro %_ HI
  unfold C7.cInv
  icases HI with ⟨Hf2_dst, %fo5, %hD5r, Hg1_src⟩
  have hD5 : Done 1 64 (Arows m d L (uT5 k)) fo5 := by rw [← hA5, ← C7.trips]; exact hD5r
  ihave Hrel := (Entails.of_eq (win_value1' m d L (uT3 k) (k0_off10 L k 3#32) (k0_off10_inb L k 3) (Off.off10_eq_3 L k) fo3 hD3 _ _ ?hP3)) $$ Hw
  case hP3 => rfl
  ihave Hyd := (Ydone_put m d L (3) (4) (uT3 k) (by show 6 * k.val + 3 = _; omega) (by omega)) $$ [Hyd Hrel]
  · isplitl [Hyd]; · iexact Hyd
    iexact Hrel
  ihave Hyt' := (Ytodo_take m d L (5) (6) (uT5 k) (by show 6 * k.val + 5 = _; omega) (by omega)) $$ Hyt
  icases Hyt' with ⟨Hw, Hyt⟩
  ihave Hw := (Entails.of_eq (yWin_pts d L (uT5 k) (k0_off10 L k 5#32) (k0_off10_inb L k 5) (Off.off10_eq_5 L k) _).symm) $$ Hw
  sl_exec (disch := (clear * - k hk; decide +kernel +revert))
  sl_step
  isplitr; · iexact Hmw
  isplitl [Hf0 Hx0 Hf1 Hx1 Hf2 Hx2]
  · iexists (uT6 k), (uT7 k), (uT8 k); isplitr
    · ipureintro; refine ⟨?_, ?_, ?_⟩
      · show 6 * k.val + 6 = _; omega
      · show 6 * k.val + 7 = _; omega
      · show 6 * k.val + 8 = _; omega
    isplitl [Hf0 Hx0]
    · iexists _, _; isplitr; swap
      · isplitl [Hf0]; · iexact Hf0
        iexact Hx0
      · ipureintro; exact in_value m d L (uT6 k) _ _ (Off.off38_eq L k) _ _
    isplitl [Hf1 Hx1]
    · iexists _, _; isplitr; swap
      · isplitl [Hf1]; · iexact Hf1
        iexact Hx1
      · ipureintro; exact in_value m d L (uT7 k) _ _ (Off.off47_eq L k) _ _
    · iexists _, _; isplitr; swap
      · isplitl [Hf2]; · iexact Hf2
        iexact Hx2
      · ipureintro; exact in_value m d L (uT8 k) _ _ (Off.off56_eq L k) _ _
  isplitl [Hg0 Hg1]
  · iexists (uT4 k), (uT5 k); isplitr
    · ipureintro; constructor
      · show 6 * k.val + 4 + 2 = _; omega
      · show 6 * k.val + 5 + 1 = _; omega
    isplitl [Hg0]
    · iexists _
      iapply (Transfers.Flight_mono (countersEmb : UEmb Counters 𝕄) (thrV d L) (BIClass.sep_mono (Entails.of_eq (win_value0' m d L (uT4 k) (k0_off10 L k 4#32) (k0_off10_inb L k 4) (Off.off10_eq_4 L k) fo4 hD4 _ _ ?hP4)) (BI.Entails.refl _))) $$ Hg0
      case hP4 => rfl
    · iexists _
      iapply (Transfers.Flight_mono (countersEmb : UEmb Counters 𝕄) (thrV d L) (BIClass.sep_mono (Entails.of_eq (win_value1' m d L (uT5 k) (k0_off10 L k 5#32) (k0_off10_inb L k 5) (Off.off10_eq_5 L k) fo5 hD5 _ _ ?hP5)) (BI.Entails.refl _))) $$ Hg1
      case hP5 => rfl
  isplitl [Hyd]; · iapply (Ydone_cast m d L _ _ (by omega)) $$ Hyd
  isplitl [Hyt]; · iapply (Ytodo_cast m d L _ _ (by omega)) $$ Hyt
  iexists _; isplitr; swap
  · iexact HO
  · ipureintro; repeat (refine okW_insert _ rfl ?_)
    exact hW'

set_option maxHeartbeats 4000000 in
/-- One group of six units, after the first. -/
theorem region_pos (d : Dev nD) (L : grid0.Coords) (O : CellTallies nD τ sig (HIx 1)) (W : Waits sig (HIx 1)) (v3 : BitVec 32)
    (k : Fin k0_t1_loop.trips) (hk : k.val ≠ 0) :
    invG m d L O W k.val ⟨⟩
      ⊢ wp frame (wpE (defs₀ (F := F)) 𝒱₀ (V d (cV L) (jV L)) none) Set.univ
          (k0_t1_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k ⟨⟩)
          fun _ => invG m d L O W (k.val + 1) ⟨⟩ := by
  have hk10 : k.val < 10 := by have := k.isLt; have := trips1; omega
  unfold invG inFl outSt k0_t1_body
  rw [if_neg hk, if_neg (Nat.succ_ne_zero k.val)]
  unfold outFl
  iintro ⟨#Hmw, ⟨%s0, %s1, %s2, %hs, ⟨%S0, %f0, %hA0, Hf0, Hx0⟩, ⟨%S1, %f1, %hA1, Hf1, Hx1⟩, ⟨%S2, %f2, %hA2, Hf2, Hx2⟩⟩, ⟨%t0, %t1, %ht, ⟨%fq0, Hg0⟩, ⟨%fq1, Hg1⟩⟩, Hyd, Hyt, %W', %hW', HO⟩
  obtain rfl : s0 = unitT k 0 (by decide) := Fin.ext (by show _ = 6 * k.val + 0; omega)
  obtain rfl : s1 = unitT k 1 (by decide) := Fin.ext (by show _ = 6 * k.val + 1; omega)
  obtain rfl : s2 = unitT k 2 (by decide) := Fin.ext (by show _ = 6 * k.val + 2; omega)
  sl_exec (disch := (clear * - k hk; decide +kernel +revert))
  -- unit 0: in-slot 0, out-slot 0
  sl_for (C2.cInv (F := F) d L f0) $$ [Hf0_dst Hg0_src]
  case region => intro kk acc; refine C2.step d L ?_ ?_ ?_ ?_ f0 kk acc <;> first | exact 0#32 | exact k
  · unfold C2.cInv
    isplitl [Hf0_dst]; · iexact Hf0_dst
    iexists _; isplitr; swap
    · iexact Hg0_src
    · ipureintro; exact done_zero _ _ _
  iintro %_ HI
  unfold C2.cInv
  icases HI with ⟨Hf0_dst, %fo0, %hD0r, Hg0_src⟩
  have hD0 : Done 0 64 (Arows m d L (uT0 k)) fo0 := by rw [← hA0, ← C2.trips]; exact hD0r
  ihave Hyd := (Ydone_put m d L (6 * k.val - 2) (6 * k.val - 1) t0 (by omega) (by omega)) $$ [Hyd Hg0_dst]
  · isplitl [Hyd]; · iexact Hyd
    iexact Hg0_dst
  ihave Hyt' := (Ytodo_take m d L (6 * k.val) (6 * k.val + 1) (uT0 k) (by show 6 * k.val + 0 = _; omega) (by omega)) $$ Hyt
  icases Hyt' with ⟨Hw, Hyt⟩
  ihave Hw := (Entails.of_eq (yWin_pts d L (uT0 k) (k0_off10 L k 0#32) (k0_off10_inb L k 0) (Off.off10_eq_0 L k) _).symm) $$ Hw
  sl_exec (disch := (clear * - k hk; decide +kernel +revert))
  -- unit 1: in-slot 1, out-slot 1
  sl_for (C3.cInv (F := F) d L f1) $$ [Hf1_dst Hg1_src]
  case region => intro kk acc; refine C3.step d L ?_ ?_ f1 kk acc <;> first | exact 0#32 | exact k
  · unfold C3.cInv
    isplitl [Hf1_dst]; · iexact Hf1_dst
    iexists _; isplitr; swap
    · iexact Hg1_src
    · ipureintro; exact done_zero _ _ _
  iintro %_ HI
  unfold C3.cInv
  icases HI with ⟨Hf1_dst, %fo1, %hD1r, Hg1_src⟩
  have hD1 : Done 1 64 (Arows m d L (uT1 k)) fo1 := by rw [← hA1, ← C3.trips]; exact hD1r
  ihave Hyd := (Ydone_put m d L (6 * k.val - 1) (6 * k.val) t1 (by omega) (by omega)) $$ [Hyd Hg1_dst]
  · isplitl [Hyd]; · iexact Hyd
    iexact Hg1_dst
  ihave Hyt' := (Ytodo_take m d L (6 * k.val + 1) (6 * k.val + 2) (uT1 k) (by show 6 * k.val + 1 = _; omega) (by omega)) $$ Hyt
  icases Hyt' with ⟨Hw, Hyt⟩
  ihave Hw := (Entails.of_eq (yWin_pts d L (uT1 k) (k0_off10 L k 1#32) (k0_off10_inb L k 1) (Off.off10_eq_1 L k) _).symm) $$ Hw
  sl_exec (disch := (clear * - k hk; decide +kernel +revert))
  -- unit 2: in-slot 2, out-slot 0
  sl_for (C4.cInv (F := F) d L f2) $$ [Hf2_dst Hg0_src]
  case region => intro kk acc; refine C4.step d L ?_ ?_ ?_ ?_ ?_ f2 kk acc <;> first | exact 0#32 | exact k
  · unfold C4.cInv
    isplitl [Hf2_dst]; · iexact Hf2_dst
    iexists _; isplitr; swap
    · iexact Hg0_src
    · ipureintro; exact done_zero _ _ _
  iintro %_ HI
  unfold C4.cInv
  icases HI with ⟨Hf2_dst, %fo2, %hD2r, Hg0_src⟩
  have hD2 : Done 0 64 (Arows m d L (uT2 k)) fo2 := by rw [← hA2, ← C4.trips]; exact hD2r
  ihave Hrel := (Entails.of_eq (win_value0' m d L (uT0 k) (k0_off10 L k 0#32) (k0_off10_inb L k 0) (Off.off10_eq_0 L k) fo0 hD0 _ _ ?hP0)) $$ Hw
  case hP0 => rfl
  ihave Hyd := (Ydone_put m d L (6 * k.val) (6 * k.val + 1) (uT0 k) (by show 6 * k.val + 0 = _; omega) (by omega)) $$ [Hyd Hrel]
  · isplitl [Hyd]; · iexact Hyd
    iexact Hrel
  ihave Hyt' := (Ytodo_take m d L (6 * k.val + 2) (6 * k.val + 3) (uT2 k) (by show 6 * k.val + 2 = _; omega) (by omega)) $$ Hyt
  icases Hyt' with ⟨Hw, Hyt⟩
  ihave Hw := (Entails.of_eq (yWin_pts d L (uT2 k) (k0_off10 L k 2#32) (k0_off10_inb L k 2) (Off.off10_eq_2 L k) _).symm) $$ Hw
  sl_exec (disch := (clear * - k hk; decide +kernel +revert))
  -- unit 3: in-slot 0, out-slot 1
  ihave Hgen : iprop(∃ g, ⌜View.readAt (Elt F) inSlot0.view (LoadRect.whole S2x64x64) g = Arows m d L (uT3 k)⌝ ∗ slotPts d L inSlot0 g) $$ [Hf0_dst]
  · iexists _; isplitr; swap
    · iexact Hf0_dst
    · ipureintro; exact in_value m d L (uT3 k) _ _ (Off.off11_eq L k) _ _
  icases Hgen with ⟨%g3, %hA3, Hf0_dst⟩
  sl_for (C5.cInv (F := F) d L g3) $$ [Hf0_dst Hg1_src]
  case region => intro kk acc; refine C5.step d L ?_ ?_ g3 kk acc <;> first | exact 0#32 | exact k
  · unfold C5.cInv
    isplitl [Hf0_dst]; · iexact Hf0_dst
    iexists _; isplitr; swap
    · iexact Hg1_src
    · ipureintro; exact done_zero _ _ _
  iintro %_ HI
  unfold C5.cInv
  icases HI with ⟨Hf0_dst, %fo3, %hD3r, Hg1_src⟩
  have hD3 : Done 1 64 (Arows m d L (uT3 k)) fo3 := by rw [← hA3, ← C5.trips]; exact hD3r
  ihave Hrel := (Entails.of_eq (win_value1' m d L (uT1 k) (k0_off10 L k 1#32) (k0_off10_inb L k 1) (Off.off10_eq_1 L k) fo1 hD1 _ _ ?hP1)) $$ Hw
  case hP1 => rfl
  ihave Hyd := (Ydone_put m d L (6 * k.val + 1) (6 * k.val + 2) (uT1 k) (by show 6 * k.val + 1 = _; omega) (by omega)) $$ [Hyd Hrel]
  · isplitl [Hyd]; · iexact Hyd
    iexact Hrel
  ihave Hyt' := (Ytodo_take m d L (6 * k.val + 3) (6 * k.val + 4) (uT3 k) (by show 6 * k.val + 3 = _; omega) (by omega)) $$ Hyt
  icases Hyt' with ⟨Hw, Hyt⟩
  ihave Hw := (Entails.of_eq (yWin_pts d L (uT3 k) (k0_off10 L k 3#32) (k0_off10_inb L k 3) (Off.off10_eq_3 L k) _).symm) $$ Hw
  sl_exec (disch := (clear * - k hk; decide +kernel +revert))
  -- unit 4: in-slot 1, out-slot 0
  ihave Hgen : iprop(∃ g, ⌜View.readAt (Elt F) inSlot1.view (LoadRect.whole S2x64x64) g = Arows m d L (uT4 k)⌝ ∗ slotPts d L inSlot1 g) $$ [Hf1_dst]
  · iexists _; isplitr; swap
    · iexact Hf1_dst
    · ipureintro; exact in_value m d L (uT4 k) _ _ (Off.off20_eq L k) _ _
  icases Hgen with ⟨%g4, %hA4, Hf1_dst⟩
  sl_for (C6.cInv (F := F) d L g4) $$ [Hf1_dst Hg0_src]
  case region => intro kk acc; refine C6.step d L ?_ ?_ ?_ ?_ ?_ g4 kk acc <;> first | exact 0#32 | exact k
  · unfold C6.cInv
    isplitl [Hf1_dst]; · iexact Hf1_dst
    iexists _; isplitr; swap
    · iexact Hg0_src
    · ipureintro; exact done_zero _ _ _
  iintro %_ HI
  unfold C6.cInv
  icases HI with ⟨Hf1_dst, %fo4, %hD4r, Hg0_src⟩
  have hD4 : Done 0 64 (Arows m d L (uT4 k)) fo4 := by rw [← hA4, ← C6.trips]; exact hD4r
  ihave Hrel := (Entails.of_eq (win_value0' m d L (uT2 k) (k0_off10 L k 2#32) (k0_off10_inb L k 2) (Off.off10_eq_2 L k) fo2 hD2 _ _ ?hP2)) $$ Hw
  case hP2 => rfl
  ihave Hyd := (Ydone_put m d L (6 * k.val + 2) (6 * k.val + 3) (uT2 k) (by show 6 * k.val + 2 = _; omega) (by omega)) $$ [Hyd Hrel]
  · isplitl [Hyd]; · iexact Hyd
    iexact Hrel
  ihave Hyt' := (Ytodo_take m d L (6 * k.val + 4) (6 * k.val + 5) (uT4 k) (by show 6 * k.val + 4 = _; omega) (by omega)) $$ Hyt
  icases Hyt' with ⟨Hw, Hyt⟩
  ihave Hw := (Entails.of_eq (yWin_pts d L (uT4 k) (k0_off10 L k 4#32) (k0_off10_inb L k 4) (Off.off10_eq_4 L k) _).symm) $$ Hw
  sl_exec (disch := (clear * - k hk; decide +kernel +revert))
  -- unit 5: in-slot 2, out-slot 1
  ihave Hgen : iprop(∃ g, ⌜View.readAt (Elt F) inSlot2.view (LoadRect.whole S2x64x64) g = Arows m d L (uT5 k)⌝ ∗ slotPts d L inSlot2 g) $$ [Hf2_dst]
  · iexists _; isplitr; swap
    · iexact Hf2_dst
    · ipureintro; exact in_value m d L (uT5 k) _ _ (Off.off29_eq L k) _ _
  icases Hgen with ⟨%g5, %hA5, Hf2_dst⟩
  sl_for (C7.cInv (F := F) d L g5) $$ [Hf2_dst Hg1_src]
  case region => intro kk acc; refine C7.step d L ?_ ?_ g5 kk acc <;> first | exact 0#32 | exact k
  · unfold C7.cInv
    isplitl [Hf2_dst]; · iexact Hf2_dst
    iexists _; isplitr; swap
    · iexact Hg1_src
    · ipureintro; exact done_zero _ _ _
  iintro %_ HI
  unfold C7.cInv
  icases HI with ⟨Hf2_dst, %fo5, %hD5r, Hg1_src⟩
  have hD5 : Done 1 64 (Arows m d L (uT5 k)) fo5 := by rw [← hA5, ← C7.trips]; exact hD5r
  ihave Hrel := (Entails.of_eq (win_value1' m d L (uT3 k) (k0_off10 L k 3#32) (k0_off10_inb L k 3) (Off.off10_eq_3 L k) fo3 hD3 _ _ ?hP3)) $$ Hw
  case hP3 => rfl
  ihave Hyd := (Ydone_put m d L (6 * k.val + 3) (6 * k.val + 4) (uT3 k) (by show 6 * k.val + 3 = _; omega) (by omega)) $$ [Hyd Hrel]
  · isplitl [Hyd]; · iexact Hyd
    iexact Hrel
  ihave Hyt' := (Ytodo_take m d L (6 * k.val + 5) (6 * k.val + 6) (uT5 k) (by show 6 * k.val + 5 = _; omega) (by omega)) $$ Hyt
  icases Hyt' with ⟨Hw, Hyt⟩
  ihave Hw := (Entails.of_eq (yWin_pts d L (uT5 k) (k0_off10 L k 5#32) (k0_off10_inb L k 5) (Off.off10_eq_5 L k) _).symm) $$ Hw
  sl_exec (disch := (clear * - k hk; decide +kernel +revert))
  sl_step
  isplitr; · iexact Hmw
  isplitl [Hf0 Hx0 Hf1 Hx1 Hf2 Hx2]
  · iexists (uT6 k), (uT7 k), (uT8 k); isplitr
    · ipureintro; refine ⟨?_, ?_, ?_⟩
      · show 6 * k.val + 6 = _; omega
      · show 6 * k.val + 7 = _; omega
      · show 6 * k.val + 8 = _; omega
    isplitl [Hf0 Hx0]
    · iexists _, _; isplitr; swap
      · isplitl [Hf0]; · iexact Hf0
        iexact Hx0
      · ipureintro; exact in_value m d L (uT6 k) _ _ (Off.off38_eq L k) _ _
    isplitl [Hf1 Hx1]
    · iexists _, _; isplitr; swap
      · isplitl [Hf1]; · iexact Hf1
        iexact Hx1
      · ipureintro; exact in_value m d L (uT7 k) _ _ (Off.off47_eq L k) _ _
    · iexists _, _; isplitr; swap
      · isplitl [Hf2]; · iexact Hf2
        iexact Hx2
      · ipureintro; exact in_value m d L (uT8 k) _ _ (Off.off56_eq L k) _ _
  isplitl [Hg0 Hg1]
  · iexists (uT4 k), (uT5 k); isplitr
    · ipureintro; constructor
      · show 6 * k.val + 4 + 2 = _; omega
      · show 6 * k.val + 5 + 1 = _; omega
    isplitl [Hg0]
    · iexists _
      iapply (Transfers.Flight_mono (countersEmb : UEmb Counters 𝕄) (thrV d L) (BIClass.sep_mono (Entails.of_eq (win_value0' m d L (uT4 k) (k0_off10 L k 4#32) (k0_off10_inb L k 4) (Off.off10_eq_4 L k) fo4 hD4 _ _ ?hP4)) (BI.Entails.refl _))) $$ Hg0
      case hP4 => rfl
    · iexists _
      iapply (Transfers.Flight_mono (countersEmb : UEmb Counters 𝕄) (thrV d L) (BIClass.sep_mono (Entails.of_eq (win_value1' m d L (uT5 k) (k0_off10 L k 5#32) (k0_off10_inb L k 5) (Off.off10_eq_5 L k) fo5 hD5 _ _ ?hP5)) (BI.Entails.refl _))) $$ Hg1
      case hP5 => rfl
  isplitl [Hyd]; · iapply (Ydone_cast m d L _ _ (by omega)) $$ Hyd
  isplitl [Hyt]; · iapply (Ytodo_cast m d L _ _ (by omega)) $$ Hyt
  iexists _; isplitr; swap
  · iexact HO
  · ipureintro; repeat (refine okW_insert _ rfl ?_)
    exact hW'

/-! ## The tail: units 60 … 63 -/

abbrev t58 : Fin 64 := ⟨58, by decide⟩
abbrev t59 : Fin 64 := ⟨59, by decide⟩
abbrev t60 : Fin 64 := ⟨60, by decide⟩
abbrev t61 : Fin 64 := ⟨61, by decide⟩
abbrev t62 : Fin 64 := ⟨62, by decide⟩
abbrev t63 : Fin 64 := ⟨63, by decide⟩

/-- After the last group: the copies of units 60, 61, 62 into the in-slots and the copies out into windows 58, 59 are
    pending; windows below 58 are done, those from 60 on still to do. -/
theorem invG_last (d : Dev nD) (L : grid0.Coords) (O : CellTallies nD τ sig (HIx 1)) (W : Waits sig (HIx 1)) (n : ℕ) (u : Unit) (hn : n = 10) :
    invG m d L O W n u
      ⊢ iprop(inFl m d L cc0_scratch2 0 inSlot0 t60 ∗ inFl m d L cc0_scratch3 1 inSlot1 t61 ∗ inFl m d L cc0_scratch4 2 inSlot2 t62
          ∗ outFl m d L cc0_scratch5 outSlot0 t58 ∗ outFl m d L cc0_scratch6 outSlot1 t59
          ∗ Ydone m d L 58 ∗ Ytodo m d L 60
          ∗ ∃ W', ⌜∀ p ∈ W', p ∈ W ∨ p.2 = none⌝ ∗ owes (thrV d L) O W') := by
  subst hn
  unfold invG outSt
  rw [if_neg (by decide)]
  iintro ⟨-, ⟨%s0, %s1, %s2, %hs, H0, H1, H2⟩, ⟨%q0, %q1, %hq, G0, G1⟩, Hyd, Hyt, HW⟩
  obtain rfl : s0 = t60 := Fin.ext (by show _ = 60; omega)
  obtain rfl : s1 = t61 := Fin.ext (by show _ = 61; omega)
  obtain rfl : s2 = t62 := Fin.ext (by show _ = 62; omega)
  obtain rfl : q0 = t58 := Fin.ext (by show _ = 58; omega)
  obtain rfl : q1 = t59 := Fin.ext (by show _ = 59; omega)
  isplitl [H0]; · iexact H0
  isplitl [H1]; · iexact H1
  isplitl [H2]; · iexact H2
  isplitl [G0]; · iexact G0
  isplitl [G1]; · iexact G1
  isplitl [Hyd]; · iapply (Ydone_cast m d L _ _ (by omega)) $$ Hyd
  isplitl [Hyt]; · iapply (Ytodo_cast m d L _ _ (by omega)) $$ Hyt
  iexact HW

/-! ## The whole task -/

theorem outSt_zero (d : Dev nD) (L : grid0.Coords) :
    outSt m d L 0 = iprop(semVal (semC d L cc0_scratch5) 0 ∗ semVal (semC d L cc0_scratch6) 0 ∗ (∃ f, slotPts d L outSlot0 f) ∗ ∃ f, slotPts d L outSlot1 f) := if_pos rfl

theorem Ydone_zero (d : Dev nD) (L : grid0.Coords) : (iprop(emp) : sProp 𝕄) ⊢ Ydone m d L (6 * 0 - 2) := by
  unfold Ydone; rw [Ring.bigSep_rangeSet_empty (by omega)]

theorem Ytodo_init (d : Dev nD) (L : grid0.Coords) : yTile d (cL L) (iL L) (m (yLoc d)) ⊢ Ytodo m d L (6 * 0) := by
  unfold Ytodo; rw [show 6 * 0 = 0 from rfl, Ring.rangeSet_univ]

theorem Ydone_final (d : Dev nD) (L : grid0.Coords) : Ydone m d L 64 ⊢ yTile d (cL L) (iL L) (Gy m d) := by
  unfold Ydone; rw [Ring.rangeSet_univ]

theorem x_toks3 (d : Dev nD) (L : grid0.Coords) (q : PosShare TreeShare) (f : Buf (Elt F) (xLoc d)) :
    (xLoc d ↦{q} f : sProp 𝕄) ⊣⊢ iprop(((xV).view.loc (thrV d L) ↦{Transfers.shareDrop q 3} f) ∗ ((xV).view.loc (thrV d L) ↦{Transfers.shareTok q 3 0} f)
      ∗ ((xV).view.loc (thrV d L) ↦{Transfers.shareTok q 3 1} f) ∗ (xV).view.loc (thrV d L) ↦{Transfers.shareTok q 3 2} f) := by
  have h := Transfers.pointsTo_toks (nD := nD) (τ := τ) (sig := sig) (Ix := HIx 1) (Val := Elt F) (Name := ℕ) (U := UU) (Lvl := ℕ) (ℓ := xLoc d) (S := Finset.univ) (f := f) q 3
  rw [show (Finset.univ : Finset (Fin 3)) = {0, 1, 2} by decide, SparseCore.bigSep_insert' (by decide), SparseCore.bigSep_insert' (by decide), bigSep_singleton] at h
  exact h

set_option maxHeartbeats 4000000 in
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp
        ∗ (xTile m d (cL L) (iL L) ∗ yTile d (cL L) (iL L) (m (yLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) yV (Memref.isWhole_whole _) sIn (Memref.isWhole_whole _) sOut (Memref.isWhole_whole _)
            cc0_scratch2 cc0_scratch3 cc0_scratch4 cc0_scratch5 cc0_scratch6)
          fun _ => iprop((xTile m d (cL L) (iL L) ∗ yTile d (cL L) (iL L) (Gy m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L)]
  rw [show (ownSems0 (V d (cV L) (jV L)) : sProp 𝕄) = _ from ownSems0_V d L, show (ownBufs (V d (cV L) (jV L)) : sProp 𝕄) = _ from ownBufs_V d L]
  iintro ⟨#Hlv, -, ⟨Hx, Hy⟩, ⟨⟨%fi, Hsi⟩, ⟨%fo, Hso⟩, Hbufs⟩, ⟨Hf0, Hf1, Hf2, Hg0, Hg1, Hsems⟩, HO⟩
  ihave Hmw := ((K (F := F)).mayWaits_none (thr := thrV d L) hO) $$ Hlv
  ihave Hx' := ((x_toks3 d L _ _).1) $$ Hx
  icases Hx' with ⟨Hxr, Hx0, Hx1, Hx2⟩
  ihave Hsi' := (Entails.of_eq (sIn_slots d L fi)) $$ Hsi
  icases Hsi' with ⟨Hi0, Hi1, Hi2⟩
  ihave Hso' := (Entails.of_eq (sOut_slots d L fo)) $$ Hso
  icases Hso' with ⟨Hg0_src, Hg1_src⟩
  ihave Hyt := (Ytodo_init m d L) $$ Hy
  sl_exec
  sl_for (invG m d L O W) $$ [Hf0 Hx0 Hf1 Hx1 Hf2 Hx2 Hg0 Hg1 Hg0_src Hg1_src Hyt HO]
  case region =>
    intro k acc
    by_cases hk : k.val = 0
    · exact region_zero m d L O W _ k hk
    · exact region_pos m d L O W _ k hk
  · unfold invG inFl
    isplitr; · iexact Hmw
    isplitl [Hf0 Hx0 Hf1 Hx1 Hf2 Hx2]
    · iexists ⟨0, by decide⟩, ⟨1, by decide⟩, ⟨2, by decide⟩; isplitr; · ipureintro; exact ⟨rfl, rfl, rfl⟩
      isplitl [Hf0 Hx0]
      · iexists _, _; isplitr; swap
        · isplitl [Hf0]; · iexact Hf0
          iexact Hx0
        · ipureintro; exact in_value m d L ⟨0, by decide⟩ _ _ (Off.off1_eq_0 L) _ _
      isplitl [Hf1 Hx1]
      · iexists _, _; isplitr; swap
        · isplitl [Hf1]; · iexact Hf1
          iexact Hx1
        · ipureintro; exact in_value m d L ⟨1, by decide⟩ _ _ (Off.off1_eq_1 L) _ _
      · iexists _, _; isplitr; swap
        · isplitl [Hf2]; · iexact Hf2
          iexact Hx2
        · ipureintro; exact in_value m d L ⟨2, by decide⟩ _ _ (Off.off1_eq_2 L) _ _
    isplitl [Hg0 Hg1 Hg0_src Hg1_src]
    · iapply (Entails.of_eq (outSt_zero m d L).symm)
      isplitl [Hg0]; · iexact Hg0
      isplitl [Hg1]; · iexact Hg1
      isplitl [Hg0_src]; · iexists _; iexact Hg0_src
      iexists _; iexact Hg1_src
    isplitr; · iapply (Ydone_zero m d L); iempintro
    isplitl [Hyt]; · iexact Hyt
    iexists W; isplitr
    · ipureintro; exact fun p hp => .inl hp
    · iexact HO
  iintro %_ HI
  -- the tail: units 60 … 63, the two last waits
  ihave HI := (invG_last m d L O W _ _ trips1) $$ HI
  unfold inFl outFl
  icases HI with ⟨⟨%S0, %f0, %hA0, Hf0, Hx0⟩, ⟨%S1, %f1, %hA1, Hf1, Hx1⟩, ⟨%S2, %f2, %hA2, Hf2, Hx2⟩, ⟨%fq0, Hg0⟩, ⟨%fq1, Hg1⟩, Hyd, Hyt, %W', %hW', HO⟩
  sl_exec
  -- unit 60: in-slot 0, out-slot 0
  sl_for (C8.cInv (F := F) d L f0) $$ [Hf0_dst Hg0_src]
  case region => intro kk acc; refine C8.step d L ?_ f0 kk acc <;> exact 0#32
  · unfold C8.cInv
    isplitl [Hf0_dst]; · iexact Hf0_dst
    iexists _; isplitr; swap
    · iexact Hg0_src
    · ipureintro; exact done_zero _ _ _
  iintro %_ HI
  unfold C8.cInv
  icases HI with ⟨Hf0_dst, %fo60, %hD60r, Hg0_src⟩
  have hD60 : Done 0 64 (Arows m d L t60) fo60 := by rw [← hA0, ← C8.trips]; exact hD60r
  ihave Hyd := (Ydone_put m d L 58 59 t58 rfl (by omega)) $$ [Hyd Hg0_dst]
  · isplitl [Hyd]; · iexact Hyd
    iexact Hg0_dst
  ihave Hyt' := (Ytodo_take m d L 60 61 t60 rfl (by omega)) $$ Hyt
  icases Hyt' with ⟨Hw60, Hyt⟩
  ihave Hw60 := (Entails.of_eq (yWin_pts d L t60 (k0_off65 L 60#32) (k0_off65_inb L 0) (Off.off65_eq_60 L) _).symm) $$ Hw60
  sl_exec
  -- unit 61: in-slot 1, out-slot 1
  sl_for (C9.cInv (F := F) d L f1) $$ [Hf1_dst Hg1_src]
  case region => intro kk acc; refine C9.step d L ?_ f1 kk acc <;> exact 0#32
  · unfold C9.cInv
    isplitl [Hf1_dst]; · iexact Hf1_dst
    iexists _; isplitr; swap
    · iexact Hg1_src
    · ipureintro; exact done_zero _ _ _
  iintro %_ HI
  unfold C9.cInv
  icases HI with ⟨Hf1_dst, %fo61, %hD61r, Hg1_src⟩
  have hD61 : Done 1 64 (Arows m d L t61) fo61 := by rw [← hA1, ← C9.trips]; exact hD61r
  ihave Hyd := (Ydone_put m d L 59 60 t59 rfl (by omega)) $$ [Hyd Hg1_dst]
  · isplitl [Hyd]; · iexact Hyd
    iexact Hg1_dst
  ihave Hyt' := (Ytodo_take m d L 61 62 t61 rfl (by omega)) $$ Hyt
  icases Hyt' with ⟨Hw61, Hyt⟩
  ihave Hw61 := (Entails.of_eq (yWin_pts d L t61 (k0_off65 L 61#32) (k0_off65_inb L 1) (Off.off65_eq_61 L) _).symm) $$ Hw61
  sl_exec
  -- unit 62: in-slot 2, out-slot 0
  sl_for (C10.cInv (F := F) d L f2) $$ [Hf2_dst Hg0_src]
  case region => intro kk acc; refine C10.step d L ?_ f2 kk acc <;> exact 0#32
  · unfold C10.cInv
    isplitl [Hf2_dst]; · iexact Hf2_dst
    iexists _; isplitr; swap
    · iexact Hg0_src
    · ipureintro; exact done_zero _ _ _
  iintro %_ HI
  unfold C10.cInv
  icases HI with ⟨Hf2_dst, %fo62, %hD62r, Hg0_src⟩
  have hD62 : Done 0 64 (Arows m d L t62) fo62 := by rw [← hA2, ← C10.trips]; exact hD62r
  ihave Hrel := (Entails.of_eq (win_value0' m d L t60 (k0_off65 L 60#32) (k0_off65_inb L 0) (Off.off65_eq_60 L) fo60 hD60 _ _ ?hP60)) $$ Hw60
  case hP60 => rfl
  ihave Hyd := (Ydone_put m d L 60 61 t60 rfl (by omega)) $$ [Hyd Hrel]
  · isplitl [Hyd]; · iexact Hyd
    iexact Hrel
  ihave Hyt' := (Ytodo_take m d L 62 63 t62 rfl (by omega)) $$ Hyt
  icases Hyt' with ⟨Hw62, Hyt⟩
  ihave Hw62 := (Entails.of_eq (yWin_pts d L t62 (k0_off65 L 62#32) (k0_off65_inb L 2) (Off.off65_eq_62 L) _).symm) $$ Hw62
  sl_exec
  -- unit 63: in-slot 0, out-slot 1
  ihave Hgen : iprop(∃ g, ⌜View.readAt (Elt F) inSlot0.view (LoadRect.whole S2x64x64) g = Arows m d L t63⌝ ∗ slotPts d L inSlot0 g) $$ [Hf0_dst]
  · iexists _; isplitr; swap
    · iexact Hf0_dst
    · ipureintro; exact in_value m d L t63 _ _ (Off.off1_eq_63 L) _ _
  icases Hgen with ⟨%g63, %hA63, Hf0_dst⟩
  sl_for (C11.cInv (F := F) d L g63) $$ [Hf0_dst Hg1_src]
  case region => intro kk acc; refine C11.step d L ?_ g63 kk acc <;> exact 0#32
  · unfold C11.cInv
    isplitl [Hf0_dst]; · iexact Hf0_dst
    iexists _; isplitr; swap
    · iexact Hg1_src
    · ipureintro; exact done_zero _ _ _
  iintro %_ HI
  unfold C11.cInv
  icases HI with ⟨Hf0_dst, %fo63, %hD63r, Hg1_src⟩
  have hD63 : Done 1 64 (Arows m d L t63) fo63 := by rw [← hA63, ← C11.trips]; exact hD63r
  ihave Hrel := (Entails.of_eq (win_value1' m d L t61 (k0_off65 L 61#32) (k0_off65_inb L 1) (Off.off65_eq_61 L) fo61 hD61 _ _ ?hP61)) $$ Hw61
  case hP61 => rfl
  ihave Hyd := (Ydone_put m d L 61 62 t61 rfl (by omega)) $$ [Hyd Hrel]
  · isplitl [Hyd]; · iexact Hyd
    iexact Hrel
  ihave Hyt' := (Ytodo_take m d L 63 64 t63 rfl (by omega)) $$ Hyt
  icases Hyt' with ⟨Hw63, Hyt⟩
  ihave Hw63 := (Entails.of_eq (yWin_pts d L t63 (k0_off65 L 63#32) (k0_off65_inb L 3) (Off.off65_eq_63 L) _).symm) $$ Hw63
  sl_exec
  -- the last two windows come back
  ihave Hrel := (Entails.of_eq (win_value0' m d L t62 (k0_off65 L 62#32) (k0_off65_inb L 2) (Off.off65_eq_62 L) fo62 hD62 _ _ ?hP62)) $$ Hw62
  case hP62 => rfl
  ihave Hyd := (Ydone_put m d L 62 63 t62 rfl (by omega)) $$ [Hyd Hrel]
  · isplitl [Hyd]; · iexact Hyd
    iexact Hrel
  ihave Hrel := (Entails.of_eq (win_value1' m d L t63 (k0_off65 L 63#32) (k0_off65_inb L 3) (Off.off65_eq_63 L) fo63 hD63 _ _ ?hP63)) $$ Hw63
  case hP63 => rfl
  ihave Hyd := (Ydone_put m d L 63 64 t63 rfl (by omega)) $$ [Hyd Hrel]
  · isplitl [Hyd]; · iexact Hyd
    iexact Hrel
  sl_step
  -- the argument back whole, the result's windows all done
  isplitl [Hxr Hx0 Hx1 Hx2 Hyd]
  · isplitl [Hxr Hx0 Hx1 Hx2]
    · iapply ((x_toks3 d L _ _).2)
      isplitl [Hxr]; · iexact Hxr
      isplitl [Hx0]; · iexact Hx0
      isplitl [Hx1]; · iexact Hx1
      iexact Hx2
    · iapply (Ydone_final m d L) $$ Hyd
  -- the two scratch buffers from their slots, and the rest of the subcore's own
  isplitl [Hf0_dst Hf1_dst Hf2_dst Hg0_src Hg1_src Hbufs]
  · isplitl [Hf0_dst Hf1_dst Hf2_dst]
    · iapply (sIn_slots_join d L)
      isplitl [Hf0_dst]; · iexists _; iexact Hf0_dst
      isplitl [Hf1_dst]; · iexists _; iexact Hf1_dst
      iexists _; iexact Hf2_dst
    isplitl [Hg0_src Hg1_src]
    · iapply (sOut_slots_join d L)
      isplitl [Hg0_src]; · iexists _; iexact Hg0_src
      iexists _; iexact Hg1_src
    · iexact Hbufs
  -- the five cells at zero
  isplitl [Hf0 Hf1 Hf2 Hg0 Hg1 Hsems]
  · isplitl [Hf0]; · iexact Hf0
    isplitl [Hf1]; · iexact Hf1
    isplitl [Hf2]; · iexact Hf2
    isplitl [Hg0]; · iexact Hg0
    isplitl [Hg1]; · iexact Hg1
    iexact Hsems
  iexists _; isplitr; swap
  · iexact HO
  · ipureintro; repeat (refine okW_insert _ rfl ?_)
    exact hW'

end Cert.Proof.KI

end
-- ==== Proof.Launch.lean ====
/-
  From one vector subcore's task to the run of the whole program.

  The TensorCore holds the argument and the result whole at the full share. Before the call it deals them out: the
  argument's share is halved into a remainder it keeps and one read share per SparseCore, and a SparseCore deals
  its share on in the same way, a remainder it keeps and one read share per vector subcore. The result is cut into
  its 2048 windows, the fibres of the map that sends an entry to its unit; subcore `i` of SparseCore `c` is handed
  the 64 windows of its own units. After the call the shares and the windows are joined back the way they were cut,
  the windows now at the rearrangement of the argument.
-/
import proofs.«209385_g40939628265708_retrytranche2_1889_20_alg».proof.Proof.BodyOuter

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ

variable (m : (ℓ : Loc nD τ sig) → Buf (Elt F) ℓ) (ρ : Dev nD → PrngReg) [FloatOps F]

/-! ## The task, as the launch theorem asks for it -/

theorem defs₀_vector (c : Fin τ.nSC) (s : Fin τ.nSub) :
    defs₀ (F := F) (.scVector c s) 0 ()
      = SparseCore.onTile hcore0 hsub0 (fun c s => cc0_body (coordsV c s)
          xV (Memref.isWhole_whole _) yV (Memref.isWhole_whole _) sIn (Memref.isWhole_whole _) sOut (Memref.isWhole_whole _)
          cc0_scratch2 cc0_scratch3 cc0_scratch4 cc0_scratch5 cc0_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The result's windows

An entry of the result belongs to exactly one unit, and a unit to exactly one place `(c, i, t)`: unit `u` is number
`u % 64` of subcore `u / 128` of SparseCore `(u / 64) % 2`. So the windows of the places are pairwise disjoint and
cover the result. -/

theorem unitAt_inj {c c' : Fin 2} {i i' : Fin 16} {t t' : Fin 64} (h : unitAt c i t = unitAt c' i' t') :
    c = c' ∧ i = i' ∧ t = t' := by
  have h' : 64 * (2 * i.val + c.val) + t.val = 64 * (2 * i'.val + c'.val) + t'.val := congrArg Fin.val h
  have := c.isLt; have := c'.isLt; have := t.isLt; have := t'.isLt
  refine ⟨Fin.ext ?_, Fin.ext ?_, Fin.ext ?_⟩ <;> omega

/-- The place of unit `u`. -/
def placeOf (u : Fin 2048) : Fin 2 × Fin 16 × Fin 64 :=
  (⟨(u.val / 64) % 2, Nat.mod_lt _ (by decide)⟩, ⟨u.val / 128, by have := u.isLt; omega⟩, ⟨u.val % 64, Nat.mod_lt _ (by decide)⟩)

theorem unitAt_placeOf (u : Fin 2048) : unitAt (placeOf u).1 (placeOf u).2.1 (placeOf u).2.2 = u := by
  refine Fin.ext ?_
  show 64 * (2 * (u.val / 128) + (u.val / 64) % 2) + u.val % 64 = u.val
  omega

theorem mem_winSet {j : YS.Idx} {u : Fin 2048} : j ∈ winSet u ↔ unitOf j = u := by
  unfold winSet; rw [Finset.mem_filter]; exact and_iff_right (Finset.mem_univ j)

/-- The window of the place `p = (c, i, t)`. -/
abbrev winAt (p : Fin 2 × Fin 16 × Fin 64) : Finset YS.Idx := winSet (unitAt p.1 p.2.1 p.2.2)

/-- Two places' windows share no entry: an entry's unit names its place. -/
theorem wins_disjoint : ∀ p ∈ (Finset.univ : Finset (Fin 2 × Fin 16 × Fin 64)), ∀ p' ∈ (Finset.univ : Finset (Fin 2 × Fin 16 × Fin 64)),
    p ≠ p' → Disjoint (winAt p) (winAt p') := by
  intro p _ p' _ hne
  refine Finset.disjoint_left.mpr fun j hj hj' => hne ?_
  have e : unitAt p.1 p.2.1 p.2.2 = unitAt p'.1 p'.2.1 p'.2.2 := (mem_winSet.mp hj).symm.trans (mem_winSet.mp hj')
  obtain ⟨h1, h2, h3⟩ := unitAt_inj e
  exact Prod.ext h1 (Prod.ext h2 h3)

/-- Every entry lies in the window of its unit's place. -/
theorem wins_cover : (Finset.univ : Finset (Fin 2 × Fin 16 × Fin 64)).biUnion winAt = Finset.univ := by
  refine Finset.eq_univ_iff_forall.mpr fun j => ?_
  have hj : j ∈ winAt (placeOf (unitOf j)) := mem_winSet.mpr (unitAt_placeOf (unitOf j)).symm
  rw [Finset.mem_biUnion]
  exact ⟨placeOf (unitOf j), Finset.mem_univ _, hj⟩

/-- The result whole is its windows, SparseCore by SparseCore, subcore by subcore, unit by unit. -/
theorem y_windows (d : Dev nD) (f : Buf (Elt F) (yLoc d)) :
    (yLoc d ↦{fullShare} f : sProp 𝕄) = bigSep Finset.univ fun c : Fin 2 => yCore d c f := by
  have h : (yLoc d ↦{fullShare} f : sProp 𝕄) = bigSep Finset.univ fun p : Fin 2 × Fin 16 × Fin 64 => yLoc d ↦[winAt p]{fullShare} f := by
    rw [← pointsTo_biUnion Finset.univ (ℓ := yLoc d) winAt wins_disjoint, wins_cover]
  rw [h, bigSep_univ_prod]
  refine bigSep_congr fun c _ => ?_
  rw [bigSep_univ_prod]

/-! ## What the handshakes carry, spelt out -/

theorem P_st (d : Dev nD) (c : Fin ((K (F := F)).nCore 0)) :
    (P m).st 0 d c = iprop(xCore m d (Fin.cast nCore_zero c) ∗ yCore d (Fin.cast nCore_zero c) (m (yLoc d))) := rfl
theorem P_dn (d : Dev nD) (c : Fin ((K (F := F)).nCore 0)) :
    (P m).dn 0 d c = iprop(xCore m d (Fin.cast nCore_zero c) ∗ yCore d (Fin.cast nCore_zero c) (Gy m d)) := rfl
theorem P_go (d : Dev nD) (c : Fin ((K (F := F)).nCore 0)) (i : Fin ((K (F := F)).nSub 0)) :
    (P m).go 0 d c i = iprop(xTile m d (Fin.cast nCore_zero c) (Fin.cast nSub_zero i) ∗ yTile d (Fin.cast nCore_zero c) (Fin.cast nSub_zero i) (m (yLoc d))) := rfl
theorem P_td (d : Dev nD) (c : Fin ((K (F := F)).nCore 0)) (i : Fin ((K (F := F)).nSub 0)) :
    (P m).td 0 d c i = iprop(xTile m d (Fin.cast nCore_zero c) (Fin.cast nSub_zero i) ∗ yTile d (Fin.cast nCore_zero c) (Fin.cast nSub_zero i) (Gy m d)) := rfl

/-- The subcores of the call are the sixteen, the SparseCores the two. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- All the subcores' operands of SparseCore `c`: the sixteen read shares of the argument, and the SparseCore's windows. -/
theorem go_eq (d : Dev nD) (c : Fin ((K (F := F)).nCore 0)) (f : Buf (Elt F) (yLoc d)) :
    (bigSep Finset.univ fun i : Fin ((K (F := F)).nSub 0) =>
        iprop(xTile m d (Fin.cast nCore_zero c) (Fin.cast nSub_zero i) ∗ yTile d (Fin.cast nCore_zero c) (Fin.cast nSub_zero i) f))
      = iprop((bigSep Finset.univ fun i : Fin 16 => xTile m d (Fin.cast nCore_zero c) i) ∗ yCore d (Fin.cast nCore_zero c) f) := by
  rw [bigSep_tasks (F := F) (fun i => iprop(xTile m d (Fin.cast nCore_zero c) i ∗ yTile d (Fin.cast nCore_zero c) i f)), bigSep_sep']

/-- All the SparseCores' operands: the two read shares of the argument, and the result whole. -/
theorem st_eq (d : Dev nD) (f : Buf (Elt F) (yLoc d)) :
    (bigSep Finset.univ fun c : Fin ((K (F := F)).nCore 0) => iprop(xCore m d (Fin.cast nCore_zero c) ∗ yCore d (Fin.cast nCore_zero c) f))
      = iprop((bigSep Finset.univ fun c : Fin 2 => xCore m d c) ∗ yLoc d ↦{fullShare} f) := by
  rw [bigSep_cores (F := F) (fun c => iprop(xCore m d c ∗ yCore d c f)), bigSep_sep', y_windows]

/-! ## A SparseCore deals its operands to its subcores

Of its read share of the argument the SparseCore keeps a remainder for the length of the tasks and hands each subcore
one of sixteen read shares; its windows of the result are the subcores' windows, nothing to cut. The tasks over, the
remainder and the sixteen shares are the SparseCore's share again. -/

theorem vecSplit : (K (F := F)).VecSplit' (P m) 0 := by
  intro d c
  simp only [P_st, P_dn, P_go, P_td]
  rw [go_eq, go_eq]
  iintro ⟨Hx, Hy⟩
  ihave Hx' := (Transfers.pointsTo_toks_split (qC (Fin.cast nCore_zero c)) 16) $$ Hx
  icases Hx' with ⟨Hxr, Hxt⟩
  imodintro
  isplitl [Hxt Hy]
  · isplitl [Hxt]; · iexact Hxt
    iexact Hy
  iintro ⟨Hxt, Hy⟩
  isplitl [Hxr Hxt]
  · iapply (Transfers.pointsTo_toks_join (qC (Fin.cast nCore_zero c)) 16)
    isplitl [Hxr]; · iexact Hxr
    iexact Hxt
  · iexact Hy

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore

Before the call the argument's full share is cut into a remainder, which @main keeps across the call, and the two
SparseCores' read shares; the result goes out whole, which is all its windows. After the call the shares are joined
to the full share again, and the windows, each now at the rearrangement, are the result whole at the rearrangement. -/

theorem unscopedBufs_eq (d : Dev nD) (W : (b : Ref sig .tc) → Buf (Elt F) ((d.tc : Thread nD τ).loc b)) :
    (unscopedBufs d W : sProp 𝕄) = iprop((xLoc d ↦{fullShare} W main_arg0) ∗ yLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c)
    = iprop((bigSep Finset.univ fun c : Fin 2 => xCore m d c) ∗ yLoc d ↦{fullShare} m (yLoc d)) := by
  simp only [P_st]; exact st_eq m d _
theorem dn0_eq (d : Dev nD) : (bigSep Finset.univ fun c : Fin ((K (F := F)).nCore 0) => (P m).dn 0 d c)
    = iprop((bigSep Finset.univ fun c : Fin 2 => xCore m d c) ∗ yLoc d ↦{fullShare} Gy m d) := by
  simp only [P_dn]; exact st_eq m d _

/-- What @main leaves the claim: the argument at its launch contents, the result at the rearrangement. -/
abbrev FIN (d : Dev nD) : sProp 𝕄 := iprop((xLoc d ↦{fullShare} m (xLoc d)) ∗ yLoc d ↦{fullShare} Gy m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hy⟩, -, -⟩, -⟩
  ihave Hx' := (Transfers.pointsTo_toks_split fullShare 2) $$ Hx
  icases Hx' with ⟨Hxr, Hxt⟩
  iapply ((K (F := F)).wp_run (D (F := F)) 𝒱 (EH := EH) (P := P m) κ d 0) $$ [Hst Hxt Hy Hxr]
  isplitr; · iexact Hctx
  isplitl [Hst]; · iexact Hst
  isplitl [Hxt Hy]
  · rw [st0_eq]
    isplitl [Hxt]; · iexact Hxt
    iexact Hy
  iintro ⟨Hst, Hdn⟩
  ihave Hdn' := (Entails.of_eq (dn0_eq m d)) $$ Hdn
  icases Hdn' with ⟨Hxt, Hy⟩
  imodintro
  isplitl [Hst]; · iexact Hst
  isplitl [Hxr Hxt]
  · iapply (Transfers.pointsTo_toks_join fullShare 2)
    isplitl [Hxr]; · iexact Hxr
    iexact Hxt
  · iexact Hy

/-! ## The final memory reads the claim -/

def fq (d : Dev nD) (s' : Phys nD τ sig (Elt F)) : Prop := s'.mem.mem (yLoc d) = Gy m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hy⟩, HSI⟩
  ihave H := (persistent_entails_right (SI_pointsTo_agree (st := s') (ℓ := yLoc d) (I := Finset.univ) (q := fullShare) (f := Gy m d))) $$ [HSI Hy]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (yLoc c) = Gy m c ∧ r.2.mem (xLoc c) = m (xLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.IfaceK.lean ====
/-
  The program as printed, read at the instance where a float is the 32-bit word that stores it. The program is the
  same text as the one read at the exact instance, so what follows is the same argument over this program's names.

  What every part of the proof about the kernel shares: the program as the launch theorem names it, the ghost
  algebra, and how the two arrays are dealt to the thirty-two vector subcores.

  The kernel's grid is 2 SparseCores × 16 vector subcores. Subcore `i` of SparseCore `c` is worker
  `w = 2·i + c` and moves the 64 UNITS `u = 64·w + t`, `t < 64`. A unit is one (batch, channel, output row):
  `u = 1024·b + 32·ch + h`. For it the worker reads the two argument rows `x[b, ch, 2h .. 2h+1, :, :]` and
  writes the eight result planes `y[b, 8·ch .. 8·ch+7, h, :, :]` — the WINDOW of the unit. The 2048 windows
  are the fibres of the map `unitOf` below, so they are pairwise disjoint and cover the result.
  The argument is only read: every subcore holds all of it at a share of its own. The result is written:
  a subcore holds exactly its 64 windows, each at the full share.
-/
import proofs.«209385_g40939628265708_retrytranche2_1889_20_alg».proof.Proof.Gen.Kernel
import proofs.«209385_g40939628265708_retrytranche2_1889_20_alg».proof.Proof.Gen.Kernel.Skeleton
import proofs.«209385_g40939628265708_retrytranche2_1889_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the two arrays, and their parts -/

variable (m : (ℓ : Loc nD τ sig) → Buf (Elt F) ℓ) (ρ : Dev nD → PrngReg)

/-- The argument `x` and the result `y` as locations of device `d`. -/
abbrev xLoc (d : Dev nD) : Loc nD τ sig := (SparseCore.T d).loc main_arg0
abbrev yLoc (d : Dev nD) : Loc nD τ sig := (SparseCore.T d).loc main_v0

/-- What the result holds at the end: the rearrangement of the launch contents of the argument. -/
def Gy (d : Dev nD) : Buf (Elt F) (yLoc d) := G (m (xLoc d))

/-- The share of the argument SparseCore `c` is handed, and the share its subcore `i` is handed of that. -/
abbrev qC (c : Fin 2) : PosShare TreeShare := Transfers.shareTok fullShare 2 c
abbrev qT (c : Fin 2) (i : Fin 16) : PosShare TreeShare := Transfers.shareTok (qC c) 16 i

/-- The unit a result entry belongs to: `1024·b + 32·(channel / 8) + h`. -/
def unitOf (j : YS.Idx) : Fin 2048 := ⟨1024 * (j 0).val + 32 * ((j 1).val / 8) + (j 2).val, by
  have h0 : (j 0).val < 2 := (j 0).isLt
  have h1 : (j 1).val < 256 := (j 1).isLt
  have h2 : (j 2).val < 32 := (j 2).isLt
  omega⟩
/-- The window of unit `u`: the result entries that belong to it. -/
def winSet (u : Fin 2048) : Finset YS.Idx := Finset.univ.filter fun j => unitOf j = u
/-- Unit number `t` of subcore `i` of SparseCore `c`. -/
def unitAt (c : Fin 2) (i : Fin 16) (t : Fin 64) : Fin 2048 := ⟨64 * (2 * i.val + c.val) + t.val, by
  have := c.isLt; have := i.isLt; have := t.isLt; omega⟩

variable [FloatOps F]

/-- A subcore's hold on the argument: all of it, at the launch contents, at the subcore's share. -/
abbrev xTile (d : Dev nD) (c : Fin 2) (i : Fin 16) : sProp 𝕄 := xLoc d ↦{qT c i} m (xLoc d)
/-- A subcore's hold on the result: its 64 windows at the full share, all at the contents `f`. -/
abbrev yTile (d : Dev nD) (c : Fin 2) (i : Fin 16) (f : Buf (Elt F) (yLoc d)) : sProp 𝕄 :=
  bigSep Finset.univ fun t : Fin 64 => yLoc d ↦[winSet (unitAt c i t)]{fullShare} f
/-- A SparseCore's hold on the argument, and on the result: its sixteen subcores' windows. -/
abbrev xCore (d : Dev nD) (c : Fin 2) : sProp 𝕄 := xLoc d ↦{qC c} m (xLoc d)
abbrev yCore (d : Dev nD) (c : Fin 2) (f : Buf (Elt F) (yLoc d)) : sProp 𝕄 :=
  bigSep Finset.univ fun i : Fin 16 => yTile d c i f

/-- What the handshakes carry: a SparseCore is started with its share of the argument and its subcores' windows of
    the result at the launch contents, and reports done with the windows at the rearrangement; a subcore likewise. -/
def P : (K (F := F)).Pay (nD := nD) (Val := Elt F) (Name := ℕ) (U := UU) where
  st := fun q d c => match q with | 0 => iprop(xCore m d (Fin.cast nCore_zero c) ∗ yCore d (Fin.cast nCore_zero c) (m (yLoc d)))
  dn := fun q d c => match q with | 0 => iprop(xCore m d (Fin.cast nCore_zero c) ∗ yCore d (Fin.cast nCore_zero c) (Gy m d))
  go := fun q d c i => match q with
    | 0 => iprop(xTile m d (Fin.cast nCore_zero c) (Fin.cast nSub_zero i) ∗ yTile d (Fin.cast nCore_zero c) (Fin.cast nSub_zero i) (m (yLoc d)))
  td := fun q d c i => match q with
    | 0 => iprop(xTile m d (Fin.cast nCore_zero c) (Fin.cast nSub_zero i) ∗ yTile d (Fin.cast nCore_zero c) (Fin.cast nSub_zero i) (Gy m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## A subcore's names -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The SparseCore and the subcore of a grid point, as numbers below 2 and 16. -/
abbrev cL (L : grid0.Coords) : Fin 2 := Fin.cast bound_zero (L 0)
abbrev iL (L : grid0.Coords) : Fin 16 := Fin.cast bound_one (L 1)

/-- The kernel's memrefs, as the body table passes them. -/
abbrev xV : Memref sig .scVector .hbm S2x32x64x64x64 .f32 := Memref.whole main_arg0_scv
abbrev yV : Memref sig .scVector .hbm S2x256x32x32x32 .f32 := Memref.whole main_v0_scv
abbrev sIn : Memref sig .scVector .vmem S3x2x64x64 .f32 := Memref.whole cc0_scratch0
abbrev sOut : Memref sig .scVector .vmem S2x8x32x32 .f32 := Memref.whole cc0_scratch1

end Cert.Proof.KB

end
-- ==== Proof.ComputeLibK.lean ====
/-
  The program as printed, read at the instance where a float is the 32-bit word that stores it. The program is the
  same text as the one read at the exact instance, so what follows is the same argument over this program's names.

  The arithmetic of one unit's rearrangement, inside a subcore's scratch memory.

  A unit's two argument rows arrive in one slot of the input ring, an array `A` over [2, 64, 64] (row p, column,
  depth). The unit's eight result planes are assembled in one slot of the output ring, an array over [8, 32, 32]
  inside the ring [2, 8, 32, 32]: plane `4·p + 2·q + r` at (w, z) is `A (p, 2·w + q, 2·z + r)` — the index map
  `gidx`. The body fills the slot sixteen entries at a time: trip `v < 64` of its loop writes, in each of the
  eight planes, the entries (w, z) with `2·w + z / 16 = v` — ROW `v` of the slot, `rowOf`. So after `k` trips
  the rows below `k` hold their final values (`Done`), whatever the rest holds, and one trip's eight stores take
  `Done k` to `Done (k + 1)`: the stores lie in row `k`, cover it, and each stored entry is `A ∘ gidx` there.
-/
import proofs.«209385_g40939628265708_retrytranche2_1889_20_alg».proof.Proof.IfaceK
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

/-- A subcore's thread, and the slots of its two rings as the body slices them: three input slots of two argument
    rows each, two output slots of eight result planes each. -/
abbrev thrV (d : Dev nD) (L : grid0.Coords) : Thread nD τ := V d (cV L) (jV L)
abbrev inSlot0 : Memref sig .scVector .vmem S2x64x64 .f32 := ((sIn : Memref sig .scVector .vmem S3x2x64x64 .f32).slice (Rect.unit (s := S3x2x64x64) ![0, 0, 0, 0] S1x2x64x64.size inb_S3x2x64x64_S1x2x64x64_0_0_0_0) (fun _ => rfl)).squeeze S2x64x64 squeezes_S1x2x64x64_S2x64x64
abbrev inSlot1 : Memref sig .scVector .vmem S2x64x64 .f32 := ((sIn : Memref sig .scVector .vmem S3x2x64x64 .f32).slice (Rect.unit (s := S3x2x64x64) ![1, 0, 0, 0] S1x2x64x64.size inb_S3x2x64x64_S1x2x64x64_1_0_0_0) (fun _ => rfl)).squeeze S2x64x64 squeezes_S1x2x64x64_S2x64x64
abbrev inSlot2 : Memref sig .scVector .vmem S2x64x64 .f32 := ((sIn : Memref sig .scVector .vmem S3x2x64x64 .f32).slice (Rect.unit (s := S3x2x64x64) ![2, 0, 0, 0] S1x2x64x64.size inb_S3x2x64x64_S1x2x64x64_2_0_0_0) (fun _ => rfl)).squeeze S2x64x64 squeezes_S1x2x64x64_S2x64x64
abbrev outSlot0 : Memref sig .scVector .vmem S8x32x32 .f32 := ((sOut : Memref sig .scVector .vmem S2x8x32x32 .f32).slice (Rect.unit (s := S2x8x32x32) ![0, 0, 0, 0] S1x8x32x32.size inb_S2x8x32x32_S1x8x32x32_0_0_0_0) (fun _ => rfl)).squeeze S8x32x32 squeezes_S1x8x32x32_S8x32x32
abbrev outSlot1 : Memref sig .scVector .vmem S8x32x32 .f32 := ((sOut : Memref sig .scVector .vmem S2x8x32x32 .f32).slice (Rect.unit (s := S2x8x32x32) ![1, 0, 0, 0] S1x8x32x32.size inb_S2x8x32x32_S1x8x32x32_1_0_0_0) (fun _ => rfl)).squeeze S8x32x32 squeezes_S1x8x32x32_S8x32x32

/-- Where entry `y = (slot, plane, w, z)` of the output ring comes from in the unit's input slot:
    (plane / 4, 2·w + plane / 2 % 2, 2·z + plane % 2). -/
def gidx (y : S2x8x32x32.Idx) : S2x64x64.Idx :=
  ix3 (⟨(y 1).val / 4, by have := (y 1).isLt; simp at this; omega⟩ : Fin 2)
    (⟨2 * (y 2).val + (y 1).val / 2 % 2, by have := (y 2).isLt; simp at this; omega⟩ : Fin 64)
    (⟨2 * (y 3).val + (y 1).val % 2, by have := (y 3).isLt; simp at this; omega⟩ : Fin 64)

/-- The loop trip that writes entry `y`: `2·w + z / 16`. -/
def rowOf (y : S2x8x32x32.Idx) : Nat := 2 * (y 2).val + (y 3).val / 16

/-- Rows below `k` of slot `jo` of the output ring hold the rearrangement of `A`. -/
def Done {α : Type} (jo k : Nat) (A : S2x64x64.Idx → α) (fo : S2x8x32x32.Idx → α) : Prop :=
  ∀ y : S2x8x32x32.Idx, (y 0).val = jo → rowOf y < k → fo y = A (gidx y)

theorem done_zero {α : Type} (jo : Nat) (A : S2x64x64.Idx → α) (fo : S2x8x32x32.Idx → α) : Done jo 0 A fo :=
  fun _ _ h => absurd h (Nat.not_lt_zero _)

/-- Stores that all lie in row `k` of slot `jo`, cover that row, and each hold `A ∘ gidx` where they land, take
    `Done k` to `Done (k + 1)`: an entry of row `k` reads the store that covers it, an entry of an earlier row is
    under no store and keeps what it held. -/
theorem done_step (jo k : Nat) (A : S2x64x64.Idx → Elt F .f32) (f : S2x8x32x32.Idx → Elt F .f32)
    (L : List (View.Piece (Elt F) S2x8x32x32 .f32))
    (hrow : ∀ p ∈ L, ∀ y ∈ p.1.set, (y 0).val = jo ∧ rowOf y = k)
    (hagree : ∀ p ∈ L, ∀ x : p.1.shape.Idx, p.2 x = A (gidx (p.1.emb x)))
    (hcover : ∀ y : S2x8x32x32.Idx, (y 0).val = jo → rowOf y = k → ∃ p ∈ L, y ∈ p.1.set)
    (hD : Done jo k A f) :
    Done jo (k + 1) A ((sOut : Memref sig .scVector .vmem S2x8x32x32 .f32).view.writes (Elt F) f L) := by
  intro y hy hr
  by_cases hk : rowOf y = k
  · exact View.read_writes_apply_of_pieces (sOut : Memref sig .scVector .vmem S2x8x32x32 .f32).view f (fun y => A (gidx y)) L hagree y (hcover y hy hk)
  · have hlt : rowOf y < k := by omega
    have hnot : ∀ p ∈ L, y ∉ p.1.set := fun p hp hm => hk (hrow p hp y hm).2
    exact (View.read_writes_apply_of_forall_not_mem (sOut : Memref sig .scVector .vmem S2x8x32x32 .f32).view f y L hnot).trans (hD y hy hlt)

/-- `done_step` for the eight stores of one trip, stated of the chain of writes as the stores leave it (the first
    store innermost). -/
theorem done_step8 (jo k : Nat) (A : S2x64x64.Idx → Elt F .f32) (f : S2x8x32x32.Idx → Elt F .f32)
    (R1 R2 R3 R4 R5 R6 R7 R8 : Rect S2x8x32x32)
    (w1 : R1.shape.Idx → Elt F .f32) (w2 : R2.shape.Idx → Elt F .f32) (w3 : R3.shape.Idx → Elt F .f32) (w4 : R4.shape.Idx → Elt F .f32)
    (w5 : R5.shape.Idx → Elt F .f32) (w6 : R6.shape.Idx → Elt F .f32) (w7 : R7.shape.Idx → Elt F .f32) (w8 : R8.shape.Idx → Elt F .f32)
    (r1 : ∀ y ∈ R1.set, (y 0).val = jo ∧ rowOf y = k) (r2 : ∀ y ∈ R2.set, (y 0).val = jo ∧ rowOf y = k)
    (r3 : ∀ y ∈ R3.set, (y 0).val = jo ∧ rowOf y = k) (r4 : ∀ y ∈ R4.set, (y 0).val = jo ∧ rowOf y = k)
    (r5 : ∀ y ∈ R5.set, (y 0).val = jo ∧ rowOf y = k) (r6 : ∀ y ∈ R6.set, (y 0).val = jo ∧ rowOf y = k)
    (r7 : ∀ y ∈ R7.set, (y 0).val = jo ∧ rowOf y = k) (r8 : ∀ y ∈ R8.set, (y 0).val = jo ∧ rowOf y = k)
    (a1 : ∀ x, w1 x = A (gidx (R1.emb x))) (a2 : ∀ x, w2 x = A (gidx (R2.emb x))) (a3 : ∀ x, w3 x = A (gidx (R3.emb x)))
    (a4 : ∀ x, w4 x = A (gidx (R4.emb x))) (a5 : ∀ x, w5 x = A (gidx (R5.emb x))) (a6 : ∀ x, w6 x = A (gidx (R6.emb x)))
    (a7 : ∀ x, w7 x = A (gidx (R7.emb x))) (a8 : ∀ x, w8 x = A (gidx (R8.emb x)))
    (hcover : ∀ y : S2x8x32x32.Idx, (y 0).val = jo → rowOf y = k →
      y ∈ R1.set ∨ y ∈ R2.set ∨ y ∈ R3.set ∨ y ∈ R4.set ∨ y ∈ R5.set ∨ y ∈ R6.set ∨ y ∈ R7.set ∨ y ∈ R8.set)
    (hD : Done jo k A f) :
    Done jo (k + 1) A
      (View.write (Elt F) ((sOut : Memref sig .scVector .vmem S2x8x32x32 .f32).access R8)
        (View.write (Elt F) ((sOut : Memref sig .scVector .vmem S2x8x32x32 .f32).access R7)
          (View.write (Elt F) ((sOut : Memref sig .scVector .vmem S2x8x32x32 .f32).access R6)
            (View.write (Elt F) ((sOut : Memref sig .scVector .vmem S2x8x32x32 .f32).access R5)
              (View.write (Elt F) ((sOut : Memref sig .scVector .vmem S2x8x32x32 .f32).access R4)
                (View.write (Elt F) ((sOut : Memref sig .scVector .vmem S2x8x32x32 .f32).access R3)
                  (View.write (Elt F) ((sOut : Memref sig .scVector .vmem S2x8x32x32 .f32).access R2)
                    (View.write (Elt F) ((sOut : Memref sig .scVector .vmem S2x8x32x32 .f32).access R1) f w1 Finset.univ)
                    w2 Finset.univ) w3 Finset.univ) w4 Finset.univ) w5 Finset.univ) w6 Finset.univ) w7 Finset.univ) w8 Finset.univ) := by
  refine done_step jo k A f [⟨R8, w8⟩, ⟨R7, w7⟩, ⟨R6, w6⟩, ⟨R5, w5⟩, ⟨R4, w4⟩, ⟨R3, w3⟩, ⟨R2, w2⟩, ⟨R1, w1⟩] ?_ ?_ ?_ hD
  · intro p hp
    simp only [List.mem_cons, List.mem_nil_iff, or_false] at hp
    rcases hp with rfl | rfl | rfl | rfl | rfl | rfl | rfl | rfl
    exacts [r8, r7, r6, r5, r4, r3, r2, r1]
  · intro p hp
    simp only [List.mem_cons, List.mem_nil_iff, or_false] at hp
    rcases hp with rfl | rfl | rfl | rfl | rfl | rfl | rfl | rfl
    exacts [a8, a7, a6, a5, a4, a3, a2, a1]
  · intro y h0 hr
    rcases hcover y h0 hr with h | h | h | h | h | h | h | h
    · exact ⟨⟨R1, w1⟩, by simp, h⟩
    · exact ⟨⟨R2, w2⟩, by simp, h⟩
    · exact ⟨⟨R3, w3⟩, by simp, h⟩
    · exact ⟨⟨R4, w4⟩, by simp, h⟩
    · exact ⟨⟨R5, w5⟩, by simp, h⟩
    · exact ⟨⟨R6, w6⟩, by simp, h⟩
    · exact ⟨⟨R7, w7⟩, by simp, h⟩
    · exact ⟨⟨R8, w8⟩, by simp, h⟩

/-- A store of sixteen entries at (slot `jo`, plane `kk`, `k / 2`, `16·(k % 2)`) lies in row `k` of plane `kk`. -/
theorem piece_row (jo kk k : Nat) (off : Fin 4 → Nat) (hoff : ∀ a, off a = (![jo, kk, k / 2, 16 * (k % 2)] : Fin 4 → Nat) a)
    (inb : ∀ a, off a + S1x1x1x16.size a ≤ S2x8x32x32.size a) (y : S2x8x32x32.Idx)
    (hy : y ∈ (Rect.unit (s := S2x8x32x32) off S1x1x1x16.size inb).set) : (y 0).val = jo ∧ (y 1).val = kk ∧ rowOf y = k := by
  rw [Rect.mem_set_unit] at hy
  have h0 := hy 0; have h1 := hy 1; have h2 := hy 2; have h3 := hy 3
  rw [hoff] at h0 h1 h2 h3
  simp at h0 h1 h2 h3
  unfold rowOf
  refine ⟨by omega, by omega, by omega⟩

/-- and every entry of row `k` of plane `kk` of slot `jo` lies in it. -/
theorem piece_cover (jo kk k : Nat) (off : Fin 4 → Nat) (hoff : ∀ a, off a = (![jo, kk, k / 2, 16 * (k % 2)] : Fin 4 → Nat) a)
    (inb : ∀ a, off a + S1x1x1x16.size a ≤ S2x8x32x32.size a) (y : S2x8x32x32.Idx)
    (h0 : (y 0).val = jo) (h1 : (y 1).val = kk) (hr : rowOf y = k) :
    y ∈ (Rect.unit (s := S2x8x32x32) off S1x1x1x16.size inb).set := by
  rw [Rect.mem_set_unit]
  unfold rowOf at hr
  have hy3 := (y 3).isLt; simp at hy3
  intro a
  rw [hoff]
  match a with
  | ⟨0, _⟩ => simp; omega
  | ⟨1, _⟩ => simp; omega
  | ⟨2, _⟩ => simp; omega
  | ⟨3, _⟩ => simp; omega

/-- The sixteen entries gathered at the index vectors (`kk / 4`, `2·(k / 2) + kk / 2 % 2`, `2·(16·(k % 2) + lane) + kk % 2`)
    and stored at (slot `jo`, plane `kk`, `k / 2`, `16·(k % 2) + lane`) are `A ∘ gidx` where they land. -/
theorem piece_agree (A : Vec F S2x64x64 .f32) (idxs : Fin 3 → IVec S16 32) (h : ∀ a x, (idxs a x).toNat < S2x64x64.size a)
    (hsc : S16.ShapeCasts S1x1x1x16) (jo kk k : Nat) (off : Fin 4 → Nat)
    (hoff : ∀ a, off a = (![jo, kk, k / 2, 16 * (k % 2)] : Fin 4 → Nat) a)
    (inb : ∀ a, off a + S1x1x1x16.size a ≤ S2x8x32x32.size a)
    (h0 : ∀ l : S16.Idx, (idxs 0 l).toNat = kk / 4)
    (h1 : ∀ l : S16.Idx, (idxs 1 l).toNat = 2 * (k / 2) + kk / 2 % 2)
    (h2 : ∀ l : S16.Idx, (idxs 2 l).toNat = 2 * (16 * (k % 2) + (l 0).val) + kk % 2)
    (x : (Rect.unit (s := S2x8x32x32) off S1x1x1x16.size inb).shape.Idx) :
    shapeCast S1x1x1x16 (loadIdx A idxs h) hsc x = A (gidx ((Rect.unit (s := S2x8x32x32) off S1x1x1x16.size inb).emb x)) := by
  have hx0 : (x 0).val = 0 := by have := (x 0).isLt; simp at this; omega
  have hx1 : (x 1).val = 0 := by have := (x 1).isLt; simp at this; omega
  have hx2 : (x 2).val = 0 := by have := (x 2).isLt; simp at this; omega
  have hx : shapeCast S1x1x1x16 (loadIdx A idxs h) hsc x = loadIdx A idxs h (ix1 (⟨(x 3).val, (x 3).isLt⟩ : Fin 16)) :=
    shapeCast_apply (loadIdx A idxs h) hsc x _ (by
      rw [Shape.rowMajor_val_one, Shape.rowMajor_val_four]
      show _ = (((x 0).val * 1 + (x 1).val) * 1 + (x 2).val) * 16 + (x 3).val
      rw [hx0, hx1, hx2]; simp)
  rw [hx]
  unfold loadIdx
  refine congrArg A (funext fun a => Fin.ext ?_)
  have e1 : (((Rect.unit (s := S2x8x32x32) off S1x1x1x16.size inb).emb x 1 : Fin _) : Nat) = kk + (x 1).val := by
    rw [Rect.emb_apply, Rect.off_unit, Rect.stride_unit, Nat.one_mul, hoff]; rfl
  have e2 : (((Rect.unit (s := S2x8x32x32) off S1x1x1x16.size inb).emb x 2 : Fin _) : Nat) = k / 2 + (x 2).val := by
    rw [Rect.emb_apply, Rect.off_unit, Rect.stride_unit, Nat.one_mul, hoff]; rfl
  have e3 : (((Rect.unit (s := S2x8x32x32) off S1x1x1x16.size inb).emb x 3 : Fin _) : Nat) = 16 * (k % 2) + (x 3).val := by
    rw [Rect.emb_apply, Rect.off_unit, Rect.stride_unit, Nat.one_mul, hoff]; rfl
  match a with
  | ⟨0, _⟩ =>
    show (idxs 0 _).toNat = (((Rect.unit (s := S2x8x32x32) off S1x1x1x16.size inb).emb x 1 : Fin _) : Nat) / 4
    rw [h0, e1, hx1]; simp
  | ⟨1, _⟩ =>
    show (idxs 1 _).toNat = 2 * (((Rect.unit (s := S2x8x32x32) off S1x1x1x16.size inb).emb x 2 : Fin _) : Nat) + (((Rect.unit (s := S2x8x32x32) off S1x1x1x16.size inb).emb x 1 : Fin _) : Nat) / 2 % 2
    rw [h1, e1, e2, hx1, hx2]; simp
  | ⟨2, _⟩ =>
    show (idxs 2 _).toNat = 2 * (((Rect.unit (s := S2x8x32x32) off S1x1x1x16.size inb).emb x 3 : Fin _) : Nat) + (((Rect.unit (s := S2x8x32x32) off S1x1x1x16.size inb).emb x 1 : Fin _) : Nat) % 2
    rw [h2, e1, e3, hx1]; simp [ix1]

end Cert.Proof.KB

end
-- ==== Proof.OffsetsK.lean ====
/-
  The program as printed, read at the instance where a float is the 32-bit word that stores it. The program is the
  same text as the one read at the exact instance, so what follows is the same argument over this program's names.

  Closed forms of the kernel's integer chains.

  The kernel runs on 32 workers — grid point i = (core, subcore), worker w = 2·subcore + core — and cuts the
  work into 2048 units, 64 per worker: unit u = 64·w + t is the pair (batch, channel) = (u / 1024, u % 1024 / 32)
  together with the row pair 2·(u % 32), 2·(u % 32) + 1 of the first spatial axis. Its source window in the
  argument starts at [u / 1024, u % 1024 / 32, 2·(u % 32), 0, 0], and its destination window in the result (the
  eight channels 8·c … 8·c + 7 at row u % 32) at [u / 1024, 8·(u % 1024 / 32), u % 32, 0, 0]. The kernel computes
  these offsets in 32-bit words by floor-division chains (a signed quotient corrected by the signs, a signed
  remainder corrected by the signs); at every grid point, every trip of the main loop and every literal
  parameter the chains meet, no word overflows and the chain's value is the natural-number expression. Each
  equation below is checked by evaluating both sides at every point of its finite domain.

  The local unit number t is a literal outside the main loop (0, 1, 2 and 63 fetched; 60 … 63 written back), and
  6·k + j in trip k of the main loop (units 6·k … 6·k + 5 written back, units
  6·k + 3 … 6·k + 8 fetched ahead; the guard 6·k + j < 61 of each fetch holds at every one of the 10 trips).

  The inner loops (64 trips each) address the staging buffer of the result at [slot, m, v / 2, 16·(v % 2)] in
  trip v: slot ∈ {0, 1} the half of the double buffer, m ∈ {0, …, 7} the channel within the group of eight.
-/
import proofs.«209385_g40939628265708_retrytranche2_1889_20_alg».proof.Proof.Gen.Kernel

set_option Elab.async false
set_option maxRecDepth 100000
set_option maxHeartbeats 4000000

namespace Cert.Proof.KB.Off

open Cert.Kernel Cert.Kernel.Gen Idealize.ShloMosaic

/-! ## Units and their windows -/

/-- Unit number t (0 ≤ t < 64) of the worker at grid point i = (core, subcore): 64·(2·subcore + core) + t. -/
abbrev unitOf (i : grid0.Coords) (t : Nat) : Nat := 64 * (2 * (i 1).val + (i 0).val) + t

/-- Where unit u's source window starts in the argument over [2, 32, 64, 64, 64]. -/
abbrev srcOff (u : Nat) : Fin 5 → Nat := ![u / 1024, u % 1024 / 32, 2 * (u % 32), 0, 0]

/-- Where unit u's destination window starts in the result over [2, 256, 32, 32, 32]. -/
abbrev dstOff (u : Nat) : Fin 5 → Nat := ![u / 1024, 8 * (u % 1024 / 32), u % 32, 0, 0]

/-- Where trip v of an inner loop addresses the staging buffer over [2, 8, 32, 32]: half `slot`, channel m,
    row v / 2, column 16·(v % 2). -/
abbrev stageOff (slot m v : Nat) : Fin 4 → Nat := ![slot, m, v / 2, 16 * (v % 2)]

/-- A worker's 64 units lie among the 2048. -/
theorem unitOf_lt (i : grid0.Coords) {t : Nat} (ht : t < 64) : unitOf i t < 2048 := by
  have h0 : (i 0).val < 2 := (i 0).isLt
  have h1 : (i 1).val < 16 := (i 1).isLt
  show 64 * (2 * (i 1).val + (i 0).val) + t < 2048
  omega

/-! ## Trip counts -/

/-- The main loop has 10 trips. -/
theorem t1_trips : k0_t1_loop.trips = 10 := by decide +kernel
/-- An inner loop has 64 trips. -/
theorem t2_trips : k0_t2_loop.trips = 64 := by decide +kernel
/-- An inner loop has 64 trips. -/
theorem t3_trips : k0_t3_loop.trips = 64 := by decide +kernel
/-- An inner loop has 64 trips. -/
theorem t4_trips : k0_t4_loop.trips = 64 := by decide +kernel
/-- An inner loop has 64 trips. -/
theorem t5_trips : k0_t5_loop.trips = 64 := by decide +kernel
/-- An inner loop has 64 trips. -/
theorem t6_trips : k0_t6_loop.trips = 64 := by decide +kernel
/-- An inner loop has 64 trips. -/
theorem t7_trips : k0_t7_loop.trips = 64 := by decide +kernel
/-- An inner loop has 64 trips. -/
theorem t8_trips : k0_t8_loop.trips = 64 := by decide +kernel
/-- An inner loop has 64 trips. -/
theorem t9_trips : k0_t9_loop.trips = 64 := by decide +kernel
/-- An inner loop has 64 trips. -/
theorem t10_trips : k0_t10_loop.trips = 64 := by decide +kernel
/-- An inner loop has 64 trips. -/
theorem t11_trips : k0_t11_loop.trips = 64 := by decide +kernel

/-! ## The guards of the fetches in the main loop -/

/-- The guard 6·k + 0 < 61 holds at every trip k < 10. -/
theorem cond2_eq : ∀ t : Fin k0_t1_loop.trips, k0_cond2 t = 1#1 := by decide +kernel
/-- The guard 6·k + 1 < 61 holds at every trip k < 10. -/
theorem cond4_eq : ∀ t : Fin k0_t1_loop.trips, k0_cond4 t = 1#1 := by decide +kernel
/-- The guard 6·k + 2 < 61 holds at every trip k < 10. -/
theorem cond6_eq : ∀ t : Fin k0_t1_loop.trips, k0_cond6 t = 1#1 := by decide +kernel
/-- The guard 6·k + 3 < 61 holds at every trip k < 10. -/
theorem cond8_eq : ∀ t : Fin k0_t1_loop.trips, k0_cond8 t = 1#1 := by decide +kernel
/-- The guard 6·k + 4 < 61 holds at every trip k < 10. -/
theorem cond10_eq : ∀ t : Fin k0_t1_loop.trips, k0_cond10 t = 1#1 := by decide +kernel
/-- The guard 6·k + 5 < 61 holds at every trip k < 10. -/
theorem cond12_eq : ∀ t : Fin k0_t1_loop.trips, k0_cond12 t = 1#1 := by decide +kernel

/-! ## Source windows -/

/-- The literal unit numbers of the fetches outside the main loop. -/
theorem off1_at_toNat : ∀ r : Fin 4, (k0_off1_at r).toNat = (![0, 1, 2, 63] : Fin 4 → Nat) r := by decide +kernel

/-- Prologue and tail fetches: unit t ∈ {0, 1, 2, 63} of the worker. -/
theorem off1_eq (i : grid0.Coords) (r : Fin 4) :
    k0_off1 i (k0_off1_at r) = srcOff (unitOf i ((![0, 1, 2, 63] : Fin 4 → Nat) r)) :=
  funext fun a => (by decide +kernel : ∀ (i : grid0.Coords) (r : Fin 4) (a : Fin 5),
    k0_off1 i (k0_off1_at r) a = srcOff (unitOf i ((![0, 1, 2, 63] : Fin 4 → Nat) r)) a) i r a

/-- The same at each literal parameter, as the program spells it. -/
theorem off1_eq_0 (i : grid0.Coords) : k0_off1 i 0#32 = srcOff (unitOf i 0) := off1_eq i 0
theorem off1_eq_1 (i : grid0.Coords) : k0_off1 i 1#32 = srcOff (unitOf i 1) := off1_eq i 1
theorem off1_eq_2 (i : grid0.Coords) : k0_off1 i 2#32 = srcOff (unitOf i 2) := off1_eq i 2
theorem off1_eq_63 (i : grid0.Coords) : k0_off1 i 63#32 = srcOff (unitOf i 63) := off1_eq i 3

/-- A fetch in trip k of the main loop: unit 6·k + 3 of the worker. -/
theorem off11_eq (i : grid0.Coords) (t : Fin k0_t1_loop.trips) : k0_off11 i t = srcOff (unitOf i (6 * t.val + 3)) :=
  funext fun a => (by decide +kernel : ∀ (i : grid0.Coords) (t : Fin k0_t1_loop.trips) (a : Fin 5),
    k0_off11 i t a = srcOff (unitOf i (6 * t.val + 3)) a) i t a

/-- A fetch in trip k of the main loop: unit 6·k + 4 of the worker. -/
theorem off20_eq (i : grid0.Coords) (t : Fin k0_t1_loop.trips) : k0_off20 i t = srcOff (unitOf i (6 * t.val + 4)) :=
  funext fun a => (by decide +kernel : ∀ (i : grid0.Coords) (t : Fin k0_t1_loop.trips) (a : Fin 5),
    k0_off20 i t a = srcOff (unitOf i (6 * t.val + 4)) a) i t a

/-- A fetch in trip k of the main loop: unit 6·k + 5 of the worker. -/
theorem off29_eq (i : grid0.Coords) (t : Fin k0_t1_loop.trips) : k0_off29 i t = srcOff (unitOf i (6 * t.val + 5)) :=
  funext fun a => (by decide +kernel : ∀ (i : grid0.Coords) (t : Fin k0_t1_loop.trips) (a : Fin 5),
    k0_off29 i t a = srcOff (unitOf i (6 * t.val + 5)) a) i t a

/-- A fetch in trip k of the main loop: unit 6·k + 6 of the worker. -/
theorem off38_eq (i : grid0.Coords) (t : Fin k0_t1_loop.trips) : k0_off38 i t = srcOff (unitOf i (6 * t.val + 6)) :=
  funext fun a => (by decide +kernel : ∀ (i : grid0.Coords) (t : Fin k0_t1_loop.trips) (a : Fin 5),
    k0_off38 i t a = srcOff (unitOf i (6 * t.val + 6)) a) i t a

/-- A fetch in trip k of the main loop: unit 6·k + 7 of the worker. -/
theorem off47_eq (i : grid0.Coords) (t : Fin k0_t1_loop.trips) : k0_off47 i t = srcOff (unitOf i (6 * t.val + 7)) :=
  funext fun a => (by decide +kernel : ∀ (i : grid0.Coords) (t : Fin k0_t1_loop.trips) (a : Fin 5),
    k0_off47 i t a = srcOff (unitOf i (6 * t.val + 7)) a) i t a

/-- A fetch in trip k of the main loop: unit 6·k + 8 of the worker. -/
theorem off56_eq (i : grid0.Coords) (t : Fin k0_t1_loop.trips) : k0_off56 i t = srcOff (unitOf i (6 * t.val + 8)) :=
  funext fun a => (by decide +kernel : ∀ (i : grid0.Coords) (t : Fin k0_t1_loop.trips) (a : Fin 5),
    k0_off56 i t a = srcOff (unitOf i (6 * t.val + 8)) a) i t a

/-! ## Destination windows -/

/-- A write-back in trip k of the main loop, at each literal parameter r < 6 as the program spells it: unit
    6·k + r of the worker. -/
theorem off10_eq_0 (i : grid0.Coords) (t : Fin k0_t1_loop.trips) : k0_off10 i t 0#32 = dstOff (unitOf i (6 * t.val + 0)) :=
  funext fun a => (by decide +kernel : ∀ (i : grid0.Coords) (t : Fin k0_t1_loop.trips) (a : Fin 5),
    k0_off10 i t 0#32 a = dstOff (unitOf i (6 * t.val + 0)) a) i t a
theorem off10_eq_1 (i : grid0.Coords) (t : Fin k0_t1_loop.trips) : k0_off10 i t 1#32 = dstOff (unitOf i (6 * t.val + 1)) :=
  funext fun a => (by decide +kernel : ∀ (i : grid0.Coords) (t : Fin k0_t1_loop.trips) (a : Fin 5),
    k0_off10 i t 1#32 a = dstOff (unitOf i (6 * t.val + 1)) a) i t a
theorem off10_eq_2 (i : grid0.Coords) (t : Fin k0_t1_loop.trips) : k0_off10 i t 2#32 = dstOff (unitOf i (6 * t.val + 2)) :=
  funext fun a => (by decide +kernel : ∀ (i : grid0.Coords) (t : Fin k0_t1_loop.trips) (a : Fin 5),
    k0_off10 i t 2#32 a = dstOff (unitOf i (6 * t.val + 2)) a) i t a
theorem off10_eq_3 (i : grid0.Coords) (t : Fin k0_t1_loop.trips) : k0_off10 i t 3#32 = dstOff (unitOf i (6 * t.val + 3)) :=
  funext fun a => (by decide +kernel : ∀ (i : grid0.Coords) (t : Fin k0_t1_loop.trips) (a : Fin 5),
    k0_off10 i t 3#32 a = dstOff (unitOf i (6 * t.val + 3)) a) i t a
theorem off10_eq_4 (i : grid0.Coords) (t : Fin k0_t1_loop.trips) : k0_off10 i t 4#32 = dstOff (unitOf i (6 * t.val + 4)) :=
  funext fun a => (by decide +kernel : ∀ (i : grid0.Coords) (t : Fin k0_t1_loop.trips) (a : Fin 5),
    k0_off10 i t 4#32 a = dstOff (unitOf i (6 * t.val + 4)) a) i t a
theorem off10_eq_5 (i : grid0.Coords) (t : Fin k0_t1_loop.trips) : k0_off10 i t 5#32 = dstOff (unitOf i (6 * t.val + 5)) :=
  funext fun a => (by decide +kernel : ∀ (i : grid0.Coords) (t : Fin k0_t1_loop.trips) (a : Fin 5),
    k0_off10 i t 5#32 a = dstOff (unitOf i (6 * t.val + 5)) a) i t a

/-- The same for a parameter r < 6 given as a number. -/
theorem off10_eq (i : grid0.Coords) (t : Fin k0_t1_loop.trips) (r : Fin 6) :
    k0_off10 i t (BitVec.ofNat 32 r.val) = dstOff (unitOf i (6 * t.val + r.val)) :=
  match r with
  | ⟨0, _⟩ => off10_eq_0 i t
  | ⟨1, _⟩ => off10_eq_1 i t
  | ⟨2, _⟩ => off10_eq_2 i t
  | ⟨3, _⟩ => off10_eq_3 i t
  | ⟨4, _⟩ => off10_eq_4 i t
  | ⟨5, _⟩ => off10_eq_5 i t

/-- A write-back in the tail: unit 60 + r of the worker, r < 4. -/
theorem off65_eq (i : grid0.Coords) (r : Fin 4) :
    k0_off65 i (BitVec.ofNat 32 (60 + r.val)) = dstOff (unitOf i (60 + r.val)) :=
  funext fun a => (by decide +kernel : ∀ (i : grid0.Coords) (r : Fin 4) (a : Fin 5),
    k0_off65 i (BitVec.ofNat 32 (60 + r.val)) a = dstOff (unitOf i (60 + r.val)) a) i r a

/-- The same at each literal parameter, as the program spells it. -/
theorem off65_eq_60 (i : grid0.Coords) : k0_off65 i 60#32 = dstOff (unitOf i 60) := off65_eq i 0
theorem off65_eq_61 (i : grid0.Coords) : k0_off65 i 61#32 = dstOff (unitOf i 61) := off65_eq i 1
theorem off65_eq_62 (i : grid0.Coords) : k0_off65 i 62#32 = dstOff (unitOf i 62) := off65_eq i 2
theorem off65_eq_63 (i : grid0.Coords) : k0_off65 i 63#32 = dstOff (unitOf i 63) := off65_eq i 3

/-! ## The staging buffer's addresses in the inner loops -/

/-- Inner loop 2, trip v: half 0, channel 0. -/
theorem off2_eq (v : Fin k0_t2_loop.trips) : k0_off2 v = stageOff 0 0 v.val :=
  funext fun a => (by decide +kernel : ∀ (v : Fin k0_t2_loop.trips) (a : Fin 4), k0_off2 v a = stageOff 0 0 v.val a) v a

/-- Inner loop 2, trip v: half 0, channel 1. -/
theorem off3_eq (v : Fin k0_t2_loop.trips) : k0_off3 v = stageOff 0 1 v.val :=
  funext fun a => (by decide +kernel : ∀ (v : Fin k0_t2_loop.trips) (a : Fin 4), k0_off3 v a = stageOff 0 1 v.val a) v a

/-- Inner loop 2, trip v: half 0, channel 2. -/
theorem off4_eq (v : Fin k0_t2_loop.trips) : k0_off4 v = stageOff 0 2 v.val :=
  funext fun a => (by decide +kernel : ∀ (v : Fin k0_t2_loop.trips) (a : Fin 4), k0_off4 v a = stageOff 0 2 v.val a) v a

/-- Inner loop 2, trip v: half 0, channel 3. -/
theorem off5_eq (v : Fin k0_t2_loop.trips) : k0_off5 v = stageOff 0 3 v.val :=
  funext fun a => (by decide +kernel : ∀ (v : Fin k0_t2_loop.trips) (a : Fin 4), k0_off5 v a = stageOff 0 3 v.val a) v a

/-- Inner loop 2, trip v: half 0, channel 4. -/
theorem off6_eq (v : Fin k0_t2_loop.trips) : k0_off6 v = stageOff 0 4 v.val :=
  funext fun a => (by decide +kernel : ∀ (v : Fin k0_t2_loop.trips) (a : Fin 4), k0_off6 v a = stageOff 0 4 v.val a) v a

/-- Inner loop 2, trip v: half 0, channel 5. -/
theorem off7_eq (v : Fin k0_t2_loop.trips) : k0_off7 v = stageOff 0 5 v.val :=
  funext fun a => (by decide +kernel : ∀ (v : Fin k0_t2_loop.trips) (a : Fin 4), k0_off7 v a = stageOff 0 5 v.val a) v a

/-- Inner loop 2, trip v: half 0, channel 6. -/
theorem off8_eq (v : Fin k0_t2_loop.trips) : k0_off8 v = stageOff 0 6 v.val :=
  funext fun a => (by decide +kernel : ∀ (v : Fin k0_t2_loop.trips) (a : Fin 4), k0_off8 v a = stageOff 0 6 v.val a) v a

/-- Inner loop 2, trip v: half 0, channel 7. -/
theorem off9_eq (v : Fin k0_t2_loop.trips) : k0_off9 v = stageOff 0 7 v.val :=
  funext fun a => (by decide +kernel : ∀ (v : Fin k0_t2_loop.trips) (a : Fin 4), k0_off9 v a = stageOff 0 7 v.val a) v a

/-- Inner loop 3, trip v: half 1, channel 0. -/
theorem off12_eq (v : Fin k0_t3_loop.trips) : k0_off12 v = stageOff 1 0 v.val :=
  funext fun a => (by decide +kernel : ∀ (v : Fin k0_t3_loop.trips) (a : Fin 4), k0_off12 v a = stageOff 1 0 v.val a) v a

/-- Inner loop 3, trip v: half 1, channel 1. -/
theorem off13_eq (v : Fin k0_t3_loop.trips) : k0_off13 v = stageOff 1 1 v.val :=
  funext fun a => (by decide +kernel : ∀ (v : Fin k0_t3_loop.trips) (a : Fin 4), k0_off13 v a = stageOff 1 1 v.val a) v a

/-- Inner loop 3, trip v: half 1, channel 2. -/
theorem off14_eq (v : Fin k0_t3_loop.trips) : k0_off14 v = stageOff 1 2 v.val :=
  funext fun a => (by decide +kernel : ∀ (v : Fin k0_t3_loop.trips) (a : Fin 4), k0_off14 v a = stageOff 1 2 v.val a) v a

/-- Inner loop 3, trip v: half 1, channel 3. -/
theorem off15_eq (v : Fin k0_t3_loop.trips) : k0_off15 v = stageOff 1 3 v.val :=
  funext fun a => (by decide +kernel : ∀ (v : Fin k0_t3_loop.trips) (a : Fin 4), k0_off15 v a = stageOff 1 3 v.val a) v a

/-- Inner loop 3, trip v: half 1, channel 4. -/
theorem off16_eq (v : Fin k0_t3_loop.trips) : k0_off16 v = stageOff 1 4 v.val :=
  funext fun a => (by decide +kernel : ∀ (v : Fin k0_t3_loop.trips) (a : Fin 4), k0_off16 v a = stageOff 1 4 v.val a) v a

/-- Inner loop 3, trip v: half 1, channel 5. -/
theorem off17_eq (v : Fin k0_t3_loop.trips) : k0_off17 v = stageOff 1 5 v.val :=
  funext fun a => (by decide +kernel : ∀ (v : Fin k0_t3_loop.trips) (a : Fin 4), k0_off17 v a = stageOff 1 5 v.val a) v a

/-- Inner loop 3, trip v: half 1, channel 6. -/
theorem off18_eq (v : Fin k0_t3_loop.trips) : k0_off18 v = stageOff 1 6 v.val :=
  funext fun a => (by decide +kernel : ∀ (v : Fin k0_t3_loop.trips) (a : Fin 4), k0_off18 v a = stageOff 1 6 v.val a) v a

/-- Inner loop 3, trip v: half 1, channel 7. -/
theorem off19_eq (v : Fin k0_t3_loop.trips) : k0_off19 v = stageOff 1 7 v.val :=
  funext fun a => (by decide +kernel : ∀ (v : Fin k0_t3_loop.trips) (a : Fin 4), k0_off19 v a = stageOff 1 7 v.val a) v a

/-- Inner loop 4, trip v: half 0, channel 0. -/
theorem off21_eq (v : Fin k0_t4_loop.trips) : k0_off21 v = stageOff 0 0 v.val :=
  funext fun a => (by decide +kernel : ∀ (v : Fin k0_t4_loop.trips) (a : Fin 4), k0_off21 v a = stageOff 0 0 v.val a) v a

/-- Inner loop 4, trip v: half 0, channel 1. -/
theorem off22_eq (v : Fin k0_t4_loop.trips) : k0_off22 v = stageOff 0 1 v.val :=
  funext fun a => (by decide +kernel : ∀ (v : Fin k0_t4_loop.trips) (a : Fin 4), k0_off22 v a = stageOff 0 1 v.val a) v a

/-- Inner loop 4, trip v: half 0, channel 2. -/
theorem off23_eq (v : Fin k0_t4_loop.trips) : k0_off23 v = stageOff 0 2 v.val :=
  funext fun a => (by decide +kernel : ∀ (v : Fin k0_t4_loop.trips) (a : Fin 4), k0_off23 v a = stageOff 0 2 v.val a) v a

/-- Inner loop 4, trip v: half 0, channel 3. -/
theorem off24_eq (v : Fin k0_t4_loop.trips) : k0_off24 v = stageOff 0 3 v.val :=
  funext fun a => (by decide +kernel : ∀ (v : Fin k0_t4_loop.trips) (a : Fin 4), k0_off24 v a = stageOff 0 3 v.val a) v a

/-- Inner loop 4, trip v: half 0, channel 4. -/
theorem off25_eq (v : Fin k0_t4_loop.trips) : k0_off25 v = stageOff 0 4 v.val :=
  funext fun a => (by decide +kernel : ∀ (v : Fin k0_t4_loop.trips) (a : Fin 4), k0_off25 v a = stageOff 0 4 v.val a) v a

/-- Inner loop 4, trip v: half 0, channel 5. -/
theorem off26_eq (v : Fin k0_t4_loop.trips) : k0_off26 v = stageOff 0 5 v.val :=
  funext fun a => (by decide +kernel : ∀ (v : Fin k0_t4_loop.trips) (a : Fin 4), k0_off26 v a = stageOff 0 5 v.val a) v a

/-- Inner loop 4, trip v: half 0, channel 6. -/
theorem off27_eq (v : Fin k0_t4_loop.trips) : k0_off27 v = stageOff 0 6 v.val :=
  funext fun a => (by decide +kernel : ∀ (v : Fin k0_t4_loop.trips) (a : Fin 4), k0_off27 v a = stageOff 0 6 v.val a) v a

/-- Inner loop 4, trip v: half 0, channel 7. -/
theorem off28_eq (v : Fin k0_t4_loop.trips) : k0_off28 v = stageOff 0 7 v.val :=
  funext fun a => (by decide +kernel : ∀ (v : Fin k0_t4_loop.trips) (a : Fin 4), k0_off28 v a = stageOff 0 7 v.val a) v a

/-- Inner loop 5, trip v: half 1, channel 0. -/
theorem off30_eq (v : Fin k0_t5_loop.trips) : k0_off30 v = stageOff 1 0 v.val :=
  funext fun a => (by decide +kernel : ∀ (v : Fin k0_t5_loop.trips) (a : Fin 4), k0_off30 v a = stageOff 1 0 v.val a) v a

/-- Inner loop 5, trip v: half 1, channel 1. -/
theorem off31_eq (v : Fin k0_t5_loop.trips) : k0_off31 v = stageOff 1 1 v.val :=
  funext fun a => (by decide +kernel : ∀ (v : Fin k0_t5_loop.trips) (a : Fin 4), k0_off31 v a = stageOff 1 1 v.val a) v a

/-- Inner loop 5, trip v: half 1, channel 2. -/
theorem off32_eq (v : Fin k0_t5_loop.trips) : k0_off32 v = stageOff 1 2 v.val :=
  funext fun a => (by decide +kernel : ∀ (v : Fin k0_t5_loop.trips) (a : Fin 4), k0_off32 v a = stageOff 1 2 v.val a) v a

/-- Inner loop 5, trip v: half 1, channel 3. -/
theorem off33_eq (v : Fin k0_t5_loop.trips) : k0_off33 v = stageOff 1 3 v.val :=
  funext fun a => (by decide +kernel : ∀ (v : Fin k0_t5_loop.trips) (a : Fin 4), k0_off33 v a = stageOff 1 3 v.val a) v a

/-- Inner loop 5, trip v: half 1, channel 4. -/
theorem off34_eq (v : Fin k0_t5_loop.trips) : k0_off34 v = stageOff 1 4 v.val :=
  funext fun a => (by decide +kernel : ∀ (v : Fin k0_t5_loop.trips) (a : Fin 4), k0_off34 v a = stageOff 1 4 v.val a) v a

/-- Inner loop 5, trip v: half 1, channel 5. -/
theorem off35_eq (v : Fin k0_t5_loop.trips) : k0_off35 v = stageOff 1 5 v.val :=
  funext fun a => (by decide +kernel : ∀ (v : Fin k0_t5_loop.trips) (a : Fin 4), k0_off35 v a = stageOff 1 5 v.val a) v a

/-- Inner loop 5, trip v: half 1, channel 6. -/
theorem off36_eq (v : Fin k0_t5_loop.trips) : k0_off36 v = stageOff 1 6 v.val :=
  funext fun a => (by decide +kernel : ∀ (v : Fin k0_t5_loop.trips) (a : Fin 4), k0_off36 v a = stageOff 1 6 v.val a) v a

/-- Inner loop 5, trip v: half 1, channel 7. -/
theorem off37_eq (v : Fin k0_t5_loop.trips) : k0_off37 v = stageOff 1 7 v.val :=
  funext fun a => (by decide +kernel : ∀ (v : Fin k0_t5_loop.trips) (a : Fin 4), k0_off37 v a = stageOff 1 7 v.val a) v a

/-- Inner loop 6, trip v: half 0, channel 0. -/
theorem off39_eq (v : Fin k0_t6_loop.trips) : k0_off39 v = stageOff 0 0 v.val :=
  funext fun a => (by decide +kernel : ∀ (v : Fin k0_t6_loop.trips) (a : Fin 4), k0_off39 v a = stageOff 0 0 v.val a) v a

/-- Inner loop 6, trip v: half 0, channel 1. -/
theorem off40_eq (v : Fin k0_t6_loop.trips) : k0_off40 v = stageOff 0 1 v.val :=
  funext fun a => (by decide +kernel : ∀ (v : Fin k0_t6_loop.trips) (a : Fin 4), k0_off40 v a = stageOff 0 1 v.val a) v a

/-- Inner loop 6, trip v: half 0, channel 2. -/
theorem off41_eq (v : Fin k0_t6_loop.trips) : k0_off41 v = stageOff 0 2 v.val :=
  funext fun a => (by decide +kernel : ∀ (v : Fin k0_t6_loop.trips) (a : Fin 4), k0_off41 v a = stageOff 0 2 v.val a) v a

/-- Inner loop 6, trip v: half 0, channel 3. -/
theorem off42_eq (v : Fin k0_t6_loop.trips) : k0_off42 v = stageOff 0 3 v.val :=
  funext fun a => (by decide +kernel : ∀ (v : Fin k0_t6_loop.trips) (a : Fin 4), k0_off42 v a = stageOff 0 3 v.val a) v a

/-- Inner loop 6, trip v: half 0, channel 4. -/
theorem off43_eq (v : Fin k0_t6_loop.trips) : k0_off43 v = stageOff 0 4 v.val :=
  funext fun a => (by decide +kernel : ∀ (v : Fin k0_t6_loop.trips) (a : Fin 4), k0_off43 v a = stageOff 0 4 v.val a) v a

/-- Inner loop 6, trip v: half 0, channel 5. -/
theorem off44_eq (v : Fin k0_t6_loop.trips) : k0_off44 v = stageOff 0 5 v.val :=
  funext fun a => (by decide +kernel : ∀ (v : Fin k0_t6_loop.trips) (a : Fin 4), k0_off44 v a = stageOff 0 5 v.val a) v a

/-- Inner loop 6, trip v: half 0, channel 6. -/
theorem off45_eq (v : Fin k0_t6_loop.trips) : k0_off45 v = stageOff 0 6 v.val :=
  funext fun a => (by decide +kernel : ∀ (v : Fin k0_t6_loop.trips) (a : Fin 4), k0_off45 v a = stageOff 0 6 v.val a) v a

/-- Inner loop 6, trip v: half 0, channel 7. -/
theorem off46_eq (v : Fin k0_t6_loop.trips) : k0_off46 v = stageOff 0 7 v.val :=
  funext fun a => (by decide +kernel : ∀ (v : Fin k0_t6_loop.trips) (a : Fin 4), k0_off46 v a = stageOff 0 7 v.val a) v a

/-- Inner loop 7, trip v: half 1, channel 0. -/
theorem off48_eq (v : Fin k0_t7_loop.trips) : k0_off48 v = stageOff 1 0 v.val :=
  funext fun a => (by decide +kernel : ∀ (v : Fin k0_t7_loop.trips) (a : Fin 4), k0_off48 v a = stageOff 1 0 v.val a) v a

/-- Inner loop 7, trip v: half 1, channel 1. -/
theorem off49_eq (v : Fin k0_t7_loop.trips) : k0_off49 v = stageOff 1 1 v.val :=
  funext fun a => (by decide +kernel : ∀ (v : Fin k0_t7_loop.trips) (a : Fin 4), k0_off49 v a = stageOff 1 1 v.val a) v a

/-- Inner loop 7, trip v: half 1, channel 2. -/
theorem off50_eq (v : Fin k0_t7_loop.trips) : k0_off50 v = stageOff 1 2 v.val :=
  funext fun a => (by decide +kernel : ∀ (v : Fin k0_t7_loop.trips) (a : Fin 4), k0_off50 v a = stageOff 1 2 v.val a) v a

/-- Inner loop 7, trip v: half 1, channel 3. -/
theorem off51_eq (v : Fin k0_t7_loop.trips) : k0_off51 v = stageOff 1 3 v.val :=
  funext fun a => (by decide +kernel : ∀ (v : Fin k0_t7_loop.trips) (a : Fin 4), k0_off51 v a = stageOff 1 3 v.val a) v a

/-- Inner loop 7, trip v: half 1, channel 4. -/
theorem off52_eq (v : Fin k0_t7_loop.trips) : k0_off52 v = stageOff 1 4 v.val :=
  funext fun a => (by decide +kernel : ∀ (v : Fin k0_t7_loop.trips) (a : Fin 4), k0_off52 v a = stageOff 1 4 v.val a) v a

/-- Inner loop 7, trip v: half 1, channel 5. -/
theorem off53_eq (v : Fin k0_t7_loop.trips) : k0_off53 v = stageOff 1 5 v.val :=
  funext fun a => (by decide +kernel : ∀ (v : Fin k0_t7_loop.trips) (a : Fin 4), k0_off53 v a = stageOff 1 5 v.val a) v a

/-- Inner loop 7, trip v: half 1, channel 6. -/
theorem off54_eq (v : Fin k0_t7_loop.trips) : k0_off54 v = stageOff 1 6 v.val :=
  funext fun a => (by decide +kernel : ∀ (v : Fin k0_t7_loop.trips) (a : Fin 4), k0_off54 v a = stageOff 1 6 v.val a) v a

/-- Inner loop 7, trip v: half 1, channel 7. -/
theorem off55_eq (v : Fin k0_t7_loop.trips) : k0_off55 v = stageOff 1 7 v.val :=
  funext fun a => (by decide +kernel : ∀ (v : Fin k0_t7_loop.trips) (a : Fin 4), k0_off55 v a = stageOff 1 7 v.val a) v a

/-- Inner loop 8, trip v: half 0, channel 0. -/
theorem off57_eq (v : Fin k0_t8_loop.trips) : k0_off57 v = stageOff 0 0 v.val :=
  funext fun a => (by decide +kernel : ∀ (v : Fin k0_t8_loop.trips) (a : Fin 4), k0_off57 v a = stageOff 0 0 v.val a) v a

/-- Inner loop 8, trip v: half 0, channel 1. -/
theorem off58_eq (v : Fin k0_t8_loop.trips) : k0_off58 v = stageOff 0 1 v.val :=
  funext fun a => (by decide +kernel : ∀ (v : Fin k0_t8_loop.trips) (a : Fin 4), k0_off58 v a = stageOff 0 1 v.val a) v a

/-- Inner loop 8, trip v: half 0, channel 2. -/
theorem off59_eq (v : Fin k0_t8_loop.trips) : k0_off59 v = stageOff 0 2 v.val :=
  funext fun a => (by decide +kernel : ∀ (v : Fin k0_t8_loop.trips) (a : Fin 4), k0_off59 v a = stageOff 0 2 v.val a) v a

/-- Inner loop 8, trip v: half 0, channel 3. -/
theorem off60_eq (v : Fin k0_t8_loop.trips) : k0_off60 v = stageOff 0 3 v.val :=
  funext fun a => (by decide +kernel : ∀ (v : Fin k0_t8_loop.trips) (a : Fin 4), k0_off60 v a = stageOff 0 3 v.val a) v a

/-- Inner loop 8, trip v: half 0, channel 4. -/
theorem off61_eq (v : Fin k0_t8_loop.trips) : k0_off61 v = stageOff 0 4 v.val :=
  funext fun a => (by decide +kernel : ∀ (v : Fin k0_t8_loop.trips) (a : Fin 4), k0_off61 v a = stageOff 0 4 v.val a) v a

/-- Inner loop 8, trip v: half 0, channel 5. -/
theorem off62_eq (v : Fin k0_t8_loop.trips) : k0_off62 v = stageOff 0 5 v.val :=
  funext fun a => (by decide +kernel : ∀ (v : Fin k0_t8_loop.trips) (a : Fin 4), k0_off62 v a = stageOff 0 5 v.val a) v a

/-- Inner loop 8, trip v: half 0, channel 6. -/
theorem off63_eq (v : Fin k0_t8_loop.trips) : k0_off63 v = stageOff 0 6 v.val :=
  funext fun a => (by decide +kernel : ∀ (v : Fin k0_t8_loop.trips) (a : Fin 4), k0_off63 v a = stageOff 0 6 v.val a) v a

/-- Inner loop 8, trip v: half 0, channel 7. -/
theorem off64_eq (v : Fin k0_t8_loop.trips) : k0_off64 v = stageOff 0 7 v.val :=
  funext fun a => (by decide +kernel : ∀ (v : Fin k0_t8_loop.trips) (a : Fin 4), k0_off64 v a = stageOff 0 7 v.val a) v a

/-- Inner loop 9, trip v: half 1, channel 0. -/
theorem off66_eq (v : Fin k0_t9_loop.trips) : k0_off66 v = stageOff 1 0 v.val :=
  funext fun a => (by decide +kernel : ∀ (v : Fin k0_t9_loop.trips) (a : Fin 4), k0_off66 v a = stageOff 1 0 v.val a) v a

/-- Inner loop 9, trip v: half 1, channel 1. -/
theorem off67_eq (v : Fin k0_t9_loop.trips) : k0_off67 v = stageOff 1 1 v.val :=
  funext fun a => (by decide +kernel : ∀ (v : Fin k0_t9_loop.trips) (a : Fin 4), k0_off67 v a = stageOff 1 1 v.val a) v a

/-- Inner loop 9, trip v: half 1, channel 2. -/
theorem off68_eq (v : Fin k0_t9_loop.trips) : k0_off68 v = stageOff 1 2 v.val :=
  funext fun a => (by decide +kernel : ∀ (v : Fin k0_t9_loop.trips) (a : Fin 4), k0_off68 v a = stageOff 1 2 v.val a) v a

/-- Inner loop 9, trip v: half 1, channel 3. -/
theorem off69_eq (v : Fin k0_t9_loop.trips) : k0_off69 v = stageOff 1 3 v.val :=
  funext fun a => (by decide +kernel : ∀ (v : Fin k0_t9_loop.trips) (a : Fin 4), k0_off69 v a = stageOff 1 3 v.val a) v a

/-- Inner loop 9, trip v: half 1, channel 4. -/
theorem off70_eq (v : Fin k0_t9_loop.trips) : k0_off70 v = stageOff 1 4 v.val :=
  funext fun a => (by decide +kernel : ∀ (v : Fin k0_t9_loop.trips) (a : Fin 4), k0_off70 v a = stageOff 1 4 v.val a) v a

/-- Inner loop 9, trip v: half 1, channel 5. -/
theorem off71_eq (v : Fin k0_t9_loop.trips) : k0_off71 v = stageOff 1 5 v.val :=
  funext fun a => (by decide +kernel : ∀ (v : Fin k0_t9_loop.trips) (a : Fin 4), k0_off71 v a = stageOff 1 5 v.val a) v a

/-- Inner loop 9, trip v: half 1, channel 6. -/
theorem off72_eq (v : Fin k0_t9_loop.trips) : k0_off72 v = stageOff 1 6 v.val :=
  funext fun a => (by decide +kernel : ∀ (v : Fin k0_t9_loop.trips) (a : Fin 4), k0_off72 v a = stageOff 1 6 v.val a) v a

/-- Inner loop 9, trip v: half 1, channel 7. -/
theorem off73_eq (v : Fin k0_t9_loop.trips) : k0_off73 v = stageOff 1 7 v.val :=
  funext fun a => (by decide +kernel : ∀ (v : Fin k0_t9_loop.trips) (a : Fin 4), k0_off73 v a = stageOff 1 7 v.val a) v a

/-- Inner loop 10, trip v: half 0, channel 0. -/
theorem off74_eq (v : Fin k0_t10_loop.trips) : k0_off74 v = stageOff 0 0 v.val :=
  funext fun a => (by decide +kernel : ∀ (v : Fin k0_t10_loop.trips) (a : Fin 4), k0_off74 v a = stageOff 0 0 v.val a) v a

/-- Inner loop 10, trip v: half 0, channel 1. -/
theorem off75_eq (v : Fin k0_t10_loop.trips) : k0_off75 v = stageOff 0 1 v.val :=
  funext fun a => (by decide +kernel : ∀ (v : Fin k0_t10_loop.trips) (a : Fin 4), k0_off75 v a = stageOff 0 1 v.val a) v a

/-- Inner loop 10, trip v: half 0, channel 2. -/
theorem off76_eq (v : Fin k0_t10_loop.trips) : k0_off76 v = stageOff 0 2 v.val :=
  funext fun a => (by decide +kernel : ∀ (v : Fin k0_t10_loop.trips) (a : Fin 4), k0_off76 v a = stageOff 0 2 v.val a) v a

/-- Inner loop 10, trip v: half 0, channel 3. -/
theorem off77_eq (v : Fin k0_t10_loop.trips) : k0_off77 v = stageOff 0 3 v.val :=
  funext fun a => (by decide +kernel : ∀ (v : Fin k0_t10_loop.trips) (a : Fin 4), k0_off77 v a = stageOff 0 3 v.val a) v a

/-- Inner loop 10, trip v: half 0, channel 4. -/
theorem off78_eq (v : Fin k0_t10_loop.trips) : k0_off78 v = stageOff 0 4 v.val :=
  funext fun a => (by decide +kernel : ∀ (v : Fin k0_t10_loop.trips) (a : Fin 4), k0_off78 v a = stageOff 0 4 v.val a) v a

/-- Inner loop 10, trip v: half 0, channel 5. -/
theorem off79_eq (v : Fin k0_t10_loop.trips) : k0_off79 v = stageOff 0 5 v.val :=
  funext fun a => (by decide +kernel : ∀ (v : Fin k0_t10_loop.trips) (a : Fin 4), k0_off79 v a = stageOff 0 5 v.val a) v a

/-- Inner loop 10, trip v: half 0, channel 6. -/
theorem off80_eq (v : Fin k0_t10_loop.trips) : k0_off80 v = stageOff 0 6 v.val :=
  funext fun a => (by decide +kernel : ∀ (v : Fin k0_t10_loop.trips) (a : Fin 4), k0_off80 v a = stageOff 0 6 v.val a) v a

/-- Inner loop 10, trip v: half 0, channel 7. -/
theorem off81_eq (v : Fin k0_t10_loop.trips) : k0_off81 v = stageOff 0 7 v.val :=
  funext fun a => (by decide +kernel : ∀ (v : Fin k0_t10_loop.trips) (a : Fin 4), k0_off81 v a = stageOff 0 7 v.val a) v a

/-- Inner loop 11, trip v: half 1, channel 0. -/
theorem off82_eq (v : Fin k0_t11_loop.trips) : k0_off82 v = stageOff 1 0 v.val :=
  funext fun a => (by decide +kernel : ∀ (v : Fin k0_t11_loop.trips) (a : Fin 4), k0_off82 v a = stageOff 1 0 v.val a) v a

/-- Inner loop 11, trip v: half 1, channel 1. -/
theorem off83_eq (v : Fin k0_t11_loop.trips) : k0_off83 v = stageOff 1 1 v.val :=
  funext fun a => (by decide +kernel : ∀ (v : Fin k0_t11_loop.trips) (a : Fin 4), k0_off83 v a = stageOff 1 1 v.val a) v a

/-- Inner loop 11, trip v: half 1, channel 2. -/
theorem off84_eq (v : Fin k0_t11_loop.trips) : k0_off84 v = stageOff 1 2 v.val :=
  funext fun a => (by decide +kernel : ∀ (v : Fin k0_t11_loop.trips) (a : Fin 4), k0_off84 v a = stageOff 1 2 v.val a) v a

/-- Inner loop 11, trip v: half 1, channel 3. -/
theorem off85_eq (v : Fin k0_t11_loop.trips) : k0_off85 v = stageOff 1 3 v.val :=
  funext fun a => (by decide +kernel : ∀ (v : Fin k0_t11_loop.trips) (a : Fin 4), k0_off85 v a = stageOff 1 3 v.val a) v a

/-- Inner loop 11, trip v: half 1, channel 4. -/
theorem off86_eq (v : Fin k0_t11_loop.trips) : k0_off86 v = stageOff 1 4 v.val :=
  funext fun a => (by decide +kernel : ∀ (v : Fin k0_t11_loop.trips) (a : Fin 4), k0_off86 v a = stageOff 1 4 v.val a) v a

/-- Inner loop 11, trip v: half 1, channel 5. -/
theorem off87_eq (v : Fin k0_t11_loop.trips) : k0_off87 v = stageOff 1 5 v.val :=
  funext fun a => (by decide +kernel : ∀ (v : Fin k0_t11_loop.trips) (a : Fin 4), k0_off87 v a = stageOff 1 5 v.val a) v a

/-- Inner loop 11, trip v: half 1, channel 6. -/
theorem off88_eq (v : Fin k0_t11_loop.trips) : k0_off88 v = stageOff 1 6 v.val :=
  funext fun a => (by decide +kernel : ∀ (v : Fin k0_t11_loop.trips) (a : Fin 4), k0_off88 v a = stageOff 1 6 v.val a) v a

/-- Inner loop 11, trip v: half 1, channel 7. -/
theorem off89_eq (v : Fin k0_t11_loop.trips) : k0_off89 v = stageOff 1 7 v.val :=
  funext fun a => (by decide +kernel : ∀ (v : Fin k0_t11_loop.trips) (a : Fin 4), k0_off89 v a = stageOff 1 7 v.val a) v a

end Cert.Proof.KB.Off
-- ==== Proof.WindowsK.lean ====
/-
  The program as printed, read at the instance where a float is the 32-bit word that stores it. The program is the
  same text as the one read at the exact instance, so what follows is the same argument over this program's names.

  How one unit of work moves through its windows: index work only.

  A unit u < 2048 is a triple (b, ch, h) = (u / 1024, u % 1024 / 32, u % 32), u = 1024·b + 32·ch + h. Its source
  window is the slice of the argument x over [2, 32, 64, 64, 64] of sizes [1, 1, 2, 64, 64] at the offsets
  [b, ch, 2·h, 0, 0], with the two unit axes dropped: an array over [2, 64, 64] whose entry (p, w, z) is
  x (b, ch, 2·h + p, w, z). Its destination window is the slice of the result y over [2, 256, 32, 32, 32] of sizes
  [1, 8, 1, 32, 32] at the offsets [b, 8·ch, h, 0, 0], with the two unit axes dropped: an array over [8, 32, 32]
  whose entry (kk, w, z) sits at y (b, 8·ch + kk, h, w, z). The entries of y under the destination window are
  exactly those the map unitOf sends to u.

  Dropping unit axes keeps the row-major position of an entry, so the dropped-axes index of (p, w, z) is
  (0, 0, p, w, z) (and likewise for the other three shapes met here); a slice adds its offsets coordinate by
  coordinate. With these two facts every window is read at an index.

  The unit's value: the two argument rows A = (entry (p, w, z) ↦ x (b, ch, 2·h + p, w, z)) land in a slot of the
  input ring; the body leaves, in slot jo of the output ring, at (jo, kk, w, z) the entry
  A (kk / 4, 2·w + kk / 2 % 2, 2·z + kk % 2); the slot is then copied to the destination window. So y at
  (b, 8·ch + kk, h, w, z) ends as x (b, ch, 2·h + kk / 4, 2·w + kk / 2 % 2, 2·z + kk % 2), which is the
  specification's entry there: (8·ch + kk) / 8 = ch, (8·ch + kk) % 8 / 4 = kk / 4, (8·ch + kk) % 4 / 2 = kk / 2 % 2,
  (8·ch + kk) % 2 = kk % 2.
-/
import proofs.«209385_g40939628265708_retrytranche2_1889_20_alg».proof.Proof.ComputeLibK
import proofs.«209385_g40939628265708_retrytranche2_1889_20_alg».proof.Proof.OffsetsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

/-! ## Dropping unit axes -/

/-- [1, 1, 2, 64, 64] with its two unit axes dropped: (p, w, z) is (0, 0, p, w, z). -/
theorem sq_src (p : Fin 2) (w z : Fin 64) :
    Shape.reshapeEquiv (s := S1x1x2x64x64) (s' := S2x64x64) squeezes_S1x1x2x64x64_S2x64x64.numel_eq (ix3 p w z)
      = ix5 (0 : Fin 1) (0 : Fin 1) p w z :=
  Shape.reshapeEquiv_eq_of_rowMajor _ (by
    rw [Shape.rowMajor_val_five, Shape.rowMajor_val_three]
    show (((0 * 1 + 0) * 2 + p.val) * 64 + w.val) * 64 + z.val = (p.val * 64 + w.val) * 64 + z.val
    omega)

/-- [1, 8, 1, 32, 32] with its two unit axes dropped: (kk, w, z) is (0, kk, 0, w, z). -/
theorem sq_dst (kk : Fin 8) (w z : Fin 32) :
    Shape.reshapeEquiv (s := S1x8x1x32x32) (s' := S8x32x32) squeezes_S1x8x1x32x32_S8x32x32.numel_eq (ix3 kk w z)
      = ix5 (0 : Fin 1) kk (0 : Fin 1) w z :=
  Shape.reshapeEquiv_eq_of_rowMajor _ (by
    rw [Shape.rowMajor_val_five, Shape.rowMajor_val_three]
    show (((0 * 8 + kk.val) * 1 + 0) * 32 + w.val) * 32 + z.val = (kk.val * 32 + w.val) * 32 + z.val
    omega)

/-- [1, 2, 64, 64] with its unit axis dropped: (p, w, z) is (0, p, w, z). -/
theorem sq_in (p : Fin 2) (w z : Fin 64) :
    Shape.reshapeEquiv (s := S1x2x64x64) (s' := S2x64x64) squeezes_S1x2x64x64_S2x64x64.numel_eq (ix3 p w z)
      = ix4 (0 : Fin 1) p w z :=
  Shape.reshapeEquiv_eq_of_rowMajor _ (by
    rw [Shape.rowMajor_val_four, Shape.rowMajor_val_three]
    show ((0 * 2 + p.val) * 64 + w.val) * 64 + z.val = (p.val * 64 + w.val) * 64 + z.val
    omega)

/-- [1, 8, 32, 32] with its unit axis dropped: (kk, w, z) is (0, kk, w, z). -/
theorem sq_out (kk : Fin 8) (w z : Fin 32) :
    Shape.reshapeEquiv (s := S1x8x32x32) (s' := S8x32x32) squeezes_S1x8x32x32_S8x32x32.numel_eq (ix3 kk w z)
      = ix4 (0 : Fin 1) kk w z :=
  Shape.reshapeEquiv_eq_of_rowMajor _ (by
    rw [Shape.rowMajor_val_four, Shape.rowMajor_val_three]
    show ((0 * 8 + kk.val) * 32 + w.val) * 32 + z.val = (kk.val * 32 + w.val) * 32 + z.val
    omega)

/-! ## The two windows of a unit -/

/-- The source window at the offsets `off`: two rows of one (batch, channel) of the argument. -/
abbrev xWin (off : Fin 5 → Nat) (inb : ∀ a, off a + S1x1x2x64x64.size a ≤ S2x32x64x64x64.size a) :
    Memref sig .scVector .hbm S2x64x64 .f32 :=
  ((xV : Memref sig .scVector .hbm S2x32x64x64x64 .f32).slice (Rect.unit (s := S2x32x64x64x64) off S1x1x2x64x64.size inb) (fun _ => rfl)).squeeze S2x64x64 squeezes_S1x1x2x64x64_S2x64x64

/-- The destination window at the offsets `off`: one row of eight consecutive channels of one batch of the result. -/
abbrev yWin (off : Fin 5 → Nat) (inb : ∀ a, off a + S1x8x1x32x32.size a ≤ S2x256x32x32x32.size a) :
    Memref sig .scVector .hbm S8x32x32 .f32 :=
  ((yV : Memref sig .scVector .hbm S2x256x32x32x32 .f32).slice (Rect.unit (s := S2x256x32x32x32) off S1x8x1x32x32.size inb) (fun _ => rfl)).squeeze S8x32x32 squeezes_S1x8x1x32x32_S8x32x32

/-- Entry (p, w, z) of unit u's two argument rows, as an index of the argument. -/
abbrev xIdx (u : Nat) (hu : u < 2048) (p : Fin 2) (w z : Fin 64) : S2x32x64x64x64.Idx :=
  ix5 (⟨u / 1024, by omega⟩ : Fin 2) (⟨u % 1024 / 32, by omega⟩ : Fin 32) (⟨2 * (u % 32) + p.val, by omega⟩ : Fin 64) w z

/-- Entry (kk, w, z) of unit u's eight result planes, as an index of the result. -/
abbrev yIdx (u : Nat) (hu : u < 2048) (kk : Fin 8) (w z : Fin 32) : S2x256x32x32x32.Idx :=
  ix5 (⟨u / 1024, by omega⟩ : Fin 2) (⟨8 * (u % 1024 / 32) + kk.val, by omega⟩ : Fin 256) (⟨u % 32, by omega⟩ : Fin 32) w z

/-- The source window places its entry (p, w, z) at (b, ch, 2·h + p, w, z). -/
theorem xWin_emb (u : Nat) (hu : u < 2048) (off : Fin 5 → Nat) (hoff : off = Off.srcOff u)
    (inb : ∀ a, off a + S1x1x2x64x64.size a ≤ S2x32x64x64x64.size a) (p : Fin 2) (w z : Fin 64) :
    (xWin off inb).view.emb (ix3 p w z) = xIdx u hu p w z := by
  subst hoff
  funext a
  apply Fin.ext
  show Off.srcOff u a + 1 * ((Shape.reshapeEquiv squeezes_S1x1x2x64x64_S2x64x64.numel_eq (ix3 p w z)) a).val = _
  rw [sq_src]
  match a with
  | ⟨0, _⟩ => show u / 1024 + 1 * 0 = u / 1024; omega
  | ⟨1, _⟩ => show u % 1024 / 32 + 1 * 0 = u % 1024 / 32; omega
  | ⟨2, _⟩ => show 2 * (u % 32) + 1 * p.val = 2 * (u % 32) + p.val; omega
  | ⟨3, _⟩ => show 0 + 1 * w.val = w.val; omega
  | ⟨4, _⟩ => show 0 + 1 * z.val = z.val; omega

/-- The destination window places its entry (kk, w, z) at (b, 8·ch + kk, h, w, z). -/
theorem yWin_emb (u : Nat) (hu : u < 2048) (off : Fin 5 → Nat) (hoff : off = Off.dstOff u)
    (inb : ∀ a, off a + S1x8x1x32x32.size a ≤ S2x256x32x32x32.size a) (kk : Fin 8) (w z : Fin 32) :
    (yWin off inb).view.emb (ix3 kk w z) = yIdx u hu kk w z := by
  subst hoff
  funext a
  apply Fin.ext
  show Off.dstOff u a + 1 * ((Shape.reshapeEquiv squeezes_S1x8x1x32x32_S8x32x32.numel_eq (ix3 kk w z)) a).val = _
  rw [sq_dst]
  match a with
  | ⟨0, _⟩ => show u / 1024 + 1 * 0 = u / 1024; omega
  | ⟨1, _⟩ => show 8 * (u % 1024 / 32) + 1 * kk.val = 8 * (u % 1024 / 32) + kk.val; omega
  | ⟨2, _⟩ => show u % 32 + 1 * 0 = u % 32; omega
  | ⟨3, _⟩ => show 0 + 1 * w.val = w.val; omega
  | ⟨4, _⟩ => show 0 + 1 * z.val = z.val; omega

/-! ## (W1) The destination window's entries are the unit's fibre -/

/-- The entries of the result under unit u's destination window are those of unit u. -/
theorem yWin_set (u : Nat) (hu : u < 2048) (off : Fin 5 → Nat) (hoff : off = Off.dstOff u)
    (inb : ∀ a, off a + S1x8x1x32x32.size a ≤ S2x256x32x32x32.size a) :
    (yWin off inb).view.set = winSet ⟨u, hu⟩ := by
  subst hoff
  show (((yV : Memref sig .scVector .hbm S2x256x32x32x32 .f32).view.slice
      (Rect.unit (s := S2x256x32x32x32) (Off.dstOff u) S1x8x1x32x32.size inb)).reshape S8x32x32
        squeezes_S1x8x1x32x32_S8x32x32.numel_eq).set = winSet ⟨u, hu⟩
  rw [View.set_reshape]
  show ((View.whole main_v0_scv : View sig .scVector _ _ _).slice
      (Rect.unit (s := S2x256x32x32x32) (Off.dstOff u) S1x8x1x32x32.size inb)).set = winSet ⟨u, hu⟩
  rw [View.set_slice_whole]
  ext j
  rw [Rect.mem_set_unit]
  unfold winSet unitOf
  rw [Finset.mem_filter]
  have h0 : (j 0).val < 2 := (j 0).isLt
  have h1 : (j 1).val < 256 := (j 1).isLt
  have h2 : (j 2).val < 32 := (j 2).isLt
  have h3 : (j 3).val < 32 := (j 3).isLt
  have h4 : (j 4).val < 32 := (j 4).isLt
  constructor
  · intro h
    have e0 := h 0; have e1 := h 1; have e2 := h 2
    refine ⟨Finset.mem_univ _, Fin.ext ?_⟩
    change u / 1024 ≤ (j 0).val ∧ (j 0).val < u / 1024 + 1 at e0
    change 8 * (u % 1024 / 32) ≤ (j 1).val ∧ (j 1).val < 8 * (u % 1024 / 32) + 8 at e1
    change u % 32 ≤ (j 2).val ∧ (j 2).val < u % 32 + 1 at e2
    show 1024 * (j 0).val + 32 * ((j 1).val / 8) + (j 2).val = u
    omega
  · rintro ⟨-, h⟩
    have e : 1024 * (j 0).val + 32 * ((j 1).val / 8) + (j 2).val = u := congrArg Fin.val h
    intro a
    match a with
    | ⟨0, _⟩ => show u / 1024 ≤ (j 0).val ∧ (j 0).val < u / 1024 + 1; omega
    | ⟨1, _⟩ => show 8 * (u % 1024 / 32) ≤ (j 1).val ∧ (j 1).val < 8 * (u % 1024 / 32) + 8; omega
    | ⟨2, _⟩ => show u % 32 ≤ (j 2).val ∧ (j 2).val < u % 32 + 1; omega
    | ⟨3, _⟩ => show 0 ≤ (j 3).val ∧ (j 3).val < 0 + 32; omega
    | ⟨4, _⟩ => show 0 ≤ (j 4).val ∧ (j 4).val < 0 + 32; omega

/-! ## (W2) Reads through the windows and the ring slots, at an index -/

/-- The source window reads the argument's contents g at (b, ch, 2·h + p, w, z). -/
theorem xWin_read (u : Nat) (hu : u < 2048) (off : Fin 5 → Nat) (hoff : off = Off.srcOff u)
    (inb : ∀ a, off a + S1x1x2x64x64.size a ≤ S2x32x64x64x64.size a)
    (g : S2x32x64x64x64.Idx → Elt F .f32) (p : Fin 2) (w z : Fin 64) :
    (xWin off inb).view.read (Elt F) g (ix3 p w z) = g (xIdx u hu p w z) := by
  rw [← xWin_emb u hu off hoff inb p w z]
  exact (View.read_apply _ _).trans (cast_eq _ _)

/-- Slot 0 of the output ring reads the ring's contents fo at (0, kk, w, z). -/
theorem outSlot0_read (fo : S2x8x32x32.Idx → Elt F .f32) (kk : Fin 8) (w z : Fin 32) :
    (outSlot0).view.read (Elt F) fo (ix3 kk w z) = fo (ix4 (0 : Fin 2) kk w z) := by
  refine ((View.read_apply _ _).trans (cast_eq _ _)).trans (congrArg fo (funext fun a => Fin.ext ?_))
  show (![0, 0, 0, 0] : Fin 4 → Nat) a + 1 * ((Shape.reshapeEquiv squeezes_S1x8x32x32_S8x32x32.numel_eq (ix3 kk w z)) a).val = _
  rw [sq_out]
  match a with
  | ⟨0, _⟩ => show 0 + 1 * 0 = 0; omega
  | ⟨1, _⟩ => show 0 + 1 * kk.val = kk.val; omega
  | ⟨2, _⟩ => show 0 + 1 * w.val = w.val; omega
  | ⟨3, _⟩ => show 0 + 1 * z.val = z.val; omega

/-- Slot 1 of the output ring reads the ring's contents fo at (1, kk, w, z). -/
theorem outSlot1_read (fo : S2x8x32x32.Idx → Elt F .f32) (kk : Fin 8) (w z : Fin 32) :
    (outSlot1).view.read (Elt F) fo (ix3 kk w z) = fo (ix4 (1 : Fin 2) kk w z) := by
  refine ((View.read_apply _ _).trans (cast_eq _ _)).trans (congrArg fo (funext fun a => Fin.ext ?_))
  show (![1, 0, 0, 0] : Fin 4 → Nat) a + 1 * ((Shape.reshapeEquiv squeezes_S1x8x32x32_S8x32x32.numel_eq (ix3 kk w z)) a).val = _
  rw [sq_out]
  match a with
  | ⟨0, _⟩ => show 1 + 1 * 0 = 1; omega
  | ⟨1, _⟩ => show 0 + 1 * kk.val = kk.val; omega
  | ⟨2, _⟩ => show 0 + 1 * w.val = w.val; omega
  | ⟨3, _⟩ => show 0 + 1 * z.val = z.val; omega

/-- A load of a whole array over [2, 64, 64] through a view reads what the view reads. -/
theorem readAt_whole_eq_read (v : View sig .scVector .vmem S2x64x64 .f32) (f : v.ty.Contents (Elt F)) :
    View.readAt (Elt F) v (LoadRect.whole S2x64x64) f = v.read (Elt F) f := by
  funext x
  rw [View.readAt_apply]
  have hx : (LoadRect.whole S2x64x64).idx x = x := Rect.emb_whole_apply S2x64x64 x
  rw [hx]

/-- A load of a whole input slot right after a transfer filled it reads what the transfer wrote. -/
theorem inSlot_readAt_write (v : View sig .scVector .vmem S2x64x64 .f32) (f : v.ty.Contents (Elt F))
    (A : S2x64x64.Idx → Elt F .f32) :
    View.readAt (Elt F) v (LoadRect.whole S2x64x64) (v.write (Elt F) f A Finset.univ) = A := by
  funext x
  rw [View.readAt_apply]
  have hx : (LoadRect.whole S2x64x64).idx x = x := Rect.emb_whole_apply S2x64x64 x
  rw [hx, View.read_write_univ]

/-- A load of a whole input slot after a transfer left its payload A as the slot's one whole piece reads A. -/
theorem readAt_whole_writes (v : View sig .scVector .vmem S2x64x64 .f32) (f : v.ty.Contents (Elt F))
    (A : S2x64x64.Idx → Elt F .f32) :
    View.readAt (Elt F) v (LoadRect.whole S2x64x64) (v.writes (Elt F) f [⟨Rect.whole S2x64x64, A⟩]) = A := by
  rw [readAt_whole_eq_read, View.read_writes_whole]

/-! ## (W3) The unit's value -/

/-- The specification at entry (kk, w, z) of unit u's destination window: the argument at
    (b, ch, 2·h + kk / 4, 2·w + kk / 2 % 2, 2·z + kk % 2). -/
theorem src_yIdx (u : Nat) (hu : u < 2048) (kk : Fin 8) (w z : Fin 32) :
    src (yIdx u hu kk w z)
      = xIdx u hu (⟨kk.val / 4, by omega⟩ : Fin 2) (⟨2 * w.val + kk.val / 2 % 2, by omega⟩ : Fin 64)
          (⟨2 * z.val + kk.val % 2, by omega⟩ : Fin 64) := by
  funext a
  apply Fin.ext
  match a with
  | ⟨0, _⟩ => rfl
  | ⟨1, _⟩ => show (8 * (u % 1024 / 32) + kk.val) / 8 = u % 1024 / 32; omega
  | ⟨2, _⟩ => show 2 * (u % 32) + (8 * (u % 1024 / 32) + kk.val) % 8 / 4 = 2 * (u % 32) + kk.val / 4; omega
  | ⟨3, _⟩ => show 2 * w.val + (8 * (u % 1024 / 32) + kk.val) % 4 / 2 = 2 * w.val + kk.val / 2 % 2; omega
  | ⟨4, _⟩ => show 2 * z.val + (8 * (u % 1024 / 32) + kk.val) % 2 = 2 * z.val + kk.val % 2; omega

/-- Where the body's index map sends entry (jo, kk, w, z) of the output ring. -/
theorem gidx_ix4 (jo : Fin 2) (kk : Fin 8) (w z : Fin 32) :
    gidx (ix4 jo kk w z)
      = ix3 (⟨kk.val / 4, by omega⟩ : Fin 2) (⟨2 * w.val + kk.val / 2 % 2, by omega⟩ : Fin 64)
          (⟨2 * z.val + kk.val % 2, by omega⟩ : Fin 64) := rfl

/-- The unit's value, for a slot of the output ring given by what it reads: if the slot reads the ring's contents
    fo at (jo, kk, w, z), and every row of slot jo of fo holds the rearrangement of the unit's two argument rows,
    then copying the slot to the unit's destination window leaves the specification's entries there. -/
theorem unit_value (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (jo : Fin 2) (slot : S8x32x32.Idx → Elt F .f32) (fo : S2x8x32x32.Idx → Elt F .f32)
    (hslot : ∀ (kk : Fin 8) (w z : Fin 32), slot (ix3 kk w z) = fo (ix4 jo kk w z))
    (hD : Done jo.val 64 ((xWin off inb).view.read (Elt F) (m (xLoc d))) fo)
    (fd : Buf (Elt F) (yLoc d)) (j : YS.Idx) (hj : j ∈ (yWin off' inb').view.set) :
    (yWin off' inb').view.write (Elt F) fd slot Finset.univ j = Gy m d j := by
  obtain ⟨y', rfl⟩ := View.exists_emb_of_mem_set (yWin off' inb').view hj
  obtain ⟨kk, w, z, rfl⟩ : ∃ kk w z, y' = ix3 kk w z := ⟨_, _, _, eq_ix3 y'⟩
  rw [View.write_emb_of_mem _ _ (Finset.mem_univ _)]
  refine (cast_eq _ _).trans ?_
  rw [hslot kk w z, hD (ix4 jo kk w z) rfl (by
    show 2 * w.val + z.val / 16 < 64
    have := w.isLt; have := z.isLt; omega)]
  rw [gidx_ix4, xWin_read u hu off hoff inb, yWin_emb u hu off' hoff' inb' kk w z]
  show m (xLoc d) _ = m (xLoc d) (src (yIdx u hu kk w z))
  rw [src_yIdx]

/-- The unit's value through slot 0 of the output ring. -/
theorem unit_value0 (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (fo : S2x8x32x32.Idx → Elt F .f32)
    (hD : Done 0 64 ((xWin off inb).view.read (Elt F) (m (xLoc d))) fo)
    (fd : Buf (Elt F) (yLoc d)) (j : YS.Idx) (hj : j ∈ (yWin off' inb').view.set) :
    (yWin off' inb').view.write (Elt F) fd ((outSlot0).view.read (Elt F) fo) Finset.univ j = Gy m d j :=
  unit_value m d u hu off hoff inb off' hoff' inb' 0 _ fo (outSlot0_read fo) hD fd j hj

/-- The unit's value through slot 1 of the output ring. -/
theorem unit_value1 (m : (ℓ : Loc nD τ sig) → Buf (Elt F) ℓ) (d : Dev nD) (u : Nat) (hu : u < 2048)
    (off : Fin 5 → Nat) (hoff : off = Off.srcOff u) (inb : ∀ a, off a + S1x1x2x64x64.size a ≤ S2x32x64x64x64.size a)
    (off' : Fin 5 → Nat) (hoff' : off' = Off.dstOff u) (inb' : ∀ a, off' a + S1x8x1x32x32.size a ≤ S2x256x32x32x32.size a)
    (fo : S2x8x32x32.Idx → Elt F .f32)
    (hD : Done 1 64 ((xWin off inb).view.read (Elt F) (m (xLoc d))) fo)
    (fd : Buf (Elt F) (yLoc d)) (j : YS.Idx) (hj : j ∈ (yWin off' inb').view.set) :
    (yWin off' inb').view.write (Elt F) fd ((outSlot1).view.read (Elt F) fo) Finset.univ j = Gy m d j :=
  unit_value m d u hu off hoff inb off' hoff' inb' 1 _ fo (outSlot1_read fo) hD fd j hj

end Cert.Proof.KB

end
-- ==== Proof.ValuesK.lean ====
/-
  The program as printed, read at the instance where a float is the 32-bit word that stores it. The program is the
  same text as the one read at the exact instance, so what follows is the same argument over this program's names.

  The values that move: what a unit's input copy leaves for the body to read, and what its output copy leaves in
  the unit's window of the result.

  Unit t of the subcore at grid point L is unit u = 64·(2·subcore + core) + t of the kernel. Its input copy
  lands the two argument rows `Arows` — entry (p, w, z) ↦ x (b, ch, 2·h + p, w, z) — in a slot of the input ring,
  where a load of the whole slot reads them back. Once every row of a slot of the output ring holds the
  rearrangement of `Arows`, the output copy of that slot to the unit's window leaves there the specification's
  entries: the window's elements are the unit's fibre of the result, and on them the copied contents agree with
  the rearrangement of the whole argument.
-/
import proofs.«209385_g40939628265708_retrytranche2_1889_20_alg».proof.Proof.WindowsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

open Idealize.ShloMosaic.ValueIdx

local notation "𝕄" => MT nD τ sig (HIx 1) (Elt F) ℕ UU ℕ

/-! ## A subcore's units and their windows' offsets -/

/-- The offsets of unit u's source window are in range. -/
theorem srcInb (u : ℕ) (hu : u < 2048) : ∀ a, Off.srcOff u a + S1x1x2x64x64.size a ≤ S2x32x64x64x64.size a := by
  intro a
  match a with
  | ⟨0, _⟩ => show u / 1024 + 1 ≤ 2; omega
  | ⟨1, _⟩ => show u % 1024 / 32 + 1 ≤ 32; omega
  | ⟨2, _⟩ => show 2 * (u % 32) + 2 ≤ 64; omega
  | ⟨3, _⟩ => show 0 + 64 ≤ 64; omega
  | ⟨4, _⟩ => show 0 + 64 ≤ 64; omega

/-- The offsets of unit u's destination window are in range. -/
theorem dstInb (u : ℕ) (hu : u < 2048) : ∀ a, Off.dstOff u a + S1x8x1x32x32.size a ≤ S2x256x32x32x32.size a := by
  intro a
  match a with
  | ⟨0, _⟩ => show u / 1024 + 1 ≤ 2; omega
  | ⟨1, _⟩ => show 8 * (u % 1024 / 32) + 8 ≤ 256; omega
  | ⟨2, _⟩ => show u % 32 + 1 ≤ 32; omega
  | ⟨3, _⟩ => show 0 + 32 ≤ 32; omega
  | ⟨4, _⟩ => show 0 + 32 ≤ 32; omega

/-- Unit t of the subcore at grid point L, as a unit of the kernel. -/
abbrev uOf (L : grid0.Coords) (t : Fin 64) : ℕ := Off.unitOf L t.val
theorem uOf_lt (L : grid0.Coords) (t : Fin 64) : uOf L t < 2048 := Off.unitOf_lt L t.isLt

/-- It is the unit the subcore's share of the result names. -/
theorem winSet_uOf (L : grid0.Coords) (t : Fin 64) :
    winSet ⟨uOf L t, uOf_lt L t⟩ = winSet (unitAt (cL L) (iL L) t) := congrArg winSet (Fin.ext rfl)

/-- The two argument rows of the subcore's unit t: entry (p, w, z) is the argument at (b, ch, 2·h + p, w, z). -/
def Arows (m : (ℓ : Loc nD τ sig) → Buf (Elt F) ℓ) (d : Dev nD) (L : grid0.Coords) (t : Fin 64) : S2x64x64.Idx → Elt F .f32 :=
  (xWin (Off.srcOff (uOf L t)) (srcInb _ (uOf_lt L t))).view.read (Elt F) (m (xLoc d))

theorem Arows_apply (m : (ℓ : Loc nD τ sig) → Buf (Elt F) ℓ) (d : Dev nD) (L : grid0.Coords) (t : Fin 64) (p : Fin 2) (w z : Fin 64) :
    Arows m d L t (ix3 p w z) = m (xLoc d) (xIdx (uOf L t) (uOf_lt L t) p w z) :=
  xWin_read (uOf L t) (uOf_lt L t) _ rfl _ (m (xLoc d)) p w z

/-! ## What the input copy leaves for the body -/

/-- A load of a whole input slot, after the unit's source window was copied into it, reads the unit's two rows. -/
theorem in_value (m : (ℓ : Loc nD τ sig) → Buf (Elt F) ℓ) (d : Dev nD) (L : grid0.Coords) (t : Fin 64)
    (off : Fin 5 → Nat) (inb : ∀ a, off a + S1x1x2x64x64.size a ≤ S2x32x64x64x64.size a) (hoff : off = Off.srcOff (uOf L t))
    (v : View sig .scVector .vmem S2x64x64 .f32) (fi : v.ty.Contents (Elt F)) :
    View.readAt (Elt F) v (LoadRect.whole S2x64x64)
        (v.writes (Elt F) fi [⟨Rect.whole S2x64x64, ReadAs.same.apply ((xWin off inb).view.read (Elt F) (m (xLoc d)))⟩])
      = Arows m d L t := by
  subst hoff
  exact (readAt_whole_writes v fi _).trans rfl

/-! ## The unit's window of the result -/

/-- The unit's destination window, held by its own elements, is the result held on the unit's fibre. -/
theorem yWin_pts (d : Dev nD) (L : grid0.Coords) (t : Fin 64) (off' : Fin 5 → Nat)
    (inb' : ∀ a, off' a + S1x8x1x32x32.size a ≤ S2x256x32x32x32.size a) (hoff' : off' = Off.dstOff (uOf L t))
    (f : Buf (Elt F) (yLoc d)) :
    ((yWin off' inb').view.loc (thrV d L) ↦[(yWin off' inb').view.set]{fullShare} f : sProp 𝕄)
      = (yLoc d ↦[winSet (unitAt (cL L) (iL L) t)]{fullShare} f) := by
  rw [yWin_set (uOf L t) (uOf_lt L t) off' hoff' inb', winSet_uOf]

/-- After slot 0 of the output ring, every row of it rearranged, is copied to the unit's window, the window holds
    the specification's entries. -/
theorem win_value0 (m : (ℓ : Loc nD τ sig) → Buf (Elt F) ℓ) (d : Dev nD) (L : grid0.Coords) (t : Fin 64) (off' : Fin 5 → Nat)
    (inb' : ∀ a, off' a + S1x8x1x32x32.size a ≤ S2x256x32x32x32.size a) (hoff' : off' = Off.dstOff (uOf L t))
    (fo : S2x8x32x32.Idx → Elt F .f32) (hD : Done 0 64 (Arows m d L t) fo) (fd : Buf (Elt F) (yLoc d)) :
    ((yWin off' inb').view.loc (thrV d L) ↦[(yWin off' inb').view.set]{fullShare}
        ((yWin off' inb').view.writes (Elt F) fd [⟨Rect.whole S8x32x32, ReadAs.same.apply (outSlot0.view.read (Elt F) fo)⟩]) : sProp 𝕄)
      = (yLoc d ↦[winSet (unitAt (cL L) (iL L) t)]{fullShare} Gy m d) := by
  rw [yWin_pts d L t off' inb' hoff']
  refine pointsTo_congr fun j hj => ?_
  have hj' : j ∈ (yWin off' inb').view.set := by
    rw [yWin_set (uOf L t) (uOf_lt L t) off' hoff' inb', winSet_uOf]; exact hj
  refine (congrFun (View.write_univ_eq_writes_whole (yWin off' inb').view fd [] (outSlot0.view.read (Elt F) fo)).symm j).trans ?_
  exact unit_value0 m d (uOf L t) (uOf_lt L t) _ rfl (srcInb _ (uOf_lt L t)) off' hoff' inb' fo hD fd j hj'

/-- The same for slot 1 of the output ring. -/
theorem win_value1 (m : (ℓ : Loc nD τ sig) → Buf (Elt F) ℓ) (d : Dev nD) (L : grid0.Coords) (t : Fin 64) (off' : Fin 5 → Nat)
    (inb' : ∀ a, off' a + S1x8x1x32x32.size a ≤ S2x256x32x32x32.size a) (hoff' : off' = Off.dstOff (uOf L t))
    (fo : S2x8x32x32.Idx → Elt F .f32) (hD : Done 1 64 (Arows m d L t) fo) (fd : Buf (Elt F) (yLoc d)) :
    ((yWin off' inb').view.loc (thrV d L) ↦[(yWin off' inb').view.set]{fullShare}
        ((yWin off' inb').view.writes (Elt F) fd [⟨Rect.whole S8x32x32, ReadAs.same.apply (outSlot1.view.read (Elt F) fo)⟩]) : sProp 𝕄)
      = (yLoc d ↦[winSet (unitAt (cL L) (iL L) t)]{fullShare} Gy m d) := by
  rw [yWin_pts d L t off' inb' hoff']
  refine pointsTo_congr fun j hj => ?_
  have hj' : j ∈ (yWin off' inb').view.set := by
    rw [yWin_set (uOf L t) (uOf_lt L t) off' hoff' inb', winSet_uOf]; exact hj
  refine (congrFun (View.write_univ_eq_writes_whole (yWin off' inb').view fd [] (outSlot1.view.read (Elt F) fo)).symm j).trans ?_
  exact unit_value1 m d (uOf L t) (uOf_lt L t) _ rfl (srcInb _ (uOf_lt L t)) off' hoff' inb' fo hD fd j hj'

end Cert.Proof.KB

end
-- ==== Proof.SlotsK.lean ====
/-
  The program as printed, read at the instance where a float is the 32-bit word that stores it. The program is the
  same text as the one read at the exact instance, so what follows is the same argument over this program's names.

  The two scratch buffers as their ring slots.

  The input ring is an array over [3, 2, 64, 64]: three slots of two argument rows each. The output ring is an array
  over [2, 8, 32, 32]: two slots of eight result planes each. A slot is the part of its ring with a fixed first
  coordinate — the ring cut into 3 (resp. 2) equal parts along axis 0 — with that unit axis dropped. Dropping a unit
  axis keeps the set of elements, the parts of a cut are pairwise disjoint and cover the ring, so holding the whole
  ring at some contents is holding each slot's elements at those contents, and slots held at different contents join
  into the whole ring held at some contents.
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ

/-- A slot held by its own elements. -/
abbrev slotPts {s : Shape} (d : Dev nD) (L : grid0.Coords) (M : Memref sig .scVector .vmem s .f32)
    (f : Buf (Elt F) (M.view.loc (thrV d L))) : sProp 𝕄 :=
  M.view.loc (thrV d L) ↦[M.view.set]{fullShare} f

/-! ## The slots' element sets are the parts of the rings along axis 0 -/

theorem hdivIn : 3 ∣ S3x2x64x64.size 0 := ⟨1, rfl⟩
theorem hdivOut : 2 ∣ S2x8x32x32.size 0 := ⟨1, rfl⟩

/-- The elements of slot j of the input ring: first coordinate j. -/
abbrev inSet (j : Fin 3) : Finset S3x2x64x64.Idx := (Rect.part (s := S3x2x64x64) (a₀ := 0) hdivIn j).set
/-- The elements of slot j of the output ring: first coordinate j. -/
abbrev outSet (j : Fin 2) : Finset S2x8x32x32.Idx := (Rect.part (s := S2x8x32x32) (a₀ := 0) hdivOut j).set

/-- Unit-stride rectangles at equal offsets and sizes have the same elements. -/
theorem unit_set_congr {s : Shape} {off off' size size' : Fin s.rank → Nat} (ho : off = off') (hs : size = size')
    (inb : ∀ a, off a + size a ≤ s.size a) (inb' : ∀ a, off' a + size' a ≤ s.size a) :
    (Rect.unit off size inb).set = (Rect.unit off' size' inb').set := by
  subst ho; subst hs; rfl

theorem inSlot0_set : (inSlot0).view.set = inSet 0 := by
  show (((View.whole cc0_scratch0 : View sig .scVector _ _ _).slice (Rect.unit (s := S3x2x64x64) ![0, 0, 0, 0] S1x2x64x64.size inb_S3x2x64x64_S1x2x64x64_0_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSlot1_set : (inSlot1).view.set = inSet 1 := by
  show (((View.whole cc0_scratch0 : View sig .scVector _ _ _).slice (Rect.unit (s := S3x2x64x64) ![1, 0, 0, 0] S1x2x64x64.size inb_S3x2x64x64_S1x2x64x64_1_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSlot2_set : (inSlot2).view.set = inSet 2 := by
  show (((View.whole cc0_scratch0 : View sig .scVector _ _ _).slice (Rect.unit (s := S3x2x64x64) ![2, 0, 0, 0] S1x2x64x64.size inb_S3x2x64x64_S1x2x64x64_2_0_0_0)).reshape S2x64x64 squeezes_S1x2x64x64_S2x64x64.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem outSlot0_set : (outSlot0).view.set = outSet 0 := by
  show (((View.whole cc0_scratch1 : View sig .scVector _ _ _).slice (Rect.unit (s := S2x8x32x32) ![0, 0, 0, 0] S1x8x32x32.size inb_S2x8x32x32_S1x8x32x32_0_0_0_0)).reshape S8x32x32 squeezes_S1x8x32x32_S8x32x32.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem outSlot1_set : (outSlot1).view.set = outSet 1 := by
  show (((View.whole cc0_scratch1 : View sig .scVector _ _ _).slice (Rect.unit (s := S2x8x32x32) ![1, 0, 0, 0] S1x8x32x32.size inb_S2x8x32x32_S1x8x32x32_1_0_0_0)).reshape S8x32x32 squeezes_S1x8x32x32_S8x32x32.numel_eq).set = _
  rw [View.set_reshape, View.set_slice_whole]
  exact unit_set_congr (funext fun a => by match a with | ⟨0, _⟩ => rfl | ⟨1, _⟩ => rfl | ⟨2, _⟩ => rfl | ⟨3, _⟩ => rfl)
    (funext fun a => by match a with | ⟨0, _⟩ => rfl | ⟨1, _⟩ => rfl | ⟨2, _⟩ => rfl | ⟨3, _⟩ => rfl) _ _

theorem inSet_disjoint : ∀ i ∈ (Finset.univ : Finset (Fin 3)), ∀ j ∈ (Finset.univ : Finset (Fin 3)), i ≠ j → Disjoint (inSet i) (inSet j) :=
  fun _ _ _ _ h => Rect.part_disjoint hdivIn h
theorem inSet_cover : (Finset.univ : Finset (Fin 3)).biUnion inSet = Finset.univ := Rect.biUnion_part hdivIn
theorem outSet_disjoint : ∀ i ∈ (Finset.univ : Finset (Fin 2)), ∀ j ∈ (Finset.univ : Finset (Fin 2)), i ≠ j → Disjoint (outSet i) (outSet j) :=
  fun _ _ _ _ h => Rect.part_disjoint hdivOut h
theorem outSet_cover : (Finset.univ : Finset (Fin 2)).biUnion outSet = Finset.univ := Rect.biUnion_part hdivOut

/-! ## Splitting a ring into its slots -/

/-- A slot's hold is the ring's location held on the slot's elements. -/
theorem slotPts_in0 (d : Dev nD) (L : grid0.Coords) (f : Buf (Elt F) ((thrV d L).loc cc0_scratch0)) :
    (slotPts d L inSlot0 f : sProp 𝕄) = (thrV d L).loc cc0_scratch0 ↦[inSet 0]{fullShare} f :=
  congrArg (fun I => ((thrV d L).loc cc0_scratch0 ↦[I]{fullShare} f : sProp 𝕄)) inSlot0_set
theorem slotPts_in1 (d : Dev nD) (L : grid0.Coords) (f : Buf (Elt F) ((thrV d L).loc cc0_scratch0)) :
    (slotPts d L inSlot1 f : sProp 𝕄) = (thrV d L).loc cc0_scratch0 ↦[inSet 1]{fullShare} f :=
  congrArg (fun I => ((thrV d L).loc cc0_scratch0 ↦[I]{fullShare} f : sProp 𝕄)) inSlot1_set
theorem slotPts_in2 (d : Dev nD) (L : grid0.Coords) (f : Buf (Elt F) ((thrV d L).loc cc0_scratch0)) :
    (slotPts d L inSlot2 f : sProp 𝕄) = (thrV d L).loc cc0_scratch0 ↦[inSet 2]{fullShare} f :=
  congrArg (fun I => ((thrV d L).loc cc0_scratch0 ↦[I]{fullShare} f : sProp 𝕄)) inSlot2_set
theorem slotPts_out0 (d : Dev nD) (L : grid0.Coords) (f : Buf (Elt F) ((thrV d L).loc cc0_scratch1)) :
    (slotPts d L outSlot0 f : sProp 𝕄) = (thrV d L).loc cc0_scratch1 ↦[outSet 0]{fullShare} f :=
  congrArg (fun I => ((thrV d L).loc cc0_scratch1 ↦[I]{fullShare} f : sProp 𝕄)) outSlot0_set
theorem slotPts_out1 (d : Dev nD) (L : grid0.Coords) (f : Buf (Elt F) ((thrV d L).loc cc0_scratch1)) :
    (slotPts d L outSlot1 f : sProp 𝕄) = (thrV d L).loc cc0_scratch1 ↦[outSet 1]{fullShare} f :=
  congrArg (fun I => ((thrV d L).loc cc0_scratch1 ↦[I]{fullShare} f : sProp 𝕄)) outSlot1_set

/-- The input ring held whole at f is its three slots held at f. -/
theorem sIn_slots (d : Dev nD) (L : grid0.Coords) (f : Buf (Elt F) ((thrV d L).loc cc0_scratch0)) :
    ((thrV d L).loc cc0_scratch0 ↦{fullShare} f : sProp 𝕄)
      = iprop(slotPts d L inSlot0 f ∗ slotPts d L inSlot1 f ∗ slotPts d L inSlot2 f) := by
  have h := pointsTo_biUnion (Ix := HIx 1) (Val := Elt F) (Name := ℕ) (U := UU) (Lvl := ℕ) (Finset.univ : Finset (Fin 3))
    (ℓ := (thrV d L).loc cc0_scratch0) (q := fullShare) (f := f) inSet inSet_disjoint
  rw [inSet_cover, show (Finset.univ : Finset (Fin 3)) = {0, 1, 2} by decide, SparseCore.bigSep_insert' (by decide),
    SparseCore.bigSep_insert' (by decide), bigSep_singleton] at h
  rw [slotPts_in0, slotPts_in1, slotPts_in2]
  exact h

/-- The output ring held whole at f is its two slots held at f. -/
theorem sOut_slots (d : Dev nD) (L : grid0.Coords) (f : Buf (Elt F) ((thrV d L).loc cc0_scratch1)) :
    ((thrV d L).loc cc0_scratch1 ↦{fullShare} f : sProp 𝕄) = iprop(slotPts d L outSlot0 f ∗ slotPts d L outSlot1 f) := by
  have h := pointsTo_biUnion (Ix := HIx 1) (Val := Elt F) (Name := ℕ) (U := UU) (Lvl := ℕ) (Finset.univ : Finset (Fin 2))
    (ℓ := (thrV d L).loc cc0_scratch1) (q := fullShare) (f := f) outSet outSet_disjoint
  rw [outSet_cover, show (Finset.univ : Finset (Fin 2)) = {0, 1} by decide, SparseCore.bigSep_insert' (by decide),
    bigSep_singleton] at h
  rw [slotPts_out0, slotPts_out1]
  exact h

/-! ## Joining slots held at different contents -/

/-- Three slots of the input ring, each held at some contents, are the ring held at some contents. -/
theorem sIn_slots_join (d : Dev nD) (L : grid0.Coords) :
    iprop((∃ f0, slotPts d L inSlot0 f0) ∗ (∃ f1, slotPts d L inSlot1 f1) ∗ (∃ f2, slotPts d L inSlot2 f2))
      ⊢ (iprop(∃ f, (thrV d L).loc cc0_scratch0 ↦{fullShare} f) : sProp 𝕄) := by
  have d01 : Disjoint (inSet 0) (inSet 1) := Rect.part_disjoint hdivIn (by decide)
  have d012 : Disjoint (inSet 0 ∪ inSet 1) (inSet 2) :=
    Finset.disjoint_union_left.mpr ⟨Rect.part_disjoint hdivIn (by decide), Rect.part_disjoint hdivIn (by decide)⟩
  have hcov : inSet 0 ∪ inSet 1 ∪ inSet 2 = Finset.univ := by
    rw [← inSet_cover, show (Finset.univ : Finset (Fin 3)) = {0, 1, 2} by decide]
    simp only [Finset.biUnion_insert, Finset.singleton_biUnion, Finset.union_assoc]
  rw [← hcov]
  iintro ⟨⟨%f0, H0⟩, ⟨%f1, H1⟩, ⟨%f2, H2⟩⟩
  ihave K0 := (Entails.of_eq (slotPts_in0 d L f0)) $$ H0
  ihave K1 := (Entails.of_eq (slotPts_in1 d L f1)) $$ H1
  ihave K2 := (Entails.of_eq (slotPts_in2 d L f2)) $$ H2
  iexists (inSet 2).piecewise f2 ((inSet 1).piecewise f1 f0)
  iapply (pointsTo_join d012)
  isplitl [K0 K1]
  · iapply (pointsTo_join d01)
    isplitl [K0]; · iexact K0
    iexact K1
  · iexact K2

/-- Two slots of the output ring, each held at some contents, are the ring held at some contents. -/
theorem sOut_slots_join (d : Dev nD) (L : grid0.Coords) :
    iprop((∃ f0, slotPts d L outSlot0 f0) ∗ (∃ f1, slotPts d L outSlot1 f1))
      ⊢ (iprop(∃ f, (thrV d L).loc cc0_scratch1 ↦{fullShare} f) : sProp 𝕄) := by
  have d01 : Disjoint (outSet 0) (outSet 1) := Rect.part_disjoint hdivOut (by decide)
  have hcov : outSet 0 ∪ outSet 1 = Finset.univ := by
    rw [← outSet_cover, show (Finset.univ : Finset (Fin 2)) = {0, 1} by decide]
    simp only [Finset.biUnion_insert, Finset.singleton_biUnion]
  rw [← hcov]
  iintro ⟨⟨%f0, H0⟩, ⟨%f1, H1⟩⟩
  ihave K0 := (Entails.of_eq (slotPts_out0 d L f0)) $$ H0
  ihave K1 := (Entails.of_eq (slotPts_out1 d L f1)) $$ H1
  iexists (outSet 1).piecewise f1 f0
  iapply (pointsTo_join d01)
  isplitl [K0]; · iexact K0
  iexact K1

end Cert.Proof.KB

end
-- ==== Proof.Compute2K.lean ====
/-
  The program as printed, read at the instance where a float is the 32-bit word that stores it. The program is the
  same text as the one read at the exact instance, so what follows is the same argument over this program's names.

  The compute loop of the units that read input slot 0 and fill output slot 0 (loop 2 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C2

theorem trips : k0_t2_loop.trips = 64 := by decide
theorem off2_eq : ∀ (k : Fin k0_t2_loop.trips) (a : Fin 4), k0_off2 k a = (![0, 0, k.val / 2, 16 * (k.val % 2)] : Fin 4 → Nat) a := by decide +kernel
instance (k : Fin k0_t2_loop.trips) : ClosedOff (k0_off2 k) := ⟨![0, 0, k.val / 2, 16 * (k.val % 2)], funext (off2_eq k)⟩
theorem off3_eq : ∀ (k : Fin k0_t2_loop.trips) (a : Fin 4), k0_off3 k a = (![0, 1, k.val / 2, 16 * (k.val % 2)] : Fin 4 → Nat) a := by decide +kernel
instance (k : Fin k0_t2_loop.trips) : ClosedOff (k0_off3 k) := ⟨![0, 1, k.val / 2, 16 * (k.val % 2)], funext (off3_eq k)⟩
theorem off4_eq : ∀ (k : Fin k0_t2_loop.trips) (a : Fin 4), k0_off4 k a = (![0, 2, k.val / 2, 16 * (k.val % 2)] : Fin 4 → Nat) a := by decide +kernel
instance (k : Fin k0_t2_loop.trips) : ClosedOff (k0_off4 k) := ⟨![0, 2, k.val / 2, 16 * (k.val % 2)], funext (off4_eq k)⟩
theorem off5_eq : ∀ (k : Fin k0_t2_loop.trips) (a : Fin 4), k0_off5 k a = (![0, 3, k.val / 2, 16 * (k.val % 2)] : Fin 4 → Nat) a := by decide +kernel
instance (k : Fin k0_t2_loop.trips) : ClosedOff (k0_off5 k) := ⟨![0, 3, k.val / 2, 16 * (k.val % 2)], funext (off5_eq k)⟩
theorem off6_eq : ∀ (k : Fin k0_t2_loop.trips) (a : Fin 4), k0_off6 k a = (![0, 4, k.val / 2, 16 * (k.val % 2)] : Fin 4 → Nat) a := by decide +kernel
instance (k : Fin k0_t2_loop.trips) : ClosedOff (k0_off6 k) := ⟨![0, 4, k.val / 2, 16 * (k.val % 2)], funext (off6_eq k)⟩
theorem off7_eq : ∀ (k : Fin k0_t2_loop.trips) (a : Fin 4), k0_off7 k a = (![0, 5, k.val / 2, 16 * (k.val % 2)] : Fin 4 → Nat) a := by decide +kernel
instance (k : Fin k0_t2_loop.trips) : ClosedOff (k0_off7 k) := ⟨![0, 5, k.val / 2, 16 * (k.val % 2)], funext (off7_eq k)⟩
theorem off8_eq : ∀ (k : Fin k0_t2_loop.trips) (a : Fin 4), k0_off8 k a = (![0, 6, k.val / 2, 16 * (k.val % 2)] : Fin 4 → Nat) a := by decide +kernel
instance (k : Fin k0_t2_loop.trips) : ClosedOff (k0_off8 k) := ⟨![0, 6, k.val / 2, 16 * (k.val % 2)], funext (off8_eq k)⟩
theorem off9_eq : ∀ (k : Fin k0_t2_loop.trips) (a : Fin 4), k0_off9 k a = (![0, 7, k.val / 2, 16 * (k.val % 2)] : Fin 4 → Nat) a := by decide +kernel
instance (k : Fin k0_t2_loop.trips) : ClosedOff (k0_off9 k) := ⟨![0, 7, k.val / 2, 16 * (k.val % 2)], funext (off9_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot0).view.loc (thrV d L)),
        ⌜Done 0 k (View.readAt (Elt F) (inSlot0).view (LoadRect.whole S2x64x64) fi) fo⌝
        ∗ ((outSlot0).view.loc (thrV d L) ↦[(outSlot0).view.set]{fullShare} fo))

/-- One trip of the loop. -/
theorem step (d : Dev nD) (L : grid0.Coords) (v3 c0 c1 : BitVec 32) (k0_t1 : Fin k0_t1_loop.trips)
    (fi : Buf (Elt F) ((inSlot0).view.loc (thrV d L))) (k : Fin k0_t2_loop.trips) (acc : Unit) :
    cInv (F := F) d L fi k.val acc
      ⊢ wp frame (wpE (defs₀ (F := F)) 𝒱₀ (thrV d L) none) Set.univ
          (k0_t2_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 c0 c1 k0_t1 k acc)
          (cInv (F := F) d L fi (k.val + 1)) := by
  unfold cInv
  iintro ⟨Hi, ⟨%f, %hD, Ho⟩⟩
  have hk : k.val < 64 := trips ▸ k.isLt
  unfold k0_t2_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off2_eq k) _ y hy).1, (piece_row 0 0 k.val _ (off2_eq k) _ y hy).2.2⟩
    case r2 => exact fun y hy => ⟨(piece_row 0 1 k.val _ (off3_eq k) _ y hy).1, (piece_row 0 1 k.val _ (off3_eq k) _ y hy).2.2⟩
    case r3 => exact fun y hy => ⟨(piece_row 0 2 k.val _ (off4_eq k) _ y hy).1, (piece_row 0 2 k.val _ (off4_eq k) _ y hy).2.2⟩
    case r4 => exact fun y hy => ⟨(piece_row 0 3 k.val _ (off5_eq k) _ y hy).1, (piece_row 0 3 k.val _ (off5_eq k) _ y hy).2.2⟩
    case r5 => exact fun y hy => ⟨(piece_row 0 4 k.val _ (off6_eq k) _ y hy).1, (piece_row 0 4 k.val _ (off6_eq k) _ y hy).2.2⟩
    case r6 => exact fun y hy => ⟨(piece_row 0 5 k.val _ (off7_eq k) _ y hy).1, (piece_row 0 5 k.val _ (off7_eq k) _ y hy).2.2⟩
    case r7 => exact fun y hy => ⟨(piece_row 0 6 k.val _ (off8_eq k) _ y hy).1, (piece_row 0 6 k.val _ (off8_eq k) _ y hy).2.2⟩
    case r8 => exact fun y hy => ⟨(piece_row 0 7 k.val _ (off9_eq k) _ y hy).1, (piece_row 0 7 k.val _ (off9_eq k) _ y hy).2.2⟩
    case a1 => exact piece_agree _ _ _ _ 0 0 k.val _ (off2_eq k) _ (by (clear * - k; decide +kernel +revert)) (by (clear * - k; decide +kernel +revert)) (by (clear * - k; decide +kernel +revert))
    case a2 => exact piece_agree _ _ _ _ 0 1 k.val _ (off3_eq k) _ (by (clear * - k; decide +kernel +revert)) (by (clear * - k; decide +kernel +revert)) (by (clear * - k; decide +kernel +revert))
    case a3 => exact piece_agree _ _ _ _ 0 2 k.val _ (off4_eq k) _ (by (clear * - k; decide +kernel +revert)) (by (clear * - k; decide +kernel +revert)) (by (clear * - k; decide +kernel +revert))
    case a4 => exact piece_agree _ _ _ _ 0 3 k.val _ (off5_eq k) _ (by (clear * - k; decide +kernel +revert)) (by (clear * - k; decide +kernel +revert)) (by (clear * - k; decide +kernel +revert))
    case a5 => exact piece_agree _ _ _ _ 0 4 k.val _ (off6_eq k) _ (by (clear * - k; decide +kernel +revert)) (by (clear * - k; decide +kernel +revert)) (by (clear * - k; decide +kernel +revert))
    case a6 => exact piece_agree _ _ _ _ 0 5 k.val _ (off7_eq k) _ (by (clear * - k; decide +kernel +revert)) (by (clear * - k; decide +kernel +revert)) (by (clear * - k; decide +kernel +revert))
    case a7 => exact piece_agree _ _ _ _ 0 6 k.val _ (off8_eq k) _ (by (clear * - k; decide +kernel +revert)) (by (clear * - k; decide +kernel +revert)) (by (clear * - k; decide +kernel +revert))
    case a8 => exact piece_agree _ _ _ _ 0 7 k.val _ (off9_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off2_eq k) _ y h0 h1 hr)
      · exact Or.inr (Or.inl (piece_cover 0 1 k.val _ (off3_eq k) _ y h0 h1 hr))
      · exact Or.inr (Or.inr (Or.inl (piece_cover 0 2 k.val _ (off4_eq k) _ y h0 h1 hr)))
      · exact Or.inr (Or.inr (Or.inr (Or.inl (piece_cover 0 3 k.val _ (off5_eq k) _ y h0 h1 hr))))
      · exact Or.inr (Or.inr (Or.inr (Or.inr (Or.inl (piece_cover 0 4 k.val _ (off6_eq k) _ y h0 h1 hr)))))
      · exact Or.inr (Or.inr (Or.inr (Or.inr (Or.inr (Or.inl (piece_cover 0 5 k.val _ (off7_eq k) _ y h0 h1 hr))))))
      · exact Or.inr (Or.inr (Or.inr (Or.inr (Or.inr (Or.inr (Or.inl (piece_cover 0 6 k.val _ (off8_eq k) _ y h0 h1 hr)))))))
      · exact Or.inr (Or.inr (Or.inr (Or.inr (Or.inr (Or.inr (Or.inr (piece_cover 0 7 k.val _ (off9_eq k) _ y h0 h1 hr)))))))
  · iexact Ho

end C2

end Cert.Proof.KB

end
-- ==== Proof.Compute3K.lean ====
/-
  The program as printed, read at the instance where a float is the 32-bit word that stores it. The program is the
  same text as the one read at the exact instance, so what follows is the same argument over this program's names.

  The compute loop of the units that read input slot 1 and fill output slot 1 (loop 3 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C3

theorem trips : k0_t3_loop.trips = 64 := by decide
theorem off12_eq : ∀ (k : Fin k0_t3_loop.trips) (a : Fin 4), k0_off12 k a = (![1, 0, k.val / 2, 16 * (k.val % 2)] : Fin 4 → Nat) a := by decide +kernel
instance (k : Fin k0_t3_loop.trips) : ClosedOff (k0_off12 k) := ⟨![1, 0, k.val / 2, 16 * (k.val % 2)], funext (off12_eq k)⟩
theorem off13_eq : ∀ (k : Fin k0_t3_loop.trips) (a : Fin 4), k0_off13 k a = (![1, 1, k.val / 2, 16 * (k.val % 2)] : Fin 4 → Nat) a := by decide +kernel
instance (k : Fin k0_t3_loop.trips) : ClosedOff (k0_off13 k) := ⟨![1, 1, k.val / 2, 16 * (k.val % 2)], funext (off13_eq k)⟩
theorem off14_eq : ∀ (k : Fin k0_t3_loop.trips) (a : Fin 4), k0_off14 k a = (![1, 2, k.val / 2, 16 * (k.val % 2)] : Fin 4 → Nat) a := by decide +kernel
instance (k : Fin k0_t3_loop.trips) : ClosedOff (k0_off14 k) := ⟨![1, 2, k.val / 2, 16 * (k.val % 2)], funext (off14_eq k)⟩
theorem off15_eq : ∀ (k : Fin k0_t3_loop.trips) (a : Fin 4), k0_off15 k a = (![1, 3, k.val / 2, 16 * (k.val % 2)] : Fin 4 → Nat) a := by decide +kernel
instance (k : Fin k0_t3_loop.trips) : ClosedOff (k0_off15 k) := ⟨![1, 3, k.val / 2, 16 * (k.val % 2)], funext (off15_eq k)⟩
theorem off16_eq : ∀ (k : Fin k0_t3_loop.trips) (a : Fin 4), k0_off16 k a = (![1, 4, k.val / 2, 16 * (k.val % 2)] : Fin 4 → Nat) a := by decide +kernel
instance (k : Fin k0_t3_loop.trips) : ClosedOff (k0_off16 k) := ⟨![1, 4, k.val / 2, 16 * (k.val % 2)], funext (off16_eq k)⟩
theorem off17_eq : ∀ (k : Fin k0_t3_loop.trips) (a : Fin 4), k0_off17 k a = (![1, 5, k.val / 2, 16 * (k.val % 2)] : Fin 4 → Nat) a := by decide +kernel
instance (k : Fin k0_t3_loop.trips) : ClosedOff (k0_off17 k) := ⟨![1, 5, k.val / 2, 16 * (k.val % 2)], funext (off17_eq k)⟩
theorem off18_eq : ∀ (k : Fin k0_t3_loop.trips) (a : Fin 4), k0_off18 k a = (![1, 6, k.val / 2, 16 * (k.val % 2)] : Fin 4 → Nat) a := by decide +kernel
instance (k : Fin k0_t3_loop.trips) : ClosedOff (k0_off18 k) := ⟨![1, 6, k.val / 2, 16 * (k.val % 2)], funext (off18_eq k)⟩
theorem off19_eq : ∀ (k : Fin k0_t3_loop.trips) (a : Fin 4), k0_off19 k a = (![1, 7, k.val / 2, 16 * (k.val % 2)] : Fin 4 → Nat) a := by decide +kernel
instance (k : Fin k0_t3_loop.trips) : ClosedOff (k0_off19 k) := ⟨![1, 7, k.val / 2, 16 * (k.val % 2)], funext (off19_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot1).view.loc (thrV d L)),
        ⌜Done 1 k (View.readAt (Elt F) (inSlot1).view (LoadRect.whole S2x64x64) fi) fo⌝
        ∗ ((outSlot1).view.loc (thrV d L) ↦[(outSlot1).view.set]{fullShare} fo))

/-- One trip of the loop. -/
theorem step (d : Dev nD) (L : grid0.Coords) (v3 v683 : BitVec 32)
    (fi : Buf (Elt F) ((inSlot1).view.loc (thrV d L))) (k : Fin k0_t3_loop.trips) (acc : Unit) :
    cInv (F := F) d L fi k.val acc
      ⊢ wp frame (wpE (defs₀ (F := F)) 𝒱₀ (thrV d L) none) Set.univ
          (k0_t3_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v683 k acc)
          (cInv (F := F) d L fi (k.val + 1)) := by
  unfold cInv
  iintro ⟨Hi, ⟨%f, %hD, Ho⟩⟩
  have hk : k.val < 64 := trips ▸ k.isLt
  unfold k0_t3_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off12_eq k) _ y hy).1, (piece_row 1 0 k.val _ (off12_eq k) _ y hy).2.2⟩
    case r2 => exact fun y hy => ⟨(piece_row 1 1 k.val _ (off13_eq k) _ y hy).1, (piece_row 1 1 k.val _ (off13_eq k) _ y hy).2.2⟩
    case r3 => exact fun y hy => ⟨(piece_row 1 2 k.val _ (off14_eq k) _ y hy).1, (piece_row 1 2 k.val _ (off14_eq k) _ y hy).2.2⟩
    case r4 => exact fun y hy => ⟨(piece_row 1 3 k.val _ (off15_eq k) _ y hy).1, (piece_row 1 3 k.val _ (off15_eq k) _ y hy).2.2⟩
    case r5 => exact fun y hy => ⟨(piece_row 1 4 k.val _ (off16_eq k) _ y hy).1, (piece_row 1 4 k.val _ (off16_eq k) _ y hy).2.2⟩
    case r6 => exact fun y hy => ⟨(piece_row 1 5 k.val _ (off17_eq k) _ y hy).1, (piece_row 1 5 k.val _ (off17_eq k) _ y hy).2.2⟩
    case r7 => exact fun y hy => ⟨(piece_row 1 6 k.val _ (off18_eq k) _ y hy).1, (piece_row 1 6 k.val _ (off18_eq k) _ y hy).2.2⟩
    case r8 => exact fun y hy => ⟨(piece_row 1 7 k.val _ (off19_eq k) _ y hy).1, (piece_row 1 7 k.val _ (off19_eq k) _ y hy).2.2⟩
    case a1 => exact piece_agree _ _ _ _ 1 0 k.val _ (off12_eq k) _ (by (clear * - k; decide +kernel +revert)) (by (clear * - k; decide +kernel +revert)) (by (clear * - k; decide +kernel +revert))
    case a2 => exact piece_agree _ _ _ _ 1 1 k.val _ (off13_eq k) _ (by (clear * - k; decide +kernel +revert)) (by (clear * - k; decide +kernel +revert)) (by (clear * - k; decide +kernel +revert))
    case a3 => exact piece_agree _ _ _ _ 1 2 k.val _ (off14_eq k) _ (by (clear * - k; decide +kernel +revert)) (by (clear * - k; decide +kernel +revert)) (by (clear * - k; decide +kernel +revert))
    case a4 => exact piece_agree _ _ _ _ 1 3 k.val _ (off15_eq k) _ (by (clear * - k; decide +kernel +revert)) (by (clear * - k; decide +kernel +revert)) (by (clear * - k; decide +kernel +revert))
    case a5 => exact piece_agree _ _ _ _ 1 4 k.val _ (off16_eq k) _ (by (clear * - k; decide +kernel +revert)) (by (clear * - k; decide +kernel +revert)) (by (clear * - k; decide +kernel +revert))
    case a6 => exact piece_agree _ _ _ _ 1 5 k.val _ (off17_eq k) _ (by (clear * - k; decide +kernel +revert)) (by (clear * - k; decide +kernel +revert)) (by (clear * - k; decide +kernel +revert))
    case a7 => exact piece_agree _ _ _ _ 1 6 k.val _ (off18_eq k) _ (by (clear * - k; decide +kernel +revert)) (by (clear * - k; decide +kernel +revert)) (by (clear * - k; decide +kernel +revert))
    case a8 => exact piece_agree _ _ _ _ 1 7 k.val _ (off19_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off12_eq k) _ y h0 h1 hr)
      · exact Or.inr (Or.inl (piece_cover 1 1 k.val _ (off13_eq k) _ y h0 h1 hr))
      · exact Or.inr (Or.inr (Or.inl (piece_cover 1 2 k.val _ (off14_eq k) _ y h0 h1 hr)))
      · exact Or.inr (Or.inr (Or.inr (Or.inl (piece_cover 1 3 k.val _ (off15_eq k) _ y h0 h1 hr))))
      · exact Or.inr (Or.inr (Or.inr (Or.inr (Or.inl (piece_cover 1 4 k.val _ (off16_eq k) _ y h0 h1 hr)))))
      · exact Or.inr (Or.inr (Or.inr (Or.inr (Or.inr (Or.inl (piece_cover 1 5 k.val _ (off17_eq k) _ y h0 h1 hr))))))
      · exact Or.inr (Or.inr (Or.inr (Or.inr (Or.inr (Or.inr (Or.inl (piece_cover 1 6 k.val _ (off18_eq k) _ y h0 h1 hr)))))))
      · exact Or.inr (Or.inr (Or.inr (Or.inr (Or.inr (Or.inr (Or.inr (piece_cover 1 7 k.val _ (off19_eq k) _ y h0 h1 hr)))))))
  · iexact Ho

end C3

end Cert.Proof.KB

end
-- ==== Proof.Compute4K.lean ====
/-
  The program as printed, read at the instance where a float is the 32-bit word that stores it. The program is the
  same text as the one read at the exact instance, so what follows is the same argument over this program's names.

  The compute loop of the units that read input slot 2 and fill output slot 0 (loop 4 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C4

theorem trips : k0_t4_loop.trips = 64 := by decide
theorem off21_eq : ∀ (k : Fin k0_t4_loop.trips) (a : Fin 4), k0_off21 k a = (![0, 0, k.val / 2, 16 * (k.val % 2)] : Fin 4 → Nat) a := by decide +kernel
instance (k : Fin k0_t4_loop.trips) : ClosedOff (k0_off21 k) := ⟨![0, 0, k.val / 2, 16 * (k.val % 2)], funext (off21_eq k)⟩
theorem off22_eq : ∀ (k : Fin k0_t4_loop.trips) (a : Fin 4), k0_off22 k a = (![0, 1, k.val / 2, 16 * (k.val % 2)] : Fin 4 → Nat) a := by decide +kernel
instance (k : Fin k0_t4_loop.trips) : ClosedOff (k0_off22 k) := ⟨![0, 1, k.val / 2, 16 * (k.val % 2)], funext (off22_eq k)⟩
theorem off23_eq : ∀ (k : Fin k0_t4_loop.trips) (a : Fin 4), k0_off23 k a = (![0, 2, k.val / 2, 16 * (k.val % 2)] : Fin 4 → Nat) a := by decide +kernel
instance (k : Fin k0_t4_loop.trips) : ClosedOff (k0_off23 k) := ⟨![0, 2, k.val / 2, 16 * (k.val % 2)], funext (off23_eq k)⟩
theorem off24_eq : ∀ (k : Fin k0_t4_loop.trips) (a : Fin 4), k0_off24 k a = (![0, 3, k.val / 2, 16 * (k.val % 2)] : Fin 4 → Nat) a := by decide +kernel
instance (k : Fin k0_t4_loop.trips) : ClosedOff (k0_off24 k) := ⟨![0, 3, k.val / 2, 16 * (k.val % 2)], funext (off24_eq k)⟩
theorem off25_eq : ∀ (k : Fin k0_t4_loop.trips) (a : Fin 4), k0_off25 k a = (![0, 4, k.val / 2, 16 * (k.val % 2)] : Fin 4 → Nat) a := by decide +kernel
instance (k : Fin k0_t4_loop.trips) : ClosedOff (k0_off25 k) := ⟨![0, 4, k.val / 2, 16 * (k.val % 2)], funext (off25_eq k)⟩
theorem off26_eq : ∀ (k : Fin k0_t4_loop.trips) (a : Fin 4), k0_off26 k a = (![0, 5, k.val / 2, 16 * (k.val % 2)] : Fin 4 → Nat) a := by decide +kernel
instance (k : Fin k0_t4_loop.trips) : ClosedOff (k0_off26 k) := ⟨![0, 5, k.val / 2, 16 * (k.val % 2)], funext (off26_eq k)⟩
theorem off27_eq : ∀ (k : Fin k0_t4_loop.trips) (a : Fin 4), k0_off27 k a = (![0, 6, k.val / 2, 16 * (k.val % 2)] : Fin 4 → Nat) a := by decide +kernel
instance (k : Fin k0_t4_loop.trips) : ClosedOff (k0_off27 k) := ⟨![0, 6, k.val / 2, 16 * (k.val % 2)], funext (off27_eq k)⟩
theorem off28_eq : ∀ (k : Fin k0_t4_loop.trips) (a : Fin 4), k0_off28 k a = (![0, 7, k.val / 2, 16 * (k.val % 2)] : Fin 4 → Nat) a := by decide +kernel
instance (k : Fin k0_t4_loop.trips) : ClosedOff (k0_off28 k) := ⟨![0, 7, k.val / 2, 16 * (k.val % 2)], funext (off28_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot0).view.loc (thrV d L)),
        ⌜Done 0 k (View.readAt (Elt F) (inSlot2).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32) (k0_t1 : Fin k0_t1_loop.trips) (arg11 v683 v761 : BitVec 32)
    (fi : Buf (Elt F) ((inSlot2).view.loc (thrV d L))) (k : Fin k0_t4_loop.trips) (acc : Unit) :
    cInv (F := F) d L fi k.val acc
      ⊢ wp frame (wpE (defs₀ (F := F)) 𝒱₀ (thrV d L) none) Set.univ
          (k0_t4_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k0_t1 arg11 v683 v761 k acc)
          (cInv (F := F) d L fi (k.val + 1)) := by
  unfold cInv
  iintro ⟨Hi, ⟨%f, %hD, Ho⟩⟩
  have hk : k.val < 64 := trips ▸ k.isLt
  unfold k0_t4_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off21_eq k) _ y hy).1, (piece_row 0 0 k.val _ (off21_eq k) _ y hy).2.2⟩
    case r2 => exact fun y hy => ⟨(piece_row 0 1 k.val _ (off22_eq k) _ y hy).1, (piece_row 0 1 k.val _ (off22_eq k) _ y hy).2.2⟩
    case r3 => exact fun y hy => ⟨(piece_row 0 2 k.val _ (off23_eq k) _ y hy).1, (piece_row 0 2 k.val _ (off23_eq k) _ y hy).2.2⟩
    case r4 => exact fun y hy => ⟨(piece_row 0 3 k.val _ (off24_eq k) _ y hy).1, (piece_row 0 3 k.val _ (off24_eq k) _ y hy).2.2⟩
    case r5 => exact fun y hy => ⟨(piece_row 0 4 k.val _ (off25_eq k) _ y hy).1, (piece_row 0 4 k.val _ (off25_eq k) _ y hy).2.2⟩
    case r6 => exact fun y hy => ⟨(piece_row 0 5 k.val _ (off26_eq k) _ y hy).1, (piece_row 0 5 k.val _ (off26_eq k) _ y hy).2.2⟩
    case r7 => exact fun y hy => ⟨(piece_row 0 6 k.val _ (off27_eq k) _ y hy).1, (piece_row 0 6 k.val _ (off27_eq k) _ y hy).2.2⟩
    case r8 => exact fun y hy => ⟨(piece_row 0 7 k.val _ (off28_eq k) _ y hy).1, (piece_row 0 7 k.val _ (off28_eq k) _ y hy).2.2⟩
    case a1 => exact piece_agree _ _ _ _ 0 0 k.val _ (off21_eq k) _ (by (clear * - k; decide +kernel +revert)) (by (clear * - k; decide +kernel +revert)) (by (clear * - k; decide +kernel +revert))
    case a2 => exact piece_agree _ _ _ _ 0 1 k.val _ (off22_eq k) _ (by (clear * - k; decide +kernel +revert)) (by (clear * - k; decide +kernel +revert)) (by (clear * - k; decide +kernel +revert))
    case a3 => exact piece_agree _ _ _ _ 0 2 k.val _ (off23_eq k) _ (by (clear * - k; decide +kernel +revert)) (by (clear * - k; decide +kernel +revert)) (by (clear * - k; decide +kernel +revert))
    case a4 => exact piece_agree _ _ _ _ 0 3 k.val _ (off24_eq k) _ (by (clear * - k; decide +kernel +revert)) (by (clear * - k; decide +kernel +revert)) (by (clear * - k; decide +kernel +revert))
    case a5 => exact piece_agree _ _ _ _ 0 4 k.val _ (off25_eq k) _ (by (clear * - k; decide +kernel +revert)) (by (clear * - k; decide +kernel +revert)) (by (clear * - k; decide +kernel +revert))
    case a6 => exact piece_agree _ _ _ _ 0 5 k.val _ (off26_eq k) _ (by (clear * - k; decide +kernel +revert)) (by (clear * - k; decide +kernel +revert)) (by (clear * - k; decide +kernel +revert))
    case a7 => exact piece_agree _ _ _ _ 0 6 k.val _ (off27_eq k) _ (by (clear * - k; decide +kernel +revert)) (by (clear * - k; decide +kernel +revert)) (by (clear * - k; decide +kernel +revert))
    case a8 => exact piece_agree _ _ _ _ 0 7 k.val _ (off28_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off21_eq k) _ y h0 h1 hr)
      · exact Or.inr (Or.inl (piece_cover 0 1 k.val _ (off22_eq k) _ y h0 h1 hr))
      · exact Or.inr (Or.inr (Or.inl (piece_cover 0 2 k.val _ (off23_eq k) _ y h0 h1 hr)))
      · exact Or.inr (Or.inr (Or.inr (Or.inl (piece_cover 0 3 k.val _ (off24_eq k) _ y h0 h1 hr))))
      · exact Or.inr (Or.inr (Or.inr (Or.inr (Or.inl (piece_cover 0 4 k.val _ (off25_eq k) _ y h0 h1 hr)))))
      · exact Or.inr (Or.inr (Or.inr (Or.inr (Or.inr (Or.inl (piece_cover 0 5 k.val _ (off26_eq k) _ y h0 h1 hr))))))
      · exact Or.inr (Or.inr (Or.inr (Or.inr (Or.inr (Or.inr (Or.inl (piece_cover 0 6 k.val _ (off27_eq k) _ y h0 h1 hr)))))))
      · exact Or.inr (Or.inr (Or.inr (Or.inr (Or.inr (Or.inr (Or.inr (piece_cover 0 7 k.val _ (off28_eq k) _ y h0 h1 hr)))))))
  · iexact Ho

end C4

end Cert.Proof.KB

end
-- ==== Proof.Compute5K.lean ====
/-
  The program as printed, read at the instance where a float is the 32-bit word that stores it. The program is the
  same text as the one read at the exact instance, so what follows is the same argument over this program's names.

  The compute loop of the units that read input slot 0 and fill output slot 1 (loop 5 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C5

theorem trips : k0_t5_loop.trips = 64 := by decide
theorem off30_eq : ∀ (k : Fin k0_t5_loop.trips) (a : Fin 4), k0_off30 k a = (![1, 0, k.val / 2, 16 * (k.val % 2)] : Fin 4 → Nat) a := by decide +kernel
instance (k : Fin k0_t5_loop.trips) : ClosedOff (k0_off30 k) := ⟨![1, 0, k.val / 2, 16 * (k.val % 2)], funext (off30_eq k)⟩
theorem off31_eq : ∀ (k : Fin k0_t5_loop.trips) (a : Fin 4), k0_off31 k a = (![1, 1, k.val / 2, 16 * (k.val % 2)] : Fin 4 → Nat) a := by decide +kernel
instance (k : Fin k0_t5_loop.trips) : ClosedOff (k0_off31 k) := ⟨![1, 1, k.val / 2, 16 * (k.val % 2)], funext (off31_eq k)⟩
theorem off32_eq : ∀ (k : Fin k0_t5_loop.trips) (a : Fin 4), k0_off32 k a = (![1, 2, k.val / 2, 16 * (k.val % 2)] : Fin 4 → Nat) a := by decide +kernel
instance (k : Fin k0_t5_loop.trips) : ClosedOff (k0_off32 k) := ⟨![1, 2, k.val / 2, 16 * (k.val % 2)], funext (off32_eq k)⟩
theorem off33_eq : ∀ (k : Fin k0_t5_loop.trips) (a : Fin 4), k0_off33 k a = (![1, 3, k.val / 2, 16 * (k.val % 2)] : Fin 4 → Nat) a := by decide +kernel
instance (k : Fin k0_t5_loop.trips) : ClosedOff (k0_off33 k) := ⟨![1, 3, k.val / 2, 16 * (k.val % 2)], funext (off33_eq k)⟩
theorem off34_eq : ∀ (k : Fin k0_t5_loop.trips) (a : Fin 4), k0_off34 k a = (![1, 4, k.val / 2, 16 * (k.val % 2)] : Fin 4 → Nat) a := by decide +kernel
instance (k : Fin k0_t5_loop.trips) : ClosedOff (k0_off34 k) := ⟨![1, 4, k.val / 2, 16 * (k.val % 2)], funext (off34_eq k)⟩
theorem off35_eq : ∀ (k : Fin k0_t5_loop.trips) (a : Fin 4), k0_off35 k a = (![1, 5, k.val / 2, 16 * (k.val % 2)] : Fin 4 → Nat) a := by decide +kernel
instance (k : Fin k0_t5_loop.trips) : ClosedOff (k0_off35 k) := ⟨![1, 5, k.val / 2, 16 * (k.val % 2)], funext (off35_eq k)⟩
theorem off36_eq : ∀ (k : Fin k0_t5_loop.trips) (a : Fin 4), k0_off36 k a = (![1, 6, k.val / 2, 16 * (k.val % 2)] : Fin 4 → Nat) a := by decide +kernel
instance (k : Fin k0_t5_loop.trips) : ClosedOff (k0_off36 k) := ⟨![1, 6, k.val / 2, 16 * (k.val % 2)], funext (off36_eq k)⟩
theorem off37_eq : ∀ (k : Fin k0_t5_loop.trips) (a : Fin 4), k0_off37 k a = (![1, 7, k.val / 2, 16 * (k.val % 2)] : Fin 4 → Nat) a := by decide +kernel
instance (k : Fin k0_t5_loop.trips) : ClosedOff (k0_off37 k) := ⟨![1, 7, k.val / 2, 16 * (k.val % 2)], funext (off37_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot1).view.loc (thrV d L)),
        ⌜Done 1 k (View.readAt (Elt F) (inSlot0).view (LoadRect.whole S2x64x64) fi) fo⌝
        ∗ ((outSlot1).view.loc (thrV d L) ↦[(outSlot1).view.set]{fullShare} fo))

/-- One trip of the loop. -/
theorem step (d : Dev nD) (L : grid0.Coords) (v3 v845 : BitVec 32)
    (fi : Buf (Elt F) ((inSlot0).view.loc (thrV d L))) (k : Fin k0_t5_loop.trips) (acc : Unit) :
    cInv (F := F) d L fi k.val acc
      ⊢ wp frame (wpE (defs₀ (F := F)) 𝒱₀ (thrV d L) none) Set.univ
          (k0_t5_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v845 k acc)
          (cInv (F := F) d L fi (k.val + 1)) := by
  unfold cInv
  iintro ⟨Hi, ⟨%f, %hD, Ho⟩⟩
  have hk : k.val < 64 := trips ▸ k.isLt
  unfold k0_t5_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off30_eq k) _ y hy).1, (piece_row 1 0 k.val _ (off30_eq k) _ y hy).2.2⟩
    case r2 => exact fun y hy => ⟨(piece_row 1 1 k.val _ (off31_eq k) _ y hy).1, (piece_row 1 1 k.val _ (off31_eq k) _ y hy).2.2⟩
    case r3 => exact fun y hy => ⟨(piece_row 1 2 k.val _ (off32_eq k) _ y hy).1, (piece_row 1 2 k.val _ (off32_eq k) _ y hy).2.2⟩
    case r4 => exact fun y hy => ⟨(piece_row 1 3 k.val _ (off33_eq k) _ y hy).1, (piece_row 1 3 k.val _ (off33_eq k) _ y hy).2.2⟩
    case r5 => exact fun y hy => ⟨(piece_row 1 4 k.val _ (off34_eq k) _ y hy).1, (piece_row 1 4 k.val _ (off34_eq k) _ y hy).2.2⟩
    case r6 => exact fun y hy => ⟨(piece_row 1 5 k.val _ (off35_eq k) _ y hy).1, (piece_row 1 5 k.val _ (off35_eq k) _ y hy).2.2⟩
    case r7 => exact fun y hy => ⟨(piece_row 1 6 k.val _ (off36_eq k) _ y hy).1, (piece_row 1 6 k.val _ (off36_eq k) _ y hy).2.2⟩
    case r8 => exact fun y hy => ⟨(piece_row 1 7 k.val _ (off37_eq k) _ y hy).1, (piece_row 1 7 k.val _ (off37_eq k) _ y hy).2.2⟩
    case a1 => exact piece_agree _ _ _ _ 1 0 k.val _ (off30_eq k) _ (by (clear * - k; decide +kernel +revert)) (by (clear * - k; decide +kernel +revert)) (by (clear * - k; decide +kernel +revert))
    case a2 => exact piece_agree _ _ _ _ 1 1 k.val _ (off31_eq k) _ (by (clear * - k; decide +kernel +revert)) (by (clear * - k; decide +kernel +revert)) (by (clear * - k; decide +kernel +revert))
    case a3 => exact piece_agree _ _ _ _ 1 2 k.val _ (off32_eq k) _ (by (clear * - k; decide +kernel +revert)) (by (clear * - k; decide +kernel +revert)) (by (clear * - k; decide +kernel +revert))
    case a4 => exact piece_agree _ _ _ _ 1 3 k.val _ (off33_eq k) _ (by (clear * - k; decide +kernel +revert)) (by (clear * - k; decide +kernel +revert)) (by (clear * - k; decide +kernel +revert))
    case a5 => exact piece_agree _ _ _ _ 1 4 k.val _ (off34_eq k) _ (by (clear * - k; decide +kernel +revert)) (by (clear * - k; decide +kernel +revert)) (by (clear * - k; decide +kernel +revert))
    case a6 => exact piece_agree _ _ _ _ 1 5 k.val _ (off35_eq k) _ (by (clear * - k; decide +kernel +revert)) (by (clear * - k; decide +kernel +revert)) (by (clear * - k; decide +kernel +revert))
    case a7 => exact piece_agree _ _ _ _ 1 6 k.val _ (off36_eq k) _ (by (clear * - k; decide +kernel +revert)) (by (clear * - k; decide +kernel +revert)) (by (clear * - k; decide +kernel +revert))
    case a8 => exact piece_agree _ _ _ _ 1 7 k.val _ (off37_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off30_eq k) _ y h0 h1 hr)
      · exact Or.inr (Or.inl (piece_cover 1 1 k.val _ (off31_eq k) _ y h0 h1 hr))
      · exact Or.inr (Or.inr (Or.inl (piece_cover 1 2 k.val _ (off32_eq k) _ y h0 h1 hr)))
      · exact Or.inr (Or.inr (Or.inr (Or.inl (piece_cover 1 3 k.val _ (off33_eq k) _ y h0 h1 hr))))
      · exact Or.inr (Or.inr (Or.inr (Or.inr (Or.inl (piece_cover 1 4 k.val _ (off34_eq k) _ y h0 h1 hr)))))
      · exact Or.inr (Or.inr (Or.inr (Or.inr (Or.inr (Or.inl (piece_cover 1 5 k.val _ (off35_eq k) _ y h0 h1 hr))))))
      · exact Or.inr (Or.inr (Or.inr (Or.inr (Or.inr (Or.inr (Or.inl (piece_cover 1 6 k.val _ (off36_eq k) _ y h0 h1 hr)))))))
      · exact Or.inr (Or.inr (Or.inr (Or.inr (Or.inr (Or.inr (Or.inr (piece_cover 1 7 k.val _ (off37_eq k) _ y h0 h1 hr)))))))
  · iexact Ho

end C5

end Cert.Proof.KB

end
-- ==== Proof.Compute6K.lean ====
/-
  The program as printed, read at the instance where a float is the 32-bit word that stores it. The program is the
  same text as the one read at the exact instance, so what follows is the same argument over this program's names.

  The compute loop of the units that read input slot 1 and fill output slot 0 (loop 6 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C6

theorem trips : k0_t6_loop.trips = 64 := by decide
theorem off39_eq : ∀ (k : Fin k0_t6_loop.trips) (a : Fin 4), k0_off39 k a = (![0, 0, k.val / 2, 16 * (k.val % 2)] : Fin 4 → Nat) a := by decide +kernel
instance (k : Fin k0_t6_loop.trips) : ClosedOff (k0_off39 k) := ⟨![0, 0, k.val / 2, 16 * (k.val % 2)], funext (off39_eq k)⟩
theorem off40_eq : ∀ (k : Fin k0_t6_loop.trips) (a : Fin 4), k0_off40 k a = (![0, 1, k.val / 2, 16 * (k.val % 2)] : Fin 4 → Nat) a := by decide +kernel
instance (k : Fin k0_t6_loop.trips) : ClosedOff (k0_off40 k) := ⟨![0, 1, k.val / 2, 16 * (k.val % 2)], funext (off40_eq k)⟩
theorem off41_eq : ∀ (k : Fin k0_t6_loop.trips) (a : Fin 4), k0_off41 k a = (![0, 2, k.val / 2, 16 * (k.val % 2)] : Fin 4 → Nat) a := by decide +kernel
instance (k : Fin k0_t6_loop.trips) : ClosedOff (k0_off41 k) := ⟨![0, 2, k.val / 2, 16 * (k.val % 2)], funext (off41_eq k)⟩
theorem off42_eq : ∀ (k : Fin k0_t6_loop.trips) (a : Fin 4), k0_off42 k a = (![0, 3, k.val / 2, 16 * (k.val % 2)] : Fin 4 → Nat) a := by decide +kernel
instance (k : Fin k0_t6_loop.trips) : ClosedOff (k0_off42 k) := ⟨![0, 3, k.val / 2, 16 * (k.val % 2)], funext (off42_eq k)⟩
theorem off43_eq : ∀ (k : Fin k0_t6_loop.trips) (a : Fin 4), k0_off43 k a = (![0, 4, k.val / 2, 16 * (k.val % 2)] : Fin 4 → Nat) a := by decide +kernel
instance (k : Fin k0_t6_loop.trips) : ClosedOff (k0_off43 k) := ⟨![0, 4, k.val / 2, 16 * (k.val % 2)], funext (off43_eq k)⟩
theorem off44_eq : ∀ (k : Fin k0_t6_loop.trips) (a : Fin 4), k0_off44 k a = (![0, 5, k.val / 2, 16 * (k.val % 2)] : Fin 4 → Nat) a := by decide +kernel
instance (k : Fin k0_t6_loop.trips) : ClosedOff (k0_off44 k) := ⟨![0, 5, k.val / 2, 16 * (k.val % 2)], funext (off44_eq k)⟩
theorem off45_eq : ∀ (k : Fin k0_t6_loop.trips) (a : Fin 4), k0_off45 k a = (![0, 6, k.val / 2, 16 * (k.val % 2)] : Fin 4 → Nat) a := by decide +kernel
instance (k : Fin k0_t6_loop.trips) : ClosedOff (k0_off45 k) := ⟨![0, 6, k.val / 2, 16 * (k.val % 2)], funext (off45_eq k)⟩
theorem off46_eq : ∀ (k : Fin k0_t6_loop.trips) (a : Fin 4), k0_off46 k a = (![0, 7, k.val / 2, 16 * (k.val % 2)] : Fin 4 → Nat) a := by decide +kernel
instance (k : Fin k0_t6_loop.trips) : ClosedOff (k0_off46 k) := ⟨![0, 7, k.val / 2, 16 * (k.val % 2)], funext (off46_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot0).view.loc (thrV d L)),
        ⌜Done 0 k (View.readAt (Elt F) (inSlot1).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32) (k0_t1 : Fin k0_t1_loop.trips) (arg11 v845 c61 : BitVec 32)
    (fi : Buf (Elt F) ((inSlot1).view.loc (thrV d L))) (k : Fin k0_t6_loop.trips) (acc : Unit) :
    cInv (F := F) d L fi k.val acc
      ⊢ wp frame (wpE (defs₀ (F := F)) 𝒱₀ (thrV d L) none) Set.univ
          (k0_t6_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k0_t1 arg11 v845 c61 k acc)
          (cInv (F := F) d L fi (k.val + 1)) := by
  unfold cInv
  iintro ⟨Hi, ⟨%f, %hD, Ho⟩⟩
  have hk : k.val < 64 := trips ▸ k.isLt
  unfold k0_t6_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off39_eq k) _ y hy).1, (piece_row 0 0 k.val _ (off39_eq k) _ y hy).2.2⟩
    case r2 => exact fun y hy => ⟨(piece_row 0 1 k.val _ (off40_eq k) _ y hy).1, (piece_row 0 1 k.val _ (off40_eq k) _ y hy).2.2⟩
    case r3 => exact fun y hy => ⟨(piece_row 0 2 k.val _ (off41_eq k) _ y hy).1, (piece_row 0 2 k.val _ (off41_eq k) _ y hy).2.2⟩
    case r4 => exact fun y hy => ⟨(piece_row 0 3 k.val _ (off42_eq k) _ y hy).1, (piece_row 0 3 k.val _ (off42_eq k) _ y hy).2.2⟩
    case r5 => exact fun y hy => ⟨(piece_row 0 4 k.val _ (off43_eq k) _ y hy).1, (piece_row 0 4 k.val _ (off43_eq k) _ y hy).2.2⟩
    case r6 => exact fun y hy => ⟨(piece_row 0 5 k.val _ (off44_eq k) _ y hy).1, (piece_row 0 5 k.val _ (off44_eq k) _ y hy).2.2⟩
    case r7 => exact fun y hy => ⟨(piece_row 0 6 k.val _ (off45_eq k) _ y hy).1, (piece_row 0 6 k.val _ (off45_eq k) _ y hy).2.2⟩
    case r8 => exact fun y hy => ⟨(piece_row 0 7 k.val _ (off46_eq k) _ y hy).1, (piece_row 0 7 k.val _ (off46_eq k) _ y hy).2.2⟩
    case a1 => exact piece_agree _ _ _ _ 0 0 k.val _ (off39_eq k) _ (by (clear * - k; decide +kernel +revert)) (by (clear * - k; decide +kernel +revert)) (by (clear * - k; decide +kernel +revert))
    case a2 => exact piece_agree _ _ _ _ 0 1 k.val _ (off40_eq k) _ (by (clear * - k; decide +kernel +revert)) (by (clear * - k; decide +kernel +revert)) (by (clear * - k; decide +kernel +revert))
    case a3 => exact piece_agree _ _ _ _ 0 2 k.val _ (off41_eq k) _ (by (clear * - k; decide +kernel +revert)) (by (clear * - k; decide +kernel +revert)) (by (clear * - k; decide +kernel +revert))
    case a4 => exact piece_agree _ _ _ _ 0 3 k.val _ (off42_eq k) _ (by (clear * - k; decide +kernel +revert)) (by (clear * - k; decide +kernel +revert)) (by (clear * - k; decide +kernel +revert))
    case a5 => exact piece_agree _ _ _ _ 0 4 k.val _ (off43_eq k) _ (by (clear * - k; decide +kernel +revert)) (by (clear * - k; decide +kernel +revert)) (by (clear * - k; decide +kernel +revert))
    case a6 => exact piece_agree _ _ _ _ 0 5 k.val _ (off44_eq k) _ (by (clear * - k; decide +kernel +revert)) (by (clear * - k; decide +kernel +revert)) (by (clear * - k; decide +kernel +revert))
    case a7 => exact piece_agree _ _ _ _ 0 6 k.val _ (off45_eq k) _ (by (clear * - k; decide +kernel +revert)) (by (clear * - k; decide +kernel +revert)) (by (clear * - k; decide +kernel +revert))
    case a8 => exact piece_agree _ _ _ _ 0 7 k.val _ (off46_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off39_eq k) _ y h0 h1 hr)
      · exact Or.inr (Or.inl (piece_cover 0 1 k.val _ (off40_eq k) _ y h0 h1 hr))
      · exact Or.inr (Or.inr (Or.inl (piece_cover 0 2 k.val _ (off41_eq k) _ y h0 h1 hr)))
      · exact Or.inr (Or.inr (Or.inr (Or.inl (piece_cover 0 3 k.val _ (off42_eq k) _ y h0 h1 hr))))
      · exact Or.inr (Or.inr (Or.inr (Or.inr (Or.inl (piece_cover 0 4 k.val _ (off43_eq k) _ y h0 h1 hr)))))
      · exact Or.inr (Or.inr (Or.inr (Or.inr (Or.inr (Or.inl (piece_cover 0 5 k.val _ (off44_eq k) _ y h0 h1 hr))))))
      · exact Or.inr (Or.inr (Or.inr (Or.inr (Or.inr (Or.inr (Or.inl (piece_cover 0 6 k.val _ (off45_eq k) _ y h0 h1 hr)))))))
      · exact Or.inr (Or.inr (Or.inr (Or.inr (Or.inr (Or.inr (Or.inr (piece_cover 0 7 k.val _ (off46_eq k) _ y h0 h1 hr)))))))
  · iexact Ho

end C6

end Cert.Proof.KB

end
-- ==== Proof.Compute7K.lean ====
/-
  The program as printed, read at the instance where a float is the 32-bit word that stores it. The program is the
  same text as the one read at the exact instance, so what follows is the same argument over this program's names.

  The compute loop of the units that read input slot 2 and fill output slot 1 (loop 7 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C7

theorem trips : k0_t7_loop.trips = 64 := by decide
theorem off48_eq : ∀ (k : Fin k0_t7_loop.trips) (a : Fin 4), k0_off48 k a = (![1, 0, k.val / 2, 16 * (k.val % 2)] : Fin 4 → Nat) a := by decide +kernel
instance (k : Fin k0_t7_loop.trips) : ClosedOff (k0_off48 k) := ⟨![1, 0, k.val / 2, 16 * (k.val % 2)], funext (off48_eq k)⟩
theorem off49_eq : ∀ (k : Fin k0_t7_loop.trips) (a : Fin 4), k0_off49 k a = (![1, 1, k.val / 2, 16 * (k.val % 2)] : Fin 4 → Nat) a := by decide +kernel
instance (k : Fin k0_t7_loop.trips) : ClosedOff (k0_off49 k) := ⟨![1, 1, k.val / 2, 16 * (k.val % 2)], funext (off49_eq k)⟩
theorem off50_eq : ∀ (k : Fin k0_t7_loop.trips) (a : Fin 4), k0_off50 k a = (![1, 2, k.val / 2, 16 * (k.val % 2)] : Fin 4 → Nat) a := by decide +kernel
instance (k : Fin k0_t7_loop.trips) : ClosedOff (k0_off50 k) := ⟨![1, 2, k.val / 2, 16 * (k.val % 2)], funext (off50_eq k)⟩
theorem off51_eq : ∀ (k : Fin k0_t7_loop.trips) (a : Fin 4), k0_off51 k a = (![1, 3, k.val / 2, 16 * (k.val % 2)] : Fin 4 → Nat) a := by decide +kernel
instance (k : Fin k0_t7_loop.trips) : ClosedOff (k0_off51 k) := ⟨![1, 3, k.val / 2, 16 * (k.val % 2)], funext (off51_eq k)⟩
theorem off52_eq : ∀ (k : Fin k0_t7_loop.trips) (a : Fin 4), k0_off52 k a = (![1, 4, k.val / 2, 16 * (k.val % 2)] : Fin 4 → Nat) a := by decide +kernel
instance (k : Fin k0_t7_loop.trips) : ClosedOff (k0_off52 k) := ⟨![1, 4, k.val / 2, 16 * (k.val % 2)], funext (off52_eq k)⟩
theorem off53_eq : ∀ (k : Fin k0_t7_loop.trips) (a : Fin 4), k0_off53 k a = (![1, 5, k.val / 2, 16 * (k.val % 2)] : Fin 4 → Nat) a := by decide +kernel
instance (k : Fin k0_t7_loop.trips) : ClosedOff (k0_off53 k) := ⟨![1, 5, k.val / 2, 16 * (k.val % 2)], funext (off53_eq k)⟩
theorem off54_eq : ∀ (k : Fin k0_t7_loop.trips) (a : Fin 4), k0_off54 k a = (![1, 6, k.val / 2, 16 * (k.val % 2)] : Fin 4 → Nat) a := by decide +kernel
instance (k : Fin k0_t7_loop.trips) : ClosedOff (k0_off54 k) := ⟨![1, 6, k.val / 2, 16 * (k.val % 2)], funext (off54_eq k)⟩
theorem off55_eq : ∀ (k : Fin k0_t7_loop.trips) (a : Fin 4), k0_off55 k a = (![1, 7, k.val / 2, 16 * (k.val % 2)] : Fin 4 → Nat) a := by decide +kernel
instance (k : Fin k0_t7_loop.trips) : ClosedOff (k0_off55 k) := ⟨![1, 7, k.val / 2, 16 * (k.val % 2)], funext (off55_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot1).view.loc (thrV d L)),
        ⌜Done 1 k (View.readAt (Elt F) (inSlot2).view (LoadRect.whole S2x64x64) fi) fo⌝
        ∗ ((outSlot1).view.loc (thrV d L) ↦[(outSlot1).view.set]{fullShare} fo))

/-- One trip of the loop. -/
theorem step (d : Dev nD) (L : grid0.Coords) (v3 v1007 : BitVec 32)
    (fi : Buf (Elt F) ((inSlot2).view.loc (thrV d L))) (k : Fin k0_t7_loop.trips) (acc : Unit) :
    cInv (F := F) d L fi k.val acc
      ⊢ wp frame (wpE (defs₀ (F := F)) 𝒱₀ (thrV d L) none) Set.univ
          (k0_t7_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 v1007 k acc)
          (cInv (F := F) d L fi (k.val + 1)) := by
  unfold cInv
  iintro ⟨Hi, ⟨%f, %hD, Ho⟩⟩
  have hk : k.val < 64 := trips ▸ k.isLt
  unfold k0_t7_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off48_eq k) _ y hy).1, (piece_row 1 0 k.val _ (off48_eq k) _ y hy).2.2⟩
    case r2 => exact fun y hy => ⟨(piece_row 1 1 k.val _ (off49_eq k) _ y hy).1, (piece_row 1 1 k.val _ (off49_eq k) _ y hy).2.2⟩
    case r3 => exact fun y hy => ⟨(piece_row 1 2 k.val _ (off50_eq k) _ y hy).1, (piece_row 1 2 k.val _ (off50_eq k) _ y hy).2.2⟩
    case r4 => exact fun y hy => ⟨(piece_row 1 3 k.val _ (off51_eq k) _ y hy).1, (piece_row 1 3 k.val _ (off51_eq k) _ y hy).2.2⟩
    case r5 => exact fun y hy => ⟨(piece_row 1 4 k.val _ (off52_eq k) _ y hy).1, (piece_row 1 4 k.val _ (off52_eq k) _ y hy).2.2⟩
    case r6 => exact fun y hy => ⟨(piece_row 1 5 k.val _ (off53_eq k) _ y hy).1, (piece_row 1 5 k.val _ (off53_eq k) _ y hy).2.2⟩
    case r7 => exact fun y hy => ⟨(piece_row 1 6 k.val _ (off54_eq k) _ y hy).1, (piece_row 1 6 k.val _ (off54_eq k) _ y hy).2.2⟩
    case r8 => exact fun y hy => ⟨(piece_row 1 7 k.val _ (off55_eq k) _ y hy).1, (piece_row 1 7 k.val _ (off55_eq k) _ y hy).2.2⟩
    case a1 => exact piece_agree _ _ _ _ 1 0 k.val _ (off48_eq k) _ (by (clear * - k; decide +kernel +revert)) (by (clear * - k; decide +kernel +revert)) (by (clear * - k; decide +kernel +revert))
    case a2 => exact piece_agree _ _ _ _ 1 1 k.val _ (off49_eq k) _ (by (clear * - k; decide +kernel +revert)) (by (clear * - k; decide +kernel +revert)) (by (clear * - k; decide +kernel +revert))
    case a3 => exact piece_agree _ _ _ _ 1 2 k.val _ (off50_eq k) _ (by (clear * - k; decide +kernel +revert)) (by (clear * - k; decide +kernel +revert)) (by (clear * - k; decide +kernel +revert))
    case a4 => exact piece_agree _ _ _ _ 1 3 k.val _ (off51_eq k) _ (by (clear * - k; decide +kernel +revert)) (by (clear * - k; decide +kernel +revert)) (by (clear * - k; decide +kernel +revert))
    case a5 => exact piece_agree _ _ _ _ 1 4 k.val _ (off52_eq k) _ (by (clear * - k; decide +kernel +revert)) (by (clear * - k; decide +kernel +revert)) (by (clear * - k; decide +kernel +revert))
    case a6 => exact piece_agree _ _ _ _ 1 5 k.val _ (off53_eq k) _ (by (clear * - k; decide +kernel +revert)) (by (clear * - k; decide +kernel +revert)) (by (clear * - k; decide +kernel +revert))
    case a7 => exact piece_agree _ _ _ _ 1 6 k.val _ (off54_eq k) _ (by (clear * - k; decide +kernel +revert)) (by (clear * - k; decide +kernel +revert)) (by (clear * - k; decide +kernel +revert))
    case a8 => exact piece_agree _ _ _ _ 1 7 k.val _ (off55_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off48_eq k) _ y h0 h1 hr)
      · exact Or.inr (Or.inl (piece_cover 1 1 k.val _ (off49_eq k) _ y h0 h1 hr))
      · exact Or.inr (Or.inr (Or.inl (piece_cover 1 2 k.val _ (off50_eq k) _ y h0 h1 hr)))
      · exact Or.inr (Or.inr (Or.inr (Or.inl (piece_cover 1 3 k.val _ (off51_eq k) _ y h0 h1 hr))))
      · exact Or.inr (Or.inr (Or.inr (Or.inr (Or.inl (piece_cover 1 4 k.val _ (off52_eq k) _ y h0 h1 hr)))))
      · exact Or.inr (Or.inr (Or.inr (Or.inr (Or.inr (Or.inl (piece_cover 1 5 k.val _ (off53_eq k) _ y h0 h1 hr))))))
      · exact Or.inr (Or.inr (Or.inr (Or.inr (Or.inr (Or.inr (Or.inl (piece_cover 1 6 k.val _ (off54_eq k) _ y h0 h1 hr)))))))
      · exact Or.inr (Or.inr (Or.inr (Or.inr (Or.inr (Or.inr (Or.inr (piece_cover 1 7 k.val _ (off55_eq k) _ y h0 h1 hr)))))))
  · iexact Ho

end C7

end Cert.Proof.KB

end
-- ==== Proof.Compute8K.lean ====
/-
  The program as printed, read at the instance where a float is the 32-bit word that stores it. The program is the
  same text as the one read at the exact instance, so what follows is the same argument over this program's names.

  The compute loop of the units that read input slot 0 and fill output slot 0 (loop 8 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C8

theorem trips : k0_t8_loop.trips = 64 := by decide
theorem off57_eq : ∀ (k : Fin k0_t8_loop.trips) (a : Fin 4), k0_off57 k a = (![0, 0, k.val / 2, 16 * (k.val % 2)] : Fin 4 → Nat) a := by decide +kernel
instance (k : Fin k0_t8_loop.trips) : ClosedOff (k0_off57 k) := ⟨![0, 0, k.val / 2, 16 * (k.val % 2)], funext (off57_eq k)⟩
theorem off58_eq : ∀ (k : Fin k0_t8_loop.trips) (a : Fin 4), k0_off58 k a = (![0, 1, k.val / 2, 16 * (k.val % 2)] : Fin 4 → Nat) a := by decide +kernel
instance (k : Fin k0_t8_loop.trips) : ClosedOff (k0_off58 k) := ⟨![0, 1, k.val / 2, 16 * (k.val % 2)], funext (off58_eq k)⟩
theorem off59_eq : ∀ (k : Fin k0_t8_loop.trips) (a : Fin 4), k0_off59 k a = (![0, 2, k.val / 2, 16 * (k.val % 2)] : Fin 4 → Nat) a := by decide +kernel
instance (k : Fin k0_t8_loop.trips) : ClosedOff (k0_off59 k) := ⟨![0, 2, k.val / 2, 16 * (k.val % 2)], funext (off59_eq k)⟩
theorem off60_eq : ∀ (k : Fin k0_t8_loop.trips) (a : Fin 4), k0_off60 k a = (![0, 3, k.val / 2, 16 * (k.val % 2)] : Fin 4 → Nat) a := by decide +kernel
instance (k : Fin k0_t8_loop.trips) : ClosedOff (k0_off60 k) := ⟨![0, 3, k.val / 2, 16 * (k.val % 2)], funext (off60_eq k)⟩
theorem off61_eq : ∀ (k : Fin k0_t8_loop.trips) (a : Fin 4), k0_off61 k a = (![0, 4, k.val / 2, 16 * (k.val % 2)] : Fin 4 → Nat) a := by decide +kernel
instance (k : Fin k0_t8_loop.trips) : ClosedOff (k0_off61 k) := ⟨![0, 4, k.val / 2, 16 * (k.val % 2)], funext (off61_eq k)⟩
theorem off62_eq : ∀ (k : Fin k0_t8_loop.trips) (a : Fin 4), k0_off62 k a = (![0, 5, k.val / 2, 16 * (k.val % 2)] : Fin 4 → Nat) a := by decide +kernel
instance (k : Fin k0_t8_loop.trips) : ClosedOff (k0_off62 k) := ⟨![0, 5, k.val / 2, 16 * (k.val % 2)], funext (off62_eq k)⟩
theorem off63_eq : ∀ (k : Fin k0_t8_loop.trips) (a : Fin 4), k0_off63 k a = (![0, 6, k.val / 2, 16 * (k.val % 2)] : Fin 4 → Nat) a := by decide +kernel
instance (k : Fin k0_t8_loop.trips) : ClosedOff (k0_off63 k) := ⟨![0, 6, k.val / 2, 16 * (k.val % 2)], funext (off63_eq k)⟩
theorem off64_eq : ∀ (k : Fin k0_t8_loop.trips) (a : Fin 4), k0_off64 k a = (![0, 7, k.val / 2, 16 * (k.val % 2)] : Fin 4 → Nat) a := by decide +kernel
instance (k : Fin k0_t8_loop.trips) : ClosedOff (k0_off64 k) := ⟨![0, 7, k.val / 2, 16 * (k.val % 2)], funext (off64_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot0).view.loc (thrV d L)),
        ⌜Done 0 k (View.readAt (Elt F) (inSlot0).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32)
    (fi : Buf (Elt F) ((inSlot0).view.loc (thrV d L))) (k : Fin k0_t8_loop.trips) (acc : Unit) :
    cInv (F := F) d L fi k.val acc
      ⊢ wp frame (wpE (defs₀ (F := F)) 𝒱₀ (thrV d L) none) Set.univ
          (k0_t8_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t8_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off57_eq k) _ y hy).1, (piece_row 0 0 k.val _ (off57_eq k) _ y hy).2.2⟩
    case r2 => exact fun y hy => ⟨(piece_row 0 1 k.val _ (off58_eq k) _ y hy).1, (piece_row 0 1 k.val _ (off58_eq k) _ y hy).2.2⟩
    case r3 => exact fun y hy => ⟨(piece_row 0 2 k.val _ (off59_eq k) _ y hy).1, (piece_row 0 2 k.val _ (off59_eq k) _ y hy).2.2⟩
    case r4 => exact fun y hy => ⟨(piece_row 0 3 k.val _ (off60_eq k) _ y hy).1, (piece_row 0 3 k.val _ (off60_eq k) _ y hy).2.2⟩
    case r5 => exact fun y hy => ⟨(piece_row 0 4 k.val _ (off61_eq k) _ y hy).1, (piece_row 0 4 k.val _ (off61_eq k) _ y hy).2.2⟩
    case r6 => exact fun y hy => ⟨(piece_row 0 5 k.val _ (off62_eq k) _ y hy).1, (piece_row 0 5 k.val _ (off62_eq k) _ y hy).2.2⟩
    case r7 => exact fun y hy => ⟨(piece_row 0 6 k.val _ (off63_eq k) _ y hy).1, (piece_row 0 6 k.val _ (off63_eq k) _ y hy).2.2⟩
    case r8 => exact fun y hy => ⟨(piece_row 0 7 k.val _ (off64_eq k) _ y hy).1, (piece_row 0 7 k.val _ (off64_eq k) _ y hy).2.2⟩
    case a1 => exact piece_agree _ _ _ _ 0 0 k.val _ (off57_eq k) _ (by (clear * - k; decide +kernel +revert)) (by (clear * - k; decide +kernel +revert)) (by (clear * - k; decide +kernel +revert))
    case a2 => exact piece_agree _ _ _ _ 0 1 k.val _ (off58_eq k) _ (by (clear * - k; decide +kernel +revert)) (by (clear * - k; decide +kernel +revert)) (by (clear * - k; decide +kernel +revert))
    case a3 => exact piece_agree _ _ _ _ 0 2 k.val _ (off59_eq k) _ (by (clear * - k; decide +kernel +revert)) (by (clear * - k; decide +kernel +revert)) (by (clear * - k; decide +kernel +revert))
    case a4 => exact piece_agree _ _ _ _ 0 3 k.val _ (off60_eq k) _ (by (clear * - k; decide +kernel +revert)) (by (clear * - k; decide +kernel +revert)) (by (clear * - k; decide +kernel +revert))
    case a5 => exact piece_agree _ _ _ _ 0 4 k.val _ (off61_eq k) _ (by (clear * - k; decide +kernel +revert)) (by (clear * - k; decide +kernel +revert)) (by (clear * - k; decide +kernel +revert))
    case a6 => exact piece_agree _ _ _ _ 0 5 k.val _ (off62_eq k) _ (by (clear * - k; decide +kernel +revert)) (by (clear * - k; decide +kernel +revert)) (by (clear * - k; decide +kernel +revert))
    case a7 => exact piece_agree _ _ _ _ 0 6 k.val _ (off63_eq k) _ (by (clear * - k; decide +kernel +revert)) (by (clear * - k; decide +kernel +revert)) (by (clear * - k; decide +kernel +revert))
    case a8 => exact piece_agree _ _ _ _ 0 7 k.val _ (off64_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off57_eq k) _ y h0 h1 hr)
      · exact Or.inr (Or.inl (piece_cover 0 1 k.val _ (off58_eq k) _ y h0 h1 hr))
      · exact Or.inr (Or.inr (Or.inl (piece_cover 0 2 k.val _ (off59_eq k) _ y h0 h1 hr)))
      · exact Or.inr (Or.inr (Or.inr (Or.inl (piece_cover 0 3 k.val _ (off60_eq k) _ y h0 h1 hr))))
      · exact Or.inr (Or.inr (Or.inr (Or.inr (Or.inl (piece_cover 0 4 k.val _ (off61_eq k) _ y h0 h1 hr)))))
      · exact Or.inr (Or.inr (Or.inr (Or.inr (Or.inr (Or.inl (piece_cover 0 5 k.val _ (off62_eq k) _ y h0 h1 hr))))))
      · exact Or.inr (Or.inr (Or.inr (Or.inr (Or.inr (Or.inr (Or.inl (piece_cover 0 6 k.val _ (off63_eq k) _ y h0 h1 hr)))))))
      · exact Or.inr (Or.inr (Or.inr (Or.inr (Or.inr (Or.inr (Or.inr (piece_cover 0 7 k.val _ (off64_eq k) _ y h0 h1 hr)))))))
  · iexact Ho

end C8

end Cert.Proof.KB

end
-- ==== Proof.Compute9K.lean ====
/-
  The program as printed, read at the instance where a float is the 32-bit word that stores it. The program is the
  same text as the one read at the exact instance, so what follows is the same argument over this program's names.

  The compute loop of the units that read input slot 1 and fill output slot 1 (loop 9 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C9

theorem trips : k0_t9_loop.trips = 64 := by decide
theorem off66_eq : ∀ (k : Fin k0_t9_loop.trips) (a : Fin 4), k0_off66 k a = (![1, 0, k.val / 2, 16 * (k.val % 2)] : Fin 4 → Nat) a := by decide +kernel
instance (k : Fin k0_t9_loop.trips) : ClosedOff (k0_off66 k) := ⟨![1, 0, k.val / 2, 16 * (k.val % 2)], funext (off66_eq k)⟩
theorem off67_eq : ∀ (k : Fin k0_t9_loop.trips) (a : Fin 4), k0_off67 k a = (![1, 1, k.val / 2, 16 * (k.val % 2)] : Fin 4 → Nat) a := by decide +kernel
instance (k : Fin k0_t9_loop.trips) : ClosedOff (k0_off67 k) := ⟨![1, 1, k.val / 2, 16 * (k.val % 2)], funext (off67_eq k)⟩
theorem off68_eq : ∀ (k : Fin k0_t9_loop.trips) (a : Fin 4), k0_off68 k a = (![1, 2, k.val / 2, 16 * (k.val % 2)] : Fin 4 → Nat) a := by decide +kernel
instance (k : Fin k0_t9_loop.trips) : ClosedOff (k0_off68 k) := ⟨![1, 2, k.val / 2, 16 * (k.val % 2)], funext (off68_eq k)⟩
theorem off69_eq : ∀ (k : Fin k0_t9_loop.trips) (a : Fin 4), k0_off69 k a = (![1, 3, k.val / 2, 16 * (k.val % 2)] : Fin 4 → Nat) a := by decide +kernel
instance (k : Fin k0_t9_loop.trips) : ClosedOff (k0_off69 k) := ⟨![1, 3, k.val / 2, 16 * (k.val % 2)], funext (off69_eq k)⟩
theorem off70_eq : ∀ (k : Fin k0_t9_loop.trips) (a : Fin 4), k0_off70 k a = (![1, 4, k.val / 2, 16 * (k.val % 2)] : Fin 4 → Nat) a := by decide +kernel
instance (k : Fin k0_t9_loop.trips) : ClosedOff (k0_off70 k) := ⟨![1, 4, k.val / 2, 16 * (k.val % 2)], funext (off70_eq k)⟩
theorem off71_eq : ∀ (k : Fin k0_t9_loop.trips) (a : Fin 4), k0_off71 k a = (![1, 5, k.val / 2, 16 * (k.val % 2)] : Fin 4 → Nat) a := by decide +kernel
instance (k : Fin k0_t9_loop.trips) : ClosedOff (k0_off71 k) := ⟨![1, 5, k.val / 2, 16 * (k.val % 2)], funext (off71_eq k)⟩
theorem off72_eq : ∀ (k : Fin k0_t9_loop.trips) (a : Fin 4), k0_off72 k a = (![1, 6, k.val / 2, 16 * (k.val % 2)] : Fin 4 → Nat) a := by decide +kernel
instance (k : Fin k0_t9_loop.trips) : ClosedOff (k0_off72 k) := ⟨![1, 6, k.val / 2, 16 * (k.val % 2)], funext (off72_eq k)⟩
theorem off73_eq : ∀ (k : Fin k0_t9_loop.trips) (a : Fin 4), k0_off73 k a = (![1, 7, k.val / 2, 16 * (k.val % 2)] : Fin 4 → Nat) a := by decide +kernel
instance (k : Fin k0_t9_loop.trips) : ClosedOff (k0_off73 k) := ⟨![1, 7, k.val / 2, 16 * (k.val % 2)], funext (off73_eq k)⟩

/-- Before trip `k`: the input slot at `fi`, untouched; the output slot at some contents whose rows below `k` are the
    rearrangement of the input slot. -/
def cInv (d : Dev nD) (L : grid0.Coords) (fi : Buf (Elt F) ((inSlot1).view.loc (thrV d L))) (k : Nat) (_ : Unit) : sProp 𝕄 :=
  iprop(((inSlot1).view.loc (thrV d L) ↦[(inSlot1).view.set]{fullShare} fi)
    ∗ ∃ fo : Buf (Elt F) ((outSlot1).view.loc (thrV d L)),
        ⌜Done 1 k (View.readAt (Elt F) (inSlot1).view (LoadRect.whole S2x64x64) fi) fo⌝
        ∗ ((outSlot1).view.loc (thrV d L) ↦[(outSlot1).view.set]{fullShare} fo))

/-- One trip of the loop. -/
theorem step (d : Dev nD) (L : grid0.Coords) (v3 : BitVec 32)
    (fi : Buf (Elt F) ((inSlot1).view.loc (thrV d L))) (k : Fin k0_t9_loop.trips) (acc : Unit) :
    cInv (F := F) d L fi k.val acc
      ⊢ wp frame (wpE (defs₀ (F := F)) 𝒱₀ (thrV d L) none) Set.univ
          (k0_t9_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t9_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off66_eq k) _ y hy).1, (piece_row 1 0 k.val _ (off66_eq k) _ y hy).2.2⟩
    case r2 => exact fun y hy => ⟨(piece_row 1 1 k.val _ (off67_eq k) _ y hy).1, (piece_row 1 1 k.val _ (off67_eq k) _ y hy).2.2⟩
    case r3 => exact fun y hy => ⟨(piece_row 1 2 k.val _ (off68_eq k) _ y hy).1, (piece_row 1 2 k.val _ (off68_eq k) _ y hy).2.2⟩
    case r4 => exact fun y hy => ⟨(piece_row 1 3 k.val _ (off69_eq k) _ y hy).1, (piece_row 1 3 k.val _ (off69_eq k) _ y hy).2.2⟩
    case r5 => exact fun y hy => ⟨(piece_row 1 4 k.val _ (off70_eq k) _ y hy).1, (piece_row 1 4 k.val _ (off70_eq k) _ y hy).2.2⟩
    case r6 => exact fun y hy => ⟨(piece_row 1 5 k.val _ (off71_eq k) _ y hy).1, (piece_row 1 5 k.val _ (off71_eq k) _ y hy).2.2⟩
    case r7 => exact fun y hy => ⟨(piece_row 1 6 k.val _ (off72_eq k) _ y hy).1, (piece_row 1 6 k.val _ (off72_eq k) _ y hy).2.2⟩
    case r8 => exact fun y hy => ⟨(piece_row 1 7 k.val _ (off73_eq k) _ y hy).1, (piece_row 1 7 k.val _ (off73_eq k) _ y hy).2.2⟩
    case a1 => exact piece_agree _ _ _ _ 1 0 k.val _ (off66_eq k) _ (by (clear * - k; decide +kernel +revert)) (by (clear * - k; decide +kernel +revert)) (by (clear * - k; decide +kernel +revert))
    case a2 => exact piece_agree _ _ _ _ 1 1 k.val _ (off67_eq k) _ (by (clear * - k; decide +kernel +revert)) (by (clear * - k; decide +kernel +revert)) (by (clear * - k; decide +kernel +revert))
    case a3 => exact piece_agree _ _ _ _ 1 2 k.val _ (off68_eq k) _ (by (clear * - k; decide +kernel +revert)) (by (clear * - k; decide +kernel +revert)) (by (clear * - k; decide +kernel +revert))
    case a4 => exact piece_agree _ _ _ _ 1 3 k.val _ (off69_eq k) _ (by (clear * - k; decide +kernel +revert)) (by (clear * - k; decide +kernel +revert)) (by (clear * - k; decide +kernel +revert))
    case a5 => exact piece_agree _ _ _ _ 1 4 k.val _ (off70_eq k) _ (by (clear * - k; decide +kernel +revert)) (by (clear * - k; decide +kernel +revert)) (by (clear * - k; decide +kernel +revert))
    case a6 => exact piece_agree _ _ _ _ 1 5 k.val _ (off71_eq k) _ (by (clear * - k; decide +kernel +revert)) (by (clear * - k; decide +kernel +revert)) (by (clear * - k; decide +kernel +revert))
    case a7 => exact piece_agree _ _ _ _ 1 6 k.val _ (off72_eq k) _ (by (clear * - k; decide +kernel +revert)) (by (clear * - k; decide +kernel +revert)) (by (clear * - k; decide +kernel +revert))
    case a8 => exact piece_agree _ _ _ _ 1 7 k.val _ (off73_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off66_eq k) _ y h0 h1 hr)
      · exact Or.inr (Or.inl (piece_cover 1 1 k.val _ (off67_eq k) _ y h0 h1 hr))
      · exact Or.inr (Or.inr (Or.inl (piece_cover 1 2 k.val _ (off68_eq k) _ y h0 h1 hr)))
      · exact Or.inr (Or.inr (Or.inr (Or.inl (piece_cover 1 3 k.val _ (off69_eq k) _ y h0 h1 hr))))
      · exact Or.inr (Or.inr (Or.inr (Or.inr (Or.inl (piece_cover 1 4 k.val _ (off70_eq k) _ y h0 h1 hr)))))
      · exact Or.inr (Or.inr (Or.inr (Or.inr (Or.inr (Or.inl (piece_cover 1 5 k.val _ (off71_eq k) _ y h0 h1 hr))))))
      · exact Or.inr (Or.inr (Or.inr (Or.inr (Or.inr (Or.inr (Or.inl (piece_cover 1 6 k.val _ (off72_eq k) _ y h0 h1 hr)))))))
      · exact Or.inr (Or.inr (Or.inr (Or.inr (Or.inr (Or.inr (Or.inr (piece_cover 1 7 k.val _ (off73_eq k) _ y h0 h1 hr)))))))
  · iexact Ho

end C9

end Cert.Proof.KB

end
-- ==== Proof.Compute10K.lean ====
/-
  The program as printed, read at the instance where a float is the 32-bit word that stores it. The program is the
  same text as the one read at the exact instance, so what follows is the same argument over this program's names.

  The compute loop of the units that read input slot 2 and fill output slot 0 (loop 10 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C10

theorem trips : k0_t10_loop.trips = 64 := by decide
theorem off74_eq : ∀ (k : Fin k0_t10_loop.trips) (a : Fin 4), k0_off74 k a = (![0, 0, k.val / 2, 16 * (k.val % 2)] : Fin 4 → Nat) a := by decide +kernel
instance (k : Fin k0_t10_loop.trips) : ClosedOff (k0_off74 k) := ⟨![0, 0, k.val / 2, 16 * (k.val % 2)], funext (off74_eq k)⟩
theorem off75_eq : ∀ (k : Fin k0_t10_loop.trips) (a : Fin 4), k0_off75 k a = (![0, 1, k.val / 2, 16 * (k.val % 2)] : Fin 4 → Nat) a := by decide +kernel
instance (k : Fin k0_t10_loop.trips) : ClosedOff (k0_off75 k) := ⟨![0, 1, k.val / 2, 16 * (k.val % 2)], funext (off75_eq k)⟩
theorem off76_eq : ∀ (k : Fin k0_t10_loop.trips) (a : Fin 4), k0_off76 k a = (![0, 2, k.val / 2, 16 * (k.val % 2)] : Fin 4 → Nat) a := by decide +kernel
instance (k : Fin k0_t10_loop.trips) : ClosedOff (k0_off76 k) := ⟨![0, 2, k.val / 2, 16 * (k.val % 2)], funext (off76_eq k)⟩
theorem off77_eq : ∀ (k : Fin k0_t10_loop.trips) (a : Fin 4), k0_off77 k a = (![0, 3, k.val / 2, 16 * (k.val % 2)] : Fin 4 → Nat) a := by decide +kernel
instance (k : Fin k0_t10_loop.trips) : ClosedOff (k0_off77 k) := ⟨![0, 3, k.val / 2, 16 * (k.val % 2)], funext (off77_eq k)⟩
theorem off78_eq : ∀ (k : Fin k0_t10_loop.trips) (a : Fin 4), k0_off78 k a = (![0, 4, k.val / 2, 16 * (k.val % 2)] : Fin 4 → Nat) a := by decide +kernel
instance (k : Fin k0_t10_loop.trips) : ClosedOff (k0_off78 k) := ⟨![0, 4, k.val / 2, 16 * (k.val % 2)], funext (off78_eq k)⟩
theorem off79_eq : ∀ (k : Fin k0_t10_loop.trips) (a : Fin 4), k0_off79 k a = (![0, 5, k.val / 2, 16 * (k.val % 2)] : Fin 4 → Nat) a := by decide +kernel
instance (k : Fin k0_t10_loop.trips) : ClosedOff (k0_off79 k) := ⟨![0, 5, k.val / 2, 16 * (k.val % 2)], funext (off79_eq k)⟩
theorem off80_eq : ∀ (k : Fin k0_t10_loop.trips) (a : Fin 4), k0_off80 k a = (![0, 6, k.val / 2, 16 * (k.val % 2)] : Fin 4 → Nat) a := by decide +kernel
instance (k : Fin k0_t10_loop.trips) : ClosedOff (k0_off80 k) := ⟨![0, 6, k.val / 2, 16 * (k.val % 2)], funext (off80_eq k)⟩
theorem off81_eq : ∀ (k : Fin k0_t10_loop.trips) (a : Fin 4), k0_off81 k a = (![0, 7, k.val / 2, 16 * (k.val % 2)] : Fin 4 → Nat) a := by decide +kernel
instance (k : Fin k0_t10_loop.trips) : ClosedOff (k0_off81 k) := ⟨![0, 7, k.val / 2, 16 * (k.val % 2)], funext (off81_eq k)⟩

/-- Before trip `k`: the input slot at `fi`, untouched; the output slot at some contents whose rows below `k` are the
    rearrangement of the input slot. -/
def cInv (d : Dev nD) (L : grid0.Coords) (fi : Buf (Elt F) ((inSlot2).view.loc (thrV d L))) (k : Nat) (_ : Unit) : sProp 𝕄 :=
  iprop(((inSlot2).view.loc (thrV d L) ↦[(inSlot2).view.set]{fullShare} fi)
    ∗ ∃ fo : Buf (Elt F) ((outSlot0).view.loc (thrV d L)),
        ⌜Done 0 k (View.readAt (Elt F) (inSlot2).view (LoadRect.whole S2x64x64) fi) fo⌝
        ∗ ((outSlot0).view.loc (thrV d L) ↦[(outSlot0).view.set]{fullShare} fo))

/-- One trip of the loop. -/
theorem step (d : Dev nD) (L : grid0.Coords) (v3 : BitVec 32)
    (fi : Buf (Elt F) ((inSlot2).view.loc (thrV d L))) (k : Fin k0_t10_loop.trips) (acc : Unit) :
    cInv (F := F) d L fi k.val acc
      ⊢ wp frame (wpE (defs₀ (F := F)) 𝒱₀ (thrV d L) none) Set.univ
          (k0_t10_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t10_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 0 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 0 0 k.val _ (off74_eq k) _ y hy).1, (piece_row 0 0 k.val _ (off74_eq k) _ y hy).2.2⟩
    case r2 => exact fun y hy => ⟨(piece_row 0 1 k.val _ (off75_eq k) _ y hy).1, (piece_row 0 1 k.val _ (off75_eq k) _ y hy).2.2⟩
    case r3 => exact fun y hy => ⟨(piece_row 0 2 k.val _ (off76_eq k) _ y hy).1, (piece_row 0 2 k.val _ (off76_eq k) _ y hy).2.2⟩
    case r4 => exact fun y hy => ⟨(piece_row 0 3 k.val _ (off77_eq k) _ y hy).1, (piece_row 0 3 k.val _ (off77_eq k) _ y hy).2.2⟩
    case r5 => exact fun y hy => ⟨(piece_row 0 4 k.val _ (off78_eq k) _ y hy).1, (piece_row 0 4 k.val _ (off78_eq k) _ y hy).2.2⟩
    case r6 => exact fun y hy => ⟨(piece_row 0 5 k.val _ (off79_eq k) _ y hy).1, (piece_row 0 5 k.val _ (off79_eq k) _ y hy).2.2⟩
    case r7 => exact fun y hy => ⟨(piece_row 0 6 k.val _ (off80_eq k) _ y hy).1, (piece_row 0 6 k.val _ (off80_eq k) _ y hy).2.2⟩
    case r8 => exact fun y hy => ⟨(piece_row 0 7 k.val _ (off81_eq k) _ y hy).1, (piece_row 0 7 k.val _ (off81_eq k) _ y hy).2.2⟩
    case a1 => exact piece_agree _ _ _ _ 0 0 k.val _ (off74_eq k) _ (by (clear * - k; decide +kernel +revert)) (by (clear * - k; decide +kernel +revert)) (by (clear * - k; decide +kernel +revert))
    case a2 => exact piece_agree _ _ _ _ 0 1 k.val _ (off75_eq k) _ (by (clear * - k; decide +kernel +revert)) (by (clear * - k; decide +kernel +revert)) (by (clear * - k; decide +kernel +revert))
    case a3 => exact piece_agree _ _ _ _ 0 2 k.val _ (off76_eq k) _ (by (clear * - k; decide +kernel +revert)) (by (clear * - k; decide +kernel +revert)) (by (clear * - k; decide +kernel +revert))
    case a4 => exact piece_agree _ _ _ _ 0 3 k.val _ (off77_eq k) _ (by (clear * - k; decide +kernel +revert)) (by (clear * - k; decide +kernel +revert)) (by (clear * - k; decide +kernel +revert))
    case a5 => exact piece_agree _ _ _ _ 0 4 k.val _ (off78_eq k) _ (by (clear * - k; decide +kernel +revert)) (by (clear * - k; decide +kernel +revert)) (by (clear * - k; decide +kernel +revert))
    case a6 => exact piece_agree _ _ _ _ 0 5 k.val _ (off79_eq k) _ (by (clear * - k; decide +kernel +revert)) (by (clear * - k; decide +kernel +revert)) (by (clear * - k; decide +kernel +revert))
    case a7 => exact piece_agree _ _ _ _ 0 6 k.val _ (off80_eq k) _ (by (clear * - k; decide +kernel +revert)) (by (clear * - k; decide +kernel +revert)) (by (clear * - k; decide +kernel +revert))
    case a8 => exact piece_agree _ _ _ _ 0 7 k.val _ (off81_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 0 0 k.val _ (off74_eq k) _ y h0 h1 hr)
      · exact Or.inr (Or.inl (piece_cover 0 1 k.val _ (off75_eq k) _ y h0 h1 hr))
      · exact Or.inr (Or.inr (Or.inl (piece_cover 0 2 k.val _ (off76_eq k) _ y h0 h1 hr)))
      · exact Or.inr (Or.inr (Or.inr (Or.inl (piece_cover 0 3 k.val _ (off77_eq k) _ y h0 h1 hr))))
      · exact Or.inr (Or.inr (Or.inr (Or.inr (Or.inl (piece_cover 0 4 k.val _ (off78_eq k) _ y h0 h1 hr)))))
      · exact Or.inr (Or.inr (Or.inr (Or.inr (Or.inr (Or.inl (piece_cover 0 5 k.val _ (off79_eq k) _ y h0 h1 hr))))))
      · exact Or.inr (Or.inr (Or.inr (Or.inr (Or.inr (Or.inr (Or.inl (piece_cover 0 6 k.val _ (off80_eq k) _ y h0 h1 hr)))))))
      · exact Or.inr (Or.inr (Or.inr (Or.inr (Or.inr (Or.inr (Or.inr (piece_cover 0 7 k.val _ (off81_eq k) _ y h0 h1 hr)))))))
  · iexact Ho

end C10

end Cert.Proof.KB

end
-- ==== Proof.Compute11K.lean ====
/-
  The program as printed, read at the instance where a float is the 32-bit word that stores it. The program is the
  same text as the one read at the exact instance, so what follows is the same argument over this program's names.

  The compute loop of the units that read input slot 0 and fill output slot 1 (loop 11 of the body): one trip
  gathers, for each of the eight planes, sixteen entries of the input slot and stores them in row `k` of the
  output slot; so a trip takes "rows below k are rearranged" to "rows below k + 1 are rearranged".
-/
import proofs.«209385_g40939628265708_retrytranche2_1889_20_alg».proof.Proof.ComputeLibK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable [FloatOps F]

namespace C11

theorem trips : k0_t11_loop.trips = 64 := by decide
theorem off82_eq : ∀ (k : Fin k0_t11_loop.trips) (a : Fin 4), k0_off82 k a = (![1, 0, k.val / 2, 16 * (k.val % 2)] : Fin 4 → Nat) a := by decide +kernel
instance (k : Fin k0_t11_loop.trips) : ClosedOff (k0_off82 k) := ⟨![1, 0, k.val / 2, 16 * (k.val % 2)], funext (off82_eq k)⟩
theorem off83_eq : ∀ (k : Fin k0_t11_loop.trips) (a : Fin 4), k0_off83 k a = (![1, 1, k.val / 2, 16 * (k.val % 2)] : Fin 4 → Nat) a := by decide +kernel
instance (k : Fin k0_t11_loop.trips) : ClosedOff (k0_off83 k) := ⟨![1, 1, k.val / 2, 16 * (k.val % 2)], funext (off83_eq k)⟩
theorem off84_eq : ∀ (k : Fin k0_t11_loop.trips) (a : Fin 4), k0_off84 k a = (![1, 2, k.val / 2, 16 * (k.val % 2)] : Fin 4 → Nat) a := by decide +kernel
instance (k : Fin k0_t11_loop.trips) : ClosedOff (k0_off84 k) := ⟨![1, 2, k.val / 2, 16 * (k.val % 2)], funext (off84_eq k)⟩
theorem off85_eq : ∀ (k : Fin k0_t11_loop.trips) (a : Fin 4), k0_off85 k a = (![1, 3, k.val / 2, 16 * (k.val % 2)] : Fin 4 → Nat) a := by decide +kernel
instance (k : Fin k0_t11_loop.trips) : ClosedOff (k0_off85 k) := ⟨![1, 3, k.val / 2, 16 * (k.val % 2)], funext (off85_eq k)⟩
theorem off86_eq : ∀ (k : Fin k0_t11_loop.trips) (a : Fin 4), k0_off86 k a = (![1, 4, k.val / 2, 16 * (k.val % 2)] : Fin 4 → Nat) a := by decide +kernel
instance (k : Fin k0_t11_loop.trips) : ClosedOff (k0_off86 k) := ⟨![1, 4, k.val / 2, 16 * (k.val % 2)], funext (off86_eq k)⟩
theorem off87_eq : ∀ (k : Fin k0_t11_loop.trips) (a : Fin 4), k0_off87 k a = (![1, 5, k.val / 2, 16 * (k.val % 2)] : Fin 4 → Nat) a := by decide +kernel
instance (k : Fin k0_t11_loop.trips) : ClosedOff (k0_off87 k) := ⟨![1, 5, k.val / 2, 16 * (k.val % 2)], funext (off87_eq k)⟩
theorem off88_eq : ∀ (k : Fin k0_t11_loop.trips) (a : Fin 4), k0_off88 k a = (![1, 6, k.val / 2, 16 * (k.val % 2)] : Fin 4 → Nat) a := by decide +kernel
instance (k : Fin k0_t11_loop.trips) : ClosedOff (k0_off88 k) := ⟨![1, 6, k.val / 2, 16 * (k.val % 2)], funext (off88_eq k)⟩
theorem off89_eq : ∀ (k : Fin k0_t11_loop.trips) (a : Fin 4), k0_off89 k a = (![1, 7, k.val / 2, 16 * (k.val % 2)] : Fin 4 → Nat) a := by decide +kernel
instance (k : Fin k0_t11_loop.trips) : ClosedOff (k0_off89 k) := ⟨![1, 7, k.val / 2, 16 * (k.val % 2)], funext (off89_eq k)⟩

/-- Before trip `k`: the input slot at `fi`, untouched; the output slot at some contents whose rows below `k` are the
    rearrangement of the input slot. -/
def cInv (d : Dev nD) (L : grid0.Coords) (fi : Buf (Elt F) ((inSlot0).view.loc (thrV d L))) (k : Nat) (_ : Unit) : sProp 𝕄 :=
  iprop(((inSlot0).view.loc (thrV d L) ↦[(inSlot0).view.set]{fullShare} fi)
    ∗ ∃ fo : Buf (Elt F) ((outSlot1).view.loc (thrV d L)),
        ⌜Done 1 k (View.readAt (Elt F) (inSlot0).view (LoadRect.whole S2x64x64) fi) fo⌝
        ∗ ((outSlot1).view.loc (thrV d L) ↦[(outSlot1).view.set]{fullShare} fo))

/-- One trip of the loop. -/
theorem step (d : Dev nD) (L : grid0.Coords) (v3 : BitVec 32)
    (fi : Buf (Elt F) ((inSlot0).view.loc (thrV d L))) (k : Fin k0_t11_loop.trips) (acc : Unit) :
    cInv (F := F) d L fi k.val acc
      ⊢ wp frame (wpE (defs₀ (F := F)) 𝒱₀ (thrV d L) none) Set.univ
          (k0_t11_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k acc)
          (cInv (F := F) d L fi (k.val + 1)) := by
  unfold cInv
  iintro ⟨Hi, ⟨%f, %hD, Ho⟩⟩
  have hk : k.val < 64 := trips ▸ k.isLt
  unfold k0_t11_body
  iterate 8 (sl_exec (disch := (clear * - k; decide +kernel +revert)); rw [SparseCore.vectorLoadIdx_bind (c := thrV d L)])
  sl_exec (disch := (clear * - k; decide +kernel +revert))
  sl_step
  isplitl [Hi]; · iexact Hi
  iexists (step.sl.Ho_w1_7 d L fi k f); isplitr
  · ipureintro
    refine done_step8 1 k.val _ f _ _ _ _ _ _ _ _ _ _ _ _ _ _ _ _ ?r1 ?r2 ?r3 ?r4 ?r5 ?r6 ?r7 ?r8 ?a1 ?a2 ?a3 ?a4 ?a5 ?a6 ?a7 ?a8 ?hc hD
    case r1 => exact fun y hy => ⟨(piece_row 1 0 k.val _ (off82_eq k) _ y hy).1, (piece_row 1 0 k.val _ (off82_eq k) _ y hy).2.2⟩
    case r2 => exact fun y hy => ⟨(piece_row 1 1 k.val _ (off83_eq k) _ y hy).1, (piece_row 1 1 k.val _ (off83_eq k) _ y hy).2.2⟩
    case r3 => exact fun y hy => ⟨(piece_row 1 2 k.val _ (off84_eq k) _ y hy).1, (piece_row 1 2 k.val _ (off84_eq k) _ y hy).2.2⟩
    case r4 => exact fun y hy => ⟨(piece_row 1 3 k.val _ (off85_eq k) _ y hy).1, (piece_row 1 3 k.val _ (off85_eq k) _ y hy).2.2⟩
    case r5 => exact fun y hy => ⟨(piece_row 1 4 k.val _ (off86_eq k) _ y hy).1, (piece_row 1 4 k.val _ (off86_eq k) _ y hy).2.2⟩
    case r6 => exact fun y hy => ⟨(piece_row 1 5 k.val _ (off87_eq k) _ y hy).1, (piece_row 1 5 k.val _ (off87_eq k) _ y hy).2.2⟩
    case r7 => exact fun y hy => ⟨(piece_row 1 6 k.val _ (off88_eq k) _ y hy).1, (piece_row 1 6 k.val _ (off88_eq k) _ y hy).2.2⟩
    case r8 => exact fun y hy => ⟨(piece_row 1 7 k.val _ (off89_eq k) _ y hy).1, (piece_row 1 7 k.val _ (off89_eq k) _ y hy).2.2⟩
    case a1 => exact piece_agree _ _ _ _ 1 0 k.val _ (off82_eq k) _ (by (clear * - k; decide +kernel +revert)) (by (clear * - k; decide +kernel +revert)) (by (clear * - k; decide +kernel +revert))
    case a2 => exact piece_agree _ _ _ _ 1 1 k.val _ (off83_eq k) _ (by (clear * - k; decide +kernel +revert)) (by (clear * - k; decide +kernel +revert)) (by (clear * - k; decide +kernel +revert))
    case a3 => exact piece_agree _ _ _ _ 1 2 k.val _ (off84_eq k) _ (by (clear * - k; decide +kernel +revert)) (by (clear * - k; decide +kernel +revert)) (by (clear * - k; decide +kernel +revert))
    case a4 => exact piece_agree _ _ _ _ 1 3 k.val _ (off85_eq k) _ (by (clear * - k; decide +kernel +revert)) (by (clear * - k; decide +kernel +revert)) (by (clear * - k; decide +kernel +revert))
    case a5 => exact piece_agree _ _ _ _ 1 4 k.val _ (off86_eq k) _ (by (clear * - k; decide +kernel +revert)) (by (clear * - k; decide +kernel +revert)) (by (clear * - k; decide +kernel +revert))
    case a6 => exact piece_agree _ _ _ _ 1 5 k.val _ (off87_eq k) _ (by (clear * - k; decide +kernel +revert)) (by (clear * - k; decide +kernel +revert)) (by (clear * - k; decide +kernel +revert))
    case a7 => exact piece_agree _ _ _ _ 1 6 k.val _ (off88_eq k) _ (by (clear * - k; decide +kernel +revert)) (by (clear * - k; decide +kernel +revert)) (by (clear * - k; decide +kernel +revert))
    case a8 => exact piece_agree _ _ _ _ 1 7 k.val _ (off89_eq k) _ (by (clear * - k; decide +kernel +revert)) (by (clear * - k; decide +kernel +revert)) (by (clear * - k; decide +kernel +revert))
    case hc =>
      intro y h0 hr
      have h8 : (y 1).val < 8 := (y 1).isLt
      have hc : (y 1).val = 0 ∨ (y 1).val = 1 ∨ (y 1).val = 2 ∨ (y 1).val = 3 ∨ (y 1).val = 4 ∨ (y 1).val = 5 ∨ (y 1).val = 6 ∨ (y 1).val = 7 := by omega
      rcases hc with h1 | h1 | h1 | h1 | h1 | h1 | h1 | h1
      · exact Or.inl (piece_cover 1 0 k.val _ (off82_eq k) _ y h0 h1 hr)
      · exact Or.inr (Or.inl (piece_cover 1 1 k.val _ (off83_eq k) _ y h0 h1 hr))
      · exact Or.inr (Or.inr (Or.inl (piece_cover 1 2 k.val _ (off84_eq k) _ y h0 h1 hr)))
      · exact Or.inr (Or.inr (Or.inr (Or.inl (piece_cover 1 3 k.val _ (off85_eq k) _ y h0 h1 hr))))
      · exact Or.inr (Or.inr (Or.inr (Or.inr (Or.inl (piece_cover 1 4 k.val _ (off86_eq k) _ y h0 h1 hr)))))
      · exact Or.inr (Or.inr (Or.inr (Or.inr (Or.inr (Or.inl (piece_cover 1 5 k.val _ (off87_eq k) _ y h0 h1 hr))))))
      · exact Or.inr (Or.inr (Or.inr (Or.inr (Or.inr (Or.inr (Or.inl (piece_cover 1 6 k.val _ (off88_eq k) _ y h0 h1 hr)))))))
      · exact Or.inr (Or.inr (Or.inr (Or.inr (Or.inr (Or.inr (Or.inr (piece_cover 1 7 k.val _ (off89_eq k) _ y h0 h1 hr)))))))
  · iexact Ho

end C11

end Cert.Proof.KB

end
-- ==== Proof.BodyOuterK.lean ====
/-
  The program as printed, read at the instance where a float is the 32-bit word that stores it. The program is the
  same text as the one read at the exact instance, so what follows is the same argument over this program's names.

  One vector subcore's task outside its compute loops: the two rings of transfers, and what every window of the
  result holds at the end.

  The subcore moves its 64 units in order. Unit t's two argument rows are copied into slot t mod 3 of the input ring,
  three units ahead of their use; the unit's eight result planes are assembled in slot t mod 2 of the output ring by
  the unit's compute loop and copied from there into the unit's window of the result, and that copy is waited for
  two units later, before the slot is written again. Every transfer has a semaphore of its own slot, and a slot is
  neither read nor written between the issue of a transfer that touches it and the wait for it.

  The argument is read by up to three transfers at once: the subcore's share of it is cut into a remainder and one
  read token per input semaphore; a transfer borrows the entries of its two rows under its semaphore's token and the
  wait gives them back. The result is held window by window: a window is taken off the windows still at the launch
  contents when its unit's copy out is issued, travels with the copy, and joins the windows at the rearrangement
  when the copy has been waited for.

  What is known of the contents: a copy in flight into an input slot will leave there the two argument rows of its
  unit (`Arows`); after the unit's compute loop every row of the output slot holds the rearrangement of those rows
  (`Done … 64`), so the copy out leaves in the unit's window exactly the specification's entries (`win_value0`,
  `win_value1`). The units are grouped by six (the least common multiple of the two ring lengths): the invariant
  `invG k` before group k says that the copies in of units 6k, 6k+1, 6k+2 and the copies out into windows 6k−2,
  6k−1 are pending, the windows below 6k−2 hold the rearrangement and those from 6k on the launch contents. Group 0
  has no copy out pending and is proved apart. The last four units and the two last waits follow the groups.
-/
import Idealize.ShloMosaic.Lib.Ring
import proofs.«209385_g40939628265708_retrytranche2_1889_20_alg».proof.Proof.ValuesK
import proofs.«209385_g40939628265708_retrytranche2_1889_20_alg».proof.Proof.SlotsK
import proofs.«209385_g40939628265708_retrytranche2_1889_20_alg».proof.Proof.Compute2K
import proofs.«209385_g40939628265708_retrytranche2_1889_20_alg».proof.Proof.Compute3K
import proofs.«209385_g40939628265708_retrytranche2_1889_20_alg».proof.Proof.Compute4K
import proofs.«209385_g40939628265708_retrytranche2_1889_20_alg».proof.Proof.Compute5K
import proofs.«209385_g40939628265708_retrytranche2_1889_20_alg».proof.Proof.Compute6K
import proofs.«209385_g40939628265708_retrytranche2_1889_20_alg».proof.Proof.Compute7K
import proofs.«209385_g40939628265708_retrytranche2_1889_20_alg».proof.Proof.Compute8K
import proofs.«209385_g40939628265708_retrytranche2_1889_20_alg».proof.Proof.Compute9K
import proofs.«209385_g40939628265708_retrytranche2_1889_20_alg».proof.Proof.Compute10K
import proofs.«209385_g40939628265708_retrytranche2_1889_20_alg».proof.Proof.Compute11K

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ
variable (m : (ℓ : Loc nD τ sig) → Buf (Elt F) ℓ) [FloatOps F]

/-! ## The subcore's five cells and two scratch buffers -/

abbrev semC (d : Dev nD) (L : grid0.Coords) (a : DmaSems sig S_) : GSem nD τ sig := (thrV d L, .dma a.sem)

theorem semC_ne (d : Dev nD) (L : grid0.Coords) {a b : DmaSems sig S_} (h : a.sem ≠ b.sem) : semC d L a ≠ semC d L b :=
  fun e => h (SemLoc.dma.inj (Prod.mk.inj e).2)

theorem semC_mem (d : Dev nD) (L : grid0.Coords) (a : DmaSems sig S_) (h : (SemLoc.dma a.sem : SemLoc sig).isScoped .scVector = true) :
    semC d L a ∈ ownCells (thrV d L) := (mem_ownCells (g := semC d L a)).mpr ⟨rfl, h⟩

theorem ownSems0_V (d : Dev nD) (L : grid0.Coords) :
    (ownSems0 (thrV d L) : sProp 𝕄)
      = iprop(semVal (semC d L cc0_scratch2) 0 ∗ semVal (semC d L cc0_scratch3) 0 ∗ semVal (semC d L cc0_scratch4) 0
          ∗ semVal (semC d L cc0_scratch5) 0 ∗ semVal (semC d L cc0_scratch6) 0
          ∗ bigSep ((((((ownCells (thrV d L)).erase (semC d L cc0_scratch2)).erase (semC d L cc0_scratch3)).erase (semC d L cc0_scratch4)).erase
              (semC d L cc0_scratch5)).erase (semC d L cc0_scratch6)) fun g => semVal g 0) := by
  unfold SparseCore.Cfg.ownSems0
  rw [SparseCore.bigSep_erase' (semC_mem d L cc0_scratch2 (by decide)),
    SparseCore.bigSep_erase' (Finset.mem_erase.mpr ⟨semC_ne d L (by decide), semC_mem d L cc0_scratch3 (by decide)⟩),
    SparseCore.bigSep_erase' (Finset.mem_erase.mpr ⟨semC_ne d L (by decide), Finset.mem_erase.mpr ⟨semC_ne d L (by decide), semC_mem d L cc0_scratch4 (by decide)⟩⟩),
    SparseCore.bigSep_erase' (Finset.mem_erase.mpr ⟨semC_ne d L (by decide), Finset.mem_erase.mpr ⟨semC_ne d L (by decide),
      Finset.mem_erase.mpr ⟨semC_ne d L (by decide), semC_mem d L cc0_scratch5 (by decide)⟩⟩⟩),
    SparseCore.bigSep_erase' (Finset.mem_erase.mpr ⟨semC_ne d L (by decide), Finset.mem_erase.mpr ⟨semC_ne d L (by decide),
      Finset.mem_erase.mpr ⟨semC_ne d L (by decide), Finset.mem_erase.mpr ⟨semC_ne d L (by decide), semC_mem d L cc0_scratch6 (by decide)⟩⟩⟩⟩)]

/-- The two scratch buffers are among the subcore's own: they are them, at some contents, and the rest. -/
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## Flights and windows, in a uniform spelling -/

abbrev xq (L : grid0.Coords) : PosShare TreeShare := qT (cL L) (iL L)

/-- The argument under the read token of in-cell `j`, on the entries `S`. -/
abbrev tokX (d : Dev nD) (L : grid0.Coords) (j : Fin 3)
    (S : Finset (Idx ((xV : Memref sig .scVector .hbm S2x32x64x64x64 .f32).view.loc (thrV d L)))) : sProp 𝕄 :=
  (xV : Memref sig .scVector .hbm S2x32x64x64x64 .f32).view.loc (thrV d L) ↦[S]{Transfers.shareTok (xq L) 3 j} m (xLoc d)

/-- The copy of unit `t`'s two argument rows into the in-slot `M`, pending on the cell `a`: when it lands the slot reads those rows. -/
def inFl (d : Dev nD) (L : grid0.Coords) (a : DmaSems sig S_) (j : Fin 3) (M : Memref sig .scVector .vmem S2x64x64 .f32) (t : Fin 64) : sProp 𝕄 :=
  iprop(∃ S f, ⌜View.readAt (Elt F) M.view (LoadRect.whole S2x64x64) f = Arows m d L t⌝
    ∗ Transfers.Flight (countersEmb : UEmb Counters 𝕄) (thrV d L) (SemLoc.dma a.sem) (default : HIx 1) 262144 iprop(slotPts d L M f ∗ tokX m d L j S)
    ∗ tokX m d L j (Finset.univ \ S))

/-- Window `t` of the subcore, at the contents `f`. -/
abbrev winPts (d : Dev nD) (L : grid0.Coords) (t : Fin 64) (f : Buf (Elt F) (yLoc d)) : sProp 𝕄 :=
  yLoc d ↦[winSet (unitAt (cL L) (iL L) t)]{fullShare} f

/-- The copy of the out-slot `M` into window `t`, pending on the cell `a`: when it lands the window holds the rearrangement. -/
def outFl (d : Dev nD) (L : grid0.Coords) (a : DmaSems sig S_) (M : Memref sig .scVector .vmem S8x32x32 .f32) (t : Fin 64) : sProp 𝕄 :=
  iprop(∃ f, Transfers.Flight (countersEmb : UEmb Counters 𝕄) (thrV d L) (SemLoc.dma a.sem) (default : HIx 1) 262144
      iprop(winPts d L t (Gy m d) ∗ slotPts d L M f))

/-- The windows below `u` hold the rearrangement; those from `u` on still hold the launch contents. -/
def Ydone (d : Dev nD) (L : grid0.Coords) (u : ℕ) : sProp 𝕄 := bigSep (Ring.rangeSet 64 0 u) fun t => winPts d L t (Gy m d)
def Ytodo (d : Dev nD) (L : grid0.Coords) (u : ℕ) : sProp 𝕄 := bigSep (Ring.rangeSet 64 u 64) fun t => winPts d L t (m (yLoc d))

def outSt (d : Dev nD) (L : grid0.Coords) (k : ℕ) : sProp 𝕄 :=
  if k = 0 then iprop(semVal (semC d L cc0_scratch5) 0 ∗ semVal (semC d L cc0_scratch6) 0 ∗ (∃ f, slotPts d L outSlot0 f) ∗ ∃ f, slotPts d L outSlot1 f)
  else iprop(∃ t0 t1 : Fin 64, ⌜t0.val + 2 = 6 * k ∧ t1.val + 1 = 6 * k⌝ ∗ outFl m d L cc0_scratch5 outSlot0 t0 ∗ outFl m d L cc0_scratch6 outSlot1 t1)

/-- Before group `k`: the copies of units 6k, 6k+1, 6k+2 into the three in-slots are pending; the copies out of the two
    out-slots into windows 6k−2, 6k−1 are pending (none before group 0); the windows below 6k−2 are done. -/
def invG (d : Dev nD) (L : grid0.Coords) (O : CellTallies nD τ sig (HIx 1)) (W : Waits sig (HIx 1)) (k : ℕ) (_ : Unit) : sProp 𝕄 :=
  iprop(Transfers.MayWaits (thrV d L) (none : HIx 1) O
    ∗ (∃ s0 s1 s2 : Fin 64, ⌜s0.val = 6 * k ∧ s1.val = 6 * k + 1 ∧ s2.val = 6 * k + 2⌝
        ∗ inFl m d L cc0_scratch2 0 inSlot0 s0 ∗ inFl m d L cc0_scratch3 1 inSlot1 s1 ∗ inFl m d L cc0_scratch4 2 inSlot2 s2)
    ∗ outSt m d L k ∗ Ydone m d L (6 * k - 2) ∗ Ytodo m d L (6 * k)
    ∗ ∃ W', ⌜∀ p ∈ W', p ∈ W ∨ p.2 = none⌝ ∗ owes (thrV d L) O W')

/-! ## The windows one at a time -/

theorem trips1 : k0_t1_loop.trips = 10 := by decide
theorem unit_lt (k : Fin k0_t1_loop.trips) (j : ℕ) (hj : j < 9) : 6 * k.val + j < 64 := by
  have := k.isLt; have := trips1; omega
abbrev unitT (k : Fin k0_t1_loop.trips) (j : ℕ) (hj : j < 9) : Fin 64 := ⟨6 * k.val + j, unit_lt k j hj⟩

theorem Ytodo_take (d : Dev nD) (L : grid0.Coords) (u u' : ℕ) (t : Fin 64) (ht : t.val = u) (h : u' = u + 1) :
    Ytodo m d L u ⊢ iprop(winPts d L t (m (yLoc d)) ∗ Ytodo m d L u') := by
  subst h; unfold Ytodo
  have hu : u < 64 := ht ▸ t.isLt
  rw [Ring.bigSep_rangeSet_head (by omega) hu, show (⟨u, hu⟩ : Fin 64) = t from Fin.ext ht.symm]

theorem Ydone_put (d : Dev nD) (L : grid0.Coords) (u u' : ℕ) (t : Fin 64) (ht : t.val = u) (h : u' = u + 1) :
    iprop(Ydone m d L u ∗ winPts d L t (Gy m d)) ⊢ Ydone m d L u' := by
  subst h; unfold Ydone
  have hu : u < 64 := ht ▸ t.isLt
  rw [Ring.bigSep_rangeSet_last (lo := 0) (hi := u + 1) (by omega) (by omega), show (⟨u + 1 - 1, by omega⟩ : Fin 64) = t from Fin.ext (by simp [ht])]
  iintro ⟨Hd, Hw⟩
  isplitl [Hw]; · iexact Hw
  iexact Hd

theorem Ydone_cast (d : Dev nD) (L : grid0.Coords) (u u' : ℕ) (h : u = u') : Ydone m d L u ⊢ Ydone m d L u' := h ▸ BI.Entails.refl _
theorem Ytodo_cast (d : Dev nD) (L : grid0.Coords) (u u' : ℕ) (h : u = u') : Ytodo m d L u ⊢ Ytodo m d L u' := h ▸ BI.Entails.refl _

theorem okW_insert {W W' : Waits sig (HIx 1)} (a : SemLoc sig × HIx 1) (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

abbrev uT0 (k : Fin k0_t1_loop.trips) : Fin 64 := unitT k 0 (by decide)
abbrev uT1 (k : Fin k0_t1_loop.trips) : Fin 64 := unitT k 1 (by decide)
abbrev uT2 (k : Fin k0_t1_loop.trips) : Fin 64 := unitT k 2 (by decide)
abbrev uT3 (k : Fin k0_t1_loop.trips) : Fin 64 := unitT k 3 (by decide)
abbrev uT4 (k : Fin k0_t1_loop.trips) : Fin 64 := unitT k 4 (by decide)
abbrev uT5 (k : Fin k0_t1_loop.trips) : Fin 64 := unitT k 5 (by decide)
abbrev uT6 (k : Fin k0_t1_loop.trips) : Fin 64 := unitT k 6 (by decide)
abbrev uT7 (k : Fin k0_t1_loop.trips) : Fin 64 := unitT k 7 (by decide)
abbrev uT8 (k : Fin k0_t1_loop.trips) : Fin 64 := unitT k 8 (by decide)

/-- `win_value0` / `win_value1` with the transfer's payload a variable, equal to the out-slot's read. -/
theorem win_value0' (d : Dev nD) (L : grid0.Coords) (t : Fin 64) (off' : Fin 5 → Nat) (inb' : ∀ a, off' a + S1x8x1x32x32.size a ≤ S2x256x32x32x32.size a)
    (hoff' : off' = Off.dstOff (uOf L t)) (fo : S2x8x32x32.Idx → Elt F .f32) (hD : Done 0 64 (Arows m d L t) fo) (fd : Buf (Elt F) (yLoc d))
    (P : S8x32x32.Idx → Elt F .f32) (hP : P = ReadAs.same.apply (outSlot0.view.read (Elt F) fo)) :
    ((yWin off' inb').view.loc (thrV d L) ↦[(yWin off' inb').view.set]{fullShare} ((yWin off' inb').view.writes (Elt F) fd [⟨Rect.whole S8x32x32, P⟩]) : sProp 𝕄)
      = winPts d L t (Gy m d) := by
  subst hP; exact win_value0 m d L t off' inb' hoff' fo hD fd
theorem win_value1' (d : Dev nD) (L : grid0.Coords) (t : Fin 64) (off' : Fin 5 → Nat) (inb' : ∀ a, off' a + S1x8x1x32x32.size a ≤ S2x256x32x32x32.size a)
    (hoff' : off' = Off.dstOff (uOf L t)) (fo : S2x8x32x32.Idx → Elt F .f32) (hD : Done 1 64 (Arows m d L t) fo) (fd : Buf (Elt F) (yLoc d))
    (P : S8x32x32.Idx → Elt F .f32) (hP : P = ReadAs.same.apply (outSlot1.view.read (Elt F) fo)) :
    ((yWin off' inb').view.loc (thrV d L) ↦[(yWin off' inb').view.set]{fullShare} ((yWin off' inb').view.writes (Elt F) fd [⟨Rect.whole S8x32x32, P⟩]) : sProp 𝕄)
      = winPts d L t (Gy m d) := by
  subst hP; exact win_value1 m d L t off' inb' hoff' fo hD fd

set_option maxHeartbeats 4000000 in
/-- One group of six units, the first: no copy out of an out-slot is pending yet. -/
theorem region_zero (d : Dev nD) (L : grid0.Coords) (O : CellTallies nD τ sig (HIx 1)) (W : Waits sig (HIx 1)) (v3 : BitVec 32)
    (k : Fin k0_t1_loop.trips) (hk : k.val = 0) :
    invG m d L O W k.val ⟨⟩
      ⊢ wp frame (wpE (defs₀ (F := F)) 𝒱₀ (V d (cV L) (jV L)) none) Set.univ
          (k0_t1_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k ⟨⟩)
          fun _ => invG m d L O W (k.val + 1) ⟨⟩ := by
  have hk10 : k.val < 10 := by have := k.isLt; have := trips1; omega
  unfold invG inFl outSt k0_t1_body
  rw [if_pos hk, if_neg (Nat.succ_ne_zero k.val)]
  unfold outFl
  iintro ⟨#Hmw, ⟨%s0, %s1, %s2, %hs, ⟨%S0, %f0, %hA0, Hf0, Hx0⟩, ⟨%S1, %f1, %hA1, Hf1, Hx1⟩, ⟨%S2, %f2, %hA2, Hf2, Hx2⟩⟩, ⟨Hg0, Hg1, ⟨%fq0, Hg0_src⟩, ⟨%fq1, Hg1_src⟩⟩, Hyd, Hyt, %W', %hW', HO⟩
  obtain rfl : s0 = unitT k 0 (by decide) := Fin.ext (by show _ = 6 * k.val + 0; omega)
  obtain rfl : s1 = unitT k 1 (by decide) := Fin.ext (by show _ = 6 * k.val + 1; omega)
  obtain rfl : s2 = unitT k 2 (by decide) := Fin.ext (by show _ = 6 * k.val + 2; omega)
  ihave Hyd := (Ydone_cast m d L _ 0 (by omega)) $$ Hyd
  ihave Hyt := (Ytodo_cast m d L _ 0 (by omega)) $$ Hyt
  sl_exec (disch := (clear * - k hk; decide +kernel +revert))
  -- unit 0: in-slot 0, out-slot 0
  sl_for (C2.cInv (F := F) d L f0) $$ [Hf0_dst Hg0_src]
  case region => intro kk acc; refine C2.step d L ?_ ?_ ?_ ?_ f0 kk acc <;> first | exact 0#32 | exact k
  · unfold C2.cInv
    isplitl [Hf0_dst]; · iexact Hf0_dst
    iexists _; isplitr; swap
    · iexact Hg0_src
    · ipureintro; exact done_zero _ _ _
  iintro %_ HI
  unfold C2.cInv
  icases HI with ⟨Hf0_dst, %fo0, %hD0r, Hg0_src⟩
  have hD0 : Done 0 64 (Arows m d L (uT0 k)) fo0 := by rw [← hA0, ← C2.trips]; exact hD0r
  ihave Hyt' := (Ytodo_take m d L (0) (1) (uT0 k) (by show 6 * k.val + 0 = _; omega) (by omega)) $$ Hyt
  icases Hyt' with ⟨Hw, Hyt⟩
  ihave Hw := (Entails.of_eq (yWin_pts d L (uT0 k) (k0_off10 L k 0#32) (k0_off10_inb L k 0) (Off.off10_eq_0 L k) _).symm) $$ Hw
  sl_exec (disch := (clear * - k hk; decide +kernel +revert))
  -- unit 1: in-slot 1, out-slot 1
  sl_for (C3.cInv (F := F) d L f1) $$ [Hf1_dst Hg1_src]
  case region => intro kk acc; refine C3.step d L ?_ ?_ f1 kk acc <;> first | exact 0#32 | exact k
  · unfold C3.cInv
    isplitl [Hf1_dst]; · iexact Hf1_dst
    iexists _; isplitr; swap
    · iexact Hg1_src
    · ipureintro; exact done_zero _ _ _
  iintro %_ HI
  unfold C3.cInv
  icases HI with ⟨Hf1_dst, %fo1, %hD1r, Hg1_src⟩
  have hD1 : Done 1 64 (Arows m d L (uT1 k)) fo1 := by rw [← hA1, ← C3.trips]; exact hD1r
  ihave Hyt' := (Ytodo_take m d L (1) (2) (uT1 k) (by show 6 * k.val + 1 = _; omega) (by omega)) $$ Hyt
  icases Hyt' with ⟨Hw, Hyt⟩
  ihave Hw := (Entails.of_eq (yWin_pts d L (uT1 k) (k0_off10 L k 1#32) (k0_off10_inb L k 1) (Off.off10_eq_1 L k) _).symm) $$ Hw
  sl_exec (disch := (clear * - k hk; decide +kernel +revert))
  -- unit 2: in-slot 2, out-slot 0
  sl_for (C4.cInv (F := F) d L f2) $$ [Hf2_dst Hg0_src]
  case region => intro kk acc; refine C4.step d L ?_ ?_ ?_ ?_ ?_ f2 kk acc <;> first | exact 0#32 | exact k
  · unfold C4.cInv
    isplitl [Hf2_dst]; · iexact Hf2_dst
    iexists _; isplitr; swap
    · iexact Hg0_src
    · ipureintro; exact done_zero _ _ _
  iintro %_ HI
  unfold C4.cInv
  icases HI with ⟨Hf2_dst, %fo2, %hD2r, Hg0_src⟩
  have hD2 : Done 0 64 (Arows m d L (uT2 k)) fo2 := by rw [← hA2, ← C4.trips]; exact hD2r
  ihave Hrel := (Entails.of_eq (win_value0' m d L (uT0 k) (k0_off10 L k 0#32) (k0_off10_inb L k 0) (Off.off10_eq_0 L k) fo0 hD0 _ _ ?hP0)) $$ Hw
  case hP0 => rfl
  ihave Hyd := (Ydone_put m d L (0) (1) (uT0 k) (by show 6 * k.val + 0 = _; omega) (by omega)) $$ [Hyd Hrel]
  · isplitl [Hyd]; · iexact Hyd
    iexact Hrel
  ihave Hyt' := (Ytodo_take m d L (2) (3) (uT2 k) (by show 6 * k.val + 2 = _; omega) (by omega)) $$ Hyt
  icases Hyt' with ⟨Hw, Hyt⟩
  ihave Hw := (Entails.of_eq (yWin_pts d L (uT2 k) (k0_off10 L k 2#32) (k0_off10_inb L k 2) (Off.off10_eq_2 L k) _).symm) $$ Hw
  sl_exec (disch := (clear * - k hk; decide +kernel +revert))
  -- unit 3: in-slot 0, out-slot 1
  ihave Hgen : iprop(∃ g, ⌜View.readAt (Elt F) inSlot0.view (LoadRect.whole S2x64x64) g = Arows m d L (uT3 k)⌝ ∗ slotPts d L inSlot0 g) $$ [Hf0_dst]
  · iexists _; isplitr; swap
    · iexact Hf0_dst
    · ipureintro; exact in_value m d L (uT3 k) _ _ (Off.off11_eq L k) _ _
  icases Hgen with ⟨%g3, %hA3, Hf0_dst⟩
  sl_for (C5.cInv (F := F) d L g3) $$ [Hf0_dst Hg1_src]
  case region => intro kk acc; refine C5.step d L ?_ ?_ g3 kk acc <;> first | exact 0#32 | exact k
  · unfold C5.cInv
    isplitl [Hf0_dst]; · iexact Hf0_dst
    iexists _; isplitr; swap
    · iexact Hg1_src
    · ipureintro; exact done_zero _ _ _
  iintro %_ HI
  unfold C5.cInv
  icases HI with ⟨Hf0_dst, %fo3, %hD3r, Hg1_src⟩
  have hD3 : Done 1 64 (Arows m d L (uT3 k)) fo3 := by rw [← hA3, ← C5.trips]; exact hD3r
  ihave Hrel := (Entails.of_eq (win_value1' m d L (uT1 k) (k0_off10 L k 1#32) (k0_off10_inb L k 1) (Off.off10_eq_1 L k) fo1 hD1 _ _ ?hP1)) $$ Hw
  case hP1 => rfl
  ihave Hyd := (Ydone_put m d L (1) (2) (uT1 k) (by show 6 * k.val + 1 = _; omega) (by omega)) $$ [Hyd Hrel]
  · isplitl [Hyd]; · iexact Hyd
    iexact Hrel
  ihave Hyt' := (Ytodo_take m d L (3) (4) (uT3 k) (by show 6 * k.val + 3 = _; omega) (by omega)) $$ Hyt
  icases Hyt' with ⟨Hw, Hyt⟩
  ihave Hw := (Entails.of_eq (yWin_pts d L (uT3 k) (k0_off10 L k 3#32) (k0_off10_inb L k 3) (Off.off10_eq_3 L k) _).symm) $$ Hw
  sl_exec (disch := (clear * - k hk; decide +kernel +revert))
  -- unit 4: in-slot 1, out-slot 0
  ihave Hgen : iprop(∃ g, ⌜View.readAt (Elt F) inSlot1.view (LoadRect.whole S2x64x64) g = Arows m d L (uT4 k)⌝ ∗ slotPts d L inSlot1 g) $$ [Hf1_dst]
  · iexists _; isplitr; swap
    · iexact Hf1_dst
    · ipureintro; exact in_value m d L (uT4 k) _ _ (Off.off20_eq L k) _ _
  icases Hgen with ⟨%g4, %hA4, Hf1_dst⟩
  sl_for (C6.cInv (F := F) d L g4) $$ [Hf1_dst Hg0_src]
  case region => intro kk acc; refine C6.step d L ?_ ?_ ?_ ?_ ?_ g4 kk acc <;> first | exact 0#32 | exact k
  · unfold C6.cInv
    isplitl [Hf1_dst]; · iexact Hf1_dst
    iexists _; isplitr; swap
    · iexact Hg0_src
    · ipureintro; exact done_zero _ _ _
  iintro %_ HI
  unfold C6.cInv
  icases HI with ⟨Hf1_dst, %fo4, %hD4r, Hg0_src⟩
  have hD4 : Done 0 64 (Arows m d L (uT4 k)) fo4 := by rw [← hA4, ← C6.trips]; exact hD4r
  ihave Hrel := (Entails.of_eq (win_value0' m d L (uT2 k) (k0_off10 L k 2#32) (k0_off10_inb L k 2) (Off.off10_eq_2 L k) fo2 hD2 _ _ ?hP2)) $$ Hw
  case hP2 => rfl
  ihave Hyd := (Ydone_put m d L (2) (3) (uT2 k) (by show 6 * k.val + 2 = _; omega) (by omega)) $$ [Hyd Hrel]
  · isplitl [Hyd]; · iexact Hyd
    iexact Hrel
  ihave Hyt' := (Ytodo_take m d L (4) (5) (uT4 k) (by show 6 * k.val + 4 = _; omega) (by omega)) $$ Hyt
  icases Hyt' with ⟨Hw, Hyt⟩
  ihave Hw := (Entails.of_eq (yWin_pts d L (uT4 k) (k0_off10 L k 4#32) (k0_off10_inb L k 4) (Off.off10_eq_4 L k) _).symm) $$ Hw
  sl_exec (disch := (clear * - k hk; decide +kernel +revert))
  -- unit 5: in-slot 2, out-slot 1
  ihave Hgen : iprop(∃ g, ⌜View.readAt (Elt F) inSlot2.view (LoadRect.whole S2x64x64) g = Arows m d L (uT5 k)⌝ ∗ slotPts d L inSlot2 g) $$ [Hf2_dst]
  · iexists _; isplitr; swap
    · iexact Hf2_dst
    · ipureintro; exact in_value m d L (uT5 k) _ _ (Off.off29_eq L k) _ _
  icases Hgen with ⟨%g5, %hA5, Hf2_dst⟩
  sl_for (C7.cInv (F := F) d L g5) $$ [Hf2_dst Hg1_src]
  case region => intro kk acc; refine C7.step d L ?_ ?_ g5 kk acc <;> first | exact 0#32 | exact k
  · unfold C7.cInv
    isplitl [Hf2_dst]; · iexact Hf2_dst
    iexists _; isplitr; swap
    · iexact Hg1_src
    · ipureintro; exact done_zero _ _ _
  iintro %_ HI
  unfold C7.cInv
  icases HI with ⟨Hf2_dst, %fo5, %hD5r, Hg1_src⟩
  have hD5 : Done 1 64 (Arows m d L (uT5 k)) fo5 := by rw [← hA5, ← C7.trips]; exact hD5r
  ihave Hrel := (Entails.of_eq (win_value1' m d L (uT3 k) (k0_off10 L k 3#32) (k0_off10_inb L k 3) (Off.off10_eq_3 L k) fo3 hD3 _ _ ?hP3)) $$ Hw
  case hP3 => rfl
  ihave Hyd := (Ydone_put m d L (3) (4) (uT3 k) (by show 6 * k.val + 3 = _; omega) (by omega)) $$ [Hyd Hrel]
  · isplitl [Hyd]; · iexact Hyd
    iexact Hrel
  ihave Hyt' := (Ytodo_take m d L (5) (6) (uT5 k) (by show 6 * k.val + 5 = _; omega) (by omega)) $$ Hyt
  icases Hyt' with ⟨Hw, Hyt⟩
  ihave Hw := (Entails.of_eq (yWin_pts d L (uT5 k) (k0_off10 L k 5#32) (k0_off10_inb L k 5) (Off.off10_eq_5 L k) _).symm) $$ Hw
  sl_exec (disch := (clear * - k hk; decide +kernel +revert))
  sl_step
  isplitr; · iexact Hmw
  isplitl [Hf0 Hx0 Hf1 Hx1 Hf2 Hx2]
  · iexists (uT6 k), (uT7 k), (uT8 k); isplitr
    · ipureintro; refine ⟨?_, ?_, ?_⟩
      · show 6 * k.val + 6 = _; omega
      · show 6 * k.val + 7 = _; omega
      · show 6 * k.val + 8 = _; omega
    isplitl [Hf0 Hx0]
    · iexists _, _; isplitr; swap
      · isplitl [Hf0]; · iexact Hf0
        iexact Hx0
      · ipureintro; exact in_value m d L (uT6 k) _ _ (Off.off38_eq L k) _ _
    isplitl [Hf1 Hx1]
    · iexists _, _; isplitr; swap
      · isplitl [Hf1]; · iexact Hf1
        iexact Hx1
      · ipureintro; exact in_value m d L (uT7 k) _ _ (Off.off47_eq L k) _ _
    · iexists _, _; isplitr; swap
      · isplitl [Hf2]; · iexact Hf2
        iexact Hx2
      · ipureintro; exact in_value m d L (uT8 k) _ _ (Off.off56_eq L k) _ _
  isplitl [Hg0 Hg1]
  · iexists (uT4 k), (uT5 k); isplitr
    · ipureintro; constructor
      · show 6 * k.val + 4 + 2 = _; omega
      · show 6 * k.val + 5 + 1 = _; omega
    isplitl [Hg0]
    · iexists _
      iapply (Transfers.Flight_mono (countersEmb : UEmb Counters 𝕄) (thrV d L) (BIClass.sep_mono (Entails.of_eq (win_value0' m d L (uT4 k) (k0_off10 L k 4#32) (k0_off10_inb L k 4) (Off.off10_eq_4 L k) fo4 hD4 _ _ ?hP4)) (BI.Entails.refl _))) $$ Hg0
      case hP4 => rfl
    · iexists _
      iapply (Transfers.Flight_mono (countersEmb : UEmb Counters 𝕄) (thrV d L) (BIClass.sep_mono (Entails.of_eq (win_value1' m d L (uT5 k) (k0_off10 L k 5#32) (k0_off10_inb L k 5) (Off.off10_eq_5 L k) fo5 hD5 _ _ ?hP5)) (BI.Entails.refl _))) $$ Hg1
      case hP5 => rfl
  isplitl [Hyd]; · iapply (Ydone_cast m d L _ _ (by omega)) $$ Hyd
  isplitl [Hyt]; · iapply (Ytodo_cast m d L _ _ (by omega)) $$ Hyt
  iexists _; isplitr; swap
  · iexact HO
  · ipureintro; repeat (refine okW_insert _ rfl ?_)
    exact hW'

set_option maxHeartbeats 4000000 in
/-- One group of six units, after the first. -/
theorem region_pos (d : Dev nD) (L : grid0.Coords) (O : CellTallies nD τ sig (HIx 1)) (W : Waits sig (HIx 1)) (v3 : BitVec 32)
    (k : Fin k0_t1_loop.trips) (hk : k.val ≠ 0) :
    invG m d L O W k.val ⟨⟩
      ⊢ wp frame (wpE (defs₀ (F := F)) 𝒱₀ (V d (cV L) (jV L)) none) Set.univ
          (k0_t1_body L xV (Memref.isWhole_whole _) yV (Memref.isWhole_whole _) sIn (Memref.isWhole_whole _) sOut (Memref.isWhole_whole _)
            cc0_scratch2 cc0_scratch3 cc0_scratch4 cc0_scratch5 cc0_scratch6 (iota .scVector S16 32 [0] iota_S16_d0_w32_scVector) v3 k ⟨⟩)
          fun _ => invG m d L O W (k.val + 1) ⟨⟩ := by
  have hk10 : k.val < 10 := by have := k.isLt; have := trips1; omega
  unfold invG inFl outSt k0_t1_body
  rw [if_neg hk, if_neg (Nat.succ_ne_zero k.val)]
  unfold outFl
  iintro ⟨#Hmw, ⟨%s0, %s1, %s2, %hs, ⟨%S0, %f0, %hA0, Hf0, Hx0⟩, ⟨%S1, %f1, %hA1, Hf1, Hx1⟩, ⟨%S2, %f2, %hA2, Hf2, Hx2⟩⟩, ⟨%t0, %t1, %ht, ⟨%fq0, Hg0⟩, ⟨%fq1, Hg1⟩⟩, Hyd, Hyt, %W', %hW', HO⟩
  obtain rfl : s0 = unitT k 0 (by decide) := Fin.ext (by show _ = 6 * k.val + 0; omega)
  obtain rfl : s1 = unitT k 1 (by decide) := Fin.ext (by show _ = 6 * k.val + 1; omega)
  obtain rfl : s2 = unitT k 2 (by decide) := Fin.ext (by show _ = 6 * k.val + 2; omega)
  sl_exec (disch := (clear * - k hk; decide +kernel +revert))
  -- unit 0: in-slot 0, out-slot 0
  sl_for (C2.cInv (F := F) d L f0) $$ [Hf0_dst Hg0_src]
  case region => intro kk acc; refine C2.step d L ?_ ?_ ?_ ?_ f0 kk acc <;> first | exact 0#32 | exact k
  · unfold C2.cInv
    isplitl [Hf0_dst]; · iexact Hf0_dst
    iexists _; isplitr; swap
    · iexact Hg0_src
    · ipureintro; exact done_zero _ _ _
  iintro %_ HI
  unfold C2.cInv
  icases HI with ⟨Hf0_dst, %fo0, %hD0r, Hg0_src⟩
  have hD0 : Done 0 64 (Arows m d L (uT0 k)) fo0 := by rw [← hA0, ← C2.trips]; exact hD0r
  ihave Hyd := (Ydone_put m d L (6 * k.val - 2) (6 * k.val - 1) t0 (by omega) (by omega)) $$ [Hyd Hg0_dst]
  · isplitl [Hyd]; · iexact Hyd
    iexact Hg0_dst
  ihave Hyt' := (Ytodo_take m d L (6 * k.val) (6 * k.val + 1) (uT0 k) (by show 6 * k.val + 0 = _; omega) (by omega)) $$ Hyt
  icases Hyt' with ⟨Hw, Hyt⟩
  ihave Hw := (Entails.of_eq (yWin_pts d L (uT0 k) (k0_off10 L k 0#32) (k0_off10_inb L k 0) (Off.off10_eq_0 L k) _).symm) $$ Hw
  sl_exec (disch := (clear * - k hk; decide +kernel +revert))
  -- unit 1: in-slot 1, out-slot 1
  sl_for (C3.cInv (F := F) d L f1) $$ [Hf1_dst Hg1_src]
  case region => intro kk acc; refine C3.step d L ?_ ?_ f1 kk acc <;> first | exact 0#32 | exact k
  · unfold C3.cInv
    isplitl [Hf1_dst]; · iexact Hf1_dst
    iexists _; isplitr; swap
    · iexact Hg1_src
    · ipureintro; exact done_zero _ _ _
  iintro %_ HI
  unfold C3.cInv
  icases HI with ⟨Hf1_dst, %fo1, %hD1r, Hg1_src⟩
  have hD1 : Done 1 64 (Arows m d L (uT1 k)) fo1 := by rw [← hA1, ← C3.trips]; exact hD1r
  ihave Hyd := (Ydone_put m d L (6 * k.val - 1) (6 * k.val) t1 (by omega) (by omega)) $$ [Hyd Hg1_dst]
  · isplitl [Hyd]; · iexact Hyd
    iexact Hg1_dst
  ihave Hyt' := (Ytodo_take m d L (6 * k.val + 1) (6 * k.val + 2) (uT1 k) (by show 6 * k.val + 1 = _; omega) (by omega)) $$ Hyt
  icases Hyt' with ⟨Hw, Hyt⟩
  ihave Hw := (Entails.of_eq (yWin_pts d L (uT1 k) (k0_off10 L k 1#32) (k0_off10_inb L k 1) (Off.off10_eq_1 L k) _).symm) $$ Hw
  sl_exec (disch := (clear * - k hk; decide +kernel +revert))
  -- unit 2: in-slot 2, out-slot 0
  sl_for (C4.cInv (F := F) d L f2) $$ [Hf2_dst Hg0_src]
  case region => intro kk acc; refine C4.step d L ?_ ?_ ?_ ?_ ?_ f2 kk acc <;> first | exact 0#32 | exact k
  · unfold C4.cInv
    isplitl [Hf2_dst]; · iexact Hf2_dst
    iexists _; isplitr; swap
    · iexact Hg0_src
    · ipureintro; exact done_zero _ _ _
  iintro %_ HI
  unfold C4.cInv
  icases HI with ⟨Hf2_dst, %fo2, %hD2r, Hg0_src⟩
  have hD2 : Done 0 64 (Arows m d L (uT2 k)) fo2 := by rw [← hA2, ← C4.trips]; exact hD2r
  ihave Hrel := (Entails.of_eq (win_value0' m d L (uT0 k) (k0_off10 L k 0#32) (k0_off10_inb L k 0) (Off.off10_eq_0 L k) fo0 hD0 _ _ ?hP0)) $$ Hw
  case hP0 => rfl
  ihave Hyd := (Ydone_put m d L (6 * k.val) (6 * k.val + 1) (uT0 k) (by show 6 * k.val + 0 = _; omega) (by omega)) $$ [Hyd Hrel]
  · isplitl [Hyd]; · iexact Hyd
    iexact Hrel
  ihave Hyt' := (Ytodo_take m d L (6 * k.val + 2) (6 * k.val + 3) (uT2 k) (by show 6 * k.val + 2 = _; omega) (by omega)) $$ Hyt
  icases Hyt' with ⟨Hw, Hyt⟩
  ihave Hw := (Entails.of_eq (yWin_pts d L (uT2 k) (k0_off10 L k 2#32) (k0_off10_inb L k 2) (Off.off10_eq_2 L k) _).symm) $$ Hw
  sl_exec (disch := (clear * - k hk; decide +kernel +revert))
  -- unit 3: in-slot 0, out-slot 1
  ihave Hgen : iprop(∃ g, ⌜View.readAt (Elt F) inSlot0.view (LoadRect.whole S2x64x64) g = Arows m d L (uT3 k)⌝ ∗ slotPts d L inSlot0 g) $$ [Hf0_dst]
  · iexists _; isplitr; swap
    · iexact Hf0_dst
    · ipureintro; exact in_value m d L (uT3 k) _ _ (Off.off11_eq L k) _ _
  icases Hgen with ⟨%g3, %hA3, Hf0_dst⟩
  sl_for (C5.cInv (F := F) d L g3) $$ [Hf0_dst Hg1_src]
  case region => intro kk acc; refine C5.step d L ?_ ?_ g3 kk acc <;> first | exact 0#32 | exact k
  · unfold C5.cInv
    isplitl [Hf0_dst]; · iexact Hf0_dst
    iexists _; isplitr; swap
    · iexact Hg1_src
    · ipureintro; exact done_zero _ _ _
  iintro %_ HI
  unfold C5.cInv
  icases HI with ⟨Hf0_dst, %fo3, %hD3r, Hg1_src⟩
  have hD3 : Done 1 64 (Arows m d L (uT3 k)) fo3 := by rw [← hA3, ← C5.trips]; exact hD3r
  ihave Hrel := (Entails.of_eq (win_value1' m d L (uT1 k) (k0_off10 L k 1#32) (k0_off10_inb L k 1) (Off.off10_eq_1 L k) fo1 hD1 _ _ ?hP1)) $$ Hw
  case hP1 => rfl
  ihave Hyd := (Ydone_put m d L (6 * k.val + 1) (6 * k.val + 2) (uT1 k) (by show 6 * k.val + 1 = _; omega) (by omega)) $$ [Hyd Hrel]
  · isplitl [Hyd]; · iexact Hyd
    iexact Hrel
  ihave Hyt' := (Ytodo_take m d L (6 * k.val + 3) (6 * k.val + 4) (uT3 k) (by show 6 * k.val + 3 = _; omega) (by omega)) $$ Hyt
  icases Hyt' with ⟨Hw, Hyt⟩
  ihave Hw := (Entails.of_eq (yWin_pts d L (uT3 k) (k0_off10 L k 3#32) (k0_off10_inb L k 3) (Off.off10_eq_3 L k) _).symm) $$ Hw
  sl_exec (disch := (clear * - k hk; decide +kernel +revert))
  -- unit 4: in-slot 1, out-slot 0
  ihave Hgen : iprop(∃ g, ⌜View.readAt (Elt F) inSlot1.view (LoadRect.whole S2x64x64) g = Arows m d L (uT4 k)⌝ ∗ slotPts d L inSlot1 g) $$ [Hf1_dst]
  · iexists _; isplitr; swap
    · iexact Hf1_dst
    · ipureintro; exact in_value m d L (uT4 k) _ _ (Off.off20_eq L k) _ _
  icases Hgen with ⟨%g4, %hA4, Hf1_dst⟩
  sl_for (C6.cInv (F := F) d L g4) $$ [Hf1_dst Hg0_src]
  case region => intro kk acc; refine C6.step d L ?_ ?_ ?_ ?_ ?_ g4 kk acc <;> first | exact 0#32 | exact k
  · unfold C6.cInv
    isplitl [Hf1_dst]; · iexact Hf1_dst
    iexists _; isplitr; swap
    · iexact Hg0_src
    · ipureintro; exact done_zero _ _ _
  iintro %_ HI
  unfold C6.cInv
  icases HI with ⟨Hf1_dst, %fo4, %hD4r, Hg0_src⟩
  have hD4 : Done 0 64 (Arows m d L (uT4 k)) fo4 := by rw [← hA4, ← C6.trips]; exact hD4r
  ihave Hrel := (Entails.of_eq (win_value0' m d L (uT2 k) (k0_off10 L k 2#32) (k0_off10_inb L k 2) (Off.off10_eq_2 L k) fo2 hD2 _ _ ?hP2)) $$ Hw
  case hP2 => rfl
  ihave Hyd := (Ydone_put m d L (6 * k.val + 2) (6 * k.val + 3) (uT2 k) (by show 6 * k.val + 2 = _; omega) (by omega)) $$ [Hyd Hrel]
  · isplitl [Hyd]; · iexact Hyd
    iexact Hrel
  ihave Hyt' := (Ytodo_take m d L (6 * k.val + 4) (6 * k.val + 5) (uT4 k) (by show 6 * k.val + 4 = _; omega) (by omega)) $$ Hyt
  icases Hyt' with ⟨Hw, Hyt⟩
  ihave Hw := (Entails.of_eq (yWin_pts d L (uT4 k) (k0_off10 L k 4#32) (k0_off10_inb L k 4) (Off.off10_eq_4 L k) _).symm) $$ Hw
  sl_exec (disch := (clear * - k hk; decide +kernel +revert))
  -- unit 5: in-slot 2, out-slot 1
  ihave Hgen : iprop(∃ g, ⌜View.readAt (Elt F) inSlot2.view (LoadRect.whole S2x64x64) g = Arows m d L (uT5 k)⌝ ∗ slotPts d L inSlot2 g) $$ [Hf2_dst]
  · iexists _; isplitr; swap
    · iexact Hf2_dst
    · ipureintro; exact in_value m d L (uT5 k) _ _ (Off.off29_eq L k) _ _
  icases Hgen with ⟨%g5, %hA5, Hf2_dst⟩
  sl_for (C7.cInv (F := F) d L g5) $$ [Hf2_dst Hg1_src]
  case region => intro kk acc; refine C7.step d L ?_ ?_ g5 kk acc <;> first | exact 0#32 | exact k
  · unfold C7.cInv
    isplitl [Hf2_dst]; · iexact Hf2_dst
    iexists _; isplitr; swap
    · iexact Hg1_src
    · ipureintro; exact done_zero _ _ _
  iintro %_ HI
  unfold C7.cInv
  icases HI with ⟨Hf2_dst, %fo5, %hD5r, Hg1_src⟩
  have hD5 : Done 1 64 (Arows m d L (uT5 k)) fo5 := by rw [← hA5, ← C7.trips]; exact hD5r
  ihave Hrel := (Entails.of_eq (win_value1' m d L (uT3 k) (k0_off10 L k 3#32) (k0_off10_inb L k 3) (Off.off10_eq_3 L k) fo3 hD3 _ _ ?hP3)) $$ Hw
  case hP3 => rfl
  ihave Hyd := (Ydone_put m d L (6 * k.val + 3) (6 * k.val + 4) (uT3 k) (by show 6 * k.val + 3 = _; omega) (by omega)) $$ [Hyd Hrel]
  · isplitl [Hyd]; · iexact Hyd
    iexact Hrel
  ihave Hyt' := (Ytodo_take m d L (6 * k.val + 5) (6 * k.val + 6) (uT5 k) (by show 6 * k.val + 5 = _; omega) (by omega)) $$ Hyt
  icases Hyt' with ⟨Hw, Hyt⟩
  ihave Hw := (Entails.of_eq (yWin_pts d L (uT5 k) (k0_off10 L k 5#32) (k0_off10_inb L k 5) (Off.off10_eq_5 L k) _).symm) $$ Hw
  sl_exec (disch := (clear * - k hk; decide +kernel +revert))
  sl_step
  isplitr; · iexact Hmw
  isplitl [Hf0 Hx0 Hf1 Hx1 Hf2 Hx2]
  · iexists (uT6 k), (uT7 k), (uT8 k); isplitr
    · ipureintro; refine ⟨?_, ?_, ?_⟩
      · show 6 * k.val + 6 = _; omega
      · show 6 * k.val + 7 = _; omega
      · show 6 * k.val + 8 = _; omega
    isplitl [Hf0 Hx0]
    · iexists _, _; isplitr; swap
      · isplitl [Hf0]; · iexact Hf0
        iexact Hx0
      · ipureintro; exact in_value m d L (uT6 k) _ _ (Off.off38_eq L k) _ _
    isplitl [Hf1 Hx1]
    · iexists _, _; isplitr; swap
      · isplitl [Hf1]; · iexact Hf1
        iexact Hx1
      · ipureintro; exact in_value m d L (uT7 k) _ _ (Off.off47_eq L k) _ _
    · iexists _, _; isplitr; swap
      · isplitl [Hf2]; · iexact Hf2
        iexact Hx2
      · ipureintro; exact in_value m d L (uT8 k) _ _ (Off.off56_eq L k) _ _
  isplitl [Hg0 Hg1]
  · iexists (uT4 k), (uT5 k); isplitr
    · ipureintro; constructor
      · show 6 * k.val + 4 + 2 = _; omega
      · show 6 * k.val + 5 + 1 = _; omega
    isplitl [Hg0]
    · iexists _
      iapply (Transfers.Flight_mono (countersEmb : UEmb Counters 𝕄) (thrV d L) (BIClass.sep_mono (Entails.of_eq (win_value0' m d L (uT4 k) (k0_off10 L k 4#32) (k0_off10_inb L k 4) (Off.off10_eq_4 L k) fo4 hD4 _ _ ?hP4)) (BI.Entails.refl _))) $$ Hg0
      case hP4 => rfl
    · iexists _
      iapply (Transfers.Flight_mono (countersEmb : UEmb Counters 𝕄) (thrV d L) (BIClass.sep_mono (Entails.of_eq (win_value1' m d L (uT5 k) (k0_off10 L k 5#32) (k0_off10_inb L k 5) (Off.off10_eq_5 L k) fo5 hD5 _ _ ?hP5)) (BI.Entails.refl _))) $$ Hg1
      case hP5 => rfl
  isplitl [Hyd]; · iapply (Ydone_cast m d L _ _ (by omega)) $$ Hyd
  isplitl [Hyt]; · iapply (Ytodo_cast m d L _ _ (by omega)) $$ Hyt
  iexists _; isplitr; swap
  · iexact HO
  · ipureintro; repeat (refine okW_insert _ rfl ?_)
    exact hW'

/-! ## The tail: units 60 … 63 -/

abbrev t58 : Fin 64 := ⟨58, by decide⟩
abbrev t59 : Fin 64 := ⟨59, by decide⟩
abbrev t60 : Fin 64 := ⟨60, by decide⟩
abbrev t61 : Fin 64 := ⟨61, by decide⟩
abbrev t62 : Fin 64 := ⟨62, by decide⟩
abbrev t63 : Fin 64 := ⟨63, by decide⟩

/-- After the last group: the copies of units 60, 61, 62 into the in-slots and the copies out into windows 58, 59 are
    pending; windows below 58 are done, those from 60 on still to do. -/
theorem invG_last (d : Dev nD) (L : grid0.Coords) (O : CellTallies nD τ sig (HIx 1)) (W : Waits sig (HIx 1)) (n : ℕ) (u : Unit) (hn : n = 10) :
    invG m d L O W n u
      ⊢ iprop(inFl m d L cc0_scratch2 0 inSlot0 t60 ∗ inFl m d L cc0_scratch3 1 inSlot1 t61 ∗ inFl m d L cc0_scratch4 2 inSlot2 t62
          ∗ outFl m d L cc0_scratch5 outSlot0 t58 ∗ outFl m d L cc0_scratch6 outSlot1 t59
          ∗ Ydone m d L 58 ∗ Ytodo m d L 60
          ∗ ∃ W', ⌜∀ p ∈ W', p ∈ W ∨ p.2 = none⌝ ∗ owes (thrV d L) O W') := by
  subst hn
  unfold invG outSt
  rw [if_neg (by decide)]
  iintro ⟨-, ⟨%s0, %s1, %s2, %hs, H0, H1, H2⟩, ⟨%q0, %q1, %hq, G0, G1⟩, Hyd, Hyt, HW⟩
  obtain rfl : s0 = t60 := Fin.ext (by show _ = 60; omega)
  obtain rfl : s1 = t61 := Fin.ext (by show _ = 61; omega)
  obtain rfl : s2 = t62 := Fin.ext (by show _ = 62; omega)
  obtain rfl : q0 = t58 := Fin.ext (by show _ = 58; omega)
  obtain rfl : q1 = t59 := Fin.ext (by show _ = 59; omega)
  isplitl [H0]; · iexact H0
  isplitl [H1]; · iexact H1
  isplitl [H2]; · iexact H2
  isplitl [G0]; · iexact G0
  isplitl [G1]; · iexact G1
  isplitl [Hyd]; · iapply (Ydone_cast m d L _ _ (by omega)) $$ Hyd
  isplitl [Hyt]; · iapply (Ytodo_cast m d L _ _ (by omega)) $$ Hyt
  iexact HW

/-! ## The whole task -/

theorem outSt_zero (d : Dev nD) (L : grid0.Coords) :
    outSt m d L 0 = iprop(semVal (semC d L cc0_scratch5) 0 ∗ semVal (semC d L cc0_scratch6) 0 ∗ (∃ f, slotPts d L outSlot0 f) ∗ ∃ f, slotPts d L outSlot1 f) := if_pos rfl

theorem Ydone_zero (d : Dev nD) (L : grid0.Coords) : (iprop(emp) : sProp 𝕄) ⊢ Ydone m d L (6 * 0 - 2) := by
  unfold Ydone; rw [Ring.bigSep_rangeSet_empty (by omega)]

theorem Ytodo_init (d : Dev nD) (L : grid0.Coords) : yTile d (cL L) (iL L) (m (yLoc d)) ⊢ Ytodo m d L (6 * 0) := by
  unfold Ytodo; rw [show 6 * 0 = 0 from rfl, Ring.rangeSet_univ]

theorem Ydone_final (d : Dev nD) (L : grid0.Coords) : Ydone m d L 64 ⊢ yTile d (cL L) (iL L) (Gy m d) := by
  unfold Ydone; rw [Ring.rangeSet_univ]

theorem x_toks3 (d : Dev nD) (L : grid0.Coords) (q : PosShare TreeShare) (f : Buf (Elt F) (xLoc d)) :
    (xLoc d ↦{q} f : sProp 𝕄) ⊣⊢ iprop(((xV).view.loc (thrV d L) ↦{Transfers.shareDrop q 3} f) ∗ ((xV).view.loc (thrV d L) ↦{Transfers.shareTok q 3 0} f)
      ∗ ((xV).view.loc (thrV d L) ↦{Transfers.shareTok q 3 1} f) ∗ (xV).view.loc (thrV d L) ↦{Transfers.shareTok q 3 2} f) := by
  have h := Transfers.pointsTo_toks (nD := nD) (τ := τ) (sig := sig) (Ix := HIx 1) (Val := Elt F) (Name := ℕ) (U := UU) (Lvl := ℕ) (ℓ := xLoc d) (S := Finset.univ) (f := f) q 3
  rw [show (Finset.univ : Finset (Fin 3)) = {0, 1, 2} by decide, SparseCore.bigSep_insert' (by decide), SparseCore.bigSep_insert' (by decide), bigSep_singleton] at h
  exact h

set_option maxHeartbeats 4000000 in
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp
        ∗ (xTile m d (cL L) (iL L) ∗ yTile d (cL L) (iL L) (m (yLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) yV (Memref.isWhole_whole _) sIn (Memref.isWhole_whole _) sOut (Memref.isWhole_whole _)
            cc0_scratch2 cc0_scratch3 cc0_scratch4 cc0_scratch5 cc0_scratch6)
          fun _ => iprop((xTile m d (cL L) (iL L) ∗ yTile d (cL L) (iL L) (Gy m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L)]
  rw [show (ownSems0 (V d (cV L) (jV L)) : sProp 𝕄) = _ from ownSems0_V d L, show (ownBufs (V d (cV L) (jV L)) : sProp 𝕄) = _ from ownBufs_V d L]
  iintro ⟨#Hlv, -, ⟨Hx, Hy⟩, ⟨⟨%fi, Hsi⟩, ⟨%fo, Hso⟩, Hbufs⟩, ⟨Hf0, Hf1, Hf2, Hg0, Hg1, Hsems⟩, HO⟩
  ihave Hmw := ((K (F := F)).mayWaits_none (thr := thrV d L) hO) $$ Hlv
  ihave Hx' := ((x_toks3 d L _ _).1) $$ Hx
  icases Hx' with ⟨Hxr, Hx0, Hx1, Hx2⟩
  ihave Hsi' := (Entails.of_eq (sIn_slots d L fi)) $$ Hsi
  icases Hsi' with ⟨Hi0, Hi1, Hi2⟩
  ihave Hso' := (Entails.of_eq (sOut_slots d L fo)) $$ Hso
  icases Hso' with ⟨Hg0_src, Hg1_src⟩
  ihave Hyt := (Ytodo_init m d L) $$ Hy
  sl_exec
  sl_for (invG m d L O W) $$ [Hf0 Hx0 Hf1 Hx1 Hf2 Hx2 Hg0 Hg1 Hg0_src Hg1_src Hyt HO]
  case region =>
    intro k acc
    by_cases hk : k.val = 0
    · exact region_zero m d L O W _ k hk
    · exact region_pos m d L O W _ k hk
  · unfold invG inFl
    isplitr; · iexact Hmw
    isplitl [Hf0 Hx0 Hf1 Hx1 Hf2 Hx2]
    · iexists ⟨0, by decide⟩, ⟨1, by decide⟩, ⟨2, by decide⟩; isplitr; · ipureintro; exact ⟨rfl, rfl, rfl⟩
      isplitl [Hf0 Hx0]
      · iexists _, _; isplitr; swap
        · isplitl [Hf0]; · iexact Hf0
          iexact Hx0
        · ipureintro; exact in_value m d L ⟨0, by decide⟩ _ _ (Off.off1_eq_0 L) _ _
      isplitl [Hf1 Hx1]
      · iexists _, _; isplitr; swap
        · isplitl [Hf1]; · iexact Hf1
          iexact Hx1
        · ipureintro; exact in_value m d L ⟨1, by decide⟩ _ _ (Off.off1_eq_1 L) _ _
      · iexists _, _; isplitr; swap
        · isplitl [Hf2]; · iexact Hf2
          iexact Hx2
        · ipureintro; exact in_value m d L ⟨2, by decide⟩ _ _ (Off.off1_eq_2 L) _ _
    isplitl [Hg0 Hg1 Hg0_src Hg1_src]
    · iapply (Entails.of_eq (outSt_zero m d L).symm)
      isplitl [Hg0]; · iexact Hg0
      isplitl [Hg1]; · iexact Hg1
      isplitl [Hg0_src]; · iexists _; iexact Hg0_src
      iexists _; iexact Hg1_src
    isplitr; · iapply (Ydone_zero m d L); iempintro
    isplitl [Hyt]; · iexact Hyt
    iexists W; isplitr
    · ipureintro; exact fun p hp => .inl hp
    · iexact HO
  iintro %_ HI
  -- the tail: units 60 … 63, the two last waits
  ihave HI := (invG_last m d L O W _ _ trips1) $$ HI
  unfold inFl outFl
  icases HI with ⟨⟨%S0, %f0, %hA0, Hf0, Hx0⟩, ⟨%S1, %f1, %hA1, Hf1, Hx1⟩, ⟨%S2, %f2, %hA2, Hf2, Hx2⟩, ⟨%fq0, Hg0⟩, ⟨%fq1, Hg1⟩, Hyd, Hyt, %W', %hW', HO⟩
  sl_exec
  -- unit 60: in-slot 0, out-slot 0
  sl_for (C8.cInv (F := F) d L f0) $$ [Hf0_dst Hg0_src]
  case region => intro kk acc; refine C8.step d L ?_ f0 kk acc <;> exact 0#32
  · unfold C8.cInv
    isplitl [Hf0_dst]; · iexact Hf0_dst
    iexists _; isplitr; swap
    · iexact Hg0_src
    · ipureintro; exact done_zero _ _ _
  iintro %_ HI
  unfold C8.cInv
  icases HI with ⟨Hf0_dst, %fo60, %hD60r, Hg0_src⟩
  have hD60 : Done 0 64 (Arows m d L t60) fo60 := by rw [← hA0, ← C8.trips]; exact hD60r
  ihave Hyd := (Ydone_put m d L 58 59 t58 rfl (by omega)) $$ [Hyd Hg0_dst]
  · isplitl [Hyd]; · iexact Hyd
    iexact Hg0_dst
  ihave Hyt' := (Ytodo_take m d L 60 61 t60 rfl (by omega)) $$ Hyt
  icases Hyt' with ⟨Hw60, Hyt⟩
  ihave Hw60 := (Entails.of_eq (yWin_pts d L t60 (k0_off65 L 60#32) (k0_off65_inb L 0) (Off.off65_eq_60 L) _).symm) $$ Hw60
  sl_exec
  -- unit 61: in-slot 1, out-slot 1
  sl_for (C9.cInv (F := F) d L f1) $$ [Hf1_dst Hg1_src]
  case region => intro kk acc; refine C9.step d L ?_ f1 kk acc <;> exact 0#32
  · unfold C9.cInv
    isplitl [Hf1_dst]; · iexact Hf1_dst
    iexists _; isplitr; swap
    · iexact Hg1_src
    · ipureintro; exact done_zero _ _ _
  iintro %_ HI
  unfold C9.cInv
  icases HI with ⟨Hf1_dst, %fo61, %hD61r, Hg1_src⟩
  have hD61 : Done 1 64 (Arows m d L t61) fo61 := by rw [← hA1, ← C9.trips]; exact hD61r
  ihave Hyd := (Ydone_put m d L 59 60 t59 rfl (by omega)) $$ [Hyd Hg1_dst]
  · isplitl [Hyd]; · iexact Hyd
    iexact Hg1_dst
  ihave Hyt' := (Ytodo_take m d L 61 62 t61 rfl (by omega)) $$ Hyt
  icases Hyt' with ⟨Hw61, Hyt⟩
  ihave Hw61 := (Entails.of_eq (yWin_pts d L t61 (k0_off65 L 61#32) (k0_off65_inb L 1) (Off.off65_eq_61 L) _).symm) $$ Hw61
  sl_exec
  -- unit 62: in-slot 2, out-slot 0
  sl_for (C10.cInv (F := F) d L f2) $$ [Hf2_dst Hg0_src]
  case region => intro kk acc; refine C10.step d L ?_ f2 kk acc <;> exact 0#32
  · unfold C10.cInv
    isplitl [Hf2_dst]; · iexact Hf2_dst
    iexists _; isplitr; swap
    · iexact Hg0_src
    · ipureintro; exact done_zero _ _ _
  iintro %_ HI
  unfold C10.cInv
  icases HI with ⟨Hf2_dst, %fo62, %hD62r, Hg0_src⟩
  have hD62 : Done 0 64 (Arows m d L t62) fo62 := by rw [← hA2, ← C10.trips]; exact hD62r
  ihave Hrel := (Entails.of_eq (win_value0' m d L t60 (k0_off65 L 60#32) (k0_off65_inb L 0) (Off.off65_eq_60 L) fo60 hD60 _ _ ?hP60)) $$ Hw60
  case hP60 => rfl
  ihave Hyd := (Ydone_put m d L 60 61 t60 rfl (by omega)) $$ [Hyd Hrel]
  · isplitl [Hyd]; · iexact Hyd
    iexact Hrel
  ihave Hyt' := (Ytodo_take m d L 62 63 t62 rfl (by omega)) $$ Hyt
  icases Hyt' with ⟨Hw62, Hyt⟩
  ihave Hw62 := (Entails.of_eq (yWin_pts d L t62 (k0_off65 L 62#32) (k0_off65_inb L 2) (Off.off65_eq_62 L) _).symm) $$ Hw62
  sl_exec
  -- unit 63: in-slot 0, out-slot 1
  ihave Hgen : iprop(∃ g, ⌜View.readAt (Elt F) inSlot0.view (LoadRect.whole S2x64x64) g = Arows m d L t63⌝ ∗ slotPts d L inSlot0 g) $$ [Hf0_dst]
  · iexists _; isplitr; swap
    · iexact Hf0_dst
    · ipureintro; exact in_value m d L t63 _ _ (Off.off1_eq_63 L) _ _
  icases Hgen with ⟨%g63, %hA63, Hf0_dst⟩
  sl_for (C11.cInv (F := F) d L g63) $$ [Hf0_dst Hg1_src]
  case region => intro kk acc; refine C11.step d L ?_ g63 kk acc <;> exact 0#32
  · unfold C11.cInv
    isplitl [Hf0_dst]; · iexact Hf0_dst
    iexists _; isplitr; swap
    · iexact Hg1_src
    · ipureintro; exact done_zero _ _ _
  iintro %_ HI
  unfold C11.cInv
  icases HI with ⟨Hf0_dst, %fo63, %hD63r, Hg1_src⟩
  have hD63 : Done 1 64 (Arows m d L t63) fo63 := by rw [← hA63, ← C11.trips]; exact hD63r
  ihave Hrel := (Entails.of_eq (win_value1' m d L t61 (k0_off65 L 61#32) (k0_off65_inb L 1) (Off.off65_eq_61 L) fo61 hD61 _ _ ?hP61)) $$ Hw61
  case hP61 => rfl
  ihave Hyd := (Ydone_put m d L 61 62 t61 rfl (by omega)) $$ [Hyd Hrel]
  · isplitl [Hyd]; · iexact Hyd
    iexact Hrel
  ihave Hyt' := (Ytodo_take m d L 63 64 t63 rfl (by omega)) $$ Hyt
  icases Hyt' with ⟨Hw63, Hyt⟩
  ihave Hw63 := (Entails.of_eq (yWin_pts d L t63 (k0_off65 L 63#32) (k0_off65_inb L 3) (Off.off65_eq_63 L) _).symm) $$ Hw63
  sl_exec
  -- the last two windows come back
  ihave Hrel := (Entails.of_eq (win_value0' m d L t62 (k0_off65 L 62#32) (k0_off65_inb L 2) (Off.off65_eq_62 L) fo62 hD62 _ _ ?hP62)) $$ Hw62
  case hP62 => rfl
  ihave Hyd := (Ydone_put m d L 62 63 t62 rfl (by omega)) $$ [Hyd Hrel]
  · isplitl [Hyd]; · iexact Hyd
    iexact Hrel
  ihave Hrel := (Entails.of_eq (win_value1' m d L t63 (k0_off65 L 63#32) (k0_off65_inb L 3) (Off.off65_eq_63 L) fo63 hD63 _ _ ?hP63)) $$ Hw63
  case hP63 => rfl
  ihave Hyd := (Ydone_put m d L 63 64 t63 rfl (by omega)) $$ [Hyd Hrel]
  · isplitl [Hyd]; · iexact Hyd
    iexact Hrel
  sl_step
  -- the argument back whole, the result's windows all done
  isplitl [Hxr Hx0 Hx1 Hx2 Hyd]
  · isplitl [Hxr Hx0 Hx1 Hx2]
    · iapply ((x_toks3 d L _ _).2)
      isplitl [Hxr]; · iexact Hxr
      isplitl [Hx0]; · iexact Hx0
      isplitl [Hx1]; · iexact Hx1
      iexact Hx2
    · iapply (Ydone_final m d L) $$ Hyd
  -- the two scratch buffers from their slots, and the rest of the subcore's own
  isplitl [Hf0_dst Hf1_dst Hf2_dst Hg0_src Hg1_src Hbufs]
  · isplitl [Hf0_dst Hf1_dst Hf2_dst]
    · iapply (sIn_slots_join d L)
      isplitl [Hf0_dst]; · iexists _; iexact Hf0_dst
      isplitl [Hf1_dst]; · iexists _; iexact Hf1_dst
      iexists _; iexact Hf2_dst
    isplitl [Hg0_src Hg1_src]
    · iapply (sOut_slots_join d L)
      isplitl [Hg0_src]; · iexists _; iexact Hg0_src
      iexists _; iexact Hg1_src
    · iexact Hbufs
  -- the five cells at zero
  isplitl [Hf0 Hf1 Hf2 Hg0 Hg1 Hsems]
  · isplitl [Hf0]; · iexact Hf0
    isplitl [Hf1]; · iexact Hf1
    isplitl [Hf2]; · iexact Hf2
    isplitl [Hg0]; · iexact Hg0
    isplitl [Hg1]; · iexact Hg1
    iexact Hsems
  iexists _; isplitr; swap
  · iexact HO
  · ipureintro; repeat (refine okW_insert _ rfl ?_)
    exact hW'

end Cert.Proof.KB

end
-- ==== Proof.LaunchK.lean ====
/-
  The program as printed, read at the instance where a float is the 32-bit word that stores it. The program is the
  same text as the one read at the exact instance, so what follows is the same argument over this program's names.

  From one vector subcore's task to the run of the whole program.

  The TensorCore holds the argument and the result whole at the full share. Before the call it deals them out: the
  argument's share is halved into a remainder it keeps and one read share per SparseCore, and a SparseCore deals
  its share on in the same way, a remainder it keeps and one read share per vector subcore. The result is cut into
  its 2048 windows, the fibres of the map that sends an entry to its unit; subcore `i` of SparseCore `c` is handed
  the 64 windows of its own units. After the call the shares and the windows are joined back the way they were cut,
  the windows now at the rearrangement of the argument.
-/
import proofs.«209385_g40939628265708_retrytranche2_1889_20_alg».proof.Proof.BodyOuterK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ

variable (m : (ℓ : Loc nD τ sig) → Buf (Elt F) ℓ) (ρ : Dev nD → PrngReg) [FloatOps F]

/-! ## The task, as the launch theorem asks for it -/

theorem defs₀_vector (c : Fin τ.nSC) (s : Fin τ.nSub) :
    defs₀ (F := F) (.scVector c s) 0 ()
      = SparseCore.onTile hcore0 hsub0 (fun c s => cc0_body (coordsV c s)
          xV (Memref.isWhole_whole _) yV (Memref.isWhole_whole _) sIn (Memref.isWhole_whole _) sOut (Memref.isWhole_whole _)
          cc0_scratch2 cc0_scratch3 cc0_scratch4 cc0_scratch5 cc0_scratch6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The result's windows

An entry of the result belongs to exactly one unit, and a unit to exactly one place `(c, i, t)`: unit `u` is number
`u % 64` of subcore `u / 128` of SparseCore `(u / 64) % 2`. So the windows of the places are pairwise disjoint and
cover the result. -/

theorem unitAt_inj {c c' : Fin 2} {i i' : Fin 16} {t t' : Fin 64} (h : unitAt c i t = unitAt c' i' t') :
    c = c' ∧ i = i' ∧ t = t' := by
  have h' : 64 * (2 * i.val + c.val) + t.val = 64 * (2 * i'.val + c'.val) + t'.val := congrArg Fin.val h
  have := c.isLt; have := c'.isLt; have := t.isLt; have := t'.isLt
  refine ⟨Fin.ext ?_, Fin.ext ?_, Fin.ext ?_⟩ <;> omega

/-- The place of unit `u`. -/
def placeOf (u : Fin 2048) : Fin 2 × Fin 16 × Fin 64 :=
  (⟨(u.val / 64) % 2, Nat.mod_lt _ (by decide)⟩, ⟨u.val / 128, by have := u.isLt; omega⟩, ⟨u.val % 64, Nat.mod_lt _ (by decide)⟩)

theorem unitAt_placeOf (u : Fin 2048) : unitAt (placeOf u).1 (placeOf u).2.1 (placeOf u).2.2 = u := by
  refine Fin.ext ?_
  show 64 * (2 * (u.val / 128) + (u.val / 64) % 2) + u.val % 64 = u.val
  omega

theorem mem_winSet {j : YS.Idx} {u : Fin 2048} : j ∈ winSet u ↔ unitOf j = u := by
  unfold winSet; rw [Finset.mem_filter]; exact and_iff_right (Finset.mem_univ j)

/-- The window of the place `p = (c, i, t)`. -/
abbrev winAt (p : Fin 2 × Fin 16 × Fin 64) : Finset YS.Idx := winSet (unitAt p.1 p.2.1 p.2.2)

/-- Two places' windows share no entry: an entry's unit names its place. -/
theorem wins_disjoint : ∀ p ∈ (Finset.univ : Finset (Fin 2 × Fin 16 × Fin 64)), ∀ p' ∈ (Finset.univ : Finset (Fin 2 × Fin 16 × Fin 64)),
    p ≠ p' → Disjoint (winAt p) (winAt p') := by
  intro p _ p' _ hne
  refine Finset.disjoint_left.mpr fun j hj hj' => hne ?_
  have e : unitAt p.1 p.2.1 p.2.2 = unitAt p'.1 p'.2.1 p'.2.2 := (mem_winSet.mp hj).symm.trans (mem_winSet.mp hj')
  obtain ⟨h1, h2, h3⟩ := unitAt_inj e
  exact Prod.ext h1 (Prod.ext h2 h3)

/-- Every entry lies in the window of its unit's place. -/
theorem wins_cover : (Finset.univ : Finset (Fin 2 × Fin 16 × Fin 64)).biUnion winAt = Finset.univ := by
  refine Finset.eq_univ_iff_forall.mpr fun j => ?_
  have hj : j ∈ winAt (placeOf (unitOf j)) := mem_winSet.mpr (unitAt_placeOf (unitOf j)).symm
  rw [Finset.mem_biUnion]
  exact ⟨placeOf (unitOf j), Finset.mem_univ _, hj⟩

/-- The result whole is its windows, SparseCore by SparseCore, subcore by subcore, unit by unit. -/
theorem y_windows (d : Dev nD) (f : Buf (Elt F) (yLoc d)) :
    (yLoc d ↦{fullShare} f : sProp 𝕄) = bigSep Finset.univ fun c : Fin 2 => yCore d c f := by
  have h : (yLoc d ↦{fullShare} f : sProp 𝕄) = bigSep Finset.univ fun p : Fin 2 × Fin 16 × Fin 64 => yLoc d ↦[winAt p]{fullShare} f := by
    rw [← pointsTo_biUnion Finset.univ (ℓ := yLoc d) winAt wins_disjoint, wins_cover]
  rw [h, bigSep_univ_prod]
  refine bigSep_congr fun c _ => ?_
  rw [bigSep_univ_prod]

/-! ## What the handshakes carry, spelt out -/

theorem P_st (d : Dev nD) (c : Fin ((K (F := F)).nCore 0)) :
    (P m).st 0 d c = iprop(xCore m d (Fin.cast nCore_zero c) ∗ yCore d (Fin.cast nCore_zero c) (m (yLoc d))) := rfl
theorem P_dn (d : Dev nD) (c : Fin ((K (F := F)).nCore 0)) :
    (P m).dn 0 d c = iprop(xCore m d (Fin.cast nCore_zero c) ∗ yCore d (Fin.cast nCore_zero c) (Gy m d)) := rfl
theorem P_go (d : Dev nD) (c : Fin ((K (F := F)).nCore 0)) (i : Fin ((K (F := F)).nSub 0)) :
    (P m).go 0 d c i = iprop(xTile m d (Fin.cast nCore_zero c) (Fin.cast nSub_zero i) ∗ yTile d (Fin.cast nCore_zero c) (Fin.cast nSub_zero i) (m (yLoc d))) := rfl
theorem P_td (d : Dev nD) (c : Fin ((K (F := F)).nCore 0)) (i : Fin ((K (F := F)).nSub 0)) :
    (P m).td 0 d c i = iprop(xTile m d (Fin.cast nCore_zero c) (Fin.cast nSub_zero i) ∗ yTile d (Fin.cast nCore_zero c) (Fin.cast nSub_zero i) (Gy m d)) := rfl

/-- The subcores of the call are the sixteen, the SparseCores the two. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- All the subcores' operands of SparseCore `c`: the sixteen read shares of the argument, and the SparseCore's windows. -/
theorem go_eq (d : Dev nD) (c : Fin ((K (F := F)).nCore 0)) (f : Buf (Elt F) (yLoc d)) :
    (bigSep Finset.univ fun i : Fin ((K (F := F)).nSub 0) =>
        iprop(xTile m d (Fin.cast nCore_zero c) (Fin.cast nSub_zero i) ∗ yTile d (Fin.cast nCore_zero c) (Fin.cast nSub_zero i) f))
      = iprop((bigSep Finset.univ fun i : Fin 16 => xTile m d (Fin.cast nCore_zero c) i) ∗ yCore d (Fin.cast nCore_zero c) f) := by
  rw [bigSep_tasks (F := F) (fun i => iprop(xTile m d (Fin.cast nCore_zero c) i ∗ yTile d (Fin.cast nCore_zero c) i f)), bigSep_sep']

/-- All the SparseCores' operands: the two read shares of the argument, and the result whole. -/
theorem st_eq (d : Dev nD) (f : Buf (Elt F) (yLoc d)) :
    (bigSep Finset.univ fun c : Fin ((K (F := F)).nCore 0) => iprop(xCore m d (Fin.cast nCore_zero c) ∗ yCore d (Fin.cast nCore_zero c) f))
      = iprop((bigSep Finset.univ fun c : Fin 2 => xCore m d c) ∗ yLoc d ↦{fullShare} f) := by
  rw [bigSep_cores (F := F) (fun c => iprop(xCore m d c ∗ yCore d c f)), bigSep_sep', y_windows]

/-! ## A SparseCore deals its operands to its subcores

Of its read share of the argument the SparseCore keeps a remainder for the length of the tasks and hands each subcore
one of sixteen read shares; its windows of the result are the subcores' windows, nothing to cut. The tasks over, the
remainder and the sixteen shares are the SparseCore's share again. -/

theorem vecSplit : (K (F := F)).VecSplit' (P m) 0 := by
  intro d c
  simp only [P_st, P_dn, P_go, P_td]
  rw [go_eq, go_eq]
  iintro ⟨Hx, Hy⟩
  ihave Hx' := (Transfers.pointsTo_toks_split (qC (Fin.cast nCore_zero c)) 16) $$ Hx
  icases Hx' with ⟨Hxr, Hxt⟩
  imodintro
  isplitl [Hxt Hy]
  · isplitl [Hxt]; · iexact Hxt
    iexact Hy
  iintro ⟨Hxt, Hy⟩
  isplitl [Hxr Hxt]
  · iapply (Transfers.pointsTo_toks_join (qC (Fin.cast nCore_zero c)) 16)
    isplitl [Hxr]; · iexact Hxr
    iexact Hxt
  · iexact Hy

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore

Before the call the argument's full share is cut into a remainder, which @main keeps across the call, and the two
SparseCores' read shares; the result goes out whole, which is all its windows. After the call the shares are joined
to the full share again, and the windows, each now at the rearrangement, are the result whole at the rearrangement. -/

theorem unscopedBufs_eq (d : Dev nD) (W : (b : Ref sig .tc) → Buf (Elt F) ((d.tc : Thread nD τ).loc b)) :
    (unscopedBufs d W : sProp 𝕄) = iprop((xLoc d ↦{fullShare} W main_arg0) ∗ yLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c)
    = iprop((bigSep Finset.univ fun c : Fin 2 => xCore m d c) ∗ yLoc d ↦{fullShare} m (yLoc d)) := by
  simp only [P_st]; exact st_eq m d _
theorem dn0_eq (d : Dev nD) : (bigSep Finset.univ fun c : Fin ((K (F := F)).nCore 0) => (P m).dn 0 d c)
    = iprop((bigSep Finset.univ fun c : Fin 2 => xCore m d c) ∗ yLoc d ↦{fullShare} Gy m d) := by
  simp only [P_dn]; exact st_eq m d _

/-- What @main leaves the claim: the argument at its launch contents, the result at the rearrangement. -/
abbrev FIN (d : Dev nD) : sProp 𝕄 := iprop((xLoc d ↦{fullShare} m (xLoc d)) ∗ yLoc d ↦{fullShare} Gy m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hy⟩, -, -⟩, -⟩
  ihave Hx' := (Transfers.pointsTo_toks_split fullShare 2) $$ Hx
  icases Hx' with ⟨Hxr, Hxt⟩
  iapply ((K (F := F)).wp_run (D (F := F)) 𝒱 (EH := EH) (P := P m) κ d 0) $$ [Hst Hxt Hy Hxr]
  isplitr; · iexact Hctx
  isplitl [Hst]; · iexact Hst
  isplitl [Hxt Hy]
  · rw [st0_eq]
    isplitl [Hxt]; · iexact Hxt
    iexact Hy
  iintro ⟨Hst, Hdn⟩
  ihave Hdn' := (Entails.of_eq (dn0_eq m d)) $$ Hdn
  icases Hdn' with ⟨Hxt, Hy⟩
  imodintro
  isplitl [Hst]; · iexact Hst
  isplitl [Hxr Hxt]
  · iapply (Transfers.pointsTo_toks_join fullShare 2)
    isplitl [Hxr]; · iexact Hxr
    iexact Hxt
  · iexact Hy

/-! ## The final memory reads the claim -/

def fq (d : Dev nD) (s' : Phys nD τ sig (Elt F)) : Prop := s'.mem.mem (yLoc d) = Gy m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hy⟩, HSI⟩
  ihave H := (persistent_entails_right (SI_pointsTo_agree (st := s') (ℓ := yLoc d) (I := Finset.univ) (q := fullShare) (f := Gy m d))) $$ [HSI Hy]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (yLoc c) = Gy m c ∧ r.2.mem (xLoc c) = m (xLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefValue.lean ====
/-
  The reference's side: what its three host operations leave in its result, read at an index.

  The reference regroups the argument x over [2, 32, 64, 64, 64] in three steps, none of which computes anything:

    1. a reshape to the eight axes [2, 32, 32, 2, 32, 2, 32, 2]: each spatial coordinate s < 64 is split into the
       pair (s / 2, s % 2), so the entry at (b, c, h, p, w, q, z, r) is x at (b, c, 2·h + p, 2·w + q, 2·z + r);
    2. a transposition to [2, 32, 2, 2, 2, 32, 32, 32] that moves the three parities in front of the three halved
       coordinates: the entry at (b, c, p, q, r, h, w, z) is the first step's entry at (b, c, h, p, w, q, z, r);
    3. a reshape to the five axes [2, 256, 32, 32, 32] that merges (c, p, q, r) into the one channel
       ch = 8·c + 4·p + 2·q + r: the entry at (b, ch, h, w, z) is the second step's entry at
       (b, ch / 8, ch % 8 / 4, ch % 4 / 2, ch % 2, h, w, z).

  A reshape keeps the row-major position of an entry, so each of the two reshapes is read at an index by exhibiting
  the operand's index and checking that the two row-major positions are one number; the transposition is read by
  permuting the coordinates. Composed, the result at (b, ch, h, w, z) is x at
  (b, ch / 8, 2·h + ch % 8 / 4, 2·w + ch % 4 / 2, 2·z + ch % 2): the specification's `G x` (`ref_eq`), and so the
  reference's run ends with its result buffer at `G` of its argument, the argument unchanged (`ref_run`).
-/
import proofs.«209385_g40939628265708_retrytranche2_1889_20_alg».proof.Proof.Gen.ReferenceIdeal.Run
import proofs.«209385_g40939628265708_retrytranche2_1889_20_alg».proof.Proof.Spec
import Idealize.ShloMosaic.Lib.Pipeline.Value

noncomputable section

namespace Cert.Proof.RefValue

open Cert.ReferenceIdeal Cert.ReferenceIdeal.Gen
open Idealize.ShloMosaic Idealize.ShloMosaic.TcCoe Idealize.SL.Sem Idealize.ShloMosaic.ValueIdx
open Cert.Proof.Spec

/-! ## Row-major positions at rank 8 -/

/-- Rank 8: the row-major position as one sum of products (Horner's form in the extents). -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## The two intermediate indices -/

/-- The entry of the transposed array (axes b, c, p, q, r, h, w, z) that the last reshape reads for the result's
    entry (b, ch, h, w, z): the channel ch = 8·c + 4·p + 2·q + r is split into c = ch / 8 and its three low bits
    p = ch % 8 / 4, q = ch % 4 / 2, r = ch % 2. -/
abbrev mid (b : Fin 2) (ch : Fin 256) (h w z : Fin 32) : S2x32x2x2x2x32x32x32.Idx := fun a => match a with
  | ⟨0, _⟩ => b
  | ⟨1, _⟩ => (⟨ch.val / 8, by omega⟩ : Fin 32)
  | ⟨2, _⟩ => (⟨ch.val % 8 / 4, by omega⟩ : Fin 2)
  | ⟨3, _⟩ => (⟨ch.val % 4 / 2, by omega⟩ : Fin 2)
  | ⟨4, _⟩ => (⟨ch.val % 2, by omega⟩ : Fin 2)
  | ⟨5, _⟩ => h
  | ⟨6, _⟩ => w
  | ⟨7, _⟩ => z

/-- The entry of the first reshape's array (axes b, c, h, p, w, q, z, r) that the transposition reads for the entry
    `mid b ch h w z`: each parity goes back behind its halved coordinate. -/
abbrev fst (b : Fin 2) (ch : Fin 256) (h w z : Fin 32) : S2x32x32x2x32x2x32x2.Idx := fun a => match a with
  | ⟨0, _⟩ => b
  | ⟨1, _⟩ => (⟨ch.val / 8, by omega⟩ : Fin 32)
  | ⟨2, _⟩ => h
  | ⟨3, _⟩ => (⟨ch.val % 8 / 4, by omega⟩ : Fin 2)
  | ⟨4, _⟩ => w
  | ⟨5, _⟩ => (⟨ch.val % 4 / 2, by omega⟩ : Fin 2)
  | ⟨6, _⟩ => z
  | ⟨7, _⟩ => (⟨ch.val % 2, by omega⟩ : Fin 2)

/-! ## The three steps read at an index, for entries of any type -/

section Steps

variable {α : Type}

/-- Step 3 (the reshape that merges c, p, q, r into the channel): the result at (b, ch, h, w, z) is the transposed
    array at `mid b ch h w z`. Both row-major positions are (((b·256 + ch)·32 + h)·32 + w)·32 + z, since
    ch = 8·(ch / 8) + 4·(ch % 8 / 4) + 2·(ch % 4 / 2) + ch % 2. -/
theorem v2_apply (y : S2x32x2x2x2x32x32x32.Idx → α) (b : Fin 2) (ch : Fin 256) (h w z : Fin 32) :
    shapeCast S2x256x32x32x32 y shapeCasts_S2x32x2x2x2x32x32x32_S2x256x32x32x32 (ix5 b ch h w z)
      = y (mid b ch h w z) := by
  refine shapeCast_apply y _ (ix5 b ch h w z) (mid b ch h w z) ?_
  rw [rowMajor_val_eight, Shape.rowMajor_val_five]
  show ((((((b.val * 32 + ch.val / 8) * 2 + ch.val % 8 / 4) * 2 + ch.val % 4 / 2) * 2 + ch.val % 2) * 32 + h.val) * 32
      + w.val) * 32 + z.val = (((b.val * 256 + ch.val) * 32 + h.val) * 32 + w.val) * 32 + z.val
  omega

/-- Step 2 (the transposition): result axis k is operand axis [0, 1, 3, 5, 7, 2, 4, 6][k], so the entry at
    `mid b ch h w z` = (b, c, p, q, r, h, w, z) is the operand's entry at `fst b ch h w z` = (b, c, h, p, w, q, z, r). -/
theorem v1_apply (y : S2x32x32x2x32x2x32x2.Idx → α) (b : Fin 2) (ch : Fin 256) (h w z : Fin 32) :
    transpose S2x32x2x2x2x32x32x32 [0, 1, 3, 5, 7, 2, 4, 6] y
        transposes_S2x32x32x2x32x2x32x2_S2x32x2x2x2x32x32x32_0_1_3_5_7_2_4_6 (mid b ch h w z)
      = y (fst b ch h w z) :=
  transpose_apply [0, 1, 3, 5, 7, 2, 4, 6] y transposes_S2x32x32x2x32x2x32x2_S2x32x2x2x2x32x32x32_0_1_3_5_7_2_4_6
    (mid b ch h w z) (fst b ch h w z) (fun a => match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl)

/-- Step 1 (the reshape that splits each spatial coordinate into half and parity): the first array at
    `fst b ch h w z` is the argument at the specification's source coordinates. Both row-major positions are
    (((b·32 + c)·64 + (2·h + p))·64 + (2·w + q))·64 + (2·z + r). -/
theorem v0_apply (x : S2x32x64x64x64.Idx → α) (b : Fin 2) (ch : Fin 256) (h w z : Fin 32) :
    shapeCast S2x32x32x2x32x2x32x2 x shapeCasts_S2x32x64x64x64_S2x32x32x2x32x2x32x2 (fst b ch h w z)
      = x (srcCoords b ch h w z) := by
  refine shapeCast_apply x _ (fst b ch h w z) (srcCoords b ch h w z) ?_
  rw [rowMajor_val_eight, Shape.rowMajor_val_five]
  show (((b.val * 32 + ch.val / 8) * 64 + (2 * h.val + ch.val % 8 / 4)) * 64 + (2 * w.val + ch.val % 4 / 2)) * 64
      + (2 * z.val + ch.val % 2)
    = ((((((b.val * 32 + ch.val / 8) * 32 + h.val) * 2 + ch.val % 8 / 4) * 32 + w.val) * 2 + ch.val % 4 / 2) * 32
      + z.val) * 2 + ch.val % 2
  omega

end Steps

/-! ## The reference's result -/

variable {F : FTy → Type} [FloatOps F]

/-- The reference's result is the specification's rearrangement of its argument: at (b, ch, h, w, z) the last
    reshape reads the transposed array at (b, ch / 8, ch % 8 / 4, ch % 4 / 2, ch % 2, h, w, z), the transposition
    reads the first array at (b, ch / 8, h, ch % 8 / 4, w, ch % 4 / 2, z, ch % 2), and the first reshape reads the
    argument at (b, ch / 8, 2·h + ch % 8 / 4, 2·w + ch % 4 / 2, 2·z + ch % 2). -/
theorem ref_eq (x0 : (⟨S2x32x64x64x64, .f32⟩ : BufTy).Contents (Elt F)) :
    shapeCast _ (transpose S2x32x2x2x2x32x32x32 [0, 1, 3, 5, 7, 2, 4, 6] (shapeCast _ (x0) shapeCasts_S2x32x64x64x64_S2x32x32x2x32x2x32x2) transposes_S2x32x32x2x32x2x32x2_S2x32x2x2x2x32x32x32_0_1_3_5_7_2_4_6) shapeCasts_S2x32x2x2x2x32x32x32_S2x256x32x32x32
      = G x0 := by
  funext i
  obtain ⟨b, ch, h, w, z, rfl⟩ : ∃ b ch h w z, i = ix5 b ch h w z := ⟨_, _, _, _, _, eq_ix5 i⟩
  exact (v2_apply _ b ch h w z).trans ((v1_apply _ b ch h w z).trans (v0_apply _ b ch h w z))

/-- On every device, from any memory with zero counters, every weakly fair execution of the reference terminates
    with its result buffer at the specification's rearrangement `G` of its argument's launch contents, and the
    argument unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (ref_eq _), (h c).2⟩)
    (Cert.ReferenceIdeal.Value.run (F := F) m ρ)

end Cert.Proof.RefValue

end
-- ==== Proof.Claims.lean ====
/-
  The certificate's claims, from the runs of the three programs.

  The kernel's run (the same theorem at either instance) ends with the result at the rearrangement `G` of the
  argument's launch contents and the argument unchanged; the reference's run ends with its result at `G` of its own
  argument and that argument unchanged. A frame is a run with the result's value dropped. For the value claim the two
  programs start from memories that agree on the argument, so the two results are `G` of one array: the witness is
  the kernel's `G` of the argument, device by device.
-/
import proofs.«209385_g40939628265708_retrytranche2_1889_20_alg».proof.Defs
import proofs.«209385_g40939628265708_retrytranche2_1889_20_alg».proof.Proof.Gen.Kernel
import proofs.«209385_g40939628265708_retrytranche2_1889_20_alg».proof.Proof.Gen.KernelIdeal
import proofs.«209385_g40939628265708_retrytranche2_1889_20_alg».proof.Proof.Gen.ReferenceIdeal
import proofs.«209385_g40939628265708_retrytranche2_1889_20_alg».proof.Proof.Gen.Pre_finite_inputs
import proofs.«209385_g40939628265708_retrytranche2_1889_20_alg».proof.Proof.Launch
import proofs.«209385_g40939628265708_retrytranche2_1889_20_alg».proof.Proof.LaunchK
import proofs.«209385_g40939628265708_retrytranche2_1889_20_alg».proof.Proof.RefValue

noncomputable section

namespace Cert.Proof.Claims

open Idealize.ShloMosaic Idealize.SL.Sem

/-- The program as printed runs and leaves its argument unchanged: its run, the result's value dropped. -/
theorem frame_Kernel : Cert.frame_Kernel := fun m ρ _ =>
  (θ_run Cert.Kernel.defs _ _).mono (fun _ h c => (h c).2) (Cert.Proof.KB.run_main (F := Bits) m ρ)

/-- The same at the exact instance. -/
theorem frame_KernelIdeal : Cert.frame_KernelIdeal := fun m ρ _ =>
  (θ_run Cert.KernelIdeal.defs _ _).mono (fun _ h c => (h c).2) (Cert.Proof.KI.run_main (F := Ideal) m ρ)

/-- The reference runs and leaves its argument unchanged. -/
theorem frame_ReferenceIdeal : Cert.frame_ReferenceIdeal := fun m ρ _ =>
  (θ_run Cert.ReferenceIdeal.defs _ _).mono (fun _ h c => (h c).2) (Cert.Proof.RefValue.ref_run (F := Ideal) m ρ)

/-- From memories that agree on the argument the kernel and the reference both end with the rearrangement of that
    argument in their results, and with their arguments unchanged. -/
theorem algebraic : Cert.algebraic_KernelIdeal_ReferenceIdeal := by
  intro m ρ m' ρ' _ hagree
  refine ⟨fun c => Cert.Proof.KI.Gy m c, Cert.Proof.KI.run_main (F := Ideal) m ρ, ?_⟩
  refine (θ_run Cert.ReferenceIdeal.defs _ _).mono (fun _ h c => ⟨(h c).1.trans ?_, (h c).2⟩)
    (Cert.Proof.RefValue.ref_run (F := Ideal) m' ρ')
  exact congrArg Cert.Proof.Spec.G (hagree c)

end Cert.Proof.Claims

end
-- ==== Proof.lean ====
/-
  A three-dimensional space-to-depth rearrangement with factor 2, on the SparseCores.

  The argument x is an array over [2, 32, 64, 64, 64], the result y an array over [2, 256, 32, 32, 32], and
  y[b, 8·c + 4·p + 2·q + r, h, w, z] = x[b, c, 2·h + p, 2·w + q, 2·z + r]: nothing is computed, every entry of the
  result is one entry of the argument (Proof/Spec.lean: the index map and the function `G`). The reference obtains
  it by a reshape, a transposition and a reshape; the kernel by 2 × 16 vector subcores, each of which moves 64 units,
  a unit being the two argument rows x[b, c, 2h .. 2h+1, :, :] read and the eight result planes
  y[b, 8c .. 8c+7, h, :, :] written.

  How the proof is cut:
    * Proof/RefValue.lean reads the reference's three steps at an index: its result is `G` of its argument.
    * Proof/Iface.lean fixes what the parts of the kernel's proof share: the 2048 windows of the result (the fibres
      of the map from an entry to its unit), the read shares of the argument, and what each handshake carries.
    * One vector subcore's task — from its read share of the argument and its 64 windows to the windows at `G` of
      the argument — is proved once at a symbolic subcore. Proof/Offsets.lean gives the closed forms of the offsets
      the body computes (which unit, which rows, which window). Proof/ComputeLib.lean and Proof/Compute2.lean …
      Proof/Compute11.lean prove the ten compute loops: after its 64 trips a slot of the output ring holds the
      rearrangement of the two argument rows in the slot of the input ring it read. Proof/Windows.lean and
      Proof/Values.lean read a unit's two windows at an index: the destination window's entries are the unit's
      fibre, and copying a finished output slot there leaves the specification's entries. Proof/Slots.lean cuts
      the two scratch rings into their slots. Proof/BodyOuter.lean is the task itself: the two rings of transfers
      around the compute loops, by an invariant over groups of six units.
    * Proof/Launch.lean goes from that task to the run of all the threads: the argument's share is cut per
      SparseCore and per subcore, the result is cut into its windows, and both are joined back after the call; the
      run ends with the result at `G` of the argument and the argument unchanged.
    * The program as printed and the program read at the exact instance are one text, so each of these modules is
      written once for any float instance, and once more over the other program's names (the modules whose names end in K).
    * Proof/Claims.lean states the five claims from the three runs: a frame is a run with the value dropped; the
      value claim holds because both results are `G` of arguments that agree.
-/
import proofs.«209385_g40939628265708_retrytranche2_1889_20_alg».proof.Defs
import proofs.«209385_g40939628265708_retrytranche2_1889_20_alg».proof.Proof.Gen.Kernel
import proofs.«209385_g40939628265708_retrytranche2_1889_20_alg».proof.Proof.Gen.Kernel.Skeleton
import proofs.«209385_g40939628265708_retrytranche2_1889_20_alg».proof.Proof.Gen.KernelIdeal
import proofs.«209385_g40939628265708_retrytranche2_1889_20_alg».proof.Proof.Gen.KernelIdeal.Skeleton
import proofs.«209385_g40939628265708_retrytranche2_1889_20_alg».proof.Proof.Gen.ReferenceIdeal
import proofs.«209385_g40939628265708_retrytranche2_1889_20_alg».proof.Proof.Gen.Pre_finite_inputs
import proofs.«209385_g40939628265708_retrytranche2_1889_20_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_Kernel, Claims.frame_KernelIdeal, Claims.frame_ReferenceIdeal, trivial, Claims.algebraic⟩

end Cert.Proof

end
